-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x512x32x32 : Shape := ⟨4, ![1, 512, 32, 32]⟩
abbrev S128x5 : Shape := ⟨2, ![128, 5]⟩
abbrev S25088x4096 : Shape := ⟨2, ![25088, 4096]⟩
abbrev S4096 : Shape := ⟨1, ![4096]⟩
abbrev S4096x4096 : Shape := ⟨2, ![4096, 4096]⟩
abbrev S4096x21 : Shape := ⟨2, ![4096, 21]⟩
abbrev S21 : Shape := ⟨1, ![21]⟩
abbrev S4096x84 : Shape := ⟨2, ![4096, 84]⟩
abbrev S84 : Shape := ⟨1, ![84]⟩
abbrev S_ : Shape := ⟨0, ![]⟩

class Facts : Prop where
  bcast_S_S1x512x32x32 : S_.BroadcastsInDim S1x512x32x32 (![] : Fin 0 → Fin S1x512x32x32.rank)
  reducesTo_S1x512x32x32_S_d0_1_2_3 : S1x512x32x32.ReducesTo [0, 1, 2, 3] S_
  h_S_ : 0 < S_.numel
  bcast_S_S128x5 : S_.BroadcastsInDim S128x5 (![] : Fin 0 → Fin S128x5.rank)
  reducesTo_S128x5_S_d0_1 : S128x5.ReducesTo [0, 1] S_
  bcast_S_S25088x4096 : S_.BroadcastsInDim S25088x4096 (![] : Fin 0 → Fin S25088x4096.rank)
  reducesTo_S25088x4096_S_d0_1 : S25088x4096.ReducesTo [0, 1] S_
  bcast_S_S4096 : S_.BroadcastsInDim S4096 (![] : Fin 0 → Fin S4096.rank)
  reducesTo_S4096_S_d0 : S4096.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096x21 : S_.BroadcastsInDim S4096x21 (![] : Fin 0 → Fin S4096x21.rank)
  reducesTo_S4096x21_S_d0_1 : S4096x21.ReducesTo [0, 1] S_
  bcast_S_S21 : S_.BroadcastsInDim S21 (![] : Fin 0 → Fin S21.rank)
  reducesTo_S21_S_d0 : S21.ReducesTo [0] S_
  bcast_S_S4096x84 : S_.BroadcastsInDim S4096x84 (![] : Fin 0 → Fin S4096x84.rank)
  reducesTo_S4096x84_S_d0_1 : S4096x84.ReducesTo [0, 1] S_
  bcast_S_S84 : S_.BroadcastsInDim S84 (![] : Fin 0 → Fin S84.rank)
  reducesTo_S84_S_d0 : S84.ReducesTo [0] S_

variable [Facts]

def fn_part2 {F : FTy → Type} [FloatOps F] (main_arg7 : FVec F S21 .f32) (main_arg8 : FVec F S4096x84 .f32) (main_arg9 : FVec F S84 .f32) (main_v33 : IVec S_ 1) : IVec S_ 1 :=
  let main_v34 : FVec F S21 .f32 := Host.absf main_arg7
  let main_cst_12 : FVec F S_ .f32 := constant S_ .f32 0x7F800000#32
  let main_v35 : FVec F S21 .f32 := broadcastInDim S21 ![] bcast_S_S21 main_cst_12
  let main_v36 : IVec S21 1 := cmpf .olt main_v34 main_v35
  let main_c_13 : IVec S_ 1 := constantI S_ 1 1#1
  let main_v37 : IVec S_ 1 := (fun x v => Host.reduce IntOp.andi x v reducesTo_S21_S_d0 h_S_) main_v36 main_c_13
  let main_v38 : IVec S_ 1 := andi main_v33 main_v37
  let main_v39 : FVec F S4096x84 .f32 := Host.absf main_arg8
  let main_cst_14 : FVec F S_ .f32 := constant S_ .f32 0x7F800000#32
  let main_v40 : FVec F S4096x84 .f32 := broadcastInDim S4096x84 ![] bcast_S_S4096x84 main_cst_14
  let main_v41 : IVec S4096x84 1 := cmpf .olt main_v39 main_v40
  let main_c_15 : IVec S_ 1 := constantI S_ 1 1#1
  let main_v42 : IVec S_ 1 := (fun x v => Host.reduce IntOp.andi x v reducesTo_S4096x84_S_d0_1 h_S_) main_v41 main_c_15
  let main_v43 : IVec S_ 1 := andi main_v38 main_v42
  let main_v44 : FVec F S84 .f32 := Host.absf main_arg9
  let main_cst_16 : FVec F S_ .f32 := constant S_ .f32 0x7F800000#32
  let main_v45 : FVec F S84 .f32 := broadcastInDim S84 ![] bcast_S_S84 main_cst_16
  let main_v46 : IVec S84 1 := cmpf .olt main_v44 main_v45
  let main_c_17 : IVec S_ 1 := constantI S_ 1 1#1
  let main_v47 : IVec S_ 1 := (fun x v => Host.reduce IntOp.andi x v reducesTo_S84_S_d0 h_S_) main_v46 main_c_17
  let main_v48 : IVec S_ 1 := andi main_v43 main_v47
  main_v48

def fn_part1 {F : FTy → Type} [FloatOps F] (main_arg4 : FVec F S4096x4096 .f32) (main_arg5 : FVec F S4096 .f32) (main_arg6 : FVec F S4096x21 .f32) (main_arg7 : FVec F S21 .f32) (main_arg8 : FVec F S4096x84 .f32) (main_arg9 : FVec F S84 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096x21 .f32 := Host.absf main_arg6
  let main_cst_10 : FVec F S_ .f32 := constant S_ .f32 0x7F800000#32
  let main_v30 : FVec F S4096x21 .f32 := broadcastInDim S4096x21 ![] bcast_S_S4096x21 main_cst_10
  let main_v31 : IVec S4096x21 1 := cmpf .olt main_v29 main_v30
  let main_c_11 : IVec S_ 1 := constantI S_ 1 1#1
  let main_v32 : IVec S_ 1 := (fun x v => Host.reduce IntOp.andi x v reducesTo_S4096x21_S_d0_1 h_S_) main_v31 main_c_11
  let main_v33 : IVec S_ 1 := andi main_v28 main_v32
  fn_part2 (F := F) main_arg7 main_arg8 main_arg9 main_v33

def fn {F : FTy → Type} [FloatOps F] (main_arg0 : FVec F S1x512x32x32 .f32) (main_arg1 : FVec F S128x5 .f32) (main_arg2 : FVec F S25088x4096 .f32) (main_arg3 : FVec F S4096 .f32) (main_arg4 : FVec F S4096x4096 .f32) (main_arg5 : FVec F S4096 .f32) (main_arg6 : FVec F S4096x21 .f32) (main_arg7 : FVec F S21 .f32) (main_arg8 : FVec F S4096x84 .f32) (main_arg9 : FVec F S84 .f32) : IVec S_ 1 :=
  let main_v0 : FVec F S1x512x32x32 .f32 := Host.absf main_arg0
  let main_cst : FVec F S_ .f32 := constant S_ .f32 0x7F800000#32
  let main_v1 : FVec F S1x512x32x32 .f32 := broadcastInDim S1x512x32x32 ![] bcast_S_S1x512x32x32 main_cst
  let main_v2 : IVec S1x512x32x32 1 := cmpf .olt main_v0 main_v1
  let main_c : IVec S_ 1 := constantI S_ 1 1#1
  let main_v3 : IVec S_ 1 := (fun x v => Host.reduce IntOp.andi x v reducesTo_S1x512x32x32_S_d0_1_2_3 h_S_) main_v2 main_c
  let main_v4 : FVec F S128x5 .f32 := Host.absf main_arg1
  let main_cst_0 : FVec F S_ .f32 := constant S_ .f32 0x7F800000#32
  let main_v5 : FVec F S128x5 .f32 := broadcastInDim S128x5 ![] bcast_S_S128x5 main_cst_0
  let main_v6 : IVec S128x5 1 := cmpf .olt main_v4 main_v5
  let main_c_1 : IVec S_ 1 := constantI S_ 1 1#1
  let main_v7 : IVec S_ 1 := (fun x v => Host.reduce IntOp.andi x v reducesTo_S128x5_S_d0_1 h_S_) main_v6 main_c_1
  let main_v8 : IVec S_ 1 := andi main_v3 main_v7
  let main_v9 : FVec F S25088x4096 .f32 := Host.absf main_arg2
  let main_cst_2 : FVec F S_ .f32 := constant S_ .f32 0x7F800000#32
  let main_v10 : FVec F S25088x4096 .f32 := broadcastInDim S25088x4096 ![] bcast_S_S25088x4096 main_cst_2
  let main_v11 : IVec S25088x4096 1 := cmpf .olt main_v9 main_v10
  let main_c_3 : IVec S_ 1 := constantI S_ 1 1#1
  let main_v12 : IVec S_ 1 := (fun x v => Host.reduce IntOp.andi x v reducesTo_S25088x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg4 main_arg5 main_arg6 main_arg7 main_arg8 main_arg9 main_v13 main_v16
-- ==== Kernel.lean ====
abbrev S1x512x32x32 : Shape := ⟨4, ![1, 512, 32, 32]⟩
abbrev S128x5 : Shape := ⟨2, ![128, 5]⟩
abbrev S25088x4096 : Shape := ⟨2, ![25088, 4096]⟩
abbrev S4096 : Shape := ⟨1, ![4096]⟩
abbrev S4096x4096 : Shape := ⟨2, ![4096, 4096]⟩
abbrev S4096x21 : Shape := ⟨2, ![4096, 21]⟩
abbrev S21 : Shape := ⟨1, ![21]⟩
abbrev S4096x84 : Shape := ⟨2, ![4096, 84]⟩
abbrev S84 : Shape := ⟨1, ![84]⟩
abbrev S512x32x32 : Shape := ⟨3, ![512, 32, 32]⟩
abbrev S128x4 : Shape := ⟨2, ![128, 4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S128x7x1 : Shape := ⟨3, ![128, 7, 1]⟩
abbrev S5 : Shape := ⟨1, ![5]⟩
abbrev S1x1x5 : Shape := ⟨3, ![1, 1, 5]⟩
abbrev S128x7x5 : Shape := ⟨3, ![128, 7, 5]⟩
abbrev S128x7x5x1 : Shape := ⟨4, ![128, 7, 5, 1]⟩
abbrev S512x128x7x5x32 : Shape := ⟨5, ![512, 128, 7, 5, 32]⟩
abbrev S1x128x7x5x1 : Shape := ⟨5, ![1, 128, 7, 5, 1]⟩
abbrev S512x128x7x32 : Shape := ⟨4, ![512, 128, 7, 32]⟩
abbrev S128x512x7x32 : Shape := ⟨4, ![128, 512, 7, 32]⟩
abbrev S128x512x7x7x5 : Shape := ⟨5, ![128, 512, 7, 7, 5]⟩
abbrev S128x1x1x7x5 : Shape := ⟨5, ![128, 1, 1, 7, 5]⟩
abbrev S128x512x7x7 : Shape := ⟨4, ![128, 512, 7, 7]⟩
abbrev S128x25088 : Shape := ⟨2, ![128, 25088]⟩
abbrev S1x4096 : Shape := ⟨2, ![1, 4096]⟩
abbrev S128x4096 : Shape := ⟨2, ![128, 4096]⟩
abbrev S3584x1024 : Shape := ⟨2, ![3584, 1024]⟩
abbrev S1x1024 : Shape := ⟨2, ![1, 1024]⟩
abbrev S128x1024 : Shape := ⟨2, ![128, 1024]⟩
abbrev S128x3584 : Shape := ⟨2, ![128, 3584]⟩
abbrev S2048x512 : Shape := ⟨2, ![2048, 512]⟩
abbrev S1x512 : Shape := ⟨2, ![1, 512]⟩
abbrev S128x512 : Shape := ⟨2, ![128, 512]⟩
abbrev S128x2048 : Shape := ⟨2, ![128, 2048]⟩
abbrev S4096x105 : Shape := ⟨2, ![4096, 105]⟩
abbrev S4096x128 : Shape := ⟨2, ![4096, 128]⟩
abbrev S105 : Shape := ⟨1, ![105]⟩
abbrev S1x128 : Shape := ⟨2, ![1, 128]⟩
abbrev S128x128 : Shape := ⟨2, ![128, 128]⟩
abbrev S2048x128 : Shape := ⟨2, ![2048, 128]⟩
abbrev S128x21 : Shape := ⟨2, ![128, 21]⟩
abbrev S128x84 : Shape := ⟨2, ![128, 84]⟩
abbrev S128x105 : Shape := ⟨2, ![128, 105]⟩

abbrev nBuf : Space → Nat
  | .hbm => 253
  | .vmem => 22
  | .smem => 0
  | _ => 0

abbrev hbmTy0_0 (i : Nat) : BufTy := match i % 128 with
  | 0 => ⟨S1x512x32x32, .f32⟩
  | 1 => ⟨S128x5, .f32⟩
  | 2 => ⟨S25088x4096, .f32⟩
  | 3 => ⟨S4096, .f32⟩
  | 4 => ⟨S4096x4096, .f32⟩
  | 5 => ⟨S4096, .f32⟩
  | 6 => ⟨S4096x21, .f32⟩
  | 7 => ⟨S21, .f32⟩
  | 8 => ⟨S4096x84, .f32⟩
  | 9 => ⟨S84, .f32⟩
  | 10 => ⟨S512x32x32, .f32⟩
  | 11 => ⟨S128x4, .f32⟩
  | 12 => ⟨S_, .f32⟩
  | 13 => ⟨S128x4, .f32⟩
  | 14 => ⟨S128x4, .f32⟩
  | 15 => ⟨S128x4, .f32⟩
  | 16 => ⟨S128x4, .i32⟩
  | 17 => ⟨S128x1, .i32⟩
  | 18 => ⟨S128, .i32⟩
  | 19 => ⟨S128x1, .i32⟩
  | 20 => ⟨S128, .i32⟩
  | 21 => ⟨S128x1, .i32⟩
  | 22 => ⟨S128, .i32⟩
  | 23 => ⟨S128x1, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S7, .i32⟩
  | 34 => ⟨S128x1, .i32⟩
  | 35 => ⟨S1x7, .i32⟩
  | 36 => ⟨S128x1, .i32⟩
  | 37 => ⟨S128x7, .i32⟩
  | 38 => ⟨S128x7, .i32⟩
  | 39 => ⟨S128x7, .i32⟩
  | 40 => ⟨S_, .i32⟩
  | 41 => ⟨S_, .i32⟩
  | 42 => ⟨S128x7, .i32⟩
  | 43 => ⟨S128x7, .i32⟩
  | 44 => ⟨S128x7, .i32⟩
  | 45 => ⟨S_, .i32⟩
  | 46 => ⟨S128x7, .i32⟩
  | 47 => ⟨S128x7, .i1⟩
  | 48 => ⟨S128x7, .i32⟩
  | 49 => ⟨S128x7, .i32⟩
  | 50 => ⟨S_, .i32⟩
  | 51 => ⟨S128x7, .i32⟩
  | 52 => ⟨S128x7, .i1⟩
  | 53 => ⟨S128x7, .i1⟩
  | 54 => ⟨S_, .i32⟩
  | 55 => ⟨S128x7, .i32⟩
  | 56 => ⟨S128x7, .i32⟩
  | 57 => ⟨S128x7, .i32⟩
  | 58 => ⟨S128x7, .i32⟩
  | 59 => ⟨S128x7, .i32⟩
  | 60 => ⟨S128x1, .i32⟩
  | 61 => ⟨S1x7, .i32⟩
  | 62 => ⟨S_, .i32⟩
  | 63 => ⟨S1x7, .i32⟩
  | 64 => ⟨S1x7, .i32⟩
  | 65 => ⟨S128x1, .i32⟩
  | 66 => ⟨S128x7, .i32⟩
  | 67 => ⟨S128x7, .i32⟩
  | 68 => ⟨S128x7, .i32⟩
  | 69 => ⟨S_, .i32⟩
  | 70 => ⟨S128x7, .i32⟩
  | 71 => ⟨S128x7, .i32⟩
  | 72 => ⟨S_, .i32⟩
  | 73 => ⟨S_, .i32⟩
  | 74 => ⟨S128x7, .i32⟩
  | 75 => ⟨S128x7, .i32⟩
  | 76 => ⟨S128x7, .i32⟩
  | 77 => ⟨S_, .i32⟩
  | 78 => ⟨S128x7, .i32⟩
  | 79 => ⟨S128x7, .i1⟩
  | 80 => ⟨S128x7, .i32⟩
  | 81 => ⟨S128x7, .i32⟩
  | 82 => ⟨S_, .i32⟩
  | 83 => ⟨S128x7, .i32⟩
  | 84 => ⟨S128x7, .i1⟩
  | 85 => ⟨S128x7, .i1⟩
  | 86 => ⟨S_, .i32⟩
  | 87 => ⟨S128x7, .i32⟩
  | 88 => ⟨S128x7, .i32⟩
  | 89 => ⟨S128x7, .i32⟩
  | 90 => ⟨S128x7, .i32⟩
  | 91 => ⟨S128x7, .i32⟩
  | 92 => ⟨S128x1, .i32⟩
  | 93 => ⟨S1x7, .i32⟩
  | 94 => ⟨S128x1, .i32⟩
  | 95 => ⟨S128x7, .i32⟩
  | 96 => ⟨S128x7, .i32⟩
  | 97 => ⟨S128x7, .i32⟩
  | 98 => ⟨S_, .i32⟩
  | 99 => ⟨S_, .i32⟩
  | 100 => ⟨S128x7, .i32⟩
  | 101 => ⟨S128x7, .i32⟩
  | 102 => ⟨S128x7, .i32⟩
  | 103 => ⟨S_, .i32⟩
  | 104 => ⟨S128x7, .i32⟩
  | 105 => ⟨S128x7, .i1⟩
  | 106 => ⟨S128x7, .i32⟩
  | 107 => ⟨S128x7, .i32⟩
  | 108 => ⟨S_, .i32⟩
  | 109 => ⟨S128x7, .i32⟩
  | 110 => ⟨S128x7, .i1⟩
  | 111 => ⟨S128x7, .i1⟩
  | 112 => ⟨S_, .i32⟩
  | 113 => ⟨S128x7, .i32⟩
  | 114 => ⟨S128x7, .i32⟩
  | 115 => ⟨S128x7, .i32⟩
  | 116 => ⟨S128x7, .i32⟩
  | 117 => ⟨S128x7, .i32⟩
  | 118 => ⟨S128x1, .i32⟩
  | 119 => ⟨S1x7, .i32⟩
  | 120 => ⟨S_, .i32⟩
  | 121 => ⟨S1x7, .i32⟩
  | 122 => ⟨S1x7, .i32⟩
  | 123 => ⟨S128x1, .i32⟩
  | 124 => ⟨S128x7, .i32⟩
  | 125 => ⟨S128x7, .i32⟩
  | 126 => ⟨S128x7, .i32⟩
  | 127 => ⟨S_, .i32⟩
  | _ => ⟨S1x512x32x32, .f32⟩

abbrev hbmTy0_1 (i : Nat) : BufTy := match i % 128 with
  | 0 => ⟨S128x7, .i32⟩
  | 1 => ⟨S128x7, .i32⟩
  | 2 => ⟨S_, .i32⟩
  | 3 => ⟨S_, .i32⟩
  | 4 => ⟨S128x7, .i32⟩
  | 5 => ⟨S128x7, .i32⟩
  | 6 => ⟨S128x7, .i32⟩
  | 7 => ⟨S_, .i32⟩
  | 8 => ⟨S128x7, .i32⟩
  | 9 => ⟨S128x7, .i1⟩
  | 10 => ⟨S128x7, .i32⟩
  | 11 => ⟨S128x7, .i32⟩
  | 12 => ⟨S_, .i32⟩
  | 13 => ⟨S128x7, .i32⟩
  | 14 => ⟨S128x7, .i1⟩
  | 15 => ⟨S128x7, .i1⟩
  | 16 => ⟨S_, .i32⟩
  | 17 => ⟨S128x7, .i32⟩
  | 18 => ⟨S128x7, .i32⟩
  | 19 => ⟨S128x7, .i32⟩
  | 20 => ⟨S128x7, .i32⟩
  | 21 => ⟨S128x7, .i32⟩
  | 22 => ⟨S128x7x1, .i32⟩
  | 23 => ⟨S5, .i32⟩
  | 24 => ⟨S1x1x5, .i32⟩
  | 25 => ⟨S128x7x5, .i32⟩
  | 26 => ⟨S128x7x5, .i32⟩
  | 27 => ⟨S128x7x5, .i32⟩
  | 28 => ⟨S128x7x1, .i32⟩
  | 29 => ⟨S128x7x5, .i32⟩
  | 30 => ⟨S128x7x5, .i1⟩
  | 31 => ⟨S_, .i32⟩
  | 32 => ⟨S_, .i32⟩
  | 33 => ⟨S_, .i32⟩
  | 34 => ⟨S128x7x5, .i32⟩
  | 35 => ⟨S128x7x5, .i32⟩
  | 36 => ⟨S_, .i32⟩
  | 37 => ⟨S128x7x5, .i32⟩
  | 38 => ⟨S128x7x5, .i32⟩
  | 39 => ⟨S_, .i32⟩
  | 40 => ⟨S128x7x5, .i32⟩
  | 41 => ⟨S128x7x5, .i1⟩
  | 42 => ⟨S_, .i32⟩
  | 43 => ⟨S128x7x5, .i32⟩
  | 44 => ⟨S128x7x5, .i32⟩
  | 45 => ⟨S128x7x5, .i32⟩
  | 46 => ⟨S128x7x5x1, .i32⟩
  | 47 => ⟨S512x128x7x5x32, .f32⟩
  | 48 => ⟨S1x128x7x5x1, .i1⟩
  | 49 => ⟨S_, .f32⟩
  | 50 => ⟨S512x128x7x5x32, .i1⟩
  | 51 => ⟨S512x128x7x5x32, .f32⟩
  | 52 => ⟨S512x128x7x5x32, .f32⟩
  | 53 => ⟨S_, .f32⟩
  | 54 => ⟨S512x128x7x32, .f32⟩
  | 55 => ⟨S128x512x7x32, .f32⟩
  | 56 => ⟨S128x7x1, .i32⟩
  | 57 => ⟨S5, .i32⟩
  | 58 => ⟨S1x1x5, .i32⟩
  | 59 => ⟨S128x7x5, .i32⟩
  | 60 => ⟨S128x7x5, .i32⟩
  | 61 => ⟨S128x7x5, .i32⟩
  | 62 => ⟨S128x7x1, .i32⟩
  | 63 => ⟨S128x7x5, .i32⟩
  | 64 => ⟨S128x7x5, .i1⟩
  | 65 => ⟨S_, .i32⟩
  | 66 => ⟨S_, .i32⟩
  | 67 => ⟨S_, .i32⟩
  | 68 => ⟨S128x7x5, .i32⟩
  | 69 => ⟨S128x7x5, .i32⟩
  | 70 => ⟨S_, .i32⟩
  | 71 => ⟨S128x7x5, .i32⟩
  | 72 => ⟨S128x7x5, .i32⟩
  | 73 => ⟨S_, .i32⟩
  | 74 => ⟨S128x7x5, .i32⟩
  | 75 => ⟨S128x7x5, .i1⟩
  | 76 => ⟨S_, .i32⟩
  | 77 => ⟨S128x7x5, .i32⟩
  | 78 => ⟨S128x7x5, .i32⟩
  | 79 => ⟨S128x7x5, .i32⟩
  | 80 => ⟨S128x7x5x1, .i32⟩
  | 81 => ⟨S128x512x7x7x5, .f32⟩
  | 82 => ⟨S128x1x1x7x5, .i1⟩
  | 83 => ⟨S_, .f32⟩
  | 84 => ⟨S128x512x7x7x5, .i1⟩
  | 85 => ⟨S128x512x7x7x5, .f32⟩
  | 86 => ⟨S128x512x7x7x5, .f32⟩
  | 87 => ⟨S_, .f32⟩
  | 88 => ⟨S128x512x7x7, .f32⟩
  | 89 => ⟨S128x25088, .f32⟩
  | 90 => ⟨S128x25088, .bf16⟩
  | 91 => ⟨S25088x4096, .bf16⟩
  | 92 => ⟨S1x4096, .f32⟩
  | 93 => ⟨S128x4096, .bf16⟩
  | 94 => ⟨S4096x4096, .bf16⟩
  | 95 => ⟨S1x4096, .f32⟩
  | 96 => ⟨S128x4096, .bf16⟩
  | 97 => ⟨S4096x105, .f32⟩
  | 98 => ⟨S_, .i32⟩
  | 99 => ⟨S_, .f32⟩
  | 100 => ⟨S4096x128, .f32⟩
  | 101 => ⟨S4096x128, .bf16⟩
  | 102 => ⟨S105, .f32⟩
  | 103 => ⟨S_, .i32⟩
  | 104 => ⟨S_, .f32⟩
  | 105 => ⟨S128, .f32⟩
  | 106 => ⟨S1x128, .f32⟩
  | 107 => ⟨S128x128, .f32⟩
  | 108 => ⟨S128x21, .f32⟩
  | 109 => ⟨S128x84, .f32⟩
  | 110 => ⟨S_, .f32⟩
  | 111 => ⟨S128, .f32⟩
  | 112 => ⟨S_, .f32⟩
  | 113 => ⟨S128, .f32⟩
  | 114 => ⟨S128, .f32⟩
  | 115 => ⟨S128x1, .f32⟩
  | 116 => ⟨S128x21, .f32⟩
  | 117 => ⟨S128x21, .f32⟩
  | 118 => ⟨S128x21, .f32⟩
  | 119 => ⟨S_, .f32⟩
  | 120 => ⟨S128, .f32⟩
  | 121 => ⟨S128x1, .f32⟩
  | 122 => ⟨S128x21, .f32⟩
  | 123 => ⟨S128x21, .f32⟩
  | 124 => ⟨S128x105, .f32⟩
  | _ => ⟨S1x512x32x32, .f32⟩

abbrev hbmTy (i : Nat) : BufTy := match i / 128 with
  | 0 => hbmTy0_0 i
  | 1 => hbmTy0_1 i
  | _ => ⟨S1x512x32x32, .f32⟩

abbrev bufTy : (tb : Table) → Fin (tcTables nBuf tb) → BufTy
  | .hbm, ⟨i, _⟩ => hbmTy i
  | .local _ .vmem, ⟨0, _⟩ => ⟨S128x25088, .bf16⟩
  | .local _ .vmem, ⟨1, _⟩ => ⟨S3584x1024, .bf16⟩
  | .local _ .vmem, ⟨2, _⟩ => ⟨S3584x1024, .bf16⟩
  | .local _ .vmem, ⟨3, _⟩ => ⟨S1x1024, .f32⟩
  | .local _ .vmem, ⟨4, _⟩ => ⟨S1x1024, .f32⟩
  | .local _ .vmem, ⟨5, _⟩ => ⟨S128x1024, .bf16⟩
  | .local _ .vmem, ⟨6, _⟩ => ⟨S128x1024, .bf16⟩
  | .local _ .vmem, ⟨7, _⟩ => ⟨S128x1024, .f32⟩
  | .local _ .vmem, ⟨8, _⟩ => ⟨S128x4096, .bf16⟩
  | .local _ .vmem, ⟨9, _⟩ => ⟨S2048x512, .bf16⟩
  | .local _ .vmem, ⟨10, _⟩ => ⟨S2048x512, .bf16⟩
  | .local _ .vmem, ⟨11, _⟩ => ⟨S1x512, .f32⟩
  | .local _ .vmem, ⟨12, _⟩ => ⟨S1x512, .f32⟩
  | .local _ .vmem, ⟨13, _⟩ => ⟨S128x512, .bf16⟩
  | .local _ .vmem, ⟨14, _⟩ => ⟨S128x512, .bf16⟩
  | .local _ .vmem, ⟨15, _⟩ => ⟨S128x512, .f32⟩
  | .local _ .vmem, ⟨16, _⟩ => ⟨S128x4096, .bf16⟩
  | .local _ .vmem, ⟨17, _⟩ => ⟨S2048x128, .bf16⟩
  | .local _ .vmem, ⟨18, _⟩ => ⟨S2048x128, .bf16⟩
  | .local _ .vmem, ⟨19, _⟩ => ⟨S1x128, .f32⟩
  | .local _ .vmem, ⟨20, _⟩ => ⟨S128x128, .f32⟩
  | .local _ .vmem, ⟨21, _⟩ => ⟨S128x128, .f32⟩
  | _, _ => ⟨S1x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_3 : Ref sig .tc := ⟨.hbm, 69, rfl⟩
abbrev main_v38 : Ref sig .tc := ⟨.hbm, 70, rfl⟩
abbrev main_v39 : Ref sig .tc := ⟨.hbm, 71, rfl⟩
abbrev main_c_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_0 : Ref sig .tc := ⟨.hbm, 86, rfl⟩
abbrev main_call1_v12 : Ref sig .tc := ⟨.hbm, 87, rfl⟩
abbrev main_call1_v13 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_5 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_c : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_0 : Ref sig .tc := ⟨.hbm, 112, rfl⟩
abbrev main_call2_v12 : Ref sig .tc := ⟨.hbm, 113, rfl⟩
abbrev main_call2_v13 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_c_6 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_7 : Ref sig .tc := ⟨.hbm, 127, rfl⟩
abbrev main_v60 : Ref sig .tc := ⟨.hbm, 128, rfl⟩
abbrev main_v61 : Ref sig .tc := ⟨.hbm, 129, rfl⟩
abbrev main_c_8 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_c : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_0 : Ref sig .tc := ⟨.hbm, 144, rfl⟩
abbrev main_call3_v12 : Ref sig .tc := ⟨.hbm, 145, rfl⟩
abbrev main_call3_v13 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_c_9 : Ref sig .tc := ⟨.hbm, 159, rfl⟩
abbrev main_c_10 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_v74 : Ref sig .tc := ⟨.hbm, 166, rfl⟩
abbrev main_c_11 : Ref sig .tc := ⟨.hbm, 167, rfl⟩
abbrev main_v75 : Ref sig .tc := ⟨.hbm, 168, rfl⟩
abbrev main_v76 : Ref sig .tc := ⟨.hbm, 169, rfl⟩
abbrev main_c_12 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_cst_13 : Ref sig .tc := ⟨.hbm, 177, rfl⟩
abbrev main_call5_v0 : Ref sig .tc := ⟨.hbm, 178, rfl⟩
abbrev main_call5_v1 : Ref sig .tc := ⟨.hbm, 179, rfl⟩
abbrev main_v83 : Ref sig .tc := ⟨.hbm, 180, rfl⟩
abbrev main_cst_14 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_c_15 : Ref sig .tc := ⟨.hbm, 193, rfl⟩
abbrev main_c_16 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v95 : Ref sig .tc := ⟨.hbm, 200, rfl⟩
abbrev main_c_17 : Ref sig .tc := ⟨.hbm, 201, rfl⟩
abbrev main_v96 : Ref sig .tc := ⟨.hbm, 202, rfl⟩
abbrev main_v97 : Ref sig .tc := ⟨.hbm, 203, rfl⟩
abbrev main_c_18 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_19 : Ref sig .tc := ⟨.hbm, 211, rfl⟩
abbrev main_call7_v0 : Ref sig .tc := ⟨.hbm, 212, rfl⟩
abbrev main_call7_v1 : Ref sig .tc := ⟨.hbm, 213, rfl⟩
abbrev main_v104 : Ref sig .tc := ⟨.hbm, 214, rfl⟩
abbrev main_cst_20 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_v111 : Ref sig .tc := ⟨.hbm, 222, rfl⟩
abbrev main_v112 : Ref sig .tc := ⟨.hbm, 223, rfl⟩
abbrev main_v113 : Ref sig .tc := ⟨.hbm, 224, rfl⟩
abbrev main_v114 : Ref sig .tc := ⟨.hbm, 225, rfl⟩
abbrev main_c_21 : Ref sig .tc := ⟨.hbm, 226, rfl⟩
abbrev main_call8_v0 : Ref sig .tc := ⟨.hbm, 227, rfl⟩
abbrev main_v115 : Ref sig .tc := ⟨.hbm, 228, rfl⟩
abbrev main_v116 : Ref sig .tc := ⟨.hbm, 229, rfl⟩
abbrev main_v117 : Ref sig .tc := ⟨.hbm, 230, rfl⟩
abbrev main_c_22 : Ref sig .tc := ⟨.hbm, 231, rfl⟩
abbrev main_call9_v0 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_v121 : Ref sig .tc := ⟨.hbm, 236, rfl⟩
abbrev main_v122 : Ref sig .tc := ⟨.hbm, 237, rfl⟩
abbrev main_cst_23 : Ref sig .tc := ⟨.hbm, 238, rfl⟩
abbrev main_v123 : Ref sig .tc := ⟨.hbm, 239, rfl⟩
abbrev main_cst_24 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_cst_25 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_scratch0 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem1_0 : DmaSem sig := 15
abbrev cc2_sem1_1 : DmaSem sig := 16
abbrev cc2_sem2_0 : DmaSem sig := 17
abbrev cc2_sem3_0 : DmaSem sig := 18

abbrev nD : Nat := 1
abbrev τ : Topo := Topo.v7x

variable {F : FTy → Type} [FloatOps F]

abbrev grid0 : Pipeline.Grid := ⟨2, ![4, 7], ![false, false]⟩

def k0_mult1 (i : grid0.Coords) : BitVec 32 :=
  let arg1 : BitVec 32 := BitVec.ofNat 32 (i 1).val
  let c3584_i32 : BitVec 32 := 3584#32
  let v3 : BitVec 32 := Scalar.muli arg1 c3584_i32
  v3
def k0_off1 (i : grid0.Coords) : Fin 2 → Nat :=
  let c0 : Index := 0#32
  let arg1 : BitVec 32 := BitVec.ofNat 32 (i 1).val
  let c3584_i32 : BitVec 32 := 3584#32
  let v3 : BitVec 32 := Scalar.muli arg1 c3584_i32
  let v4 : BitVec 32 := v3
  let v5 : Index := Scalar.indexCast v4
  ![0, v5.toNat]
def k0_cond2 (i : grid0.Coords) : BitVec 1 :=
  let arg1 : BitVec 32 := BitVec.ofNat 32 (i 1).val
  let c6_i32 : BitVec 32 := 6#32
  let v16 : BitVec 1 := Scalar.cmpi .eq arg1 c6_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x25088 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S3584x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![8, 2], ![false, false]⟩

def k1_mult1 (i : grid1.Coords) : BitVec 32 :=
  let arg1 : BitVec 32 := BitVec.ofNat 32 (i 1).val
  let c2048_i32 : BitVec 32 := 2048#32
  let v3 : BitVec 32 := Scalar.muli arg1 c2048_i32
  v3
def k1_off1 (i : grid1.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k1_cond2 (i : grid1.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 1 → Memref sig .tc .vmem S128x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S128x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![1, 2], ![false, false]⟩

def k2_mult1 (i : grid2.Coords) : BitVec 32 :=
  let arg1 : BitVec 32 := BitVec.ofNat 32 (i 1).val
  let c2048_i32 : BitVec 32 := 2048#32
  let v3 : BitVec 32 := Scalar.muli arg1 c2048_i32
  v3
def k2_off1 (i : grid2.Coords) : Fin 2 → Nat :=
  let c0 : Index := 0#32
  let arg1 : BitVec 32 := BitVec.ofNat 32 (i 1).val
  let c2048_i32 : BitVec 32 := 2048#32
  let v3 : BitVec 32 := Scalar.muli arg1 c2048_i32
  let v4 : BitVec 32 := v3
  let v5 : Index := Scalar.indexCast v4
  ![0, v5.toNat]
def k2_cond2 (i : grid2.Coords) : BitVec 1 :=
  let arg1 : BitVec 32 := BitVec.ofNat 32 (i 1).val
  let c1_i32 : BitVec 32 := 1#32
  let v16 : BitVec 1 := Scalar.cmpi .eq arg1 c1_i32
  let v17 : BitVec 32 := Scalar.extui v16
  let c0_i32_7 : BitVec 32 := 0#32
  let v18 : BitVec 1 := Scalar.cmpi .ne v17 c0_i32_7
  v18

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 1 → Memref sig .tc .vmem S128x4096 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S2048x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

class Facts₀ : Prop where
  shapeCasts_S1x512x32x32_S512x32x32 : S1x512x32x32.ShapeCasts S512x32x32
  slices_S128x5_S128x4_0_1 : S128x5.Slices ![0, 1] S128x4
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S128x7_S128x7x1_0_1 : S128x7.BroadcastsInDim S128x7x1 (![0, 1] : Fin 2 → Fin S128x7x1.rank)
  bcast_S5_S1x1x5_2 : S5.BroadcastsInDim S1x1x5 (![2] : Fin 1 → Fin S1x1x5.rank)
  bcast_S128x7x1_S128x7x5_0_1_2 : S128x7x1.BroadcastsInDim S128x7x5 (![0, 1, 2] : Fin 3 → Fin S128x7x5.rank)
  bcast_S1x1x5_S128x7x5_0_1_2 : S1x1x5.BroadcastsInDim S128x7x5 (![0, 1, 2] : Fin 3 → Fin S128x7x5.rank)
  bcast_S_S128x7x5 : S_.BroadcastsInDim S128x7x5 (![] : Fin 0 → Fin S128x7x5.rank)
  bcast_S128x7x5_S128x7x5x1_0_1_2 : S128x7x5.BroadcastsInDim S128x7x5x1 (![0, 1, 2] : Fin 3 → Fin S128x7x5x1.rank)
  bcast_S128x7x5_S1x128x7x5x1_1_2_3 : S128x7x5.BroadcastsInDim S1x128x7x5x1 (![1, 2, 3] : Fin 3 → Fin S1x128x7x5x1.rank)
  bcast_S1x128x7x5x1_S512x128x7x5x32_0_1_2_3_4 : S1x128x7x5x1.BroadcastsInDim S512x128x7x5x32 (![0, 1, 2, 3, 4] : Fin 5 → Fin S512x128x7x5x32.rank)
  bcast_S_S512x128x7x5x32 : S_.BroadcastsInDim S512x128x7x5x32 (![] : Fin 0 → Fin S512x128x7x5x32.rank)
  reducesTo_S512x128x7x5x32_S512x128x7x32_d3 : S512x128x7x5x32.ReducesTo [3] S512x128x7x32
  h_S_ : 0 < S_.numel
  transposes_S512x128x7x32_S128x512x7x32_1_0_2_3 : S512x128x7x32.Transposes [1, 0, 2, 3] S128x512x7x32
  bcast_S128x7x5_S128x1x1x7x5_0_3_4 : S128x7x5.BroadcastsInDim S128x1x1x7x5 (![0, 3, 4] : Fin 3 → Fin S128x1x1x7x5.rank)
  bcast_S128x1x1x7x5_S128x512x7x7x5_0_1_2_3_4 : S128x1x1x7x5.BroadcastsInDim S128x512x7x7x5 (![0, 1, 2, 3, 4] : Fin 5 → Fin S128x512x7x7x5.rank)
  bcast_S_S128x512x7x7x5 : S_.BroadcastsInDim S128x512x7x7x5 (![] : Fin 0 → Fin S128x512x7x7x5.rank)
  reducesTo_S128x512x7x7x5_S128x512x7x7_d4 : S128x512x7x7x5.ReducesTo [4] S128x512x7x7
  shapeCasts_S128x512x7x7_S128x25088 : S128x512x7x7.ShapeCasts S128x25088
  bitsLt_bf16_f32 : FTy.bits .bf16 < FTy.bits .f32
  shapeCasts_S4096_S1x4096 : S4096.ShapeCasts S1x4096
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  h_S128x3584 : 0 < S128x3584.numel
  shapeCasts_S128x3584_S128x3584 : S128x3584.ShapeCasts S128x3584
  inb_S3584x1024_S3584x1024_0_0 : ∀ a, (![0, 0] : Fin 2 → Nat) a + S3584x1024.size a ≤ S3584x1024.size a
  h_S3584x1024 : 0 < S3584x1024.numel
  shapeCasts_S3584x1024_S3584x1024 : S3584x1024.ShapeCasts S3584x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S128x1024 : S1x1024.Broadcasts S128x1024
  packedbf16_S128x1024_S128x1024_0_0 : (Rect.unit (s := S128x1024) ![0, 0] S128x1024.size inb_S128x1024_S128x1024_0_0).PackedRows (EltTy.packing .bf16)
  inb_S128x512_S128x512_0_0 : ∀ a, (![0, 0] : Fin 2 → Nat) a + S128x512.size a ≤ S128x512.size a
  h_S128x512 : 0 < S128x512.numel
  shapeCasts_S128x512_S128x512 : S128x512.ShapeCasts S128x512
  h_S128x2048 : 0 < S128x2048.numel
  shapeCasts_S128x2048_S128x2048 : S128x2048.ShapeCasts S128x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  packedbf16_S128x512_S128x512_0_0 : (Rect.unit (s := S128x512) ![0, 0] S128x512.size inb_S128x512_S128x512_0_0).PackedRows (EltTy.packing .bf16)
  concatenates_S4096x21_S4096x84_S4096x105_d1 : Shape.Concatenates [S4096x21, S4096x84] S4096x105 1
  pads_S4096x105_S4096x128_000_0230 : S4096x105.Pads (![0, 0] : Fin 2 → Nat) ![0, 23] ![0, 0] S4096x128
  concatenates_S21_S84_S105_d0 : Shape.Concatenates [S21, S84] S105 0
  pads_S105_S128_0230 : S105.Pads (![0] : Fin 1 → Nat) ![23] ![0] S128
  shapeCasts_S128_S1x128 : S128.ShapeCasts S1x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S128x128 : S1x128.Broadcasts S128x128
  slices_S128x128_S128x21_0_0 : S128x128.Slices ![0, 0] S128x21
  slices_S128x128_S128x84_0_21 : S128x128.Slices ![0, 21] S128x84
  reducesTo_S128x21_S128_d1 : S128x21.ReducesTo [1] S128
  bcast_S128x1_S128x21_0_1 : S128x1.BroadcastsInDim S128x21 (![0, 1] : Fin 2 → Fin S128x21.rank)
  concatenates_S128x21_S128x84_S128x105_d1 : Shape.Concatenates [S128x21, S128x84] S128x105 1
  gather_S512x32x32_S128x7x5x1_S512x128x7x5x32_04_1_n_n_1_3_512132_wf : GatherDims.WF S512x32x32 S128x7x5x1 S512x128x7x5x32 [0, 4] [1] [] [1] [] 3 ![512, 1, 32]
  gather_S128x512x7x32_S128x7x5x1_S128x512x7x7x5_12_3_0_0_3_3_151271_wf : GatherDims.WF S128x512x7x32 S128x7x5x1 S128x512x7x7x5 [1, 2] [3] [0] [3] [0] 3 ![1, 512, 7, 1]
  dot_S128x3584_S3584x1024_S128x1024_1_0_0_1_n_n_wf : DotDims.WF S128x3584 S3584x1024 S128x1024 [1] [0] [0] [1] [] []
  dot_S128x2048_S2048x512_S128x512_1_0_0_1_n_n_wf : DotDims.WF S128x2048 S2048x512 S128x512 [1] [0] [0] [1] [] []
  dot_S128x2048_S2048x128_S128x128_1_0_0_1_n_n_wf : DotDims.WF S128x2048 S2048x128 S128x128 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x3584.size a ≤ S128x25088.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x25088.size a ≤ S128x25088.size a
  hwx0_0 : ∀ i : grid0.Coords, EltTy.bits .bf16 = 32 ∨ (Rect.block (s := S128x25088) S128x25088.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3584x1024.size a ≤ S25088x4096.size a
  hwx0_1 : ∀ i : grid0.Coords, EltTy.bits .bf16 = 32 ∨ (Rect.block (s := S25088x4096) S3584x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x1024.size a ≤ S128x4096.size a
  hwx0_3 : ∀ i : grid0.Coords, EltTy.bits .bf16 = 32 ∨ (Rect.block (s := S128x4096) S128x1024.size (cc0_transform_3 i) (hinb0_3 i)).WholeWords (EltTy.packing .bf16)
  hrank1 : 0 < grid1.rank
  k1_mult1_dvd : ∀ i : grid1.Coords, 128 ∣ (k1_mult1 i).toNat
  k1_off1_inb : ∀ i : grid1.Coords, ∀ a, (k1_off1 i) a + S128x2048.size a ≤ S128x4096.size a
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S128x4096.size a
  hwx1_0 : ∀ i : grid1.Coords, EltTy.bits .bf16 = 32 ∨ (Rect.block (s := S128x4096) S128x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x512.size a ≤ S4096x4096.size a
  hwx1_1 : ∀ i : grid1.Coords, EltTy.bits .bf16 = 32 ∨ (Rect.block (s := S4096x4096) S2048x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x4096.size a
  hwx1_2 : ∀ i : grid1.Coords, EltTy.bits .f32 = 32 ∨ (Rect.block (s := S1x4096) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x512.size a ≤ S128x4096.size a
  hwx1_3 : ∀ i : grid1.Coords, EltTy.bits .bf16 = 32 ∨ (Rect.block (s := S128x4096) S128x512.size (cc1_transform_3 i) (hinb1_3 i)).WholeWords (EltTy.packing .bf16)
  hrank2 : 0 < grid2.rank
  k2_mult1_dvd : ∀ i : grid2.Coords, 128 ∣ (k2_mult1 i).toNat
  k2_off1_inb : ∀ i : grid2.Coords, ∀ a, (k2_off1 i) a + S128x2048.size a ≤ S128x4096.size a
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S128x4096.size a ≤ S128x4096.size a
  hwx2_0 : ∀ i : grid2.Coords, EltTy.bits .bf16 = 32 ∨ (Rect.block (s := S128x4096) S128x4096.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x128.size a ≤ S4096x128.size a
  hwx2_1 : ∀ i : grid2.Coords, EltTy.bits .bf16 = 32 ∨ (Rect.block (s := S4096x128) S2048x128.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)

variable [Facts₀]

def gather_S512x32x32_S128x7x5x1_S512x128x7x5x32_04_1_n_n_1_3_512132 : GatherDims S512x32x32 S128x7x5x1 S512x128x7x5x32 where
  offsetDims := [0, 4]
  collapsedSliceDims := [1]
  operandBatchingDims := []
  startIndicesBatchingDims := []
  startIndexMap := [1]
  indexVectorDim := 3
  sliceSizes := ![512, 1, 32]
  wf := gather_S512x32x32_S128x7x5x1_S512x128x7x5x32_04_1_n_n_1_3_512132_wf
def gather_S128x512x7x32_S128x7x5x1_S128x512x7x7x5_12_3_0_0_3_3_151271 : GatherDims S128x512x7x32 S128x7x5x1 S128x512x7x7x5 where
  offsetDims := [1, 2]
  collapsedSliceDims := [3]
  operandBatchingDims := [0]
  startIndicesBatchingDims := [0]
  startIndexMap := [3]
  indexVectorDim := 3
  sliceSizes := ![1, 512, 7, 1]
  wf := gather_S128x512x7x32_S128x7x5x1_S128x512x7x7x5_12_3_0_0_3_3_151271_wf
def dot_S128x3584_S3584x1024_S128x1024_1_0_0_1_n_n : DotDims S128x3584 S3584x1024 S128x1024 where
  lhsContracting := [1]
  rhsContracting := [0]
  lhsNonContracting := [0]
  rhsNonContracting := [1]
  lhsBatch := []
  rhsBatch := []
  wf := dot_S128x3584_S3584x1024_S128x1024_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x2048_S2048x128_S128x128_1_0_0_1_n_n : DotDims S128x2048 S2048x128 S128x128 where
  lhsContracting := [1]
  rhsContracting := [0]
  lhsNonContracting := [0]
  rhsNonContracting := [1]
  lhsBatch := []
  rhsBatch := []
  wf := dot_S128x2048_S2048x128_S128x128_1_0_0_1_n_n_wf

abbrev win0_0 : Pipeline.Window sig grid0 :=
  Pipeline.Window.ofSpec (Memref.whole main_v107) S128x25088.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v108) S3584x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v109) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v110) S128x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v110) S128x4096.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v111) S2048x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v112) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v113) S128x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v113) S128x4096.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v116) S2048x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v119) S1x128.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v120) S128x128.size cc2_transform_3 reads2_3 true false 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S1x512x32x32 : Shape := ⟨4, ![1, 512, 32, 32]⟩
abbrev S128x5 : Shape := ⟨2, ![128, 5]⟩
abbrev S25088x4096 : Shape := ⟨2, ![25088, 4096]⟩
abbrev S4096 : Shape := ⟨1, ![4096]⟩
abbrev S4096x4096 : Shape := ⟨2, ![4096, 4096]⟩
abbrev S4096x21 : Shape := ⟨2, ![4096, 21]⟩
abbrev S21 : Shape := ⟨1, ![21]⟩
abbrev S4096x84 : Shape := ⟨2, ![4096, 84]⟩
abbrev S84 : Shape := ⟨1, ![84]⟩
abbrev S512x32x32 : Shape := ⟨3, ![512, 32, 32]⟩
abbrev S128x4 : Shape := ⟨2, ![128, 4]⟩
abbrev S_ : Shape := ⟨0, ![]⟩
abbrev S128x1 : Shape := ⟨2, ![128, 1]⟩
abbrev S128 : Shape := ⟨1, ![128]⟩
abbrev S7 : Shape := ⟨1, ![7]⟩
abbrev S1x7 : Shape := ⟨2, ![1, 7]⟩
abbrev S128x7 : Shape := ⟨2, ![128, 7]⟩
abbrev S128x7x1 : Shape := ⟨3, ![128, 7, 1]⟩
abbrev S5 : Shape := ⟨1, ![5]⟩
abbrev S1x1x5 : Shape := ⟨3, ![1, 1, 5]⟩
abbrev S128x7x5 : Shape := ⟨3, ![128, 7, 5]⟩
abbrev S128x7x5x1 : Shape := ⟨4, ![128, 7, 5, 1]⟩
abbrev S512x128x7x5x32 : Shape := ⟨5, ![512, 128, 7, 5, 32]⟩
abbrev S1x128x7x5x1 : Shape := ⟨5, ![1, 128, 7, 5, 1]⟩
abbrev S512x128x7x32 : Shape := ⟨4, ![512, 128, 7, 32]⟩
abbrev S128x512x7x32 : Shape := ⟨4, ![128, 512, 7, 32]⟩
abbrev S128x512x7x7x5 : Shape := ⟨5, ![128, 512, 7, 7, 5]⟩
abbrev S128x1x1x7x5 : Shape := ⟨5, ![128, 1, 1, 7, 5]⟩
abbrev S128x512x7x7 : Shape := ⟨4, ![128, 512, 7, 7]⟩
abbrev S128x25088 : Shape := ⟨2, ![128, 25088]⟩
abbrev S128x4096 : Shape := ⟨2, ![128, 4096]⟩
abbrev S1x4096 : Shape := ⟨2, ![1, 4096]⟩
abbrev S128x21 : Shape := ⟨2, ![128, 21]⟩
abbrev S1x21 : Shape := ⟨2, ![1, 21]⟩
abbrev S128x84 : Shape := ⟨2, ![128, 84]⟩
abbrev S1x84 : Shape := ⟨2, ![1, 84]⟩
abbrev S128x105 : Shape := ⟨2, ![128, 105]⟩

abbrev nBuf : Space → Nat
  | .hbm => 255
  | .vmem => 0
  | .smem => 0
  | _ => 0

abbrev hbmTy0_0 (i : Nat) : BufTy := match i % 128 with
  | 0 => ⟨S1x512x32x32, .f32⟩
  | 1 => ⟨S128x5, .f32⟩
  | 2 => ⟨S25088x4096, .f32⟩
  | 3 => ⟨S4096, .f32⟩
  | 4 => ⟨S4096x4096, .f32⟩
  | 5 => ⟨S4096, .f32⟩
  | 6 => ⟨S4096x21, .f32⟩
  | 7 => ⟨S21, .f32⟩
  | 8 => ⟨S4096x84, .f32⟩
  | 9 => ⟨S84, .f32⟩
  | 10 => ⟨S512x32x32, .f32⟩
  | 11 => ⟨S128x4, .f32⟩
  | 12 => ⟨S_, .f32⟩
  | 13 => ⟨S128x4, .f32⟩
  | 14 => ⟨S128x4, .f32⟩
  | 15 => ⟨S128x4, .f32⟩
  | 16 => ⟨S128x4, .i32⟩
  | 17 => ⟨S128x1, .i32⟩
  | 18 => ⟨S128, .i32⟩
  | 19 => ⟨S128x1, .i32⟩
  | 20 => ⟨S128, .i32⟩
  | 21 => ⟨S128x1, .i32⟩
  | 22 => ⟨S128, .i32⟩
  | 23 => ⟨S128x1, .i32⟩
  | 24 => ⟨S128, .i32⟩
  | 25 => ⟨S128, .i32⟩
  | 26 => ⟨S_, .i32⟩
  | 27 => ⟨S128, .i32⟩
  | 28 => ⟨S128, .i32⟩
  | 29 => ⟨S128, .i32⟩
  | 30 => ⟨S_, .i32⟩
  | 31 => ⟨S128, .i32⟩
  | 32 => ⟨S128, .i32⟩
  | 33 => ⟨S7, .i32⟩
  | 34 => ⟨S128x1, .i32⟩
  | 35 => ⟨S1x7, .i32⟩
  | 36 => ⟨S128x1, .i32⟩
  | 37 => ⟨S128x7, .i32⟩
  | 38 => ⟨S128x7, .i32⟩
  | 39 => ⟨S128x7, .i32⟩
  | 40 => ⟨S_, .i32⟩
  | 41 => ⟨S_, .i32⟩
  | 42 => ⟨S128x7, .i32⟩
  | 43 => ⟨S128x7, .i32⟩
  | 44 => ⟨S128x7, .i32⟩
  | 45 => ⟨S_, .i32⟩
  | 46 => ⟨S128x7, .i32⟩
  | 47 => ⟨S128x7, .i1⟩
  | 48 => ⟨S128x7, .i32⟩
  | 49 => ⟨S128x7, .i32⟩
  | 50 => ⟨S_, .i32⟩
  | 51 => ⟨S128x7, .i32⟩
  | 52 => ⟨S128x7, .i1⟩
  | 53 => ⟨S128x7, .i1⟩
  | 54 => ⟨S_, .i32⟩
  | 55 => ⟨S128x7, .i32⟩
  | 56 => ⟨S128x7, .i32⟩
  | 57 => ⟨S128x7, .i32⟩
  | 58 => ⟨S128x7, .i32⟩
  | 59 => ⟨S128x7, .i32⟩
  | 60 => ⟨S128x1, .i32⟩
  | 61 => ⟨S1x7, .i32⟩
  | 62 => ⟨S_, .i32⟩
  | 63 => ⟨S1x7, .i32⟩
  | 64 => ⟨S1x7, .i32⟩
  | 65 => ⟨S128x1, .i32⟩
  | 66 => ⟨S128x7, .i32⟩
  | 67 => ⟨S128x7, .i32⟩
  | 68 => ⟨S128x7, .i32⟩
  | 69 => ⟨S_, .i32⟩
  | 70 => ⟨S128x7, .i32⟩
  | 71 => ⟨S128x7, .i32⟩
  | 72 => ⟨S_, .i32⟩
  | 73 => ⟨S_, .i32⟩
  | 74 => ⟨S128x7, .i32⟩
  | 75 => ⟨S128x7, .i32⟩
  | 76 => ⟨S128x7, .i32⟩
  | 77 => ⟨S_, .i32⟩
  | 78 => ⟨S128x7, .i32⟩
  | 79 => ⟨S128x7, .i1⟩
  | 80 => ⟨S128x7, .i32⟩
  | 81 => ⟨S128x7, .i32⟩
  | 82 => ⟨S_, .i32⟩
  | 83 => ⟨S128x7, .i32⟩
  | 84 => ⟨S128x7, .i1⟩
  | 85 => ⟨S128x7, .i1⟩
  | 86 => ⟨S_, .i32⟩
  | 87 => ⟨S128x7, .i32⟩
  | 88 => ⟨S128x7, .i32⟩
  | 89 => ⟨S128x7, .i32⟩
  | 90 => ⟨S128x7, .i32⟩
  | 91 => ⟨S128x7, .i32⟩
  | 92 => ⟨S128x1, .i32⟩
  | 93 => ⟨S1x7, .i32⟩
  | 94 => ⟨S128x1, .i32⟩
  | 95 => ⟨S128x7, .i32⟩
  | 96 => ⟨S128x7, .i32⟩
  | 97 => ⟨S128x7, .i32⟩
  | 98 => ⟨S_, .i32⟩
  | 99 => ⟨S_, .i32⟩
  | 100 => ⟨S128x7, .i32⟩
  | 101 => ⟨S128x7, .i32⟩
  | 102 => ⟨S128x7, .i32⟩
  | 103 => ⟨S_, .i32⟩
  | 104 => ⟨S128x7, .i32⟩
  | 105 => ⟨S128x7, .i1⟩
  | 106 => ⟨S128x7, .i32⟩
  | 107 => ⟨S128x7, .i32⟩
  | 108 => ⟨S_, .i32⟩
  | 109 => ⟨S128x7, .i32⟩
  | 110 => ⟨S128x7, .i1⟩
  | 111 => ⟨S128x7, .i1⟩
  | 112 => ⟨S_, .i32⟩
  | 113 => ⟨S128x7, .i32⟩
  | 114 => ⟨S128x7, .i32⟩
  | 115 => ⟨S128x7, .i32⟩
  | 116 => ⟨S128x7, .i32⟩
  | 117 => ⟨S128x7, .i32⟩
  | 118 => ⟨S128x1, .i32⟩
  | 119 => ⟨S1x7, .i32⟩
  | 120 => ⟨S_, .i32⟩
  | 121 => ⟨S1x7, .i32⟩
  | 122 => ⟨S1x7, .i32⟩
  | 123 => ⟨S128x1, .i32⟩
  | 124 => ⟨S128x7, .i32⟩
  | 125 => ⟨S128x7, .i32⟩
  | 126 => ⟨S128x7, .i32⟩
  | 127 => ⟨S_, .i32⟩
  | _ => ⟨S1x512x32x32, .f32⟩

abbrev hbmTy0_1 (i : Nat) : BufTy := match i % 128 with
  | 0 => ⟨S128x7, .i32⟩
  | 1 => ⟨S128x7, .i32⟩
  | 2 => ⟨S_, .i32⟩
  | 3 => ⟨S_, .i32⟩
  | 4 => ⟨S128x7, .i32⟩
  | 5 => ⟨S128x7, .i32⟩
  | 6 => ⟨S128x7, .i32⟩
  | 7 => ⟨S_, .i32⟩
  | 8 => ⟨S128x7, .i32⟩
  | 9 => ⟨S128x7, .i1⟩
  | 10 => ⟨S128x7, .i32⟩
  | 11 => ⟨S128x7, .i32⟩
  | 12 => ⟨S_, .i32⟩
  | 13 => ⟨S128x7, .i32⟩
  | 14 => ⟨S128x7, .i1⟩
  | 15 => ⟨S128x7, .i1⟩
  | 16 => ⟨S_, .i32⟩
  | 17 => ⟨S128x7, .i32⟩
  | 18 => ⟨S128x7, .i32⟩
  | 19 => ⟨S128x7, .i32⟩
  | 20 => ⟨S128x7, .i32⟩
  | 21 => ⟨S128x7, .i32⟩
  | 22 => ⟨S128x7x1, .i32⟩
  | 23 => ⟨S5, .i32⟩
  | 24 => ⟨S1x1x5, .i32⟩
  | 25 => ⟨S128x7x5, .i32⟩
  | 26 => ⟨S128x7x5, .i32⟩
  | 27 => ⟨S128x7x5, .i32⟩
  | 28 => ⟨S128x7x1, .i32⟩
  | 29 => ⟨S128x7x5, .i32⟩
  | 30 => ⟨S128x7x5, .i1⟩
  | 31 => ⟨S_, .i32⟩
  | 32 => ⟨S_, .i32⟩
  | 33 => ⟨S_, .i32⟩
  | 34 => ⟨S128x7x5, .i32⟩
  | 35 => ⟨S128x7x5, .i32⟩
  | 36 => ⟨S_, .i32⟩
  | 37 => ⟨S128x7x5, .i32⟩
  | 38 => ⟨S128x7x5, .i32⟩
  | 39 => ⟨S_, .i32⟩
  | 40 => ⟨S128x7x5, .i32⟩
  | 41 => ⟨S128x7x5, .i1⟩
  | 42 => ⟨S_, .i32⟩
  | 43 => ⟨S128x7x5, .i32⟩
  | 44 => ⟨S128x7x5, .i32⟩
  | 45 => ⟨S128x7x5, .i32⟩
  | 46 => ⟨S128x7x5x1, .i32⟩
  | 47 => ⟨S512x128x7x5x32, .f32⟩
  | 48 => ⟨S1x128x7x5x1, .i1⟩
  | 49 => ⟨S_, .f32⟩
  | 50 => ⟨S512x128x7x5x32, .i1⟩
  | 51 => ⟨S512x128x7x5x32, .f32⟩
  | 52 => ⟨S512x128x7x5x32, .f32⟩
  | 53 => ⟨S_, .f32⟩
  | 54 => ⟨S512x128x7x32, .f32⟩
  | 55 => ⟨S128x512x7x32, .f32⟩
  | 56 => ⟨S128x7x1, .i32⟩
  | 57 => ⟨S5, .i32⟩
  | 58 => ⟨S1x1x5, .i32⟩
  | 59 => ⟨S128x7x5, .i32⟩
  | 60 => ⟨S128x7x5, .i32⟩
  | 61 => ⟨S128x7x5, .i32⟩
  | 62 => ⟨S128x7x1, .i32⟩
  | 63 => ⟨S128x7x5, .i32⟩
  | 64 => ⟨S128x7x5, .i1⟩
  | 65 => ⟨S_, .i32⟩
  | 66 => ⟨S_, .i32⟩
  | 67 => ⟨S_, .i32⟩
  | 68 => ⟨S128x7x5, .i32⟩
  | 69 => ⟨S128x7x5, .i32⟩
  | 70 => ⟨S_, .i32⟩
  | 71 => ⟨S128x7x5, .i32⟩
  | 72 => ⟨S128x7x5, .i32⟩
  | 73 => ⟨S_, .i32⟩
  | 74 => ⟨S128x7x5, .i32⟩
  | 75 => ⟨S128x7x5, .i1⟩
  | 76 => ⟨S_, .i32⟩
  | 77 => ⟨S128x7x5, .i32⟩
  | 78 => ⟨S128x7x5, .i32⟩
  | 79 => ⟨S128x7x5, .i32⟩
  | 80 => ⟨S128x7x5x1, .i32⟩
  | 81 => ⟨S128x512x7x7x5, .f32⟩
  | 82 => ⟨S128x1x1x7x5, .i1⟩
  | 83 => ⟨S_, .f32⟩
  | 84 => ⟨S128x512x7x7x5, .i1⟩
  | 85 => ⟨S128x512x7x7x5, .f32⟩
  | 86 => ⟨S128x512x7x7x5, .f32⟩
  | 87 => ⟨S_, .f32⟩
  | 88 => ⟨S128x512x7x7, .f32⟩
  | 89 => ⟨S128x25088, .f32⟩
  | 90 => ⟨S128x4096, .f32⟩
  | 91 => ⟨S1x4096, .f32⟩
  | 92 => ⟨S128x4096, .f32⟩
  | 93 => ⟨S128x4096, .f32⟩
  | 94 => ⟨S_, .f32⟩
  | 95 => ⟨S128x4096, .f32⟩
  | 96 => ⟨S128x4096, .f32⟩
  | 97 => ⟨S128x4096, .f32⟩
  | 98 => ⟨S1x4096, .f32⟩
  | 99 => ⟨S128x4096, .f32⟩
  | 100 => ⟨S128x4096, .f32⟩
  | 101 => ⟨S_, .f32⟩
  | 102 => ⟨S128x4096, .f32⟩
  | 103 => ⟨S128x4096, .f32⟩
  | 104 => ⟨S128x21, .f32⟩
  | 105 => ⟨S1x21, .f32⟩
  | 106 => ⟨S128x21, .f32⟩
  | 107 => ⟨S128x21, .f32⟩
  | 108 => ⟨S_, .f32⟩
  | 109 => ⟨S128, .f32⟩
  | 110 => ⟨S_, .f32⟩
  | 111 => ⟨S128, .f32⟩
  | 112 => ⟨S128, .f32⟩
  | 113 => ⟨S128x1, .f32⟩
  | 114 => ⟨S128x21, .f32⟩
  | 115 => ⟨S128x21, .f32⟩
  | 116 => ⟨S128x21, .f32⟩
  | 117 => ⟨S_, .f32⟩
  | 118 => ⟨S128, .f32⟩
  | 119 => ⟨S128x1, .f32⟩
  | 120 => ⟨S128x21, .f32⟩
  | 121 => ⟨S128x21, .f32⟩
  | 122 => ⟨S128x84, .f32⟩
  | 123 => ⟨S1x84, .f32⟩
  | 124 => ⟨S128x84, .f32⟩
  | 125 => ⟨S128x84, .f32⟩
  | 126 => ⟨S128x105, .f32⟩
  | _ => ⟨S1x512x32x32, .f32⟩

abbrev hbmTy (i : Nat) : BufTy := match i / 128 with
  | 0 => hbmTy0_0 i
  | 1 => hbmTy0_1 i
  | _ => ⟨S1x512x32x32, .f32⟩

abbrev bufTy : (tb : Table) → Fin (tcTables nBuf tb) → BufTy
  | .hbm, ⟨i, _⟩ => hbmTy i
  | _, _ => ⟨S1x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_1 : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_c : Ref sig .tc := ⟨.hbm, 50, rfl⟩
abbrev main_call0_v9 : Ref sig .tc := ⟨.hbm, 51, rfl⟩
abbrev main_call0_v10 : Ref sig .tc := ⟨.hbm, 52, rfl⟩
abbrev main_call0_v11 : Ref sig .tc := ⟨.hbm, 53, rfl⟩
abbrev main_call0_c_0 : Ref sig .tc := ⟨.hbm, 54, rfl⟩
abbrev main_call0_v12 : Ref sig .tc := ⟨.hbm, 55, rfl⟩
abbrev main_call0_v13 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_c_2 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_c_3 : Ref sig .tc := ⟨.hbm, 69, rfl⟩
abbrev main_v38 : Ref sig .tc := ⟨.hbm, 70, rfl⟩
abbrev main_v39 : Ref sig .tc := ⟨.hbm, 71, rfl⟩
abbrev main_c_4 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_call1_v5 : Ref sig .tc := ⟨.hbm, 78, rfl⟩
abbrev main_call1_v6 : Ref sig .tc := ⟨.hbm, 79, rfl⟩
abbrev main_call1_v7 : Ref sig .tc := ⟨.hbm, 80, rfl⟩
abbrev main_call1_v8 : Ref sig .tc := ⟨.hbm, 81, rfl⟩
abbrev main_call1_c : Ref sig .tc := ⟨.hbm, 82, rfl⟩
abbrev main_call1_v9 : Ref sig .tc := ⟨.hbm, 83, rfl⟩
abbrev main_call1_v10 : Ref sig .tc := ⟨.hbm, 84, rfl⟩
abbrev main_call1_v11 : Ref sig .tc := ⟨.hbm, 85, rfl⟩
abbrev main_call1_c_0 : Ref sig .tc := ⟨.hbm, 86, rfl⟩
abbrev main_call1_v12 : Ref sig .tc := ⟨.hbm, 87, rfl⟩
abbrev main_call1_v13 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_c_5 : Ref sig .tc := ⟨.hbm, 98, rfl⟩
abbrev main_call2_v0 : Ref sig .tc := ⟨.hbm, 99, rfl⟩
abbrev main_call2_v1 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_v6 : Ref sig .tc := ⟨.hbm, 105, rfl⟩
abbrev main_call2_v7 : Ref sig .tc := ⟨.hbm, 106, rfl⟩
abbrev main_call2_v8 : Ref sig .tc := ⟨.hbm, 107, rfl⟩
abbrev main_call2_c : Ref sig .tc := ⟨.hbm, 108, rfl⟩
abbrev main_call2_v9 : Ref sig .tc := ⟨.hbm, 109, rfl⟩
abbrev main_call2_v10 : Ref sig .tc := ⟨.hbm, 110, rfl⟩
abbrev main_call2_v11 : Ref sig .tc := ⟨.hbm, 111, rfl⟩
abbrev main_call2_c_0 : Ref sig .tc := ⟨.hbm, 112, rfl⟩
abbrev main_call2_v12 : Ref sig .tc := ⟨.hbm, 113, rfl⟩
abbrev main_call2_v13 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_c_6 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_c_7 : Ref sig .tc := ⟨.hbm, 127, rfl⟩
abbrev main_v60 : Ref sig .tc := ⟨.hbm, 128, rfl⟩
abbrev main_v61 : Ref sig .tc := ⟨.hbm, 129, rfl⟩
abbrev main_c_8 : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_call3_v5 : Ref sig .tc := ⟨.hbm, 136, rfl⟩
abbrev main_call3_v6 : Ref sig .tc := ⟨.hbm, 137, rfl⟩
abbrev main_call3_v7 : Ref sig .tc := ⟨.hbm, 138, rfl⟩
abbrev main_call3_v8 : Ref sig .tc := ⟨.hbm, 139, rfl⟩
abbrev main_call3_c : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_c_0 : Ref sig .tc := ⟨.hbm, 144, rfl⟩
abbrev main_call3_v12 : Ref sig .tc := ⟨.hbm, 145, rfl⟩
abbrev main_call3_v13 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_v68 : Ref sig .tc := ⟨.hbm, 153, rfl⟩
abbrev main_v69 : Ref sig .tc := ⟨.hbm, 154, rfl⟩
abbrev main_v70 : Ref sig .tc := ⟨.hbm, 155, rfl⟩
abbrev main_v71 : Ref sig .tc := ⟨.hbm, 156, rfl⟩
abbrev main_v72 : Ref sig .tc := ⟨.hbm, 157, rfl⟩
abbrev main_v73 : Ref sig .tc := ⟨.hbm, 158, rfl⟩
abbrev main_c_9 : Ref sig .tc := ⟨.hbm, 159, rfl⟩
abbrev main_c_10 : Ref sig .tc := ⟨.hbm, 160, rfl⟩
abbrev main_call4_v0 : Ref sig .tc := ⟨.hbm, 161, rfl⟩
abbrev main_call4_v1 : Ref sig .tc := ⟨.hbm, 162, rfl⟩
abbrev main_call4_v2 : Ref sig .tc := ⟨.hbm, 163, rfl⟩
abbrev main_call4_v3 : Ref sig .tc := ⟨.hbm, 164, rfl⟩
abbrev main_call4_v4 : Ref sig .tc := ⟨.hbm, 165, rfl⟩
abbrev main_v74 : Ref sig .tc := ⟨.hbm, 166, rfl⟩
abbrev main_c_11 : Ref sig .tc := ⟨.hbm, 167, rfl⟩
abbrev main_v75 : Ref sig .tc := ⟨.hbm, 168, rfl⟩
abbrev main_v76 : Ref sig .tc := ⟨.hbm, 169, rfl⟩
abbrev main_c_12 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_cst_13 : Ref sig .tc := ⟨.hbm, 177, rfl⟩
abbrev main_call5_v0 : Ref sig .tc := ⟨.hbm, 178, rfl⟩
abbrev main_call5_v1 : Ref sig .tc := ⟨.hbm, 179, rfl⟩
abbrev main_v83 : Ref sig .tc := ⟨.hbm, 180, rfl⟩
abbrev main_cst_14 : Ref sig .tc := ⟨.hbm, 181, rfl⟩
abbrev main_v84 : Ref sig .tc := ⟨.hbm, 182, rfl⟩
abbrev main_v85 : Ref sig .tc := ⟨.hbm, 183, rfl⟩
abbrev main_v86 : Ref sig .tc := ⟨.hbm, 184, rfl⟩
abbrev main_v87 : Ref sig .tc := ⟨.hbm, 185, rfl⟩
abbrev main_v88 : Ref sig .tc := ⟨.hbm, 186, rfl⟩
abbrev main_v89 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_c_15 : Ref sig .tc := ⟨.hbm, 193, rfl⟩
abbrev main_c_16 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_call6_v3 : Ref sig .tc := ⟨.hbm, 198, rfl⟩
abbrev main_call6_v4 : Ref sig .tc := ⟨.hbm, 199, rfl⟩
abbrev main_v95 : Ref sig .tc := ⟨.hbm, 200, rfl⟩
abbrev main_c_17 : Ref sig .tc := ⟨.hbm, 201, rfl⟩
abbrev main_v96 : Ref sig .tc := ⟨.hbm, 202, rfl⟩
abbrev main_v97 : Ref sig .tc := ⟨.hbm, 203, rfl⟩
abbrev main_c_18 : Ref sig .tc := ⟨.hbm, 204, rfl⟩
abbrev main_v98 : Ref sig .tc := ⟨.hbm, 205, rfl⟩
abbrev main_v99 : Ref sig .tc := ⟨.hbm, 206, rfl⟩
abbrev main_v100 : Ref sig .tc := ⟨.hbm, 207, rfl⟩
abbrev main_v101 : Ref sig .tc := ⟨.hbm, 208, rfl⟩
abbrev main_v102 : Ref sig .tc := ⟨.hbm, 209, rfl⟩
abbrev main_v103 : Ref sig .tc := ⟨.hbm, 210, rfl⟩
abbrev main_cst_19 : Ref sig .tc := ⟨.hbm, 211, rfl⟩
abbrev main_call7_v0 : Ref sig .tc := ⟨.hbm, 212, rfl⟩
abbrev main_call7_v1 : Ref sig .tc := ⟨.hbm, 213, rfl⟩
abbrev main_v104 : Ref sig .tc := ⟨.hbm, 214, rfl⟩
abbrev main_cst_20 : Ref sig .tc := ⟨.hbm, 215, rfl⟩
abbrev main_v105 : Ref sig .tc := ⟨.hbm, 216, rfl⟩
abbrev main_v106 : Ref sig .tc := ⟨.hbm, 217, rfl⟩
abbrev main_v107 : Ref sig .tc := ⟨.hbm, 218, rfl⟩
abbrev main_v108 : Ref sig .tc := ⟨.hbm, 219, rfl⟩
abbrev main_v109 : Ref sig .tc := ⟨.hbm, 220, rfl⟩
abbrev main_v110 : Ref sig .tc := ⟨.hbm, 221, rfl⟩
abbrev main_call8_cst : Ref sig .tc := ⟨.hbm, 222, rfl⟩
abbrev main_call8_v0 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev main_v115 : Ref sig .tc := ⟨.hbm, 228, rfl⟩
abbrev main_call9_cst : Ref sig .tc := ⟨.hbm, 229, rfl⟩
abbrev main_call9_v0 : Ref sig .tc := ⟨.hbm, 230, rfl⟩
abbrev main_v116 : Ref sig .tc := ⟨.hbm, 231, rfl⟩
abbrev main_v117 : Ref sig .tc := ⟨.hbm, 232, rfl⟩
abbrev main_v118 : Ref sig .tc := ⟨.hbm, 233, rfl⟩
abbrev main_v119 : Ref sig .tc := ⟨.hbm, 234, rfl⟩
abbrev main_v120 : Ref sig .tc := ⟨.hbm, 235, rfl⟩
abbrev main_cst_21 : Ref sig .tc := ⟨.hbm, 236, rfl⟩
abbrev main_v121 : Ref sig .tc := ⟨.hbm, 237, rfl⟩
abbrev main_cst_22 : Ref sig .tc := ⟨.hbm, 238, rfl⟩
abbrev main_v122 : Ref sig .tc := ⟨.hbm, 239, rfl⟩
abbrev main_v123 : Ref sig .tc := ⟨.hbm, 240, rfl⟩
abbrev main_v124 : Ref sig .tc := ⟨.hbm, 241, rfl⟩
abbrev main_v125 : Ref sig .tc := ⟨.hbm, 242, rfl⟩
abbrev main_v126 : Ref sig .tc := ⟨.hbm, 243, rfl⟩
abbrev main_v127 : Ref sig .tc := ⟨.hbm, 244, rfl⟩
abbrev main_cst_23 : Ref sig .tc := ⟨.hbm, 245, rfl⟩
abbrev main_v128 : Ref sig .tc := ⟨.hbm, 246, rfl⟩
abbrev main_v129 : Ref sig .tc := ⟨.hbm, 247, rfl⟩
abbrev main_v130 : Ref sig .tc := ⟨.hbm, 248, rfl⟩
abbrev main_v131 : Ref sig .tc := ⟨.hbm, 249, rfl⟩
abbrev main_v132 : Ref sig .tc := ⟨.hbm, 250, rfl⟩
abbrev main_v133 : Ref sig .tc := ⟨.hbm, 251, rfl⟩
abbrev main_v134 : Ref sig .tc := ⟨.hbm, 252, rfl⟩
abbrev main_v135 : Ref sig .tc := ⟨.hbm, 253, rfl⟩
abbrev main_v136 : Ref sig .tc := ⟨.hbm, 254, rfl⟩

abbrev nD : Nat := 1
abbrev τ : Topo := Topo.v7x

variable {F : FTy → Type} [FloatOps F]

class Facts₀ : Prop where
  shapeCasts_S1x512x32x32_S512x32x32 : S1x512x32x32.ShapeCasts S512x32x32
  slices_S128x5_S128x4_0_1 : S128x5.Slices ![0, 1] S128x4
  bcast_S_S128x4 : S_.BroadcastsInDim S128x4 (![] : Fin 0 → Fin S128x4.rank)
  slices_S128x4_S128x1_0_0 : S128x4.Slices ![0, 0] S128x1
  shapeCasts_S128x1_S128 : S128x1.ShapeCasts S128
  slices_S128x4_S128x1_0_1 : S128x4.Slices ![0, 1] S128x1
  slices_S128x4_S128x1_0_2 : S128x4.Slices ![0, 2] S128x1
  slices_S128x4_S128x1_0_3 : S128x4.Slices ![0, 3] S128x1
  bcast_S_S128 : S_.BroadcastsInDim S128 (![] : Fin 0 → Fin S128.rank)
  bcast_S128_S128x1_0 : S128.BroadcastsInDim S128x1 (![0] : Fin 1 → Fin S128x1.rank)
  bcast_S7_S1x7_1 : S7.BroadcastsInDim S1x7 (![1] : Fin 1 → Fin S1x7.rank)
  bcast_S1x7_S128x7_0_1 : S1x7.BroadcastsInDim S128x7 (![0, 1] : Fin 2 → Fin S128x7.rank)
  bcast_S128x1_S128x7_0_1 : S128x1.BroadcastsInDim S128x7 (![0, 1] : Fin 2 → Fin S128x7.rank)
  bcast_S_S128x7 : S_.BroadcastsInDim S128x7 (![] : Fin 0 → Fin S128x7.rank)
  bcast_S_S1x7 : S_.BroadcastsInDim S1x7 (![] : Fin 0 → Fin S1x7.rank)
  bcast_S128x7_S128x7x1_0_1 : S128x7.BroadcastsInDim S128x7x1 (![0, 1] : Fin 2 → Fin S128x7x1.rank)
  bcast_S5_S1x1x5_2 : S5.BroadcastsInDim S1x1x5 (![2] : Fin 1 → Fin S1x1x5.rank)
  bcast_S128x7x1_S128x7x5_0_1_2 : S128x7x1.BroadcastsInDim S128x7x5 (![0, 1, 2] : Fin 3 → Fin S128x7x5.rank)
  bcast_S1x1x5_S128x7x5_0_1_2 : S1x1x5.BroadcastsInDim S128x7x5 (![0, 1, 2] : Fin 3 → Fin S128x7x5.rank)
  bcast_S_S128x7x5 : S_.BroadcastsInDim S128x7x5 (![] : Fin 0 → Fin S128x7x5.rank)
  bcast_S128x7x5_S128x7x5x1_0_1_2 : S128x7x5.BroadcastsInDim S128x7x5x1 (![0, 1, 2] : Fin 3 → Fin S128x7x5x1.rank)
  bcast_S128x7x5_S1x128x7x5x1_1_2_3 : S128x7x5.BroadcastsInDim S1x128x7x5x1 (![1, 2, 3] : Fin 3 → Fin S1x128x7x5x1.rank)
  bcast_S1x128x7x5x1_S512x128x7x5x32_0_1_2_3_4 : S1x128x7x5x1.BroadcastsInDim S512x128x7x5x32 (![0, 1, 2, 3, 4] : Fin 5 → Fin S512x128x7x5x32.rank)
  bcast_S_S512x128x7x5x32 : S_.BroadcastsInDim S512x128x7x5x32 (![] : Fin 0 → Fin S512x128x7x5x32.rank)
  reducesTo_S512x128x7x5x32_S512x128x7x32_d3 : S512x128x7x5x32.ReducesTo [3] S512x128x7x32
  h_S_ : 0 < S_.numel
  transposes_S512x128x7x32_S128x512x7x32_1_0_2_3 : S512x128x7x32.Transposes [1, 0, 2, 3] S128x512x7x32
  bcast_S128x7x5_S128x1x1x7x5_0_3_4 : S128x7x5.BroadcastsInDim S128x1x1x7x5 (![0, 3, 4] : Fin 3 → Fin S128x1x1x7x5.rank)
  bcast_S128x1x1x7x5_S128x512x7x7x5_0_1_2_3_4 : S128x1x1x7x5.BroadcastsInDim S128x512x7x7x5 (![0, 1, 2, 3, 4] : Fin 5 → Fin S128x512x7x7x5.rank)
  bcast_S_S128x512x7x7x5 : S_.BroadcastsInDim S128x512x7x7x5 (![] : Fin 0 → Fin S128x512x7x7x5.rank)
  reducesTo_S128x512x7x7x5_S128x512x7x7_d4 : S128x512x7x7x5.ReducesTo [4] S128x512x7x7
  shapeCasts_S128x512x7x7_S128x25088 : S128x512x7x7.ShapeCasts S128x25088
  bcast_S4096_S1x4096_1 : S4096.BroadcastsInDim S1x4096 (![1] : Fin 1 → Fin S1x4096.rank)
  bcast_S1x4096_S128x4096_0_1 : S1x4096.BroadcastsInDim S128x4096 (![0, 1] : Fin 2 → Fin S128x4096.rank)
  bcast_S_S128x4096 : S_.BroadcastsInDim S128x4096 (![] : Fin 0 → Fin S128x4096.rank)
  bcast_S21_S1x21_1 : S21.BroadcastsInDim S1x21 (![1] : Fin 1 → Fin S1x21.rank)
  bcast_S1x21_S128x21_0_1 : S1x21.BroadcastsInDim S128x21 (![0, 1] : Fin 2 → Fin S128x21.rank)
  reducesTo_S128x21_S128_d1 : S128x21.ReducesTo [1] S128
  bcast_S128x1_S128x21_0_1 : S128x1.BroadcastsInDim S128x21 (![0, 1] : Fin 2 → Fin S128x21.rank)
  bcast_S84_S1x84_1 : S84.BroadcastsInDim S1x84 (![1] : Fin 1 → Fin S1x84.rank)
  bcast_S1x84_S128x84_0_1 : S1x84.BroadcastsInDim S128x84 (![0, 1] : Fin 2 → Fin S128x84.rank)
  concatenates_S128x21_S128x84_S128x105_d1 : Shape.Concatenates [S128x21, S128x84] S128x105 1
  gather_S512x32x32_S128x7x5x1_S512x128x7x5x32_04_1_n_n_1_3_512132_wf : GatherDims.WF S512x32x32 S128x7x5x1 S512x128x7x5x32 [0, 4] [1] [] [1] [] 3 ![512, 1, 32]
  gather_S128x512x7x32_S128x7x5x1_S128x512x7x7x5_12_3_0_0_3_3_151271_wf : GatherDims.WF S128x512x7x32 S128x7x5x1 S128x512x7x7x5 [1, 2] [3] [0] [3] [0] 3 ![1, 512, 7, 1]
  dot_S128x25088_S25088x4096_S128x4096_1_0_0_1_n_n_wf : DotDims.WF S128x25088 S25088x4096 S128x4096 [1] [0] [0] [1] [] []
  dot_S128x4096_S4096x4096_S128x4096_1_0_0_1_n_n_wf : DotDims.WF S128x4096 S4096x4096 S128x4096 [1] [0] [0] [1] [] []
  dot_S128x4096_S4096x21_S128x21_1_0_0_1_n_n_wf : DotDims.WF S128x4096 S4096x21 S128x21 [1] [0] [0] [1] [] []
  dot_S128x4096_S4096x84_S128x84_1_0_0_1_n_n_wf : DotDims.WF S128x4096 S4096x84 S128x84 [1] [0] [0] [1] [] []

variable [Facts₀]

def gather_S512x32x32_S128x7x5x1_S512x128x7x5x32_04_1_n_n_1_3_512132 : GatherDims S512x32x32 S128x7x5x1 S512x128x7x5x32 where
  offsetDims := [0, 4]
  collapsedSliceDims := [1]
  operandBatchingDims := []
  startIndicesBatchingDims := []
  startIndexMap := [1]
  indexVectorDim := 3
  sliceSizes := ![512, 1, 32]
  wf := gather_S512x32x32_S128x7x5x1_S512x128x7x5x32_04_1_n_n_1_3_512132_wf
def gather_S128x512x7x32_S128x7x5x1_S128x512x7x7x5_12_3_0_0_3_3_151271 : GatherDims S128x512x7x32 S128x7x5x1 S128x512x7x7x5 where
  offsetDims := [1, 2]
  collapsedSliceDims := [3]
  operandBatchingDims := [0]
  startIndicesBatchingDims := [0]
  startIndexMap := [3]
  indexVectorDim := 3
  sliceSizes := ![1, 512, 7, 1]
  wf := gather_S128x512x7x32_S128x7x5x1_S128x512x7x7x5_12_3_0_0_3_3_151271_wf
def dot_S128x25088_S25088x4096_S128x4096_1_0_0_1_n_n : DotDims S128x25088 S25088x4096 S128x4096 where
  lhsContracting := [1]
  rhsContracting := [0]
  lhsNonContracting := [0]
  rhsNonContracting := [1]
  lhsBatch := []
  rhsBatch := []
  wf := dot_S128x25088_S25088x4096_S128x4096_1_0_0_1_n_n_wf
def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf
def dot_S128x4096_S4096x21_S128x21_1_0_0_1_n_n : DotDims S128x4096 S4096x21 S128x21 where
  lhsContracting := [1]
  rhsContracting := [0]
  lhsNonContracting := [0]
  rhsNonContracting := [1]
  lhsBatch := []
  rhsBatch := []
  wf := dot_S128x4096_S4096x21_S128x21_1_0_0_1_n_n_wf
def dot_S128x4096_S4096x84_S128x84_1_0_0_1_n_n : DotDims S128x4096 S4096x84 S128x84 where
  lhsContracting := [1]
  rhsContracting := [0]
  lhsNonContracting := [0]
  rhsNonContracting := [1]
  lhsBatch := []
  rhsBatch := []
  wf := dot_S128x4096_S4096x84_S128x84_1_0_0_1_n_n_wf

class Facts : Prop extends Facts₀ where

variable [Facts]
-- ==== Proof.Kernel.Reg0.Runs.lean ====
/-
  The first matrix product (25088 → 4096, rectified) as the pipeline runs it: a 4 × 7 grid, the second coordinate `k` walking the
  contraction axis in 7 tiles of 3584. At a point the body clears the accumulator when `k = 0`, adds the
  tile's product into it, and when `k = 6` adds the bias and stores the output block. This module holds what
  the cases of the body share: the two branch conditions as functions of the grid position, where the
  output window is idle, the memrefs the body is called with, and the region invariant split at the
  accumulator.
-/
import proofs.«110125_j48919677501805_2_alg».proof.Proof.Gen.Kernel.Launch
import proofs.«110125_j48919677501805_2_alg».proof.Proof.Gen.Kernel.Skeleton
import proofs.«110125_j48919677501805_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid0.Coords) : Prop := (Scalar.cmpi .ne (Scalar.extui (Scalar.cmpi .eq (BitVec.ofNat 32 (i 1).val) 0#32)) 0#32) = 1#1
/-- It holds exactly at the points whose position is a multiple of 7. -/
theorem isFirst_iff : ∀ t : Fin cfg0.N, isFirst (grid0.coords t) ↔ t.val % 7 = 0 :=
  (by decide +kernel : ∀ t : Fin grid0.N, isFirst (grid0.coords t) ↔ t.val % 7 = 0)

/-- "This is the last tile" (`k = 6`), as the body computes it. -/
abbrev isLast (i : grid0.Coords) : Prop := k0_cond2 i = 1#1
theorem isLast_iff : ∀ t : Fin cfg0.N, isLast (grid0.coords t) ↔ t.val % 7 = 6 :=
  (by decide +kernel : ∀ t : Fin grid0.N, isLast (grid0.coords t) ↔ t.val % 7 = 6)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last tile the output window is idle: nothing is stored into its buffer and nothing written back. -/
theorem idle_3 : ∀ t : Fin cfg0.N, ¬isLast (grid0.coords t) → cfg0.idle 3 (grid0.coords t) = true := by decide +kernel
theorem noFlush_3 : ∀ t : Fin cfg0.N, ¬isLast (grid0.coords t) → (cfg0.win 3).flush t = false := by decide +kernel
/-- At the last tile it is live. -/
theorem live_3 : ∀ t : Fin cfg0.N, isLast (grid0.coords t) → cfg0.idle 3 (grid0.coords t) = false := by decide +kernel

/-! ## The memrefs the body is called with -/

abbrev VO : View sig .tc .vmem S128x1024 .bf16 := (Memref.whole cc0_stg3_0 : Memref sig .tc .vmem S128x1024 .bf16).view
abbrev ms_0 (t : Fin cfg0.N) : Memref sig .tc .vmem S128x25088 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S3584x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x1024 .bf16 := win0_3.stage (cfg0.slots t 3)
abbrev hs_3 (t : Fin cfg0.N) : (ms_3 t).IsWhole := hstage0_3 ((cfg0.slots t 3).cast nbuf0_3)
/-- The accumulator: a whole scoped buffer of the kernel's own, carried from point to point. -/
abbrev accM : Memref sig .tc .vmem S128x1024 .f32 := Memref.whole cc0_scratch0
abbrev accV : View sig .tc .vmem S128x1024 .f32 := accM.view

/-- The class's region invariant with the accumulator taken out of the scoped rest as a memref owned at some
    contents; the other calls' staging buffers and accumulators stay unopened beside it. -/
theorem PhiA_eq (c : Dev nD) :
    (Pipeline.ΦA spec0 c : sProp 𝕄)
      = iprop(iprop((∃ d, owns (c : Thread nD τ) accM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [accM, owns_whole, bigSepL]
  rfl

end Cert.Kernel.Reg0

end
-- ==== Proof.Kernel.Reg0.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.Kernel.Reg0.Runs

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) :
    { LS : List (View.Piece (Elt F) S128x1024 .f32) //
      ∀ (xi3 : Vec F S128x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg0

end
-- ==== Proof.Kernel.Reg0.RunB.lean ====
/-
  The body at a middle tile of the contraction axis (`0 < k < 6`): the tile's product is added into the
  accumulator, which holds what the point before left; the output block is not touched.
-/
import proofs.«110125_j48919677501805_2_alg».proof.Proof.Kernel.Reg0.RunA

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- As at a first tile, with the accumulator entered at the contents `xs` the point before left. -/
noncomputable def kernelRun_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) :
    { LS : List (View.Piece (Elt F) S128x1024 .f32) //
      ∀ (xi3 : Vec F S128x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg0

end
-- ==== Proof.Kernel.Reg0.RunC.lean ====
/-
  The body at the last tile of the contraction axis (`k = 6`): the tile's product is added into the
  accumulator, then the accumulator plus the bias is stored as the output block.
-/
import proofs.«110125_j48919677501805_2_alg».proof.Proof.Kernel.Reg0.RunB

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) :
    Σ' (L3 : List (View.Piece (Elt F) S128x1024 .bf16)), { LS : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg0

end
-- ==== Proof.Kernel.Reg0.Data.lean ====
/-
  The proof data of the first matrix product (25088 → 4096, rectified) over its 28 grid points. The accumulator after point `n` and the
  output block's staging buffer after it are defined by recursion on `n`: a first tile (`n % 7 = 0`)
  starts from the cleared accumulator, every other tile adds onto what the point before left, and a last
  tile (`n % 7 = 6`) also produces the output block. The region invariant carries the accumulator at
  that value from one point to the next.
-/
import proofs.«110125_j48919677501805_2_alg».proof.Proof.Kernel.Reg0.RunC

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) (y : S128x1024.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) : Vec F S128x1024 .f32 :=
  accV.read (Elt F) (accV.writes (Elt F) accV.junk (kernelRun_A c i arg2 harg2 arg3 harg3 arg4 harg4 arg5 harg5 arg6 harg6 hc0 hc1 x0 x1 x2).1)

theorem scover_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) (y : S128x1024.Idx) :
    ∃ pc ∈ (kernelRun_B c i arg2 harg2 arg3 harg3 arg4 harg4 arg5 harg5 arg6 harg6 hc0 hc1 x0 x1 x2 xs).1, y ∈ pc.1.set :=
  View.cover_of_wholeMem _ (by sl_whole_mem) y
/-- What a middle tile leaves in the accumulator, entered at `xs`. -/
def sout_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) : Vec F S128x1024 .f32 :=
  accV.read (Elt F) (accV.writes (Elt F) accV.junk (kernelRun_B c i arg2 harg2 arg3 harg3 arg4 harg4 arg5 harg5 arg6 harg6 hc0 hc1 x0 x1 x2 xs).1)

theorem cover_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) (y : S128x1024.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) : Vec F S128x1024 .bf16 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) (y : S128x1024.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) : Vec F S128x1024 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x1024 .bf16 := VO.read (Elt F) (VO.writes (Elt F) VO.junk [])

/-! ## The accumulation over the grid -/

/-- The output block's buffer and the accumulator after the body at position `n`. -/
def outsAt (c : Dev nD) : (n : ℕ) → n < cfg0.N → Vec F S128x1024 .bf16 × Vec F S128x1024 .f32
  | 0, hn => (outIdle, sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 7 = 0 then
      if h1 : (n + 1) % 7 = 6 then False.elim (by omega)
      else (outIdle, sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 7 = 6 then
        (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg0.N) (h0 : t.val % 7 = 0) (h1 : ¬t.val % 7 = 6) :
    outsAt V c t.val t.isLt = (outIdle, sout_A c (grid0.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg0.N) (h0 : ¬t.val % 7 = 0) (h1 : ¬t.val % 7 = 6) :
    outsAt V c t.val t.isLt = (outIdle, sout_B c (grid0.coords t) (ms_0 t) (hs_0 t) (ms_1 t) (hs_1 t) (ms_2 t) (hs_2 t) (ms_3 t) (hs_3 t) accM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 7 = 0) (h1 : t.val % 7 = 6) :
    outsAt V c t.val t.isLt = (out_C c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec0 c [cc0_scratch0]

/-- Before position `n`: at the first point the class's invariant (the accumulator at anything); afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ restBut (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.Kernel.Reg0

end
-- ==== Proof.Kernel.Reg0.Body.lean ====
/-
  The body obligation of the first matrix product (25088 → 4096, rectified): at every grid point the body, called with each
  window's staging buffer and the accumulator, returns the buffers and the accumulator at the next
  value of the accumulation. Which run applies is read off the position (`t % 7`).
-/
import proofs.«110125_j48919677501805_2_alg».proof.Proof.Kernel.Reg0.Data

set_option maxRecDepth 16384

noncomputable section

namespace Cert.Kernel.Reg0

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 28 := lt_of_lt_of_eq t.isLt (show cfg0.N = 28 from N_0)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 7 = 0
  · by_cases h1 : t.val % 7 = 6
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid0.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid0.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 7 = 6
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid0.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((isLast_iff t).mp h))) (noFlush_3 t (fun h => h1 ((isLast_iff t).mp h)))]
      rw [outsAt_B V c t h0 h1]
      unfold sout_B; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_B c (grid0.coords t) _ _ _ _ _ _ _ _ _ _ (fun h => h0 ((isFirst_iff t).mp h)) (fun h => h1 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg0.N) ⊢ Pipeline.ΦA spec0 c :=
  Phi_out V c _ (by rw [Fin.val_last]; have : cfg0.N = 28 := N_0; omega)

end Cert.Kernel.Reg0

end
-- ==== Proof.Kernel.Reg1.Runs.lean ====
/-
  The second matrix product (4096 → 4096, rectified) as the pipeline runs it: a 8 × 2 grid, the second coordinate `k` walking the
  contraction axis in 2 tiles of 2048. At a point the body clears the accumulator when `k = 0`, adds the
  tile's product into it, and when `k = 1` adds the bias and stores the output block. This module holds what
  the cases of the body share: the two branch conditions as functions of the grid position, where the
  output window is idle, the memrefs the body is called with, and the region invariant split at the
  accumulator.
-/
import proofs.«110125_j48919677501805_2_alg».proof.Proof.Gen.Kernel.Launch
import proofs.«110125_j48919677501805_2_alg».proof.Proof.Gen.Kernel.Skeleton
import proofs.«110125_j48919677501805_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid1.Coords) : Prop := (Scalar.cmpi .ne (Scalar.extui (Scalar.cmpi .eq (BitVec.ofNat 32 (i 1).val) 0#32)) 0#32) = 1#1
/-- It holds exactly at the points whose position is a multiple of 2. -/
theorem isFirst_iff : ∀ t : Fin cfg1.N, isFirst (grid1.coords t) ↔ t.val % 2 = 0 :=
  (by decide +kernel : ∀ t : Fin grid1.N, isFirst (grid1.coords t) ↔ t.val % 2 = 0)

/-- "This is the last tile" (`k = 1`), as the body computes it. -/
abbrev isLast (i : grid1.Coords) : Prop := k1_cond2 i = 1#1
theorem isLast_iff : ∀ t : Fin cfg1.N, isLast (grid1.coords t) ↔ t.val % 2 = 1 :=
  (by decide +kernel : ∀ t : Fin grid1.N, isLast (grid1.coords t) ↔ t.val % 2 = 1)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last tile the output window is idle: nothing is stored into its buffer and nothing written back. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
/-- At the last tile it is live. -/
theorem live_3 : ∀ t : Fin cfg1.N, isLast (grid1.coords t) → cfg1.idle 3 (grid1.coords t) = false := by decide +kernel

/-! ## The memrefs the body is called with -/

abbrev VO : View sig .tc .vmem S128x512 .bf16 := (Memref.whole cc1_stg3_0 : Memref sig .tc .vmem S128x512 .bf16).view
abbrev ms_0 (t : Fin cfg1.N) : Memref sig .tc .vmem S128x4096 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x512 .bf16 := win1_3.stage (cfg1.slots t 3)
abbrev hs_3 (t : Fin cfg1.N) : (ms_3 t).IsWhole := hstage1_3 ((cfg1.slots t 3).cast nbuf1_3)
/-- The accumulator: a whole scoped buffer of the kernel's own, carried from point to point. -/
abbrev accM : Memref sig .tc .vmem S128x512 .f32 := Memref.whole cc1_scratch0
abbrev accV : View sig .tc .vmem S128x512 .f32 := accM.view

/-- The class's region invariant with the accumulator taken out of the scoped rest as a memref owned at some
    contents; the other calls' staging buffers and accumulators stay unopened beside it. -/
theorem PhiA_eq (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [accM, owns_whole, bigSepL]
  rfl

end Cert.Kernel.Reg1

end
-- ==== Proof.Kernel.Reg1.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.Kernel.Reg1.Runs

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) :
    { LS : List (View.Piece (Elt F) S128x512 .f32) //
      ∀ (xi3 : Vec F S128x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__linear_kernel i arg2 harg2 arg3 harg3 arg4 harg4 arg5 harg5 arg6 harg6) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg1

end
-- ==== Proof.Kernel.Reg1.RunC.lean ====
/-
  The body at the last tile of the contraction axis (`k = 1`): the tile's product is added into the
  accumulator, then the accumulator plus the bias is stored as the output block.
-/
import proofs.«110125_j48919677501805_2_alg».proof.Proof.Kernel.Reg1.RunA

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) :
    Σ' (L3 : List (View.Piece (Elt F) S128x512 .bf16)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg1

end
-- ==== Proof.Kernel.Reg1.Data.lean ====
/-
  The proof data of the second matrix product (4096 → 4096, rectified) over its 16 grid points. The accumulator after point `n` and the
  output block's staging buffer after it are defined by recursion on `n`: a first tile (`n % 2 = 0`)
  starts from the cleared accumulator, every other tile adds onto what the point before left, and a last
  tile (`n % 2 = 1`) also produces the output block. The region invariant carries the accumulator at
  that value from one point to the next.
-/
import proofs.«110125_j48919677501805_2_alg».proof.Proof.Kernel.Reg1.RunC

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) (y : S128x512.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) : Vec F S128x512 .f32 :=
  accV.read (Elt F) (accV.writes (Elt F) accV.junk (kernelRun_A c i arg2 harg2 arg3 harg3 arg4 harg4 arg5 harg5 arg6 harg6 hc0 hc1 x0 x1 x2).1)

theorem cover_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) (y : S128x512.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) : Vec F S128x512 .bf16 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) (y : S128x512.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) : Vec F S128x512 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x512 .bf16 := VO.read (Elt F) (VO.writes (Elt F) VO.junk [])

/-! ## The accumulation over the grid -/

/-- The output block's buffer and the accumulator after the body at position `n`. -/
def outsAt (c : Dev nD) : (n : ℕ) → n < cfg1.N → Vec F S128x512 .bf16 × Vec F S128x512 .f32
  | 0, hn => (outIdle, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 2 = 0 then
      if h1 : (n + 1) % 2 = 1 then False.elim (by omega)
      else (outIdle, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 2 = 1 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        False.elim (by omega)

theorem outsAt_A (c : Dev nD) (t : Fin cfg1.N) (h0 : t.val % 2 = 0) (h1 : ¬t.val % 2 = 1) :
    outsAt V c t.val t.isLt = (outIdle, sout_A c (grid1.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_C (c : Dev nD) (t : Fin cfg1.N) (h0 : ¬t.val % 2 = 0) (h1 : t.val % 2 = 1) :
    outsAt V c t.val t.isLt = (out_C c (grid1.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid1.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec1 c [cc1_scratch0]

/-- Before position `n`: at the first point the class's invariant (the accumulator at anything); afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) accM fullShare ((outsAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg1.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

end Cert.Kernel.Reg1

end
-- ==== Proof.Kernel.Reg1.Body.lean ====
/-
  The body obligation of the second matrix product (4096 → 4096, rectified): at every grid point the body, called with each
  window's staging buffer and the accumulator, returns the buffers and the accumulator at the next
  value of the accumulation. Which run applies is read off the position (`t % 2`).
-/
import proofs.«110125_j48919677501805_2_alg».proof.Proof.Kernel.Reg1.Data

set_option maxRecDepth 16384

noncomputable section

namespace Cert.Kernel.Reg1

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 2 = 0
  · by_cases h1 : t.val % 2 = 1
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid1.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid1.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 2 = 1
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · exfalso; omega

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg1.N) ⊢ Pipeline.ΦA spec1 c :=
  Phi_out V c _ (by rw [Fin.val_last]; have : cfg1.N = 16 := N_1; omega)

end Cert.Kernel.Reg1

end
-- ==== Proof.Kernel.Reg2.Runs.lean ====
/-
  The fused classification and box heads (4096 → 128 lanes, no rectifier) as the pipeline runs it: a 1 × 2 grid, the second coordinate `k` walking the
  contraction axis in 2 tiles of 2048. At a point the body clears the accumulator when `k = 0`, adds the
  tile's product into it, and when `k = 1` adds the bias and stores the output block. This module holds what
  the cases of the body share: the two branch conditions as functions of the grid position, where the
  output window is idle, the memrefs the body is called with, and the region invariant split at the
  accumulator.
-/
import proofs.«110125_j48919677501805_2_alg».proof.Proof.Gen.Kernel.Launch
import proofs.«110125_j48919677501805_2_alg».proof.Proof.Gen.Kernel.Skeleton
import proofs.«110125_j48919677501805_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid2.Coords) : Prop := (Scalar.cmpi .ne (Scalar.extui (Scalar.cmpi .eq (BitVec.ofNat 32 (i 1).val) 0#32)) 0#32) = 1#1
/-- It holds exactly at the points whose position is a multiple of 2. -/
theorem isFirst_iff : ∀ t : Fin cfg2.N, isFirst (grid2.coords t) ↔ t.val % 2 = 0 :=
  (by decide +kernel : ∀ t : Fin grid2.N, isFirst (grid2.coords t) ↔ t.val % 2 = 0)

/-- "This is the last tile" (`k = 1`), as the body computes it. -/
abbrev isLast (i : grid2.Coords) : Prop := k2_cond2 i = 1#1
theorem isLast_iff : ∀ t : Fin cfg2.N, isLast (grid2.coords t) ↔ t.val % 2 = 1 :=
  (by decide +kernel : ∀ t : Fin grid2.N, isLast (grid2.coords t) ↔ t.val % 2 = 1)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last tile the output window is idle: nothing is stored into its buffer and nothing written back. -/
theorem idle_3 : ∀ t : Fin cfg2.N, ¬isLast (grid2.coords t) → cfg2.idle 3 (grid2.coords t) = true := by decide +kernel
theorem noFlush_3 : ∀ t : Fin cfg2.N, ¬isLast (grid2.coords t) → (cfg2.win 3).flush t = false := by decide +kernel
/-- At the last tile it is live. -/
theorem live_3 : ∀ t : Fin cfg2.N, isLast (grid2.coords t) → cfg2.idle 3 (grid2.coords t) = false := by decide +kernel

/-! ## The memrefs the body is called with -/

abbrev VO : View sig .tc .vmem S128x128 .f32 := (Memref.whole cc2_stg3_0 : Memref sig .tc .vmem S128x128 .f32).view
abbrev ms_0 (t : Fin cfg2.N) : Memref sig .tc .vmem S128x4096 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x128 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x128 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S128x128 .f32 := win2_3.stage (cfg2.slots t 3)
abbrev hs_3 (t : Fin cfg2.N) : (ms_3 t).IsWhole := hstage2_3 ((cfg2.slots t 3).cast nbuf2_3)
/-- The accumulator: a whole scoped buffer of the kernel's own, carried from point to point. -/
abbrev accM : Memref sig .tc .vmem S128x128 .f32 := Memref.whole cc2_scratch0
abbrev accV : View sig .tc .vmem S128x128 .f32 := accM.view

/-- The class's region invariant with the accumulator taken out of the scoped rest as a memref owned at some
    contents; the other calls' staging buffers and accumulators stay unopened beside it. -/
theorem PhiA_eq (c : Dev nD) :
    (Pipeline.ΦA spec2 c : sProp 𝕄)
      = iprop(iprop((∃ d, owns (c : Thread nD τ) accM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [accM, owns_whole, bigSepL]
  rfl

end Cert.Kernel.Reg2

end
-- ==== Proof.Kernel.Reg2.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.Kernel.Reg2.Runs

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) :
    { LS : List (View.Piece (Elt F) S128x128 .f32) //
      ∀ (xi3 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__linear_kernel i arg2 harg2 arg3 harg3 arg4 harg4 arg5 harg5 arg6 harg6) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg2

end
-- ==== Proof.Kernel.Reg2.RunC.lean ====
/-
  The body at the last tile of the contraction axis (`k = 1`): the tile's product is added into the
  accumulator, then the accumulator plus the bias is stored as the output block.
-/
import proofs.«110125_j48919677501805_2_alg».proof.Proof.Kernel.Reg2.RunA

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) :
    Σ' (L3 : List (View.Piece (Elt F) S128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__linear_kernel i arg2 harg2 arg3 harg3 arg4 harg4 arg5 harg5 arg6 harg6) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg2

end
-- ==== Proof.Kernel.Reg2.Data.lean ====
/-
  The proof data of the fused classification and box heads (4096 → 128 lanes, no rectifier) over its 2 grid points. The accumulator after point `n` and the
  output block's staging buffer after it are defined by recursion on `n`: a first tile (`n % 2 = 0`)
  starts from the cleared accumulator, every other tile adds onto what the point before left, and a last
  tile (`n % 2 = 1`) also produces the output block. The region invariant carries the accumulator at
  that value from one point to the next.
-/
import proofs.«110125_j48919677501805_2_alg».proof.Proof.Kernel.Reg2.RunC

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) (y : S128x128.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) : Vec F S128x128 .f32 :=
  accV.read (Elt F) (accV.writes (Elt F) accV.junk (kernelRun_A c i arg2 harg2 arg3 harg3 arg4 harg4 arg5 harg5 arg6 harg6 hc0 hc1 x0 x1 x2).1)

theorem cover_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) (y : S128x128.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) : Vec F S128x128 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) (y : S128x128.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) : Vec F S128x128 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x128 .f32 := VO.read (Elt F) (VO.writes (Elt F) VO.junk [])

/-! ## The accumulation over the grid -/

/-- The output block's buffer and the accumulator after the body at position `n`. -/
def outsAt (c : Dev nD) : (n : ℕ) → n < cfg2.N → Vec F S128x128 .f32 × Vec F S128x128 .f32
  | 0, hn => (outIdle, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 2 = 0 then
      if h1 : (n + 1) % 2 = 1 then False.elim (by omega)
      else (outIdle, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 2 = 1 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        False.elim (by omega)

theorem outsAt_A (c : Dev nD) (t : Fin cfg2.N) (h0 : t.val % 2 = 0) (h1 : ¬t.val % 2 = 1) :
    outsAt V c t.val t.isLt = (outIdle, sout_A c (grid2.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_C (c : Dev nD) (t : Fin cfg2.N) (h0 : ¬t.val % 2 = 0) (h1 : t.val % 2 = 1) :
    outsAt V c t.val t.isLt = (out_C c (grid2.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid2.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec2 c [cc2_scratch0]

/-- Before position `n`: at the first point the class's invariant (the accumulator at anything); afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) accM fullShare ((outsAt V c n hn).2) ∗ restBut (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg2.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.Kernel.Reg2

end
-- ==== Proof.Kernel.Reg2.Body.lean ====
/-
  The body obligation of the fused classification and box heads (4096 → 128 lanes, no rectifier): at every grid point the body, called with each
  window's staging buffer and the accumulator, returns the buffers and the accumulator at the next
  value of the accumulation. Which run applies is read off the position (`t % 2`).
-/
import proofs.«110125_j48919677501805_2_alg».proof.Proof.Kernel.Reg2.Data

set_option maxRecDepth 16384

noncomputable section

namespace Cert.Kernel.Reg2

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 2 := lt_of_lt_of_eq t.isLt (show cfg2.N = 2 from N_2)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 2 = 0
  · by_cases h1 : t.val % 2 = 1
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid2.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid2.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 2 = 1
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid2.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · exfalso; omega

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg2.N) ⊢ Pipeline.ΦA spec2 c :=
  Phi_out V c _ (by rw [Fin.val_last]; have : cfg2.N = 2 := N_2; omega)

end Cert.Kernel.Reg2

end
-- ==== Proof.Kernel.Regs.lean ====
/-
  The three matrix products as segments of the program, stated over ANY contents of the buffers at each
  region's entry (the entry contents are variables here: the run instantiates them with what the host
  stretches before each region leave). A region leaves every buffer as entered but its output array,
  which holds the fold of the pipeline's write-backs.
-/
import proofs.«110125_j48919677501805_2_alg».proof.Proof.Gen.Kernel.Regions
import proofs.«110125_j48919677501805_2_alg».proof.Proof.Kernel.Reg0.Body
import proofs.«110125_j48919677501805_2_alg».proof.Proof.Kernel.Reg1.Body
import proofs.«110125_j48919677501805_2_alg».proof.Proof.Kernel.Reg2.Body
import Idealize.ShloMosaic.Lib.Pipeline.RegionsLoop
import Idealize.ShloMosaic.Lib.Pipeline.FrameSuffix

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the fold of a region's write-backs stays folded: nothing here opens it
attribute [local irreducible] Pipeline.Dat.arrAt

/-- A valuation of the core's buffers read at the TensorCore's references. -/
abbrev entryOf (Vin : (c : Dev nD) → Valuation τ sig (Elt F)) : (c : Dev nD) → (b : Ref sig .tc) → Buf (Elt F) ((c : Thread nD τ).loc b) :=
  fun c b => Vin c b

/-! ### Region 0 -/

/-- What region 0 leaves in buffer `r`: its arrays at the fold of the write-backs, every other buffer as entered. -/
def outOf0 (Vin : (c : Dev nD) → Valuation τ sig (Elt F)) (r : Ref sig .tc) (c : Dev nD) : Buf (Elt F) ((c : Thread nD τ).loc r) :=
  Pipeline.withArrays spec0 c (Vin c) (fun w => (Reg0.dat (entryOf Vin) c).arrAt w cfg0.N) (Proc.devRef .tc r)
/-- The buffers after region 0: as entered, but for its output array. -/
abbrev exit0 (Vin : (c : Dev nD) → Valuation τ sig (Elt F)) (c : Dev nD) : Valuation τ sig (Elt F) :=
  Function.update (Vin c) main_v110 (outOf0 Vin main_v110 c)

set_option maxHeartbeats 4000000 in
/-- At the region's exit each of its arrays holds what the pipeline leaves — an input as entered, the output at its
    folded write-backs — -/
theorem hF0 (Vin : (c : Dev nD) → Valuation τ sig (Elt F)) (c : Dev nD) (w : Fin cfg0.W) :
    (Reg0.dat (entryOf Vin) c).arrAt w cfg0.N = exit0 Vin c (Pipeline.arrRef spec0 w) := by
  match w with
  | ⟨0, _⟩ => exact (((Reg0.dat (entryOf Vin) c).arrAt_in 0 rfl _).trans (Reg0.A_eq (entryOf Vin) c 0)).trans (Function.update_of_ne (StableHlo.devRef_ne_of_ne (by decide)) _ _).symm
  | ⟨1, _⟩ => exact (((Reg0.dat (entryOf Vin) c).arrAt_in 1 rfl _).trans (Reg0.A_eq (entryOf Vin) c 1)).trans (Function.update_of_ne (StableHlo.devRef_ne_of_ne (by decide)) _ _).symm
  | ⟨2, _⟩ => exact (((Reg0.dat (entryOf Vin) c).arrAt_in 2 rfl _).trans (Reg0.A_eq (entryOf Vin) c 2)).trans (Function.update_of_ne (StableHlo.devRef_ne_of_ne (by decide)) _ _).symm
  | ⟨3, _⟩ =>
    have h1 : outOf0 Vin main_v110 c = (Reg0.dat (entryOf Vin) c).arrAt 3 cfg0.N :=
      Pipeline.withArrays_arr spec0 launch0.win.arr_inj c (Vin c) (fun w => (Reg0.dat (entryOf Vin) c).arrAt w cfg0.N) 3
    have h2 : exit0 Vin c (Proc.devRef .tc main_v110) = outOf0 Vin main_v110 c :=
      Function.update_self (Proc.devRef .tc main_v110) (outOf0 Vin main_v110 c) (Vin c)
    exact (h2.trans h1).symm
/-- and every other buffer what it held at entry. -/
theorem hrest0 (Vin : (c : Dev nD) → Valuation τ sig (Elt F)) (c : Dev nD) :
    ∀ b, b ∉ Finset.univ.image (Pipeline.arrRef spec0) → (exit0 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ### Region 1 -/

/-- What region 1 leaves in buffer `r`: its arrays at the fold of the write-backs, every other buffer as entered. -/
def outOf1 (Vin : (c : Dev nD) → Valuation τ sig (Elt F)) (r : Ref sig .tc) (c : Dev nD) : Buf (Elt F) ((c : Thread nD τ).loc r) :=
  Pipeline.withArrays spec1 c (Vin c) (fun w => (Reg1.dat (entryOf Vin) c).arrAt w cfg1.N) (Proc.devRef .tc r)
/-- The buffers after region 1: as entered, but for its output array. -/
abbrev exit1 (Vin : (c : Dev nD) → Valuation τ sig (Elt F)) (c : Dev nD) : Valuation τ sig (Elt F) :=
  Function.update (Vin c) main_v113 (outOf1 Vin main_v113 c)

set_option maxHeartbeats 4000000 in
/-- At the region's exit each of its arrays holds what the pipeline leaves — an input as entered, the output at its
    folded write-backs — -/
theorem hF1 (Vin : (c : Dev nD) → Valuation τ sig (Elt F)) (c : Dev nD) (w : Fin cfg1.W) :
    (Reg1.dat (entryOf Vin) c).arrAt w cfg1.N = exit1 Vin c (Pipeline.arrRef spec1 w) := by
  match w with
  | ⟨0, _⟩ => exact (((Reg1.dat (entryOf Vin) c).arrAt_in 0 rfl _).trans (Reg1.A_eq (entryOf Vin) c 0)).trans (Function.update_of_ne (StableHlo.devRef_ne_of_ne (by decide)) _ _).symm
  | ⟨1, _⟩ => exact (((Reg1.dat (entryOf Vin) c).arrAt_in 1 rfl _).trans (Reg1.A_eq (entryOf Vin) c 1)).trans (Function.update_of_ne (StableHlo.devRef_ne_of_ne (by decide)) _ _).symm
  | ⟨2, _⟩ => exact (((Reg1.dat (entryOf Vin) c).arrAt_in 2 rfl _).trans (Reg1.A_eq (entryOf Vin) c 2)).trans (Function.update_of_ne (StableHlo.devRef_ne_of_ne (by decide)) _ _).symm
  | ⟨3, _⟩ =>
    have h1 : outOf1 Vin main_v113 c = (Reg1.dat (entryOf Vin) c).arrAt 3 cfg1.N :=
      Pipeline.withArrays_arr spec1 launch1.win.arr_inj c (Vin c) (fun w => (Reg1.dat (entryOf Vin) c).arrAt w cfg1.N) 3
    have h2 : exit1 Vin c (Proc.devRef .tc main_v113) = outOf1 Vin main_v113 c :=
      Function.update_self (Proc.devRef .tc main_v113) (outOf1 Vin main_v113 c) (Vin c)
    exact (h2.trans h1).symm
/-- and every other buffer what it held at entry. -/
theorem hrest1 (Vin : (c : Dev nD) → Valuation τ sig (Elt F)) (c : Dev nD) :
    ∀ b, b ∉ Finset.univ.image (Pipeline.arrRef spec1) → (exit1 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ### Region 2 -/

/-- What region 2 leaves in buffer `r`: its arrays at the fold of the write-backs, every other buffer as entered. -/
def outOf2 (Vin : (c : Dev nD) → Valuation τ sig (Elt F)) (r : Ref sig .tc) (c : Dev nD) : Buf (Elt F) ((c : Thread nD τ).loc r) :=
  Pipeline.withArrays spec2 c (Vin c) (fun w => (Reg2.dat (entryOf Vin) c).arrAt w cfg2.N) (Proc.devRef .tc r)
/-- The buffers after region 2: as entered, but for its output array. -/
abbrev exit2 (Vin : (c : Dev nD) → Valuation τ sig (Elt F)) (c : Dev nD) : Valuation τ sig (Elt F) :=
  Function.update (Vin c) main_v120 (outOf2 Vin main_v120 c)

set_option maxHeartbeats 4000000 in
/-- At the region's exit each of its arrays holds what the pipeline leaves — an input as entered, the output at its
    folded write-backs — -/
theorem hF2 (Vin : (c : Dev nD) → Valuation τ sig (Elt F)) (c : Dev nD) (w : Fin cfg2.W) :
    (Reg2.dat (entryOf Vin) c).arrAt w cfg2.N = exit2 Vin c (Pipeline.arrRef spec2 w) := by
  match w with
  | ⟨0, _⟩ => exact (((Reg2.dat (entryOf Vin) c).arrAt_in 0 rfl _).trans (Reg2.A_eq (entryOf Vin) c 0)).trans (Function.update_of_ne (StableHlo.devRef_ne_of_ne (by decide)) _ _).symm
  | ⟨1, _⟩ => exact (((Reg2.dat (entryOf Vin) c).arrAt_in 1 rfl _).trans (Reg2.A_eq (entryOf Vin) c 1)).trans (Function.update_of_ne (StableHlo.devRef_ne_of_ne (by decide)) _ _).symm
  | ⟨2, _⟩ => exact (((Reg2.dat (entryOf Vin) c).arrAt_in 2 rfl _).trans (Reg2.A_eq (entryOf Vin) c 2)).trans (Function.update_of_ne (StableHlo.devRef_ne_of_ne (by decide)) _ _).symm
  | ⟨3, _⟩ =>
    have h1 : outOf2 Vin main_v120 c = (Reg2.dat (entryOf Vin) c).arrAt 3 cfg2.N :=
      Pipeline.withArrays_arr spec2 launch2.win.arr_inj c (Vin c) (fun w => (Reg2.dat (entryOf Vin) c).arrAt w cfg2.N) 3
    have h2 : exit2 Vin c (Proc.devRef .tc main_v120) = outOf2 Vin main_v120 c :=
      Function.update_self (Proc.devRef .tc main_v120) (outOf2 Vin main_v120 c) (Vin c)
    exact (h2.trans h1).symm
/-- and every other buffer what it held at entry. -/
theorem hrest2 (Vin : (c : Dev nD) → Valuation τ sig (Elt F)) (c : Dev nD) :
    ∀ b, b ∉ Finset.univ.image (Pipeline.arrRef spec2) → (exit2 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ## The proof data family and the thread state -/

variable (Vin0 Vin1 Vin2 : (c : Dev nD) → Valuation τ sig (Elt F))

/-- Each pipeline's proof data at its region's entry contents: a literal match. -/
def pdats : (p : Fin 3) → (c : Dev nD) → Dat τ (Elt F) Unit ℕ (UR sig nD τ) ℕ (cfgs p) c
  | ⟨0, _⟩ => fun c => Reg0.dat (entryOf Vin0) c
  | ⟨1, _⟩ => fun c => Reg1.dat (entryOf Vin1) c
  | ⟨2, _⟩ => fun c => Reg2.dat (entryOf Vin2) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The regions as segments -/

-- a library lemma stated over `pin pcs a p` unifies with the pinned configuration only when unification may unfold
-- plain definitions in a metavariable's type
set_option backward.isDefEq.respectTransparency.types false in
/-- Region 0 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg0 : Pipeline.RegionSeg (pcfgs (F := F)) adm (pdats Vin0 Vin1 Vin2) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (entryOf Vin0) c).loose
  hwaits := Pipeline.hwaits_of_owed_zero _ _ _ _ L lv 0 fun _ _ => rfl
  pre c := iprop(StableHlo.held (c : Thread nD τ) (Pipeline.ucRefs τ sig) (Vin0 c) ∗ R c)
  post c := iprop(StableHlo.held (c : Thread nD τ) (Pipeline.ucRefs τ sig) (exit0 Vin0 c) ∗ R c)
  X c := iprop(∃ r, prngReg c r)
  Y c := iprop(∃ r, prngReg c r)
  Z c := Pipeline.unscopedRest (Ix := Unit) (Name := ℕ) (U := UR sig nD τ) (Lvl := ℕ) spec0 c (entryOf Vin0 c)
  hentry c := by
    rw [Pipeline.ownSems0_none]
    have hsplit := Pipeline.arrays_of_unscopedBufs (p := 0) (pcfgs (F := F)) adm (pdats Vin0 Vin1 Vin2) launch0.win launch0.arr_whole c
      ((pdats Vin0 Vin1 Vin2 0 c).share_full fun _ => rfl) (entryOf Vin0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg0.hin (entryOf Vin0) c
    unfold Pipeline.ΦA at h
    rw [show (pdats Vin0 Vin1 Vin2 0 c).Φ 0 = (Reg0.dat (entryOf Vin0) c).Φ 0 from rfl]
    iintro ⟨Hp, -, Hr⟩
    iapply h
    isplitl [Hr]; · iexact Hr
    iexact Hp
  hout c := by
    rw [Pipeline.ownSems0_none]
    have h := Reg0.hout (entryOf Vin0) c
    unfold Pipeline.ΦA at h
    rw [show (pdats Vin0 Vin1 Vin2 0 c).Φ (Fin.last _) = (Reg0.dat (entryOf Vin0) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats Vin0 Vin1 Vin2) ((pdats Vin0 Vin1 Vin2 0 c).share_full fun _ => rfl)
      (entryOf Vin0 c) (fun b => exit0 Vin0 c b) ((pdats Vin0 Vin1 Vin2 0 c).arrAt · cfg0.N) (hF0 Vin0 c) (hrest0 Vin0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg1 : Pipeline.RegionSeg (pcfgs (F := F)) adm (pdats Vin0 Vin1 Vin2) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (entryOf Vin1) c).loose
  hwaits := Pipeline.hwaits_of_owed_zero _ _ _ _ L lv 1 fun _ _ => rfl
  pre c := iprop(StableHlo.held (c : Thread nD τ) (Pipeline.ucRefs τ sig) (Vin1 c) ∗ R c)
  post c := iprop(StableHlo.held (c : Thread nD τ) (Pipeline.ucRefs τ sig) (exit1 Vin1 c) ∗ R c)
  X c := iprop(∃ r, prngReg c r)
  Y c := iprop(∃ r, prngReg c r)
  Z c := Pipeline.unscopedRest (Ix := Unit) (Name := ℕ) (U := UR sig nD τ) (Lvl := ℕ) spec1 c (entryOf Vin1 c)
  hentry c := by
    rw [Pipeline.ownSems0_none]
    have hsplit := Pipeline.arrays_of_unscopedBufs (p := 1) (pcfgs (F := F)) adm (pdats Vin0 Vin1 Vin2) launch1.win launch1.arr_whole c
      ((pdats Vin0 Vin1 Vin2 1 c).share_full fun _ => rfl) (entryOf Vin1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg1.hin (entryOf Vin1) c
    unfold Pipeline.ΦA at h
    rw [show (pdats Vin0 Vin1 Vin2 1 c).Φ 0 = (Reg1.dat (entryOf Vin1) c).Φ 0 from rfl]
    iintro ⟨Hp, -, Hr⟩
    iapply h
    isplitl [Hr]; · iexact Hr
    iexact Hp
  hout c := by
    rw [Pipeline.ownSems0_none]
    have h := Reg1.hout (entryOf Vin1) c
    unfold Pipeline.ΦA at h
    rw [show (pdats Vin0 Vin1 Vin2 1 c).Φ (Fin.last _) = (Reg1.dat (entryOf Vin1) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats Vin0 Vin1 Vin2) ((pdats Vin0 Vin1 Vin2 1 c).share_full fun _ => rfl)
      (entryOf Vin1 c) (fun b => exit1 Vin1 c b) ((pdats Vin0 Vin1 Vin2 1 c).arrAt · cfg1.N) (hF1 Vin1 c) (hrest1 Vin1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg2 : Pipeline.RegionSeg (pcfgs (F := F)) adm (pdats Vin0 Vin1 Vin2) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (entryOf Vin2) c).loose
  hwaits := Pipeline.hwaits_of_owed_zero _ _ _ _ L lv 2 fun _ _ => rfl
  pre c := iprop(StableHlo.held (c : Thread nD τ) (Pipeline.ucRefs τ sig) (Vin2 c) ∗ R c)
  post c := iprop(StableHlo.held (c : Thread nD τ) (Pipeline.ucRefs τ sig) (exit2 Vin2 c) ∗ R c)
  X c := iprop(∃ r, prngReg c r)
  Y c := iprop(∃ r, prngReg c r)
  Z c := Pipeline.unscopedRest (Ix := Unit) (Name := ℕ) (U := UR sig nD τ) (Lvl := ℕ) spec2 c (entryOf Vin2 c)
  hentry c := by
    rw [Pipeline.ownSems0_none]
    have hsplit := Pipeline.arrays_of_unscopedBufs (p := 2) (pcfgs (F := F)) adm (pdats Vin0 Vin1 Vin2) launch2.win launch2.arr_whole c
      ((pdats Vin0 Vin1 Vin2 2 c).share_full fun _ => rfl) (entryOf Vin2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg2.hin (entryOf Vin2) c
    unfold Pipeline.ΦA at h
    rw [show (pdats Vin0 Vin1 Vin2 2 c).Φ 0 = (Reg2.dat (entryOf Vin2) c).Φ 0 from rfl]
    iintro ⟨Hp, -, Hr⟩
    iapply h
    isplitl [Hr]; · iexact Hr
    iexact Hp
  hout c := by
    rw [Pipeline.ownSems0_none]
    have h := Reg2.hout (entryOf Vin2) c
    unfold Pipeline.ΦA at h
    rw [show (pdats Vin0 Vin1 Vin2 2 c).Φ (Fin.last _) = (Reg2.dat (entryOf Vin2) c).Φ (Fin.last cfg2.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats Vin0 Vin1 Vin2) ((pdats Vin0 Vin1 Vin2 2 c).share_full fun _ => rfl)
      (entryOf Vin2 c) (fun b => exit2 Vin2 c b) ((pdats Vin0 Vin1 Vin2 2 c).arrAt · cfg2.N) (hF2 Vin2 c) (hrest2 Vin2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Run

end
-- ==== Proof.Kernel.Run.lean ====
/-
  The whole program as the segment list of its 27 items, each region entered from the buffers as the host
  stretch before it left them: the first product from the pooled features, the second from the first's
  output, the fused heads from the second's. The run ends with every unscoped buffer read back at the last
  boundary's contents; "the arguments end as launched" and the value of the result are read off that.
-/
import proofs.«110125_j48919677501805_2_alg».proof.Proof.Kernel.Regs

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, as the boundaries' contents read it -/

def outsA : Outs (F := F) := fun J r c => match J with
  | 18 => outOf0 (V17 m) r c
  | _ => m ((c : Thread nD τ).loc r)
def outsB : Outs (F := F) := fun J r c => match J with
  | 18 => outOf0 (V17 m) r c
  | 20 => outOf1 (V19 m (outsA m)) r c
  | _ => m ((c : Thread nD τ).loc r)
/-- After the first product its output array holds the fold of its write-backs; the second is entered from there, and
    so on: each stage is defined from the stage before. -/
def outs : Outs (F := F) := fun J r c => match J with
  | 18 => outOf0 (V17 m) r c
  | 20 => outOf1 (V19 m (outsA m)) r c
  | 26 => outOf2 (V25 m (outsB m)) r c
  | _ => m ((c : Thread nD τ).loc r)

/-- The entry contents of the three regions. -/
abbrev in0 : (c : Dev nD) → Valuation τ sig (Elt F) := V17 m
abbrev in1 : (c : Dev nD) → Valuation τ sig (Elt F) := V19 m (outsA m)
abbrev in2 : (c : Dev nD) → Valuation τ sig (Elt F) := V25 m (outsB m)

theorem V18_eq (c : Dev nD) : V18 m (outs m) c = exit0 (in0 m) c := rfl
theorem V19_eq (c : Dev nD) : V19 m (outs m) c = in1 m c := rfl
theorem V20_eq (c : Dev nD) : V20 m (outs m) c = exit1 (in1 m) c := rfl
theorem V25_eq (c : Dev nD) : V25 m (outs m) c = in2 m c := rfl
theorem V26_eq (c : Dev nD) : V26 m (outs m) c = exit2 (in2 m) c := rfl

abbrev dats : (p : Fin 3) → (c : Dev nD) → Dat τ (Elt F) Unit ℕ (UR sig nD τ) ℕ (cfgs p) c := pdats (in0 m) (in1 m) (in2 m)
abbrev E : Fin 4 → Dev nD → sProp 𝕄 := fun _ c => R c
abbrev r0 := reg0 (F := F) (in0 m) (in1 m) (in2 m)
abbrev r1 := reg1 (F := F) (in0 m) (in1 m) (in2 m)
abbrev r2 := reg2 (F := F) (in0 m) (in1 m) (in2 m)

/-! ## Each region is entered from the stretch before it and leaves to the stretch after it -/

theorem hpre0 (c : Dev nD) : iprop(StableHlo.held (c : Thread nD τ) (Pipeline.ucRefs τ sig) (V17 m c) ∗ E (F := F) 0 c) ⊢ (r0 m).pre c := .rfl
theorem hpost0 (c : Dev nD) : (r0 m).post c ⊢ iprop(StableHlo.held (c : Thread nD τ) (Pipeline.ucRefs τ sig) (V18 m (outs m) c) ∗ E (F := F) 1 c) := by
  rw [V18_eq]; exact .rfl
theorem hpre1 (c : Dev nD) : iprop(StableHlo.held (c : Thread nD τ) (Pipeline.ucRefs τ sig) (V19 m (outs m) c) ∗ E (F := F) 1 c) ⊢ (r1 m).pre c := by
  rw [V19_eq]; exact .rfl
theorem hpost1 (c : Dev nD) : (r1 m).post c ⊢ iprop(StableHlo.held (c : Thread nD τ) (Pipeline.ucRefs τ sig) (V20 m (outs m) c) ∗ E (F := F) 2 c) := by
  rw [V20_eq]; exact .rfl
theorem hpre2 (c : Dev nD) : iprop(StableHlo.held (c : Thread nD τ) (Pipeline.ucRefs τ sig) (V25 m (outs m) c) ∗ E (F := F) 2 c) ⊢ (r2 m).pre c := by
  rw [V25_eq]; exact .rfl
theorem hpost2 (c : Dev nD) : (r2 m).post c ⊢ iprop(StableHlo.held (c : Thread nD τ) (Pipeline.ucRefs τ sig) (V26 m (outs m) c) ∗ E (F := F) 3 c) := by
  rw [V26_eq]; exact .rfl
theorem hlast (c : Dev nD) : (E (F := F) 3 c) ⊢ (iprop(∃ W, owes (c : Thread nD τ) (0 : CellTallies nD τ sig Unit) W) : sProp 𝕄) := by
  iintro ⟨-, HO⟩
  iexact HO

/-! ## The run -/

-- the launch theorem's implicit arguments are found by unifying its conclusion with this one, which takes unfolding
-- plain definitions in a metavariable's type
set_option backward.isDefEq.respectTransparency.types false in
set_option maxHeartbeats 2000000 in
/-- From any memory with zero counters every weakly fair execution of the program terminates, nothing faulting, and
    every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = V27 m (outs m) c b) := by
  refine Pipeline.θ_run_regions_kit_dev (pcfgs (F := F)) adm (dats m) () cellOf_inj emb₁ defs₀ 𝒱₀ L lv m ρ main
    (segs m (outs m) 𝒱₀ L lv (E (F := F)) () (dats m) (r0 m) (r1 m) (r2 m))
    (fun c Q => by
      rewrite [main_chain c, Seg.run_eq_chain,
        show (segs m (outs m) 𝒱₀ L lv (E (F := F)) () (dats m) (r0 m) (r1 m) (r2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V27 m (outs m) c))
    (hch := fun c => ⟨.rfl, .rfl, .rfl, .rfl, .rfl, .rfl, .rfl, .rfl, .rfl, .rfl, .rfl, .rfl, .rfl, .rfl, .rfl, .rfl, .rfl,
      hpre0 m c, hpost0 m c, hpre1 m c, hpost1 m c, .rfl, .rfl, .rfl, .rfl, hpre2 m c, hpost2 m c, sep_mono .rfl (hlast c)⟩)
    (hinit := ?_)
    (QY := fun c s => ∀ b ∈ Pipeline.ucRefs τ sig, s.mem (((c : Thread nD τ)).1, b) = V27 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V27 m (outs m) c) s')
    isplitl [Hh] <;> iassumption

end Cert.Kernel.Run

end
-- ==== Proof.Kernel.Frame.lean ====
/-
  The arguments end as launched: no host stretch and no region writes an argument array, so the last
  boundary's contents at an argument are the launch contents, and the run ends with every buffer at the
  last boundary's contents.
-/
import proofs.«110125_j48919677501805_2_alg».proof.Proof.Kernel.Run

set_option maxRecDepth 16384

noncomputable section

namespace Cert.Kernel.Run

open Cert.Kernel Cert.Kernel.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_arg0) (Finset.mem_filter.mpr ⟨StableHlo.devRef_mem_tcRefs main_arg0, by decide⟩)).trans (V27_main_arg0 m (outs m) c),
      (h c (Proc.devRef .tc main_arg1) (Finset.mem_filter.mpr ⟨StableHlo.devRef_mem_tcRefs main_arg1, by decide⟩)).trans (V27_main_arg1 m (outs m) c),
      (h c (Proc.devRef .tc main_arg2) (Finset.mem_filter.mpr ⟨StableHlo.devRef_mem_tcRefs main_arg2, by decide⟩)).trans (V27_main_arg2 m (outs m) c),
      (h c (Proc.devRef .tc main_arg3) (Finset.mem_filter.mpr ⟨StableHlo.devRef_mem_tcRefs main_arg3, by decide⟩)).trans (V27_main_arg3 m (outs m) c),
      (h c (Proc.devRef .tc main_arg4) (Finset.mem_filter.mpr ⟨StableHlo.devRef_mem_tcRefs main_arg4, by decide⟩)).trans (V27_main_arg4 m (outs m) c),
      (h c (Proc.devRef .tc main_arg5) (Finset.mem_filter.mpr ⟨StableHlo.devRef_mem_tcRefs main_arg5, by decide⟩)).trans (V27_main_arg5 m (outs m) c),
      (h c (Proc.devRef .tc main_arg6) (Finset.mem_filter.mpr ⟨StableHlo.devRef_mem_tcRefs main_arg6, by decide⟩)).trans (V27_main_arg6 m (outs m) c),
      (h c (Proc.devRef .tc main_arg7) (Finset.mem_filter.mpr ⟨StableHlo.devRef_mem_tcRefs main_arg7, by decide⟩)).trans (V27_main_arg7 m (outs m) c),
      (h c (Proc.devRef .tc main_arg8) (Finset.mem_filter.mpr ⟨StableHlo.devRef_mem_tcRefs main_arg8, by decide⟩)).trans (V27_main_arg8 m (outs m) c),
      (h c (Proc.devRef .tc main_arg9) (Finset.mem_filter.mpr ⟨StableHlo.devRef_mem_tcRefs main_arg9, by decide⟩)).trans (V27_main_arg9 m (outs m) c)⟩) (run m ρ)

end Cert.Kernel.Run

end
-- ==== Proof.KernelIdeal.Reg0.Runs.lean ====
/-
  The first matrix product (25088 → 4096, rectified) as the pipeline runs it: a 4 × 7 grid, the second coordinate `k` walking the
  contraction axis in 7 tiles of 3584. At a point the body clears the accumulator when `k = 0`, adds the
  tile's product into it, and when `k = 6` adds the bias and stores the output block. This module holds what
  the cases of the body share: the two branch conditions as functions of the grid position, where the
  output window is idle, the memrefs the body is called with, and the region invariant split at the
  accumulator.
-/
import proofs.«110125_j48919677501805_2_alg».proof.Proof.Gen.KernelIdeal.Launch
import proofs.«110125_j48919677501805_2_alg».proof.Proof.Gen.KernelIdeal.Skeleton
import proofs.«110125_j48919677501805_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not: where it is not
    fetched the block index has not moved. -/
theorem before_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid0.Coords) : Prop := (Scalar.cmpi .ne (Scalar.extui (Scalar.cmpi .eq (BitVec.ofNat 32 (i 1).val) 0#32)) 0#32) = 1#1
/-- It holds exactly at the points whose position is a multiple of 7. -/
theorem isFirst_iff : ∀ t : Fin cfg0.N, isFirst (grid0.coords t) ↔ t.val % 7 = 0 :=
  (by decide +kernel : ∀ t : Fin grid0.N, isFirst (grid0.coords t) ↔ t.val % 7 = 0)

/-- "This is the last tile" (`k = 6`), as the body computes it. -/
abbrev isLast (i : grid0.Coords) : Prop := k0_cond2 i = 1#1
theorem isLast_iff : ∀ t : Fin cfg0.N, isLast (grid0.coords t) ↔ t.val % 7 = 6 :=
  (by decide +kernel : ∀ t : Fin grid0.N, isLast (grid0.coords t) ↔ t.val % 7 = 6)

/-! ## Where the windows are idle -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
/-- Away from the last tile the output window is idle: nothing is stored into its buffer and nothing written back. -/
theorem idle_3 : ∀ t : Fin cfg0.N, ¬isLast (grid0.coords t) → cfg0.idle 3 (grid0.coords t) = true := by decide +kernel
theorem noFlush_3 : ∀ t : Fin cfg0.N, ¬isLast (grid0.coords t) → (cfg0.win 3).flush t = false := by decide +kernel
/-- At the last tile it is live. -/
theorem live_3 : ∀ t : Fin cfg0.N, isLast (grid0.coords t) → cfg0.idle 3 (grid0.coords t) = false := by decide +kernel

/-! ## The memrefs the body is called with -/

abbrev VO : View sig .tc .vmem S128x1024 .bf16 := (Memref.whole cc0_stg3_0 : Memref sig .tc .vmem S128x1024 .bf16).view
abbrev ms_0 (t : Fin cfg0.N) : Memref sig .tc .vmem S128x25088 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S3584x1024 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x1024 .bf16 := win0_3.stage (cfg0.slots t 3)
abbrev hs_3 (t : Fin cfg0.N) : (ms_3 t).IsWhole := hstage0_3 ((cfg0.slots t 3).cast nbuf0_3)
/-- The accumulator: a whole scoped buffer of the kernel's own, carried from point to point. -/
abbrev accM : Memref sig .tc .vmem S128x1024 .f32 := Memref.whole cc0_scratch0
abbrev accV : View sig .tc .vmem S128x1024 .f32 := accM.view

/-- The class's region invariant with the accumulator taken out of the scoped rest as a memref owned at some
    contents; the other calls' staging buffers and accumulators stay unopened beside it. -/
theorem PhiA_eq (c : Dev nD) :
    (Pipeline.ΦA spec0 c : sProp 𝕄)
      = iprop(iprop((∃ d, owns (c : Thread nD τ) accM fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA
  rw [Pipeline.scopedRest_split_of_list spec0 c [cc0_scratch0] (by decide) (by decide)]
  simp only [accM, owns_whole, bigSepL]
  rfl

end Cert.KernelIdeal.Reg0

end
-- ==== Proof.KernelIdeal.Reg0.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.KernelIdeal.Reg0.Runs

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) :
    { LS : List (View.Piece (Elt F) S128x1024 .f32) //
      ∀ (xi3 : Vec F S128x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg0

end
-- ==== Proof.KernelIdeal.Reg0.RunB.lean ====
/-
  The body at a middle tile of the contraction axis (`0 < k < 6`): the tile's product is added into the
  accumulator, which holds what the point before left; the output block is not touched.
-/
import proofs.«110125_j48919677501805_2_alg».proof.Proof.KernelIdeal.Reg0.RunA

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- As at a first tile, with the accumulator entered at the contents `xs` the point before left. -/
noncomputable def kernelRun_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) :
    { LS : List (View.Piece (Elt F) S128x1024 .f32) //
      ∀ (xi3 : Vec F S128x1024 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, fun xi3 E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg0

end
-- ==== Proof.KernelIdeal.Reg0.RunC.lean ====
/-
  The body at the last tile of the contraction axis (`k = 6`): the tile's product is added into the
  accumulator, then the accumulator plus the bias is stored as the output block.
-/
import proofs.«110125_j48919677501805_2_alg».proof.Proof.KernelIdeal.Reg0.RunB

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) :
    Σ' (L3 : List (View.Piece (Elt F) S128x1024 .bf16)), { LS : List (View.Piece (Elt F) S128x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__linear_kernel i arg2 harg2 arg3 harg3 arg4 harg4 arg5 harg5 arg6 harg6) K } := by
  refine ⟨?_, ?_, fun E K => ?run⟩
  case run =>
    simp only [cc0__linear_kernel_eq_skeleton]; unfold cc0__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg0

end
-- ==== Proof.KernelIdeal.Reg0.Data.lean ====
/-
  The proof data of the first matrix product (25088 → 4096, rectified) over its 28 grid points. The accumulator after point `n` and the
  output block's staging buffer after it are defined by recursion on `n`: a first tile (`n % 7 = 0`)
  starts from the cleared accumulator, every other tile adds onto what the point before left, and a last
  tile (`n % 7 = 6`) also produces the output block. The region invariant carries the accumulator at
  that value from one point to the next.
-/
import proofs.«110125_j48919677501805_2_alg».proof.Proof.KernelIdeal.Reg0.RunC

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) (y : S128x1024.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) : Vec F S128x1024 .f32 :=
  accV.read (Elt F) (accV.writes (Elt F) accV.junk (kernelRun_A c i arg2 harg2 arg3 harg3 arg4 harg4 arg5 harg5 arg6 harg6 hc0 hc1 x0 x1 x2).1)

theorem scover_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) (y : S128x1024.Idx) :
    ∃ pc ∈ (kernelRun_B c i arg2 harg2 arg3 harg3 arg4 harg4 arg5 harg5 arg6 harg6 hc0 hc1 x0 x1 x2 xs).1, y ∈ pc.1.set :=
  View.cover_of_wholeMem _ (by sl_whole_mem) y
/-- What a middle tile leaves in the accumulator, entered at `xs`. -/
def sout_B (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) : Vec F S128x1024 .f32 :=
  accV.read (Elt F) (accV.writes (Elt F) accV.junk (kernelRun_B c i arg2 harg2 arg3 harg3 arg4 harg4 arg5 harg5 arg6 harg6 hc0 hc1 x0 x1 x2 xs).1)

theorem cover_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) (y : S128x1024.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) : Vec F S128x1024 .bf16 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) (y : S128x1024.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) : Vec F S128x1024 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x1024 .bf16 := VO.read (Elt F) (VO.writes (Elt F) VO.junk [])

/-! ## The accumulation over the grid -/

/-- The output block's buffer and the accumulator after the body at position `n`. -/
def outsAt (c : Dev nD) : (n : ℕ) → n < cfg0.N → Vec F S128x1024 .bf16 × Vec F S128x1024 .f32
  | 0, hn => (outIdle, sout_A c (grid0.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 7 = 0 then
      if h1 : (n + 1) % 7 = 6 then False.elim (by omega)
      else (outIdle, sout_A c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 7 = 6 then
        (out_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        (outIdle, sout_B c (grid0.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) (fun h => h1 ((isLast_iff ⟨n + 1, hn⟩).mp h)) (iblk V c 0 ⟨n + 1, hn⟩) (iblk V c 1 ⟨n + 1, hn⟩) (iblk V c 2 ⟨n + 1, hn⟩) (outsAt c n (Nat.lt_of_succ_lt hn)).2)

theorem outsAt_A (c : Dev nD) (t : Fin cfg0.N) (h0 : t.val % 7 = 0) (h1 : ¬t.val % 7 = 6) :
    outsAt V c t.val t.isLt = (outIdle, sout_A c (grid0.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_B (c : Dev nD) (t : Fin cfg0.N) (h0 : ¬t.val % 7 = 0) (h1 : ¬t.val % 7 = 6) :
    outsAt V c t.val t.isLt = (outIdle, sout_B c (grid0.coords t) (ms_0 t) (hs_0 t) (ms_1 t) (hs_1 t) (ms_2 t) (hs_2 t) (ms_3 t) (hs_3 t) accM (Memref.isWhole_whole _) (fun h => h0 ((isFirst_iff t).mp h)) (fun h => h1 ((isLast_iff t).mp h)) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt_C (c : Dev nD) (t : Fin cfg0.N) (h0 : ¬t.val % 7 = 0) (h1 : t.val % 7 = 6) :
    outsAt V c t.val t.isLt = (out_C c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid0.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec0 c [cc0_scratch0]

/-- Before position `n`: at the first point the class's invariant (the accumulator at anything); afterwards the
    accumulator at what the point before left, the other scoped buffers unopened, the generator register at some state. -/
def PhiS (c : Dev nD) : (n : ℕ) → n ≤ cfg0.N → sProp 𝕄
  | 0, _ => Pipeline.ΦA spec0 c
  | n + 1, hn => iprop(iprop(owns (c : Thread nD τ) accM fullShare ((outsAt V c n hn).2) ∗ restBut (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg0.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg0.W) : (dat V c).A w = V c (Pipeline.arrRef spec0 w) := by
  dsimp only [dat]
theorem PhiS_castSucc (c : Dev nD) (t : Fin cfg0.N) :
    (dat V c).Φ t.castSucc = PhiS V c t.val (Nat.le_of_lt t.isLt) := by
  dsimp only [dat]; simp only [Fin.coe_castSucc]
theorem after_0 (c : Dev nD) (t : Fin cfg0.N) : (dat V c).after 0 t = iblk V c 0 t := by dsimp only [dat]
theorem after_1 (c : Dev nD) (t : Fin cfg0.N) : (dat V c).after 1 t = iblk V c 1 t := by dsimp only [dat]
theorem after_2 (c : Dev nD) (t : Fin cfg0.N) : (dat V c).after 2 t = iblk V c 2 t := by dsimp only [dat]
theorem after_3 (c : Dev nD) (t : Fin cfg0.N) : (dat V c).after 3 t = (outsAt V c t.val t.isLt).1 := by dsimp only [dat]
theorem before_0 (c : Dev nD) (t : Fin cfg0.N) (d) : (dat V c).before 0 t d = iblk V c 0 t :=
  before_0_of V (dat V c) (A_eq V c 0) (after_0 V c) t d
theorem before_1 (c : Dev nD) (t : Fin cfg0.N) (d) : (dat V c).before 1 t d = iblk V c 1 t :=
  before_1_of V (dat V c) (A_eq V c 1) (after_1 V c) t d
theorem before_2 (c : Dev nD) (t : Fin cfg0.N) (d) : (dat V c).before 2 t d = iblk V c 2 t :=
  before_2_of V (dat V c) (A_eq V c 2) (after_2 V c) t d

end Cert.KernelIdeal.Reg0

end
-- ==== Proof.KernelIdeal.Reg0.Body.lean ====
/-
  The body obligation of the first matrix product (25088 → 4096, rectified): at every grid point the body, called with each
  window's staging buffer and the accumulator, returns the buffers and the accumulator at the next
  value of the accumulation. Which run applies is read off the position (`t % 7`).
-/
import proofs.«110125_j48919677501805_2_alg».proof.Proof.KernelIdeal.Reg0.Data

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg0.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg0.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 28 := lt_of_lt_of_eq t.isLt (show cfg0.N = 28 from N_0)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 7 = 0
  · by_cases h1 : t.val % 7 = 6
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid0.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid0.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 7 = 6
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid0.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · rw [Dat.leavesExact_idle (dat V c) 3 t (idle_3 t (fun h => h1 ((isLast_iff t).mp h))) (noFlush_3 t (fun h => h1 ((isLast_iff t).mp h)))]
      rw [outsAt_B V c t h0 h1]
      unfold sout_B; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_B c (grid0.coords t) _ _ _ _ _ _ _ _ _ _ (fun h => h0 ((isFirst_iff t).mp h)) (fun h => h1 ((isLast_iff t).mp h)) (iblk V c 0 t) (iblk V c 1 t) (iblk V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dat (F := F) V c) (defs₀ (F := F)) Variants.none () Set.univ := fun t => by
  rw [bigSep_W0, bigSep_W0]
  exact sound_body V c t

/-- What the region is entered with is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg0.N) ⊢ Pipeline.ΦA spec0 c :=
  Phi_out V c _ (by rw [Fin.val_last]; have : cfg0.N = 28 := N_0; omega)

end Cert.KernelIdeal.Reg0

end
-- ==== Proof.KernelIdeal.Reg1.Runs.lean ====
/-
  The second matrix product (4096 → 4096, rectified) as the pipeline runs it: a 8 × 2 grid, the second coordinate `k` walking the
  contraction axis in 2 tiles of 2048. At a point the body clears the accumulator when `k = 0`, adds the
  tile's product into it, and when `k = 1` adds the bias and stores the output block. This module holds what
  the cases of the body share: the two branch conditions as functions of the grid position, where the
  output window is idle, the memrefs the body is called with, and the region invariant split at the
  accumulator.
-/
import proofs.«110125_j48919677501805_2_alg».proof.Proof.Gen.KernelIdeal.Launch
import proofs.«110125_j48919677501805_2_alg».proof.Proof.Gen.KernelIdeal.Skeleton
import proofs.«110125_j48919677501805_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not: where it is not
    fetched the block index has not moved. -/
theorem before_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid1.Coords) : Prop := (Scalar.cmpi .ne (Scalar.extui (Scalar.cmpi .eq (BitVec.ofNat 32 (i 1).val) 0#32)) 0#32) = 1#1
/-- It holds exactly at the points whose position is a multiple of 2. -/
theorem isFirst_iff : ∀ t : Fin cfg1.N, isFirst (grid1.coords t) ↔ t.val % 2 = 0 :=
  (by decide +kernel : ∀ t : Fin grid1.N, isFirst (grid1.coords t) ↔ t.val % 2 = 0)

/-- "This is the last tile" (`k = 1`), as the body computes it. -/
abbrev isLast (i : grid1.Coords) : Prop := k1_cond2 i = 1#1
theorem isLast_iff : ∀ t : Fin cfg1.N, isLast (grid1.coords t) ↔ t.val % 2 = 1 :=
  (by decide +kernel : ∀ t : Fin grid1.N, isLast (grid1.coords t) ↔ t.val % 2 = 1)

/-! ## Where the windows are idle -/

theorem live_0 : ∀ t : Fin cfg1.N, cfg1.idle 0 (grid1.coords t) = false := by decide +kernel
theorem live_1 : ∀ t : Fin cfg1.N, cfg1.idle 1 (grid1.coords t) = false := by decide +kernel
theorem live_2 : ∀ t : Fin cfg1.N, cfg1.idle 2 (grid1.coords t) = false := by decide +kernel
/-- Away from the last tile the output window is idle: nothing is stored into its buffer and nothing written back. -/
theorem idle_3 : ∀ t : Fin cfg1.N, ¬isLast (grid1.coords t) → cfg1.idle 3 (grid1.coords t) = true := by decide +kernel
theorem noFlush_3 : ∀ t : Fin cfg1.N, ¬isLast (grid1.coords t) → (cfg1.win 3).flush t = false := by decide +kernel
/-- At the last tile it is live. -/
theorem live_3 : ∀ t : Fin cfg1.N, isLast (grid1.coords t) → cfg1.idle 3 (grid1.coords t) = false := by decide +kernel

/-! ## The memrefs the body is called with -/

abbrev VO : View sig .tc .vmem S128x512 .bf16 := (Memref.whole cc1_stg3_0 : Memref sig .tc .vmem S128x512 .bf16).view
abbrev ms_0 (t : Fin cfg1.N) : Memref sig .tc .vmem S128x4096 .bf16 := win1_0.stage (cfg1.slots t 0)
abbrev hs_0 (t : Fin cfg1.N) : (ms_0 t).IsWhole := hstage1_0 ((cfg1.slots t 0).cast nbuf1_0)
abbrev ms_1 (t : Fin cfg1.N) : Memref sig .tc .vmem S2048x512 .bf16 := win1_1.stage (cfg1.slots t 1)
abbrev hs_1 (t : Fin cfg1.N) : (ms_1 t).IsWhole := hstage1_1 ((cfg1.slots t 1).cast nbuf1_1)
abbrev ms_2 (t : Fin cfg1.N) : Memref sig .tc .vmem S1x512 .f32 := win1_2.stage (cfg1.slots t 2)
abbrev hs_2 (t : Fin cfg1.N) : (ms_2 t).IsWhole := hstage1_2 ((cfg1.slots t 2).cast nbuf1_2)
abbrev ms_3 (t : Fin cfg1.N) : Memref sig .tc .vmem S128x512 .bf16 := win1_3.stage (cfg1.slots t 3)
abbrev hs_3 (t : Fin cfg1.N) : (ms_3 t).IsWhole := hstage1_3 ((cfg1.slots t 3).cast nbuf1_3)
/-- The accumulator: a whole scoped buffer of the kernel's own, carried from point to point. -/
abbrev accM : Memref sig .tc .vmem S128x512 .f32 := Memref.whole cc1_scratch0
abbrev accV : View sig .tc .vmem S128x512 .f32 := accM.view

/-- The class's region invariant with the accumulator taken out of the scoped rest as a memref owned at some
    contents; the other calls' staging buffers and accumulators stay unopened beside it. -/
theorem PhiA_eq (c : Dev nD) :
    (Pipeline.ΦA spec1 c : sProp 𝕄)
      = iprop(iprop((∃ d, owns (c : Thread nD τ) accM fullShare d)
          ∗ Pipeline.scopedRestBut (Ix := Unit) (Name := ℕ) (U := UR sig nD τ) (Lvl := ℕ) (Val := Elt F) spec1 c [cc1_scratch0]) ∗ (∃ r, prngReg c r)) := by
  unfold Pipeline.ΦA
  rw [Pipeline.scopedRest_split_of_list spec1 c [cc1_scratch0] (by decide) (by decide)]
  simp only [accM, owns_whole, bigSepL]
  rfl

end Cert.KernelIdeal.Reg1

end
-- ==== Proof.KernelIdeal.Reg1.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.KernelIdeal.Reg1.Runs

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) :
    { LS : List (View.Piece (Elt F) S128x512 .f32) //
      ∀ (xi3 : Vec F S128x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc1__linear_kernel i arg2 harg2 arg3 harg3 arg4 harg4 arg5 harg5 arg6 harg6) K } := by
  refine ⟨?_, fun xi3 E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg1

end
-- ==== Proof.KernelIdeal.Reg1.RunC.lean ====
/-
  The body at the last tile of the contraction axis (`k = 1`): the tile's product is added into the
  accumulator, then the accumulator plus the bias is stored as the output block.
-/
import proofs.«110125_j48919677501805_2_alg».proof.Proof.KernelIdeal.Reg1.RunA

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) :
    Σ' (L3 : List (View.Piece (Elt F) S128x512 .bf16)), { LS : List (View.Piece (Elt F) S128x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc1__linear_kernel i arg2 harg2 arg3 harg3 arg4 harg4 arg5 harg5 arg6 harg6) K } := by
  refine ⟨?_, ?_, fun E K => ?run⟩
  case run =>
    simp only [cc1__linear_kernel_eq_skeleton]; unfold cc1__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg1

end
-- ==== Proof.KernelIdeal.Reg1.Data.lean ====
/-
  The proof data of the second matrix product (4096 → 4096, rectified) over its 16 grid points. The accumulator after point `n` and the
  output block's staging buffer after it are defined by recursion on `n`: a first tile (`n % 2 = 0`)
  starts from the cleared accumulator, every other tile adds onto what the point before left, and a last
  tile (`n % 2 = 1`) also produces the output block. The region invariant carries the accumulator at
  that value from one point to the next.
-/
import proofs.«110125_j48919677501805_2_alg».proof.Proof.KernelIdeal.Reg1.RunC

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) (y : S128x512.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) : Vec F S128x512 .f32 :=
  accV.read (Elt F) (accV.writes (Elt F) accV.junk (kernelRun_A c i arg2 harg2 arg3 harg3 arg4 harg4 arg5 harg5 arg6 harg6 hc0 hc1 x0 x1 x2).1)

theorem cover_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) (y : S128x512.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) : Vec F S128x512 .bf16 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) (y : S128x512.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) : Vec F S128x512 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x512 .bf16 := VO.read (Elt F) (VO.writes (Elt F) VO.junk [])

/-! ## The accumulation over the grid -/

/-- The output block's buffer and the accumulator after the body at position `n`. -/
def outsAt (c : Dev nD) : (n : ℕ) → n < cfg1.N → Vec F S128x512 .bf16 × Vec F S128x512 .f32
  | 0, hn => (outIdle, sout_A c (grid1.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 2 = 0 then
      if h1 : (n + 1) % 2 = 1 then False.elim (by omega)
      else (outIdle, sout_A c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 2 = 1 then
        (out_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid1.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        False.elim (by omega)

theorem outsAt_A (c : Dev nD) (t : Fin cfg1.N) (h0 : t.val % 2 = 0) (h1 : ¬t.val % 2 = 1) :
    outsAt V c t.val t.isLt = (outIdle, sout_A c (grid1.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_C (c : Dev nD) (t : Fin cfg1.N) (h0 : ¬t.val % 2 = 0) (h1 : t.val % 2 = 1) :
    outsAt V c t.val t.isLt = (out_C c (grid1.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid1.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec1 c [cc1_scratch0]

/-- Before position `n`: at the first point the class's invariant (the accumulator at anything); afterwards the
    accumulator at what the point before left, the other scoped buffers unopened, the generator register at some state. -/
def PhiS (c : Dev nD) : (n : ℕ) → n ≤ cfg1.N → sProp 𝕄
  | 0, _ => Pipeline.ΦA spec1 c
  | n + 1, hn => iprop(iprop(owns (c : Thread nD τ) accM fullShare ((outsAt V c n hn).2) ∗ restBut (F := F) c) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg1.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg1.W) : (dat V c).A w = V c (Pipeline.arrRef spec1 w) := by
  dsimp only [dat]
theorem PhiS_castSucc (c : Dev nD) (t : Fin cfg1.N) :
    (dat V c).Φ t.castSucc = PhiS V c t.val (Nat.le_of_lt t.isLt) := by
  dsimp only [dat]; simp only [Fin.coe_castSucc]
theorem after_0 (c : Dev nD) (t : Fin cfg1.N) : (dat V c).after 0 t = iblk V c 0 t := by dsimp only [dat]
theorem after_1 (c : Dev nD) (t : Fin cfg1.N) : (dat V c).after 1 t = iblk V c 1 t := by dsimp only [dat]
theorem after_2 (c : Dev nD) (t : Fin cfg1.N) : (dat V c).after 2 t = iblk V c 2 t := by dsimp only [dat]
theorem after_3 (c : Dev nD) (t : Fin cfg1.N) : (dat V c).after 3 t = (outsAt V c t.val t.isLt).1 := by dsimp only [dat]
theorem before_0 (c : Dev nD) (t : Fin cfg1.N) (d) : (dat V c).before 0 t d = iblk V c 0 t :=
  before_0_of V (dat V c) (A_eq V c 0) (after_0 V c) t d
theorem before_1 (c : Dev nD) (t : Fin cfg1.N) (d) : (dat V c).before 1 t d = iblk V c 1 t :=
  before_1_of V (dat V c) (A_eq V c 1) (after_1 V c) t d
theorem before_2 (c : Dev nD) (t : Fin cfg1.N) (d) : (dat V c).before 2 t d = iblk V c 2 t :=
  before_2_of V (dat V c) (A_eq V c 2) (after_2 V c) t d

end Cert.KernelIdeal.Reg1

end
-- ==== Proof.KernelIdeal.Reg1.Body.lean ====
/-
  The body obligation of the second matrix product (4096 → 4096, rectified): at every grid point the body, called with each
  window's staging buffer and the accumulator, returns the buffers and the accumulator at the next
  value of the accumulation. Which run applies is read off the position (`t % 2`).
-/
import proofs.«110125_j48919677501805_2_alg».proof.Proof.KernelIdeal.Reg1.Data

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg1.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 16 := lt_of_lt_of_eq t.isLt (show cfg1.N = 16 from N_1)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 2 = 0
  · by_cases h1 : t.val % 2 = 1
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid1.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid1.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 2 = 1
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid1.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · exfalso; omega

/-- The library's body obligation, at every point. -/
theorem body_obligation (c : Dev nD) : BodyObligation (dat (F := F) V c) (defs₀ (F := F)) Variants.none () Set.univ := fun t => by
  rw [bigSep_W1, bigSep_W1]
  exact sound_body V c t

/-- What the region is entered with is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg1.N) ⊢ Pipeline.ΦA spec1 c :=
  Phi_out V c _ (by rw [Fin.val_last]; have : cfg1.N = 16 := N_1; omega)

end Cert.KernelIdeal.Reg1

end
-- ==== Proof.KernelIdeal.Reg2.Runs.lean ====
/-
  The fused classification and box heads (4096 → 128 lanes, no rectifier) as the pipeline runs it: a 1 × 2 grid, the second coordinate `k` walking the
  contraction axis in 2 tiles of 2048. At a point the body clears the accumulator when `k = 0`, adds the
  tile's product into it, and when `k = 1` adds the bias and stores the output block. This module holds what
  the cases of the body share: the two branch conditions as functions of the grid position, where the
  output window is idle, the memrefs the body is called with, and the region invariant split at the
  accumulator.
-/
import proofs.«110125_j48919677501805_2_alg».proof.Proof.Gen.KernelIdeal.Launch
import proofs.«110125_j48919677501805_2_alg».proof.Proof.Gen.KernelIdeal.Skeleton
import proofs.«110125_j48919677501805_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered: a parameter, instantiated by the run
variable (V : (c : Dev nD) → (b : Ref sig .tc) → Buf (Elt F) ((c : Thread nD τ).loc b))

/-! ## The windows' blocks -/

/-- Window `w`'s block at point `t`, read off its array as the region finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not: where it is not
    fetched the block index has not moved. -/
theorem before_0_of {c : Dev nD} (dat : Dat τ (Elt F) Unit ℕ (UR sig nD τ) ℕ cfg2 c) (hA : dat.A 0 = V c (Pipeline.arrRef spec2 0))
    (hafter : ∀ t, dat.after 0 t = iblk V c 0 t) (t : Fin cfg2.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1_of {c : Dev nD} (dat : Dat τ (Elt F) Unit ℕ (UR sig nD τ) ℕ cfg2 c) (hA : dat.A 1 = V c (Pipeline.arrRef spec2 1))
    (hafter : ∀ t, dat.after 1 t = iblk V c 1 t) (t : Fin cfg2.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2_of {c : Dev nD} (dat : Dat τ (Elt F) Unit ℕ (UR sig nD τ) ℕ cfg2 c) (hA : dat.A 2 = V c (Pipeline.arrRef spec2 2))
    (hafter : ∀ t, dat.after 2 t = iblk V c 2 t) (t : Fin cfg2.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- "This is the first tile of the contraction axis" (`k = 0`), as the body computes it. -/
abbrev isFirst (i : grid2.Coords) : Prop := (Scalar.cmpi .ne (Scalar.extui (Scalar.cmpi .eq (BitVec.ofNat 32 (i 1).val) 0#32)) 0#32) = 1#1
/-- It holds exactly at the points whose position is a multiple of 2. -/
theorem isFirst_iff : ∀ t : Fin cfg2.N, isFirst (grid2.coords t) ↔ t.val % 2 = 0 :=
  (by decide +kernel : ∀ t : Fin grid2.N, isFirst (grid2.coords t) ↔ t.val % 2 = 0)

/-- "This is the last tile" (`k = 1`), as the body computes it. -/
abbrev isLast (i : grid2.Coords) : Prop := k2_cond2 i = 1#1
theorem isLast_iff : ∀ t : Fin cfg2.N, isLast (grid2.coords t) ↔ t.val % 2 = 1 :=
  (by decide +kernel : ∀ t : Fin grid2.N, isLast (grid2.coords t) ↔ t.val % 2 = 1)

/-! ## Where the windows are idle -/

theorem live_0 : ∀ t : Fin cfg2.N, cfg2.idle 0 (grid2.coords t) = false := by decide +kernel
theorem live_1 : ∀ t : Fin cfg2.N, cfg2.idle 1 (grid2.coords t) = false := by decide +kernel
theorem live_2 : ∀ t : Fin cfg2.N, cfg2.idle 2 (grid2.coords t) = false := by decide +kernel
/-- Away from the last tile the output window is idle: nothing is stored into its buffer and nothing written back. -/
theorem idle_3 : ∀ t : Fin cfg2.N, ¬isLast (grid2.coords t) → cfg2.idle 3 (grid2.coords t) = true := by decide +kernel
theorem noFlush_3 : ∀ t : Fin cfg2.N, ¬isLast (grid2.coords t) → (cfg2.win 3).flush t = false := by decide +kernel
/-- At the last tile it is live. -/
theorem live_3 : ∀ t : Fin cfg2.N, isLast (grid2.coords t) → cfg2.idle 3 (grid2.coords t) = false := by decide +kernel

/-! ## The memrefs the body is called with -/

abbrev VO : View sig .tc .vmem S128x128 .f32 := (Memref.whole cc2_stg3_0 : Memref sig .tc .vmem S128x128 .f32).view
abbrev ms_0 (t : Fin cfg2.N) : Memref sig .tc .vmem S128x4096 .bf16 := win2_0.stage (cfg2.slots t 0)
abbrev hs_0 (t : Fin cfg2.N) : (ms_0 t).IsWhole := hstage2_0 ((cfg2.slots t 0).cast nbuf2_0)
abbrev ms_1 (t : Fin cfg2.N) : Memref sig .tc .vmem S2048x128 .bf16 := win2_1.stage (cfg2.slots t 1)
abbrev hs_1 (t : Fin cfg2.N) : (ms_1 t).IsWhole := hstage2_1 ((cfg2.slots t 1).cast nbuf2_1)
abbrev ms_2 (t : Fin cfg2.N) : Memref sig .tc .vmem S1x128 .f32 := win2_2.stage (cfg2.slots t 2)
abbrev hs_2 (t : Fin cfg2.N) : (ms_2 t).IsWhole := hstage2_2 ((cfg2.slots t 2).cast nbuf2_2)
abbrev ms_3 (t : Fin cfg2.N) : Memref sig .tc .vmem S128x128 .f32 := win2_3.stage (cfg2.slots t 3)
abbrev hs_3 (t : Fin cfg2.N) : (ms_3 t).IsWhole := hstage2_3 ((cfg2.slots t 3).cast nbuf2_3)
/-- The accumulator: a whole scoped buffer of the kernel's own, carried from point to point. -/
abbrev accM : Memref sig .tc .vmem S128x128 .f32 := Memref.whole cc2_scratch0
abbrev accV : View sig .tc .vmem S128x128 .f32 := accM.view

/-- The class's region invariant with the accumulator taken out of the scoped rest as a memref owned at some
    contents; the other calls' staging buffers and accumulators stay unopened beside it. -/
theorem PhiA_eq (c : Dev nD) :
    (Pipeline.ΦA spec2 c : sProp 𝕄)
      = iprop(iprop((∃ d, owns (c : Thread nD τ) accM fullShare d)
          ∗ Pipeline.scopedRestBut (Ix := Unit) (Name := ℕ) (U := UR sig nD τ) (Lvl := ℕ) (Val := Elt F) spec2 c [cc2_scratch0]) ∗ (∃ r, prngReg c r)) := by
  unfold Pipeline.ΦA
  rw [Pipeline.scopedRest_split_of_list spec2 c [cc2_scratch0] (by decide) (by decide)]
  simp only [accM, owns_whole, bigSepL]
  rfl

end Cert.KernelIdeal.Reg2

end
-- ==== Proof.KernelIdeal.Reg2.RunA.lean ====
/-
  The body at the first tile of the contraction axis (`k = 0`, not the last tile): the accumulator is
  cleared and the tile's product added into it; the output block is not touched. What the accumulator
  ends with is the list of the body's two stores, found by running the body symbolically.
-/
import proofs.«110125_j48919677501805_2_alg».proof.Proof.KernelIdeal.Reg2.Runs

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- On whole staging memrefs — the three inputs at their contents, the output block at contents handed back
    untouched, the accumulator at anything — the body at a first tile runs to the continuation with the inputs and
    the output block as they were and the accumulator with the pieces `LS` written. -/
noncomputable def kernelRun_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) :
    { LS : List (View.Piece (Elt F) S128x128 .f32) //
      ∀ (xi3 : Vec F S128x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS)) -∗ K ⟨⟩))
          ⊢ wp frame (wpE (defs₀ (F := F)) Variants.none c none) E (cc2__linear_kernel i arg2 harg2 arg3 harg3 arg4 harg4 arg5 harg5 arg6 harg6) K } := by
  refine ⟨?_, fun xi3 E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg2

end
-- ==== Proof.KernelIdeal.Reg2.RunC.lean ====
/-
  The body at the last tile of the contraction axis (`k = 1`): the tile's product is added into the
  accumulator, then the accumulator plus the bias is stored as the output block.
-/
import proofs.«110125_j48919677501805_2_alg».proof.Proof.KernelIdeal.Reg2.RunA

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The accumulator entered at the contents `xs` the point before left, the output block at anything: the body
    runs to the continuation with the output block's pieces `L3` and the accumulator's `LS` written. -/
noncomputable def kernelRun_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) :
    Σ' (L3 : List (View.Piece (Elt F) S128x128 .f32)), { LS : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc2__linear_kernel i arg2 harg2 arg3 harg3 arg4 harg4 arg5 harg5 arg6 harg6) K } := by
  refine ⟨?_, ?_, fun E K => ?run⟩
  case run =>
    simp only [cc2__linear_kernel_eq_skeleton]; unfold cc2__linear_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg2

end
-- ==== Proof.KernelIdeal.Reg2.Data.lean ====
/-
  The proof data of the fused classification and box heads (4096 → 128 lanes, no rectifier) over its 2 grid points. The accumulator after point `n` and the
  output block's staging buffer after it are defined by recursion on `n`: a first tile (`n % 2 = 0`)
  starts from the cleared accumulator, every other tile adds onto what the point before left, and a last
  tile (`n % 2 = 1`) also produces the output block. The region invariant carries the accumulator at
  that value from one point to the next.
-/
import proofs.«110125_j48919677501805_2_alg».proof.Proof.KernelIdeal.Reg2.RunC

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- A first tile's stores into the accumulator cover it (each is a store of the whole tile). -/
theorem scover_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) (y : S128x128.Idx) :
    ∃ pc ∈ (kernelRun_A c i arg2 harg2 arg3 harg3 arg4 harg4 arg5 harg5 arg6 harg6 hc0 hc1 x0 x1 x2).1, y ∈ pc.1.set :=
  View.cover_of_wholeMem _ (by sl_whole_mem) y
/-- What a first tile leaves in the accumulator. -/
def sout_A (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) : Vec F S128x128 .f32 :=
  accV.read (Elt F) (accV.writes (Elt F) accV.junk (kernelRun_A c i arg2 harg2 arg3 harg3 arg4 harg4 arg5 harg5 arg6 harg6 hc0 hc1 x0 x1 x2).1)

theorem cover_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) (y : S128x128.Idx) :
    ∃ pc ∈ (kernelRun_C c i arg2 harg2 arg3 harg3 arg4 harg4 arg5 harg5 arg6 harg6 hc0 hc1 x0 x1 x2 xs).1, y ∈ pc.1.set :=
  View.cover_of_wholeMem _ (by sl_whole_mem) y
/-- What a last tile leaves in the output block's staging buffer. -/
def out_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) : Vec F S128x128 .f32 :=
  VO.read (Elt F) (VO.writes (Elt F) VO.junk (kernelRun_C c i arg2 harg2 arg3 harg3 arg4 harg4 arg5 harg5 arg6 harg6 hc0 hc1 x0 x1 x2 xs).1)
theorem scover_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) (y : S128x128.Idx) :
    ∃ pc ∈ (kernelRun_C c i arg2 harg2 arg3 harg3 arg4 harg4 arg5 harg5 arg6 harg6 hc0 hc1 x0 x1 x2 xs).2.1, y ∈ pc.1.set :=
  View.cover_of_wholeMem _ (by sl_whole_mem) y
/-- and in the accumulator. -/
def sout_C (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) : Vec F S128x128 .f32 :=
  accV.read (Elt F) (accV.writes (Elt F) accV.junk (kernelRun_C c i arg2 harg2 arg3 harg3 arg4 harg4 arg5 harg5 arg6 harg6 hc0 hc1 x0 x1 x2 xs).2.1)

/-- A placeholder for the output block's buffer at the points that do not store into it: there the window is idle and
    not written back, so nothing reads this value. -/
def outIdle : Vec F S128x128 .f32 := VO.read (Elt F) (VO.writes (Elt F) VO.junk [])

/-! ## The accumulation over the grid -/

/-- The output block's buffer and the accumulator after the body at position `n`. -/
def outsAt (c : Dev nD) : (n : ℕ) → n < cfg2.N → Vec F S128x128 .f32 × Vec F S128x128 .f32
  | 0, hn => (outIdle, sout_A c (grid2.coords ⟨0, hn⟩) (ms_0 ⟨0, hn⟩) (hs_0 ⟨0, hn⟩) (ms_1 ⟨0, hn⟩) (hs_1 ⟨0, hn⟩) (ms_2 ⟨0, hn⟩) (hs_2 ⟨0, hn⟩) (ms_3 ⟨0, hn⟩) (hs_3 ⟨0, hn⟩) accM (Memref.isWhole_whole _) ((isFirst_iff ⟨0, hn⟩).mpr (Nat.zero_mod _)) (fun h => (fun h => by (try dsimp only at h); omega) ((isLast_iff ⟨0, hn⟩).mp h)) (iblk V c 0 ⟨0, hn⟩) (iblk V c 1 ⟨0, hn⟩) (iblk V c 2 ⟨0, hn⟩))
  | n + 1, hn =>
    if h0 : (n + 1) % 2 = 0 then
      if h1 : (n + 1) % 2 = 1 then False.elim (by omega)
      else (outIdle, sout_A c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) ((isFirst_iff ⟨n + 1, hn⟩).mpr h0) (fun h => h1 ((isLast_iff ⟨n + 1, hn⟩).mp h)) (iblk V c 0 ⟨n + 1, hn⟩) (iblk V c 1 ⟨n + 1, hn⟩) (iblk V c 2 ⟨n + 1, hn⟩))
    else
      if h1 : (n + 1) % 2 = 1 then
        (out_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2,
         sout_C c (grid2.coords ⟨n + 1, hn⟩) (ms_0 ⟨n + 1, hn⟩) (hs_0 ⟨n + 1, hn⟩) (ms_1 ⟨n + 1, hn⟩) (hs_1 ⟨n + 1, hn⟩) (ms_2 ⟨n + 1, hn⟩) (hs_2 ⟨n + 1, hn⟩) (ms_3 ⟨n + 1, hn⟩) (hs_3 ⟨n + 1, hn⟩) accM (Memref.isWhole_whole _) (fun h => h0 ((isFirst_iff ⟨n + 1, hn⟩).mp h)) ((isLast_iff ⟨n + 1, hn⟩).mpr h1) (iblk V c 0 ⟨n + 1, hn⟩) (iblk V c 1 ⟨n + 1, hn⟩) (iblk V c 2 ⟨n + 1, hn⟩) (outsAt c n (Nat.lt_of_succ_lt hn)).2)
      else
        False.elim (by omega)

theorem outsAt_A (c : Dev nD) (t : Fin cfg2.N) (h0 : t.val % 2 = 0) (h1 : ¬t.val % 2 = 1) :
    outsAt V c t.val t.isLt = (outIdle, sout_A c (grid2.coords t) (ms_0 t) (hs_0 t) (ms_1 t) (hs_1 t) (ms_2 t) (hs_2 t) (ms_3 t) (hs_3 t) accM (Memref.isWhole_whole _) ((isFirst_iff t).mpr h0) (fun h => h1 ((isLast_iff t).mp h)) (iblk V c 0 t) (iblk V c 1 t) (iblk V c 2 t)) := by
  obtain ⟨n, hn⟩ := t
  cases n with
  | zero => exact rfl
  | succ n => exact (dif_pos h0).trans ((dif_neg h1).trans rfl)

theorem outsAt_C (c : Dev nD) (t : Fin cfg2.N) (h0 : ¬t.val % 2 = 0) (h1 : t.val % 2 = 1) :
    outsAt V c t.val t.isLt = (out_C c (grid2.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2,
      sout_C c (grid2.coords t) (ms_0 t) (hs_0 t) (ms_1 t) (hs_1 t) (ms_2 t) (hs_2 t) (ms_3 t) (hs_3 t) accM (Memref.isWhole_whole _) (fun h => h0 ((isFirst_iff t).mp h)) ((isLast_iff t).mpr h1) (iblk V c 0 t) (iblk V c 1 t) (iblk V c 2 t) (outsAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant -/

abbrev restBut (c : Dev nD) : sProp 𝕄 :=
  Pipeline.scopedRestBut (Ix := Unit) (Name := ℕ) (U := UR sig nD τ) (Lvl := ℕ) (Val := Elt F) spec2 c [cc2_scratch0]

/-- Before position `n`: at the first point the class's invariant (the accumulator at anything); afterwards the
    accumulator at what the point before left, the other scoped buffers unopened, the generator register at some state. -/
def PhiS (c : Dev nD) : (n : ℕ) → n ≤ cfg2.N → sProp 𝕄
  | 0, _ => Pipeline.ΦA spec2 c
  | n + 1, hn => iprop(iprop(owns (c : Thread nD τ) accM fullShare ((outsAt V c n hn).2) ∗ restBut (F := F) c) ∗ (∃ r, prngReg c r))

theorem PhiS_zero (c : Dev nD) (n : ℕ) (h : n ≤ cfg2.N) (hz : n = 0) : PhiS V c n h = Pipeline.ΦA spec2 c := by
  subst hz; rfl
theorem PhiS_succ (c : Dev nD) (n : ℕ) (hn : n < cfg2.N) :
    PhiS V c (n + 1) hn = iprop(iprop(owns (c : Thread nD τ) accM fullShare ((outsAt V c n hn).2) ∗ restBut (F := F) c) ∗ (∃ r, prngReg c r)) := rfl
theorem PhiS_pos (c : Dev nD) (n : ℕ) (h : n ≤ cfg2.N) (hz : n ≠ 0) :
    PhiS V c n h = iprop(iprop(owns (c : Thread nD τ) accM fullShare ((outsAt V c (n - 1) (by omega)).2) ∗ restBut (F := F) c) ∗ (∃ r, prngReg c r)) := by
  cases n with
  | zero => exact absurd rfl hz
  | succ n => rfl

/-! ## The proof data -/

/-- The arrays as the region finds them; after the body each input's buffer at its block and the output's at the
    accumulation's first component; the invariant `PhiS`; nothing owed; full shares. -/
def dat (c : Dev nD) : Dat τ (Elt F) Unit ℕ (UR sig nD τ) ℕ cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => (outsAt V c t.val t.isLt).1
  Φ t := PhiS V c t.val (Nat.le_of_lt_succ t.isLt)
  q _ := fullShare
  owed _ := 0

theorem A_eq (c : Dev nD) (w : Fin cfg2.W) : (dat V c).A w = V c (Pipeline.arrRef spec2 w) := by
  dsimp only [dat]
theorem PhiS_castSucc (c : Dev nD) (t : Fin cfg2.N) :
    (dat V c).Φ t.castSucc = PhiS V c t.val (Nat.le_of_lt t.isLt) := by
  dsimp only [dat]; simp only [Fin.coe_castSucc]
theorem after_0 (c : Dev nD) (t : Fin cfg2.N) : (dat V c).after 0 t = iblk V c 0 t := by dsimp only [dat]
theorem after_1 (c : Dev nD) (t : Fin cfg2.N) : (dat V c).after 1 t = iblk V c 1 t := by dsimp only [dat]
theorem after_2 (c : Dev nD) (t : Fin cfg2.N) : (dat V c).after 2 t = iblk V c 2 t := by dsimp only [dat]
theorem after_3 (c : Dev nD) (t : Fin cfg2.N) : (dat V c).after 3 t = (outsAt V c t.val t.isLt).1 := by dsimp only [dat]
theorem before_0 (c : Dev nD) (t : Fin cfg2.N) (d) : (dat V c).before 0 t d = iblk V c 0 t :=
  before_0_of V (dat V c) (A_eq V c 0) (after_0 V c) t d
theorem before_1 (c : Dev nD) (t : Fin cfg2.N) (d) : (dat V c).before 1 t d = iblk V c 1 t :=
  before_1_of V (dat V c) (A_eq V c 1) (after_1 V c) t d
theorem before_2 (c : Dev nD) (t : Fin cfg2.N) (d) : (dat V c).before 2 t d = iblk V c 2 t :=
  before_2_of V (dat V c) (A_eq V c 2) (after_2 V c) t d

end Cert.KernelIdeal.Reg2

end
-- ==== Proof.KernelIdeal.Reg2.Body.lean ====
/-
  The body obligation of the fused classification and box heads (4096 → 128 lanes, no rectifier): at every grid point the body, called with each
  window's staging buffer and the accumulator, returns the buffers and the accumulator at the next
  value of the accumulation. Which run applies is read off the position (`t % 2`).
-/
import proofs.«110125_j48919677501805_2_alg».proof.Proof.KernelIdeal.Reg2.Data

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, -/
def bodyPre (c : Dev nD) (t : Fin cfg2.N) : sProp 𝕄 :=
  iprop((dat V c).Φ t.castSucc ∗ (dat V c).owesAt () t.castSucc
    ∗ (∃ d, owns (c : Thread nD τ) (ms_0 t) fullShare ((dat V c).before 0 t d))
    ∗ (∃ d, owns (c : Thread nD τ) (ms_1 t) fullShare ((dat V c).before 1 t d))
    ∗ (∃ d, owns (c : Thread nD τ) (ms_2 t) fullShare ((dat V c).before 2 t d))
    ∗ (∃ d, owns (c : Thread nD τ) (ms_3 t) fullShare ((dat V c).before 3 t d)))

/-- and what it returns. -/
def bodyPost (c : Dev nD) (t : Fin cfg2.N) : sProp 𝕄 :=
  iprop((dat V c).Φ t.succ ∗ (dat V c).owesAt () t.succ
    ∗ (dat V c).leavesExact 0 t
    ∗ (dat V c).leavesExact 1 t
    ∗ (dat V c).leavesExact 2 t
    ∗ (dat V c).leavesExact 3 t)

set_option maxHeartbeats 4800000 in
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).owesAt () t.succ = (dat V c).owesAt () t.castSucc from rfl]
  rw [show (dat V c).Φ t.succ = PhiS V c (t.val + 1) t.isLt from rfl, PhiS_succ]
  have hN : t.val < 2 := lt_of_lt_of_eq t.isLt (show cfg2.N = 2 from N_2)
  rw [show (dat V c).leavesExact 0 t = owns (c : Thread nD τ) (ms_0 t) fullShare ((dat V c).after 0 t) from by
      unfold Dat.leavesExact; rw [live_0 t], after_0]
  rw [show (dat V c).leavesExact 1 t = owns (c : Thread nD τ) (ms_1 t) fullShare ((dat V c).after 1 t) from by
      unfold Dat.leavesExact; rw [live_1 t], after_1]
  rw [show (dat V c).leavesExact 2 t = owns (c : Thread nD τ) (ms_2 t) fullShare ((dat V c).after 2 t) from by
      unfold Dat.leavesExact; rw [live_2 t], after_2]
  by_cases h0 : t.val % 2 = 0
  · by_cases h1 : t.val % 2 = 1
    · exfalso; omega
    · rw [Dat.leavesExact_idle (dat V c) 3 t (idle_3 t (fun h => h1 ((isLast_iff t).mp h))) (noFlush_3 t (fun h => h1 ((isLast_iff t).mp h)))]
      rw [outsAt_A V c t h0 h1]
      unfold sout_A; (try dsimp only)
      by_cases hz : t.val = 0
      · rw [PhiS_castSucc V c t, PhiS_zero V c _ _ hz, PhiA_eq]
        iintro ⟨⟨⟨HS0, Hrest⟩, Hg⟩, Ho, ⟨%d0, H0⟩, ⟨%d1, H1⟩, ⟨%d2, H2⟩, ⟨%d3, H3⟩⟩
        iapply ((kernelRun_A c (grid2.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨⟨HS0, Hrest⟩, Hg⟩, Ho, ⟨%d0, H0⟩, ⟨%d1, H1⟩, ⟨%d2, H2⟩, ⟨%d3, H3⟩⟩
        iapply ((kernelRun_A c (grid2.coords t) _ _ _ _ _ _ _ _ _ _ ((isFirst_iff t).mpr h0) (fun h => h1 ((isLast_iff t).mp h)) (iblk V c 0 t) (iblk V c 1 t) (iblk V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
  · have hz : t.val ≠ 0 := fun e => h0 (by rw [e])
    by_cases h1 : t.val % 2 = 1
    · rw [show (dat V c).leavesExact 3 t = owns (c : Thread nD τ) (ms_3 t) fullShare ((dat V c).after 3 t) from by
        unfold Dat.leavesExact; rw [live_3 t ((isLast_iff t).mpr h1)], after_3]
      rw [outsAt_C V c t h0 h1]
      unfold out_C sout_C; (try dsimp only)
      rw [PhiS_castSucc V c t, PhiS_pos V c _ _ hz]
      iintro ⟨⟨⟨HS0, Hrest⟩, Hg⟩, Ho, ⟨%d0, H0⟩, ⟨%d1, H1⟩, ⟨%d2, H2⟩, ⟨%d3, H3⟩⟩
      iapply ((kernelRun_C c (grid2.coords t) _ _ _ _ _ _ _ _ _ _ (fun h => h0 ((isFirst_iff t).mp h)) ((isLast_iff t).mpr h1) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover_C c _ _ _ _ _ _ _ _ _ _ _ _ _ _ _ _ _)
          iexact Hrest
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover_C c _ _ _ _ _ _ _ _ _ _ _ _ _ _ _ _ _)
    · exfalso; omega

/-- The library's body obligation, at every point. -/
theorem body_obligation (c : Dev nD) : BodyObligation (dat (F := F) V c) (defs₀ (F := F)) Variants.none () Set.univ := fun t => by
  rw [bigSep_W2, bigSep_W2]
  exact sound_body V c t

/-- What the region is entered with is the invariant before the first point. -/
theorem hin (c : Dev nD) : Pipeline.ΦA spec2 c ⊢ (dat V c).Φ 0 := by
  rw [show (dat V c).Φ 0 = PhiS V c 0 (Nat.zero_le _) from rfl, PhiS_zero V c 0 _ rfl]
  try exact Idealize.SL.BI.Entails.refl _

/-- After any point but the first the invariant gives the class's back: the accumulator's contents are forgotten. -/
theorem Phi_out (c : Dev nD) (t : Fin (cfg2.N + 1)) (ht : t.val ≠ 0) : (dat V c).Φ t ⊢ Pipeline.ΦA spec2 c := by
  rw [show (dat V c).Φ t = PhiS V c t.val (Nat.le_of_lt_succ t.isLt) from rfl, PhiS_pos V c _ _ ht, PhiA_eq]
  iintro ⟨⟨HS0, Hrest⟩, Hg⟩
  isplitl [HS0 Hrest]
  · isplitl [HS0]
    · iexists _; iexact HS0
    iexact Hrest
  iexact Hg

theorem hout (c : Dev nD) : (dat V c).Φ (Fin.last cfg2.N) ⊢ Pipeline.ΦA spec2 c :=
  Phi_out V c _ (by rw [Fin.val_last]; have : cfg2.N = 2 := N_2; omega)

end Cert.KernelIdeal.Reg2

end
-- ==== Proof.KernelIdeal.Regs.lean ====
/-
  The three matrix products as segments of the program, stated over ANY contents of the buffers at each
  region's entry (the entry contents are variables here: the run instantiates them with what the host
  stretches before each region leave). A region leaves every buffer as entered but its output array,
  which holds the fold of the pipeline's write-backs.
-/
import proofs.«110125_j48919677501805_2_alg».proof.Proof.Gen.KernelIdeal.Regions
import proofs.«110125_j48919677501805_2_alg».proof.Proof.KernelIdeal.Reg0.Body
import proofs.«110125_j48919677501805_2_alg».proof.Proof.KernelIdeal.Reg1.Body
import proofs.«110125_j48919677501805_2_alg».proof.Proof.KernelIdeal.Reg2.Body
import Idealize.ShloMosaic.Lib.Pipeline.RegionsLoop
import Idealize.ShloMosaic.Lib.Pipeline.FrameSuffix

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the fold of a region's write-backs stays folded: nothing here opens it
attribute [local irreducible] Pipeline.Dat.arrAt

/-- A valuation of the core's buffers read at the TensorCore's references. -/
abbrev entryOf (Vin : (c : Dev nD) → Valuation τ sig (Elt F)) : (c : Dev nD) → (b : Ref sig .tc) → Buf (Elt F) ((c : Thread nD τ).loc b) :=
  fun c b => Vin c b

/-! ### Region 0 -/

/-- What region 0 leaves in buffer `r`: its arrays at the fold of the write-backs, every other buffer as entered. -/
def outOf0 (Vin : (c : Dev nD) → Valuation τ sig (Elt F)) (r : Ref sig .tc) (c : Dev nD) : Buf (Elt F) ((c : Thread nD τ).loc r) :=
  Pipeline.withArrays spec0 c (Vin c) (fun w => (Reg0.dat (entryOf Vin) c).arrAt w cfg0.N) (Proc.devRef .tc r)
/-- The buffers after region 0: as entered, but for its output array. -/
abbrev exit0 (Vin : (c : Dev nD) → Valuation τ sig (Elt F)) (c : Dev nD) : Valuation τ sig (Elt F) :=
  Function.update (Vin c) main_v110 (outOf0 Vin main_v110 c)

set_option maxHeartbeats 4000000 in
/-- At the region's exit each of its arrays holds what the pipeline leaves — an input as entered, the output at its
    folded write-backs — -/
theorem hF0 (Vin : (c : Dev nD) → Valuation τ sig (Elt F)) (c : Dev nD) (w : Fin cfg0.W) :
    (Reg0.dat (entryOf Vin) c).arrAt w cfg0.N = exit0 Vin c (Pipeline.arrRef spec0 w) := by
  match w with
  | ⟨0, _⟩ => exact (((Reg0.dat (entryOf Vin) c).arrAt_in 0 rfl _).trans (Reg0.A_eq (entryOf Vin) c 0)).trans (Function.update_of_ne (StableHlo.devRef_ne_of_ne (by decide)) _ _).symm
  | ⟨1, _⟩ => exact (((Reg0.dat (entryOf Vin) c).arrAt_in 1 rfl _).trans (Reg0.A_eq (entryOf Vin) c 1)).trans (Function.update_of_ne (StableHlo.devRef_ne_of_ne (by decide)) _ _).symm
  | ⟨2, _⟩ => exact (((Reg0.dat (entryOf Vin) c).arrAt_in 2 rfl _).trans (Reg0.A_eq (entryOf Vin) c 2)).trans (Function.update_of_ne (StableHlo.devRef_ne_of_ne (by decide)) _ _).symm
  | ⟨3, _⟩ =>
    have h1 : outOf0 Vin main_v110 c = (Reg0.dat (entryOf Vin) c).arrAt 3 cfg0.N :=
      Pipeline.withArrays_arr spec0 launch0.win.arr_inj c (Vin c) (fun w => (Reg0.dat (entryOf Vin) c).arrAt w cfg0.N) 3
    have h2 : exit0 Vin c (Proc.devRef .tc main_v110) = outOf0 Vin main_v110 c :=
      Function.update_self (Proc.devRef .tc main_v110) (outOf0 Vin main_v110 c) (Vin c)
    exact (h2.trans h1).symm
/-- and every other buffer what it held at entry. -/
theorem hrest0 (Vin : (c : Dev nD) → Valuation τ sig (Elt F)) (c : Dev nD) :
    ∀ b, b ∉ Finset.univ.image (Pipeline.arrRef spec0) → (exit0 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ### Region 1 -/

/-- What region 1 leaves in buffer `r`: its arrays at the fold of the write-backs, every other buffer as entered. -/
def outOf1 (Vin : (c : Dev nD) → Valuation τ sig (Elt F)) (r : Ref sig .tc) (c : Dev nD) : Buf (Elt F) ((c : Thread nD τ).loc r) :=
  Pipeline.withArrays spec1 c (Vin c) (fun w => (Reg1.dat (entryOf Vin) c).arrAt w cfg1.N) (Proc.devRef .tc r)
/-- The buffers after region 1: as entered, but for its output array. -/
abbrev exit1 (Vin : (c : Dev nD) → Valuation τ sig (Elt F)) (c : Dev nD) : Valuation τ sig (Elt F) :=
  Function.update (Vin c) main_v113 (outOf1 Vin main_v113 c)

set_option maxHeartbeats 4000000 in
/-- At the region's exit each of its arrays holds what the pipeline leaves — an input as entered, the output at its
    folded write-backs — -/
theorem hF1 (Vin : (c : Dev nD) → Valuation τ sig (Elt F)) (c : Dev nD) (w : Fin cfg1.W) :
    (Reg1.dat (entryOf Vin) c).arrAt w cfg1.N = exit1 Vin c (Pipeline.arrRef spec1 w) := by
  match w with
  | ⟨0, _⟩ => exact (((Reg1.dat (entryOf Vin) c).arrAt_in 0 rfl _).trans (Reg1.A_eq (entryOf Vin) c 0)).trans (Function.update_of_ne (StableHlo.devRef_ne_of_ne (by decide)) _ _).symm
  | ⟨1, _⟩ => exact (((Reg1.dat (entryOf Vin) c).arrAt_in 1 rfl _).trans (Reg1.A_eq (entryOf Vin) c 1)).trans (Function.update_of_ne (StableHlo.devRef_ne_of_ne (by decide)) _ _).symm
  | ⟨2, _⟩ => exact (((Reg1.dat (entryOf Vin) c).arrAt_in 2 rfl _).trans (Reg1.A_eq (entryOf Vin) c 2)).trans (Function.update_of_ne (StableHlo.devRef_ne_of_ne (by decide)) _ _).symm
  | ⟨3, _⟩ =>
    have h1 : outOf1 Vin main_v113 c = (Reg1.dat (entryOf Vin) c).arrAt 3 cfg1.N :=
      Pipeline.withArrays_arr spec1 launch1.win.arr_inj c (Vin c) (fun w => (Reg1.dat (entryOf Vin) c).arrAt w cfg1.N) 3
    have h2 : exit1 Vin c (Proc.devRef .tc main_v113) = outOf1 Vin main_v113 c :=
      Function.update_self (Proc.devRef .tc main_v113) (outOf1 Vin main_v113 c) (Vin c)
    exact (h2.trans h1).symm
/-- and every other buffer what it held at entry. -/
theorem hrest1 (Vin : (c : Dev nD) → Valuation τ sig (Elt F)) (c : Dev nD) :
    ∀ b, b ∉ Finset.univ.image (Pipeline.arrRef spec1) → (exit1 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ### Region 2 -/

/-- What region 2 leaves in buffer `r`: its arrays at the fold of the write-backs, every other buffer as entered. -/
def outOf2 (Vin : (c : Dev nD) → Valuation τ sig (Elt F)) (r : Ref sig .tc) (c : Dev nD) : Buf (Elt F) ((c : Thread nD τ).loc r) :=
  Pipeline.withArrays spec2 c (Vin c) (fun w => (Reg2.dat (entryOf Vin) c).arrAt w cfg2.N) (Proc.devRef .tc r)
/-- The buffers after region 2: as entered, but for its output array. -/
abbrev exit2 (Vin : (c : Dev nD) → Valuation τ sig (Elt F)) (c : Dev nD) : Valuation τ sig (Elt F) :=
  Function.update (Vin c) main_v120 (outOf2 Vin main_v120 c)

set_option maxHeartbeats 4000000 in
/-- At the region's exit each of its arrays holds what the pipeline leaves — an input as entered, the output at its
    folded write-backs — -/
theorem hF2 (Vin : (c : Dev nD) → Valuation τ sig (Elt F)) (c : Dev nD) (w : Fin cfg2.W) :
    (Reg2.dat (entryOf Vin) c).arrAt w cfg2.N = exit2 Vin c (Pipeline.arrRef spec2 w) := by
  match w with
  | ⟨0, _⟩ => exact (((Reg2.dat (entryOf Vin) c).arrAt_in 0 rfl _).trans (Reg2.A_eq (entryOf Vin) c 0)).trans (Function.update_of_ne (StableHlo.devRef_ne_of_ne (by decide)) _ _).symm
  | ⟨1, _⟩ => exact (((Reg2.dat (entryOf Vin) c).arrAt_in 1 rfl _).trans (Reg2.A_eq (entryOf Vin) c 1)).trans (Function.update_of_ne (StableHlo.devRef_ne_of_ne (by decide)) _ _).symm
  | ⟨2, _⟩ => exact (((Reg2.dat (entryOf Vin) c).arrAt_in 2 rfl _).trans (Reg2.A_eq (entryOf Vin) c 2)).trans (Function.update_of_ne (StableHlo.devRef_ne_of_ne (by decide)) _ _).symm
  | ⟨3, _⟩ =>
    have h1 : outOf2 Vin main_v120 c = (Reg2.dat (entryOf Vin) c).arrAt 3 cfg2.N :=
      Pipeline.withArrays_arr spec2 launch2.win.arr_inj c (Vin c) (fun w => (Reg2.dat (entryOf Vin) c).arrAt w cfg2.N) 3
    have h2 : exit2 Vin c (Proc.devRef .tc main_v120) = outOf2 Vin main_v120 c :=
      Function.update_self (Proc.devRef .tc main_v120) (outOf2 Vin main_v120 c) (Vin c)
    exact (h2.trans h1).symm
/-- and every other buffer what it held at entry. -/
theorem hrest2 (Vin : (c : Dev nD) → Valuation τ sig (Elt F)) (c : Dev nD) :
    ∀ b, b ∉ Finset.univ.image (Pipeline.arrRef spec2) → (exit2 Vin c b : Buf (Elt F) ((c : Thread nD τ).loc b)) = entryOf Vin c b := fun b hb =>
  Function.update_of_ne (StableHlo.devRef_ne_of_ne fun e => hb (Finset.mem_image.mpr ⟨3, Finset.mem_univ _, e.symm⟩)) _ _

/-! ## The proof data family and the thread state -/

variable (Vin0 Vin1 Vin2 : (c : Dev nD) → Valuation τ sig (Elt F))

/-- Each pipeline's proof data at its region's entry contents: a literal match. -/
def pdats : (p : Fin 3) → (c : Dev nD) → Dat τ (Elt F) Unit ℕ (UR sig nD τ) ℕ (cfgs p) c
  | ⟨0, _⟩ => fun c => Reg0.dat (entryOf Vin0) c
  | ⟨1, _⟩ => fun c => Reg1.dat (entryOf Vin1) c
  | ⟨2, _⟩ => fun c => Reg2.dat (entryOf Vin2) c
abbrev 𝒱₀ : Variants := Variants.none
abbrev L : GSem nD τ sig → Finset Unit := fun _ => ∅
abbrev lv : GSem nD τ sig → Unit → ℕ := fun _ _ => 0
/-- What rides beside the buffers through every item: the generator register at some state, nothing owed. -/
abbrev R (c : Dev nD) : sProp 𝕄 := iprop((∃ r, prngReg c r) ∗ ∃ W, owes (c : Thread nD τ) (0 : CellTallies nD τ sig Unit) W)

/-! ## The regions as segments -/

-- a library lemma stated over `pin pcs a p` unifies with the pinned configuration only when unification may unfold
-- plain definitions in a metavariable's type
set_option backward.isDefEq.respectTransparency.types false in
/-- Region 0 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg0 : Pipeline.RegionSeg (pcfgs (F := F)) adm (pdats Vin0 Vin1 Vin2) () defs₀ 𝒱₀ L lv 0 where
  win := launch0.win.to₀
  block_pos := launch0.block_pos
  stage_whole := launch0.stage_whole
  K := PEmpty
  osem k := k.elim
  ho := Pipeline.OwnSemFacts.none _
  hbody c := (Reg0.body_obligation (entryOf Vin0) c).loose
  hwaits := Pipeline.hwaits_of_owed_zero _ _ _ _ L lv 0 fun _ _ => rfl
  pre c := iprop(StableHlo.held (c : Thread nD τ) (Pipeline.ucRefs τ sig) (Vin0 c) ∗ R c)
  post c := iprop(StableHlo.held (c : Thread nD τ) (Pipeline.ucRefs τ sig) (exit0 Vin0 c) ∗ R c)
  X c := iprop(∃ r, prngReg c r)
  Y c := iprop(∃ r, prngReg c r)
  Z c := Pipeline.unscopedRest (Ix := Unit) (Name := ℕ) (U := UR sig nD τ) (Lvl := ℕ) spec0 c (entryOf Vin0 c)
  hentry c := by
    rw [Pipeline.ownSems0_none]
    have hsplit := Pipeline.arrays_of_unscopedBufs (p := 0) (pcfgs (F := F)) adm (pdats Vin0 Vin1 Vin2) launch0.win launch0.arr_whole c
      ((pdats Vin0 Vin1 Vin2 0 c).share_full fun _ => rfl) (entryOf Vin0 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg0.hin (entryOf Vin0) c
    unfold Pipeline.ΦA at h
    rw [show (pdats Vin0 Vin1 Vin2 0 c).Φ 0 = (Reg0.dat (entryOf Vin0) c).Φ 0 from rfl]
    iintro ⟨Hp, -, Hr⟩
    iapply h
    isplitl [Hr]; · iexact Hr
    iexact Hp
  hout c := by
    rw [Pipeline.ownSems0_none]
    have h := Reg0.hout (entryOf Vin0) c
    unfold Pipeline.ΦA at h
    rw [show (pdats Vin0 Vin1 Vin2 0 c).Φ (Fin.last _) = (Reg0.dat (entryOf Vin0) c).Φ (Fin.last cfg0.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats Vin0 Vin1 Vin2) ((pdats Vin0 Vin1 Vin2 0 c).share_full fun _ => rfl)
      (entryOf Vin0 c) (fun b => exit0 Vin0 c b) ((pdats Vin0 Vin1 Vin2 0 c).arrAt · cfg0.N) (hF0 Vin0 c) (hrest0 Vin0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 1 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg1 : Pipeline.RegionSeg (pcfgs (F := F)) adm (pdats Vin0 Vin1 Vin2) () defs₀ 𝒱₀ L lv 1 where
  win := launch1.win.to₀
  block_pos := launch1.block_pos
  stage_whole := launch1.stage_whole
  K := PEmpty
  osem k := k.elim
  ho := Pipeline.OwnSemFacts.none _
  hbody c := (Reg1.body_obligation (entryOf Vin1) c).loose
  hwaits := Pipeline.hwaits_of_owed_zero _ _ _ _ L lv 1 fun _ _ => rfl
  pre c := iprop(StableHlo.held (c : Thread nD τ) (Pipeline.ucRefs τ sig) (Vin1 c) ∗ R c)
  post c := iprop(StableHlo.held (c : Thread nD τ) (Pipeline.ucRefs τ sig) (exit1 Vin1 c) ∗ R c)
  X c := iprop(∃ r, prngReg c r)
  Y c := iprop(∃ r, prngReg c r)
  Z c := Pipeline.unscopedRest (Ix := Unit) (Name := ℕ) (U := UR sig nD τ) (Lvl := ℕ) spec1 c (entryOf Vin1 c)
  hentry c := by
    rw [Pipeline.ownSems0_none]
    have hsplit := Pipeline.arrays_of_unscopedBufs (p := 1) (pcfgs (F := F)) adm (pdats Vin0 Vin1 Vin2) launch1.win launch1.arr_whole c
      ((pdats Vin0 Vin1 Vin2 1 c).share_full fun _ => rfl) (entryOf Vin1 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg1.hin (entryOf Vin1) c
    unfold Pipeline.ΦA at h
    rw [show (pdats Vin0 Vin1 Vin2 1 c).Φ 0 = (Reg1.dat (entryOf Vin1) c).Φ 0 from rfl]
    iintro ⟨Hp, -, Hr⟩
    iapply h
    isplitl [Hr]; · iexact Hr
    iexact Hp
  hout c := by
    rw [Pipeline.ownSems0_none]
    have h := Reg1.hout (entryOf Vin1) c
    unfold Pipeline.ΦA at h
    rw [show (pdats Vin0 Vin1 Vin2 1 c).Φ (Fin.last _) = (Reg1.dat (entryOf Vin1) c).Φ (Fin.last cfg1.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats Vin0 Vin1 Vin2) ((pdats Vin0 Vin1 Vin2 1 c).share_full fun _ => rfl)
      (entryOf Vin1 c) (fun b => exit1 Vin1 c b) ((pdats Vin0 Vin1 Vin2 1 c).arrAt · cfg1.N) (hF1 Vin1 c) (hrest1 Vin1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over `pin pcs a p` unifies with the pinned configuration only when unification may unfold
-- plain definitions in a metavariable's type
set_option backward.isDefEq.respectTransparency.types false in
/-- Region 2 over the thread state "every unscoped buffer at the boundary's contents, the generator register at some
    state, nothing owed": its arrays are split out of the unscoped buffers at entry and put back at what the write-backs
    leave at exit; the generator register and the scoped rest go into the region invariant and come back; the
    accumulator's contents are forgotten at the exit. -/
def reg2 : Pipeline.RegionSeg (pcfgs (F := F)) adm (pdats Vin0 Vin1 Vin2) () defs₀ 𝒱₀ L lv 2 where
  win := launch2.win.to₀
  block_pos := launch2.block_pos
  stage_whole := launch2.stage_whole
  K := PEmpty
  osem k := k.elim
  ho := Pipeline.OwnSemFacts.none _
  hbody c := (Reg2.body_obligation (entryOf Vin2) c).loose
  hwaits := Pipeline.hwaits_of_owed_zero _ _ _ _ L lv 2 fun _ _ => rfl
  pre c := iprop(StableHlo.held (c : Thread nD τ) (Pipeline.ucRefs τ sig) (Vin2 c) ∗ R c)
  post c := iprop(StableHlo.held (c : Thread nD τ) (Pipeline.ucRefs τ sig) (exit2 Vin2 c) ∗ R c)
  X c := iprop(∃ r, prngReg c r)
  Y c := iprop(∃ r, prngReg c r)
  Z c := Pipeline.unscopedRest (Ix := Unit) (Name := ℕ) (U := UR sig nD τ) (Lvl := ℕ) spec2 c (entryOf Vin2 c)
  hentry c := by
    rw [Pipeline.ownSems0_none]
    have hsplit := Pipeline.arrays_of_unscopedBufs (p := 2) (pcfgs (F := F)) adm (pdats Vin0 Vin1 Vin2) launch2.win launch2.arr_whole c
      ((pdats Vin0 Vin1 Vin2 2 c).share_full fun _ => rfl) (entryOf Vin2 c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := Reg2.hin (entryOf Vin2) c
    unfold Pipeline.ΦA at h
    rw [show (pdats Vin0 Vin1 Vin2 2 c).Φ 0 = (Reg2.dat (entryOf Vin2) c).Φ 0 from rfl]
    iintro ⟨Hp, -, Hr⟩
    iapply h
    isplitl [Hr]; · iexact Hr
    iexact Hp
  hout c := by
    rw [Pipeline.ownSems0_none]
    have h := Reg2.hout (entryOf Vin2) c
    unfold Pipeline.ΦA at h
    rw [show (pdats Vin0 Vin1 Vin2 2 c).Φ (Fin.last _) = (Reg2.dat (entryOf Vin2) c).Φ (Fin.last cfg2.N) from rfl]
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats Vin0 Vin1 Vin2) ((pdats Vin0 Vin1 Vin2 2 c).share_full fun _ => rfl)
      (entryOf Vin2 c) (fun b => exit2 Vin2 c b) ((pdats Vin0 Vin1 Vin2 2 c).arrAt · cfg2.N) (hF2 Vin2 c) (hrest2 Vin2 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.KernelIdeal.Run.lean ====
/-
  The whole program as the segment list of its 27 items, each region entered from the buffers as the host
  stretch before it left them: the first product from the pooled features, the second from the first's
  output, the fused heads from the second's. The run ends with every unscoped buffer read back at the last
  boundary's contents; "the arguments end as launched" and the value of the result are read off that.
-/
import proofs.«110125_j48919677501805_2_alg».proof.Proof.KernelIdeal.Regs

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the regions leave, as the boundaries' contents read it -/

def outsA : Outs (F := F) := fun J r c => match J with
  | 18 => outOf0 (V17 m) r c
  | _ => m ((c : Thread nD τ).loc r)
def outsB : Outs (F := F) := fun J r c => match J with
  | 18 => outOf0 (V17 m) r c
  | 20 => outOf1 (V19 m (outsA m)) r c
  | _ => m ((c : Thread nD τ).loc r)
/-- After the first product its output array holds the fold of its write-backs; the second is entered from there, and
    so on: each stage is defined from the stage before. -/
def outs : Outs (F := F) := fun J r c => match J with
  | 18 => outOf0 (V17 m) r c
  | 20 => outOf1 (V19 m (outsA m)) r c
  | 26 => outOf2 (V25 m (outsB m)) r c
  | _ => m ((c : Thread nD τ).loc r)

/-- The entry contents of the three regions. -/
abbrev in0 : (c : Dev nD) → Valuation τ sig (Elt F) := V17 m
abbrev in1 : (c : Dev nD) → Valuation τ sig (Elt F) := V19 m (outsA m)
abbrev in2 : (c : Dev nD) → Valuation τ sig (Elt F) := V25 m (outsB m)

theorem V18_eq (c : Dev nD) : V18 m (outs m) c = exit0 (in0 m) c := rfl
theorem V19_eq (c : Dev nD) : V19 m (outs m) c = in1 m c := rfl
theorem V20_eq (c : Dev nD) : V20 m (outs m) c = exit1 (in1 m) c := rfl
theorem V25_eq (c : Dev nD) : V25 m (outs m) c = in2 m c := rfl
theorem V26_eq (c : Dev nD) : V26 m (outs m) c = exit2 (in2 m) c := rfl

abbrev dats : (p : Fin 3) → (c : Dev nD) → Dat τ (Elt F) Unit ℕ (UR sig nD τ) ℕ (cfgs p) c := pdats (in0 m) (in1 m) (in2 m)
abbrev E : Fin 4 → Dev nD → sProp 𝕄 := fun _ c => R c
abbrev r0 := reg0 (F := F) (in0 m) (in1 m) (in2 m)
abbrev r1 := reg1 (F := F) (in0 m) (in1 m) (in2 m)
abbrev r2 := reg2 (F := F) (in0 m) (in1 m) (in2 m)

/-! ## Each region is entered from the stretch before it and leaves to the stretch after it -/

theorem hpre0 (c : Dev nD) : iprop(StableHlo.held (c : Thread nD τ) (Pipeline.ucRefs τ sig) (V17 m c) ∗ E (F := F) 0 c) ⊢ (r0 m).pre c := .rfl
theorem hpost0 (c : Dev nD) : (r0 m).post c ⊢ iprop(StableHlo.held (c : Thread nD τ) (Pipeline.ucRefs τ sig) (V18 m (outs m) c) ∗ E (F := F) 1 c) := by
  rw [V18_eq]; exact .rfl
theorem hpre1 (c : Dev nD) : iprop(StableHlo.held (c : Thread nD τ) (Pipeline.ucRefs τ sig) (V19 m (outs m) c) ∗ E (F := F) 1 c) ⊢ (r1 m).pre c := by
  rw [V19_eq]; exact .rfl
theorem hpost1 (c : Dev nD) : (r1 m).post c ⊢ iprop(StableHlo.held (c : Thread nD τ) (Pipeline.ucRefs τ sig) (V20 m (outs m) c) ∗ E (F := F) 2 c) := by
  rw [V20_eq]; exact .rfl
theorem hpre2 (c : Dev nD) : iprop(StableHlo.held (c : Thread nD τ) (Pipeline.ucRefs τ sig) (V25 m (outs m) c) ∗ E (F := F) 2 c) ⊢ (r2 m).pre c := by
  rw [V25_eq]; exact .rfl
theorem hpost2 (c : Dev nD) : (r2 m).post c ⊢ iprop(StableHlo.held (c : Thread nD τ) (Pipeline.ucRefs τ sig) (V26 m (outs m) c) ∗ E (F := F) 3 c) := by
  rw [V26_eq]; exact .rfl
theorem hlast (c : Dev nD) : (E (F := F) 3 c) ⊢ (iprop(∃ W, owes (c : Thread nD τ) (0 : CellTallies nD τ sig Unit) W) : sProp 𝕄) := by
  iintro ⟨-, HO⟩
  iexact HO

/-! ## The run -/

-- the launch theorem's implicit arguments are found by unifying its conclusion with this one, which takes unfolding
-- plain definitions in a metavariable's type
set_option backward.isDefEq.respectTransparency.types false in
set_option maxHeartbeats 2000000 in
/-- From any memory with zero counters every weakly fair execution of the program terminates, nothing faulting, and
    every final state holds each unscoped buffer at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = V27 m (outs m) c b) := by
  refine Pipeline.θ_run_regions_kit_dev (pcfgs (F := F)) adm (dats m) () cellOf_inj emb₁ defs₀ 𝒱₀ L lv m ρ main
    (segs m (outs m) 𝒱₀ L lv (E (F := F)) () (dats m) (r0 m) (r1 m) (r2 m))
    (fun c Q => by
      rewrite [main_chain c, Seg.run_eq_chain,
        show (segs m (outs m) 𝒱₀ L lv (E (F := F)) () (dats m) (r0 m) (r1 m) (r2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3 ] from rfl]
      exact .rfl)
    (fun c => by simp only [segs, Seg.pipes_host, Seg.pipes_region, Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => StableHlo.held (c : Thread nD τ) (Pipeline.ucRefs τ sig) (V27 m (outs m) c))
    (hch := fun c => ⟨.rfl, .rfl, .rfl, .rfl, .rfl, .rfl, .rfl, .rfl, .rfl, .rfl, .rfl, .rfl, .rfl, .rfl, .rfl, .rfl, .rfl,
      hpre0 m c, hpost0 m c, hpre1 m c, hpost1 m c, .rfl, .rfl, .rfl, .rfl, hpre2 m c, hpost2 m c, sep_mono .rfl (hlast c)⟩)
    (hinit := ?_)
    (QY := fun c s => ∀ b ∈ Pipeline.ucRefs τ sig, s.mem (((c : Thread nD τ)).1, b) = V27 m (outs m) c b)
    (hfin := fun c s' => ?_) (hQ := fun _ h => h)
  · refine Pipeline.initEach L lv fun c => ?_
    rw [show unscopedBufs c (fun b => m ((c : Thread nD τ).loc b)) = StableHlo.held (c : Thread nD τ) (Pipeline.ucRefs τ sig) (V0 m c)
      from Pipeline.unscopedBufs_held c (V0 m c)]
    iintro ⟨⟨Hh, -, HO, -, Hp, -⟩, -⟩
    imodintro
    isplitl [Hh]; · iexact Hh
    isplitl [Hp]; · iexists _; iexact Hp
    iexists ∅; iexact HO
  · iintro ⟨Hh, HSI⟩
    unfold StableHlo.held
    imodintro
    iapply (pointsTo_read_all (Pipeline.ucRefs τ sig) (fun b => (((c : Thread nD τ)).1, b)) (V27 m (outs m) c) s')
    isplitl [Hh] <;> iassumption

end Cert.KernelIdeal.Run

end
-- ==== Proof.KernelIdeal.Frame.lean ====
/-
  The arguments end as launched: no host stretch and no region writes an argument array, so the last
  boundary's contents at an argument are the launch contents, and the run ends with every buffer at the
  last boundary's contents.
-/
import proofs.«110125_j48919677501805_2_alg».proof.Proof.KernelIdeal.Run

set_option maxRecDepth 16384

noncomputable section

namespace Cert.KernelIdeal.Run

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c (Proc.devRef .tc main_arg0) (Finset.mem_filter.mpr ⟨StableHlo.devRef_mem_tcRefs main_arg0, by decide⟩)).trans (V27_main_arg0 m (outs m) c),
      (h c (Proc.devRef .tc main_arg1) (Finset.mem_filter.mpr ⟨StableHlo.devRef_mem_tcRefs main_arg1, by decide⟩)).trans (V27_main_arg1 m (outs m) c),
      (h c (Proc.devRef .tc main_arg2) (Finset.mem_filter.mpr ⟨StableHlo.devRef_mem_tcRefs main_arg2, by decide⟩)).trans (V27_main_arg2 m (outs m) c),
      (h c (Proc.devRef .tc main_arg3) (Finset.mem_filter.mpr ⟨StableHlo.devRef_mem_tcRefs main_arg3, by decide⟩)).trans (V27_main_arg3 m (outs m) c),
      (h c (Proc.devRef .tc main_arg4) (Finset.mem_filter.mpr ⟨StableHlo.devRef_mem_tcRefs main_arg4, by decide⟩)).trans (V27_main_arg4 m (outs m) c),
      (h c (Proc.devRef .tc main_arg5) (Finset.mem_filter.mpr ⟨StableHlo.devRef_mem_tcRefs main_arg5, by decide⟩)).trans (V27_main_arg5 m (outs m) c),
      (h c (Proc.devRef .tc main_arg6) (Finset.mem_filter.mpr ⟨StableHlo.devRef_mem_tcRefs main_arg6, by decide⟩)).trans (V27_main_arg6 m (outs m) c),
      (h c (Proc.devRef .tc main_arg7) (Finset.mem_filter.mpr ⟨StableHlo.devRef_mem_tcRefs main_arg7, by decide⟩)).trans (V27_main_arg7 m (outs m) c),
      (h c (Proc.devRef .tc main_arg8) (Finset.mem_filter.mpr ⟨StableHlo.devRef_mem_tcRefs main_arg8, by decide⟩)).trans (V27_main_arg8 m (outs m) c),
      (h c (Proc.devRef .tc main_arg9) (Finset.mem_filter.mpr ⟨StableHlo.devRef_mem_tcRefs main_arg9, by decide⟩)).trans (V27_main_arg9 m (outs m) c)⟩) (run m ρ)

end Cert.KernelIdeal.Run

end
-- ==== Proof.Ref.Ops.lean ====
/- The reference program's @main as a list of its host operations, in program order: each operation of a
   called function stands at its call site, over that call's buffer record and with the call's operands in
   place of the function's arguments. The list is cut into nine stretches (opsA … opsI), grouped by the three
   windows the program prints @main in; each window is the straight line of its stretches, and @main is the
   straight line of the whole list. -/
import proofs.«110125_j48919677501805_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- 31 operations: the values from `main_v0` to `main_c_1`. -/
abbrev opsA : List (HloOp τ sig (Elt F)) :=
  [ StableHlo.reshape main_arg0 main_v0 rfl shapeCasts_S1x512x32x32_S512x32x32,
    StableHlo.unary main_arg1 main_v1 ((extractStridedSlice S128x4 ![0, 1] · slices_S128x5_S128x4_0_1) : (⟨S128x5, .f32⟩ : BufTy).Contents (Elt F) → (⟨S128x4, .f32⟩ : BufTy).Contents (Elt F)),
    StableHlo.nullary main_cst (constant S_ .f32 0x3D800000#32),
    StableHlo.unary main_cst main_v2 (broadcastInDim S128x4 ![] bcast_S_S128x4 : (⟨S_, .f32⟩ : BufTy).Contents (Elt F) → (⟨S128x4, .f32⟩ : BufTy).Contents (Elt F)),
    StableHlo.binary main_v1 main_v2 main_v3 (mulf : (⟨S128x4, .f32⟩ : BufTy).Contents (Elt F) → (⟨S128x4, .f32⟩ : BufTy).Contents (Elt F) → (⟨S128x4, .f32⟩ : BufTy).Contents (Elt F)),
    StableHlo.unary main_v3 main_v4 (Host.floor : (⟨S128x4, .f32⟩ : BufTy).Contents (Elt F) → (⟨S128x4, .f32⟩ : BufTy).Contents (Elt F)),
    StableHlo.unary main_v4 main_v5 (fptosi 32 : (⟨S128x4, .f32⟩ : BufTy).Contents (Elt F) → (⟨S128x4, .i32⟩ : BufTy).Contents (Elt F)),
    StableHlo.unary main_v5 main_v6 ((extractStridedSlice S128x1 ![0, 0] · slices_S128x4_S128x1_0_0) : (⟨S128x4, .i32⟩ : BufTy).Contents (Elt F) → (⟨S128x1, .i32⟩ : BufTy).Contents (Elt F)),
    StableHlo.reshape main_v6 main_v7 rfl shapeCasts_S128x1_S128,
    StableHlo.unary main_v5 main_v8 ((extractStridedSlice S128x1 ![0, 1] · slices_S128x4_S128x1_0_1) : (⟨S128x4, .i32⟩ : BufTy).Contents (Elt F) → (⟨S128x1, .i32⟩ : BufTy).Contents (Elt F)),
    StableHlo.reshape main_v8 main_v9 rfl shapeCasts_S128x1_S128,
    StableHlo.unary main_v5 main_v10 ((extractStridedSlice S128x1 ![0, 2] · slices_S128x4_S128x1_0_2) : (⟨S128x4, .i32⟩ : BufTy).Contents (Elt F) → (⟨S128x1, .i32⟩ : BufTy).Contents (Elt F)),
    StableHlo.reshape main_v10 main_v11 rfl shapeCasts_S128x1_S128,
    StableHlo.unary main_v5 main_v12 ((extractStridedSlice S128x1 ![0, 3] · slices_S128x4_S128x1_0_3) : (⟨S128x4, .i32⟩ : BufTy).Contents (Elt F) → (⟨S128x1, .i32⟩ : BufTy).Contents (Elt F)),
    StableHlo.reshape main_v12 main_v13 rfl shapeCasts_S128x1_S128,
    StableHlo.binary main_v13 main_v9 main_v14 (subi : (⟨S128, .i32⟩ : BufTy).Contents (Elt F) → (⟨S128, .i32⟩ : BufTy).Contents (Elt F) → (⟨S128, .i32⟩ : BufTy).Contents (Elt F)),
    StableHlo.nullary main_c (constantI S_ 32 1#32),
    StableHlo.unary main_c main_v15 (broadcastInDim S128 ![] bcast_S_S128 : (⟨S_, .i32⟩ : BufTy).Contents (Elt F) → (⟨S128, .i32⟩ : BufTy).Contents (Elt F)),
    StableHlo.binary main_v14 main_v15 main_v16 (addi : (⟨S128, .i32⟩ : BufTy).Contents (Elt F) → (⟨S128, .i32⟩ : BufTy).Contents (Elt F) → (⟨S128, .i32⟩ : BufTy).Contents (Elt F)),
    StableHlo.binary main_v11 main_v7 main_v17 (subi : (⟨S128, .i32⟩ : BufTy).Contents (Elt F) → (⟨S128, .i32⟩ : BufTy).Contents (Elt F) → (⟨S128, .i32⟩ : BufTy).Contents (Elt F)),
    StableHlo.nullary main_c_0 (constantI S_ 32 1#32),
    StableHlo.unary main_c_0 main_v18 (broadcastInDim S128 ![] bcast_S_S128 : (⟨S_, .i32⟩ : BufTy).Contents (Elt F) → (⟨S128, .i32⟩ : BufTy).Contents (Elt F)),
    StableHlo.binary main_v17 main_v18 main_v19 (addi : (⟨S128, .i32⟩ : BufTy).Contents (Elt F) → (⟨S128, .i32⟩ : BufTy).Contents (Elt F) → (⟨S128, .i32⟩ : BufTy).Contents (Elt F)),
    StableHlo.nullary main_v20 (iotaInDim S7 32 0),
    StableHlo.unary main_v9 main_v21 (broadcastInDim S128x1 ![0] bcast_S128_S128x1_0 : (⟨S128, .i32⟩ : BufTy).Contents (Elt F) → (⟨S128x1, .i32⟩ : BufTy).Contents (Elt F)),
    StableHlo.unary main_v20 main_v22 (broadcastInDim S1x7 ![1] bcast_S7_S1x7_1 : (⟨S7, .i32⟩ : BufTy).Contents (Elt F) → (⟨S1x7, .i32⟩ : BufTy).Contents (Elt F)),
    StableHlo.unary main_v16 main_v23 (broadcastInDim S128x1 ![0] bcast_S128_S128x1_0 : (⟨S128, .i32⟩ : BufTy).Contents (Elt F) → (⟨S128x1, .i32⟩ : BufTy).Contents (Elt F)),
    StableHlo.unary main_v22 main_v24 (broadcastInDim S128x7 ![0, 1] bcast_S1x7_S128x7_0_1 : (⟨S1x7, .i32⟩ : BufTy).Contents (Elt F) → (⟨S128x7, .i32⟩ : BufTy).Contents (Elt F)),
    StableHlo.unary main_v23 main_v25 (broadcastInDim S128x7 ![0, 1] bcast_S128x1_S128x7_0_1 : (⟨S128x1, .i32⟩ : BufTy).Contents (Elt F) → (⟨S128x7, .i32⟩ : BufTy).Contents (Elt F)),
    StableHlo.binary main_v24 main_v25 main_v26 (muli : (⟨S128x7, .i32⟩ : BufTy).Contents (Elt F) → (⟨S128x7, .i32⟩ : BufTy).Contents (Elt F) → (⟨S128x7, .i32⟩ : BufTy).Contents (Elt F)),
    StableHlo.nullary main_c_1 (constantI S_ 32 7#32) ]

/-- 19 operations: the values from `main_call0_v0` to `main_v29`. -/
abbrev opsB : List (HloOp τ sig (Elt F)) :=
  [ StableHlo.TRef.unary (.of main_c_1 : StableHlo.TRef sig ⟨S_, .i32⟩) main_call0.v0 id,
    StableHlo.TRef.unary main_call0.v0 main_call0.v1 (broadcastInDim S128x7 ![] bcast_S_S128x7),
    StableHlo.TRef.binary (.of main_v26 : StableHlo.TRef sig ⟨S128x7, .i32⟩) main_call0.v1 main_call0.v2 Host.divsi,
    StableHlo.TRef.unary (.of main_v26 : StableHlo.TRef sig ⟨S128x7, .i32⟩) main_call0.v3 signi,
    StableHlo.TRef.unary main_call0.v0 main_call0.v4 signi,
    StableHlo.TRef.unary main_call0.v4 main_call0.v5 (broadcastInDim S128x7 ![] bcast_S_S128x7),
    StableHlo.TRef.binary main_call0.v3 main_call0.v5 main_call0.v6 (cmpi .ne),
    StableHlo.TRef.unary main_call0.v0 main_call0.v7 (broadcastInDim S128x7 ![] bcast_S_S128x7),
    StableHlo.TRef.binary (.of main_v26 : StableHlo.TRef sig ⟨S128x7, .i32⟩) main_call0.v7 main_call0.v8 Host.remsi,
    StableHlo.TRef.nullary main_call0.c (constantI S_ 32 0#32),
    StableHlo.TRef.unary main_call0.c main_call0.v9 (broadcastInDim S128x7 ![] bcast_S_S128x7),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S128x7 ![] bcast_S_S128x7),
    StableHlo.TRef.binary main_call0.v2 main_call0.v12 main_call0.v13 subi,
    StableHlo.TRef.ternary main_call0.v11 main_call0.v13 main_call0.v2 main_call0.call0.v0 select,
    StableHlo.unary main_v21 main_v28 (broadcastInDim S128x7 ![0, 1] bcast_S128x1_S128x7_0_1 : (⟨S128x1, .i32⟩ : BufTy).Contents (Elt F) → (⟨S128x7, .i32⟩ : BufTy).Contents (Elt F)),
    StableHlo.binary main_v28 main_v27 main_v29 (addi : (⟨S128x7, .i32⟩ : BufTy).Contents (Elt F) → (⟨S128x7, .i32⟩ : BufTy).Contents (Elt F) → (⟨S128x7, .i32⟩ : BufTy).Contents (Elt F)) ]

/-- 32 operations: the values from `main_v30` to `main_v42`. -/
abbrev opsC : List (HloOp τ sig (Elt F)) :=
  [ StableHlo.unary main_v9 main_v30 (broadcastInDim S128x1 ![0] bcast_S128_S128x1_0 : (⟨S128, .i32⟩ : BufTy).Contents (Elt F) → (⟨S128x1, .i32⟩ : BufTy).Contents (Elt F)),
    StableHlo.unary main_v20 main_v31 (broadcastInDim S1x7 ![1] bcast_S7_S1x7_1 : (⟨S7, .i32⟩ : BufTy).Contents (Elt F) → (⟨S1x7, .i32⟩ : BufTy).Contents (Elt F)),
    StableHlo.nullary main_c_2 (constantI S_ 32 1#32),
    StableHlo.unary main_c_2 main_v32 (broadcastInDim S1x7 ![] bcast_S_S1x7 : (⟨S_, .i32⟩ : BufTy).Contents (Elt F) → (⟨S1x7, .i32⟩ : BufTy).Contents (Elt F)),
    StableHlo.binary main_v31 main_v32 main_v33 (addi : (⟨S1x7, .i32⟩ : BufTy).Contents (Elt F) → (⟨S1x7, .i32⟩ : BufTy).Contents (Elt F) → (⟨S1x7, .i32⟩ : BufTy).Contents (Elt F)),
    StableHlo.unary main_v16 main_v34 (broadcastInDim S128x1 ![0] bcast_S128_S128x1_0 : (⟨S128, .i32⟩ : BufTy).Contents (Elt F) → (⟨S128x1, .i32⟩ : BufTy).Contents (Elt F)),
    StableHlo.unary main_v33 main_v35 (broadcastInDim S128x7 ![0, 1] bcast_S1x7_S128x7_0_1 : (⟨S1x7, .i32⟩ : BufTy).Contents (Elt F) → (⟨S128x7, .i32⟩ : BufTy).Contents (Elt F)),
    StableHlo.unary main_v34 main_v36 (broadcastInDim S128x7 ![0, 1] bcast_S128x1_S128x7_0_1 : (⟨S128x1, .i32⟩ : BufTy).Contents (Elt F) → (⟨S128x7, .i32⟩ : BufTy).Contents (Elt F)),
    StableHlo.binary main_v35 main_v36 main_v37 (muli : (⟨S128x7, .i32⟩ : BufTy).Contents (Elt F) → (⟨S128x7, .i32⟩ : BufTy).Contents (Elt F) → (⟨S128x7, .i32⟩ : BufTy).Contents (Elt F)),
    StableHlo.nullary main_c_3 (constantI S_ 32 6#32),
    StableHlo.unary main_c_3 main_v38 (broadcastInDim S128x7 ![] bcast_S_S128x7 : (⟨S_, .i32⟩ : BufTy).Contents (Elt F) → (⟨S128x7, .i32⟩ : BufTy).Contents (Elt F)),
    StableHlo.binary main_v37 main_v38 main_v39 (addi : (⟨S128x7, .i32⟩ : BufTy).Contents (Elt F) → (⟨S128x7, .i32⟩ : BufTy).Contents (Elt F) → (⟨S128x7, .i32⟩ : BufTy).Contents (Elt F)),
    StableHlo.nullary main_c_4 (constantI S_ 32 7#32),
    StableHlo.TRef.unary (.of main_c_4 : StableHlo.TRef sig ⟨S_, .i32⟩) main_call1.v0 id,
    StableHlo.TRef.unary main_call1.v0 main_call1.v1 (broadcastInDim S128x7 ![] bcast_S_S128x7),
    StableHlo.TRef.binary (.of main_v39 : StableHlo.TRef sig ⟨S128x7, .i32⟩) main_call1.v1 main_call1.v2 Host.divsi,
    StableHlo.TRef.unary (.of main_v39 : StableHlo.TRef sig ⟨S128x7, .i32⟩) main_call1.v3 signi,
    StableHlo.TRef.unary main_call1.v0 main_call1.v4 signi,
    StableHlo.TRef.unary main_call1.v4 main_call1.v5 (broadcastInDim S128x7 ![] bcast_S_S128x7),
    StableHlo.TRef.binary main_call1.v3 main_call1.v5 main_call1.v6 (cmpi .ne),
    StableHlo.TRef.unary main_call1.v0 main_call1.v7 (broadcastInDim S128x7 ![] bcast_S_S128x7),
    StableHlo.TRef.binary (.of main_v39 : StableHlo.TRef sig ⟨S128x7, .i32⟩) main_call1.v7 main_call1.v8 Host.remsi,
    StableHlo.TRef.nullary main_call1.c (constantI S_ 32 0#32),
    StableHlo.TRef.unary main_call1.c main_call1.v9 (broadcastInDim S128x7 ![] bcast_S_S128x7),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S128x7 ![] bcast_S_S128x7),
    StableHlo.TRef.binary main_call1.v2 main_call1.v12 main_call1.v13 subi,
    StableHlo.TRef.ternary main_call1.v11 main_call1.v13 main_call1.v2 main_call1.call0.v0 select,
    StableHlo.unary main_v30 main_v41 (broadcastInDim S128x7 ![0, 1] bcast_S128x1_S128x7_0_1 : (⟨S128x1, .i32⟩ : BufTy).Contents (Elt F) → (⟨S128x7, .i32⟩ : BufTy).Contents (Elt F)),
    StableHlo.binary main_v41 main_v40 main_v42 (addi : (⟨S128x7, .i32⟩ : BufTy).Contents (Elt F) → (⟨S128x7, .i32⟩ : BufTy).Contents (Elt F) → (⟨S128x7, .i32⟩ : BufTy).Contents (Elt F)) ]

/-- 26 operations: the values from `main_v43` to `main_v51`. -/
abbrev opsD : List (HloOp τ sig (Elt F)) :=
  [ StableHlo.unary main_v7 main_v43 (broadcastInDim S128x1 ![0] bcast_S128_S128x1_0 : (⟨S128, .i32⟩ : BufTy).Contents (Elt F) → (⟨S128x1, .i32⟩ : BufTy).Contents (Elt F)),
    StableHlo.unary main_v20 main_v44 (broadcastInDim S1x7 ![1] bcast_S7_S1x7_1 : (⟨S7, .i32⟩ : BufTy).Contents (Elt F) → (⟨S1x7, .i32⟩ : BufTy).Contents (Elt F)),
    StableHlo.unary main_v19 main_v45 (broadcastInDim S128x1 ![0] bcast_S128_S128x1_0 : (⟨S128, .i32⟩ : BufTy).Contents (Elt F) → (⟨S128x1, .i32⟩ : BufTy).Contents (Elt F)),
    StableHlo.unary main_v44 main_v46 (broadcastInDim S128x7 ![0, 1] bcast_S1x7_S128x7_0_1 : (⟨S1x7, .i32⟩ : BufTy).Contents (Elt F) → (⟨S128x7, .i32⟩ : BufTy).Contents (Elt F)),
    StableHlo.unary main_v45 main_v47 (broadcastInDim S128x7 ![0, 1] bcast_S128x1_S128x7_0_1 : (⟨S128x1, .i32⟩ : BufTy).Contents (Elt F) → (⟨S128x7, .i32⟩ : BufTy).Contents (Elt F)),
    StableHlo.binary main_v46 main_v47 main_v48 (muli : (⟨S128x7, .i32⟩ : BufTy).Contents (Elt F) → (⟨S128x7, .i32⟩ : BufTy).Contents (Elt F) → (⟨S128x7, .i32⟩ : BufTy).Contents (Elt F)),
    StableHlo.nullary main_c_5 (constantI S_ 32 7#32),
    StableHlo.TRef.unary (.of main_c_5 : StableHlo.TRef sig ⟨S_, .i32⟩) main_call2.v0 id,
    StableHlo.TRef.unary main_call2.v0 main_call2.v1 (broadcastInDim S128x7 ![] bcast_S_S128x7),
    StableHlo.TRef.binary (.of main_v48 : StableHlo.TRef sig ⟨S128x7, .i32⟩) main_call2.v1 main_call2.v2 Host.divsi,
    StableHlo.TRef.unary (.of main_v48 : StableHlo.TRef sig ⟨S128x7, .i32⟩) main_call2.v3 signi,
    StableHlo.TRef.unary main_call2.v0 main_call2.v4 signi,
    StableHlo.TRef.unary main_call2.v4 main_call2.v5 (broadcastInDim S128x7 ![] bcast_S_S128x7),
    StableHlo.TRef.binary main_call2.v3 main_call2.v5 main_call2.v6 (cmpi .ne),
    StableHlo.TRef.unary main_call2.v0 main_call2.v7 (broadcastInDim S128x7 ![] bcast_S_S128x7),
    StableHlo.TRef.binary (.of main_v48 : StableHlo.TRef sig ⟨S128x7, .i32⟩) main_call2.v7 main_call2.v8 Host.remsi,
    StableHlo.TRef.nullary main_call2.c (constantI S_ 32 0#32),
    StableHlo.TRef.unary main_call2.c main_call2.v9 (broadcastInDim S128x7 ![] bcast_S_S128x7),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S128x7 ![] bcast_S_S128x7),
    StableHlo.TRef.binary main_call2.v2 main_call2.v12 main_call2.v13 subi,
    StableHlo.TRef.ternary main_call2.v11 main_call2.v13 main_call2.v2 main_call2.call0.v0 select,
    StableHlo.unary main_v43 main_v50 (broadcastInDim S128x7 ![0, 1] bcast_S128x1_S128x7_0_1 : (⟨S128x1, .i32⟩ : BufTy).Contents (Elt F) → (⟨S128x7, .i32⟩ : BufTy).Contents (Elt F)),
    StableHlo.binary main_v50 main_v49 main_v51 (addi : (⟨S128x7, .i32⟩ : BufTy).Contents (Elt F) → (⟨S128x7, .i32⟩ : BufTy).Contents (Elt F) → (⟨S128x7, .i32⟩ : BufTy).Contents (Elt F)) ]

/-- 32 operations: the values from `main_v52` to `main_v64`. -/
abbrev opsE : List (HloOp τ sig (Elt F)) :=
  [ StableHlo.unary main_v7 main_v52 (broadcastInDim S128x1 ![0] bcast_S128_S128x1_0 : (⟨S128, .i32⟩ : BufTy).Contents (Elt F) → (⟨S128x1, .i32⟩ : BufTy).Contents (Elt F)),
    StableHlo.unary main_v20 main_v53 (broadcastInDim S1x7 ![1] bcast_S7_S1x7_1 : (⟨S7, .i32⟩ : BufTy).Contents (Elt F) → (⟨S1x7, .i32⟩ : BufTy).Contents (Elt F)),
    StableHlo.nullary main_c_6 (constantI S_ 32 1#32),
    StableHlo.unary main_c_6 main_v54 (broadcastInDim S1x7 ![] bcast_S_S1x7 : (⟨S_, .i32⟩ : BufTy).Contents (Elt F) → (⟨S1x7, .i32⟩ : BufTy).Contents (Elt F)),
    StableHlo.binary main_v53 main_v54 main_v55 (addi : (⟨S1x7, .i32⟩ : BufTy).Contents (Elt F) → (⟨S1x7, .i32⟩ : BufTy).Contents (Elt F) → (⟨S1x7, .i32⟩ : BufTy).Contents (Elt F)),
    StableHlo.unary main_v19 main_v56 (broadcastInDim S128x1 ![0] bcast_S128_S128x1_0 : (⟨S128, .i32⟩ : BufTy).Contents (Elt F) → (⟨S128x1, .i32⟩ : BufTy).Contents (Elt F)),
    StableHlo.unary main_v55 main_v57 (broadcastInDim S128x7 ![0, 1] bcast_S1x7_S128x7_0_1 : (⟨S1x7, .i32⟩ : BufTy).Contents (Elt F) → (⟨S128x7, .i32⟩ : BufTy).Contents (Elt F)),
    StableHlo.unary main_v56 main_v58 (broadcastInDim S128x7 ![0, 1] bcast_S128x1_S128x7_0_1 : (⟨S128x1, .i32⟩ : BufTy).Contents (Elt F) → (⟨S128x7, .i32⟩ : BufTy).Contents (Elt F)),
    StableHlo.binary main_v57 main_v58 main_v59 (muli : (⟨S128x7, .i32⟩ : BufTy).Contents (Elt F) → (⟨S128x7, .i32⟩ : BufTy).Contents (Elt F) → (⟨S128x7, .i32⟩ : BufTy).Contents (Elt F)),
    StableHlo.nullary main_c_7 (constantI S_ 32 6#32),
    StableHlo.unary main_c_7 main_v60 (broadcastInDim S128x7 ![] bcast_S_S128x7 : (⟨S_, .i32⟩ : BufTy).Contents (Elt F) → (⟨S128x7, .i32⟩ : BufTy).Contents (Elt F)),
    StableHlo.binary main_v59 main_v60 main_v61 (addi : (⟨S128x7, .i32⟩ : BufTy).Contents (Elt F) → (⟨S128x7, .i32⟩ : BufTy).Contents (Elt F) → (⟨S128x7, .i32⟩ : BufTy).Contents (Elt F)),
    StableHlo.nullary main_c_8 (constantI S_ 32 7#32),
    StableHlo.TRef.unary (.of main_c_8 : StableHlo.TRef sig ⟨S_, .i32⟩) main_call3.v0 id,
    StableHlo.TRef.unary main_call3.v0 main_call3.v1 (broadcastInDim S128x7 ![] bcast_S_S128x7),
    StableHlo.TRef.binary (.of main_v61 : StableHlo.TRef sig ⟨S128x7, .i32⟩) main_call3.v1 main_call3.v2 Host.divsi,
    StableHlo.TRef.unary (.of main_v61 : StableHlo.TRef sig ⟨S128x7, .i32⟩) main_call3.v3 signi,
    StableHlo.TRef.unary main_call3.v0 main_call3.v4 signi,
    StableHlo.TRef.unary main_call3.v4 main_call3.v5 (broadcastInDim S128x7 ![] bcast_S_S128x7),
    StableHlo.TRef.binary main_call3.v3 main_call3.v5 main_call3.v6 (cmpi .ne),
    StableHlo.TRef.unary main_call3.v0 main_call3.v7 (broadcastInDim S128x7 ![] bcast_S_S128x7),
    StableHlo.TRef.binary (.of main_v61 : StableHlo.TRef sig ⟨S128x7, .i32⟩) main_call3.v7 main_call3.v8 Host.remsi,
    StableHlo.TRef.nullary main_call3.c (constantI S_ 32 0#32),
    StableHlo.TRef.unary main_call3.c main_call3.v9 (broadcastInDim S128x7 ![] bcast_S_S128x7),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S128x7 ![] bcast_S_S128x7),
    StableHlo.TRef.binary main_call3.v2 main_call3.v12 main_call3.v13 subi,
    StableHlo.TRef.ternary main_call3.v11 main_call3.v13 main_call3.v2 main_call3.call0.v0 select,
    StableHlo.unary main_v52 main_v63 (broadcastInDim S128x7 ![0, 1] bcast_S128x1_S128x7_0_1 : (⟨S128x1, .i32⟩ : BufTy).Contents (Elt F) → (⟨S128x7, .i32⟩ : BufTy).Contents (Elt F)),
    StableHlo.binary main_v63 main_v62 main_v64 (addi : (⟨S128x7, .i32⟩ : BufTy).Contents (Elt F) → (⟨S128x7, .i32⟩ : BufTy).Contents (Elt F) → (⟨S128x7, .i32⟩ : BufTy).Contents (Elt F)) ]

/-- 31 operations: the values from `main_v65` to `main_v83`. -/
abbrev opsF : List (HloOp τ sig (Elt F)) :=
  [ StableHlo.unary main_v29 main_v65 (broadcastInDim S128x7x1 ![0, 1] bcast_S128x7_S128x7x1_0_1 : (⟨S128x7, .i32⟩ : BufTy).Contents (Elt F) → (⟨S128x7x1, .i32⟩ : BufTy).Contents (Elt F)),
    StableHlo.nullary main_v66 (iotaInDim S5 32 0),
    StableHlo.unary main_v66 main_v67 (broadcastInDim S1x1x5 ![2] bcast_S5_S1x1x5_2 : (⟨S5, .i32⟩ : BufTy).Contents (Elt F) → (⟨S1x1x5, .i32⟩ : BufTy).Contents (Elt F)),
    StableHlo.unary main_v65 main_v68 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v67 main_v69 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v68 main_v69 main_v70 (addi : (⟨S128x7x5, .i32⟩ : BufTy).Contents (Elt F) → (⟨S128x7x5, .i32⟩ : BufTy).Contents (Elt F) → (⟨S128x7x5, .i32⟩ : BufTy).Contents (Elt F)),
    StableHlo.unary main_v42 main_v71 (broadcastInDim S128x7x1 ![0, 1] bcast_S128x7_S128x7x1_0_1 : (⟨S128x7, .i32⟩ : BufTy).Contents (Elt F) → (⟨S128x7x1, .i32⟩ : BufTy).Contents (Elt F)),
    StableHlo.unary main_v71 main_v72 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v70 main_v72 main_v73 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_9 (constantI S_ 32 0#32),
    StableHlo.nullary main_c_10 (constantI S_ 32 31#32),
    StableHlo.TRef.unary (.of main_c_9 : StableHlo.TRef sig ⟨S_, .i32⟩) main_call4.v0 id,
    StableHlo.TRef.unary main_call4.v0 main_call4.v1 (broadcastInDim S128x7x5 ![] bcast_S_S128x7x5),
    StableHlo.TRef.binary main_call4.v1 (.of main_v70 : StableHlo.TRef sig ⟨S128x7x5, .i32⟩) main_call4.v2 maxsi,
    StableHlo.TRef.unary (.of main_c_10 : StableHlo.TRef sig ⟨S_, .i32⟩) main_call4.v3 id,
    StableHlo.TRef.unary main_call4.v3 main_call4.v4 (broadcastInDim S128x7x5 ![] bcast_S_S128x7x5),
    StableHlo.TRef.binary main_call4.v4 main_call4.v2 main_call4.v5 minsi,
    StableHlo.nullary main_c_11 (constantI S_ 32 0#32),
    StableHlo.unary main_c_11 main_v75 (broadcastInDim S128x7x5 ![] bcast_S_S128x7x5 : (⟨S_, .i32⟩ : BufTy).Contents (Elt F) → (⟨S128x7x5, .i32⟩ : BufTy).Contents (Elt F)),
    StableHlo.binary main_v74 main_v75 main_v76 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_12 (constantI S_ 32 32#32),
    StableHlo.unary main_c_12 main_v77 (broadcastInDim S128x7x5 ![] bcast_S_S128x7x5 : (⟨S_, .i32⟩ : BufTy).Contents (Elt F) → (⟨S128x7x5, .i32⟩ : BufTy).Contents (Elt F)),
    StableHlo.binary main_v74 main_v77 main_v78 (addi : (⟨S128x7x5, .i32⟩ : BufTy).Contents (Elt F) → (⟨S128x7x5, .i32⟩ : BufTy).Contents (Elt F) → (⟨S128x7x5, .i32⟩ : BufTy).Contents (Elt F)),
    StableHlo.ternary main_v76 main_v78 main_v74 main_v79 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v79 main_v80 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v0 main_v80 main_v81 ((fun x i => Host.gather gather_S512x32x32_S128x7x5x1_S512x128x7x5x32_04_1_n_n_1_3_512132 x i) : (⟨S512x32x32, .f32⟩ : BufTy).Contents (Elt F) → (⟨S128x7x5x1, .i32⟩ : BufTy).Contents (Elt F) → (⟨S512x128x7x5x32, .f32⟩ : BufTy).Contents (Elt F)),
    StableHlo.unary main_v73 main_v82 (broadcastInDim S1x128x7x5x1 ![1, 2, 3] bcast_S128x7x5_S1x128x7x5x1_1_2_3 : (⟨S128x7x5, .i1⟩ : BufTy).Contents (Elt F) → (⟨S1x128x7x5x1, .i1⟩ : BufTy).Contents (Elt F)),
    StableHlo.nullary main_cst_13 (constant S_ .f32 0xFF800000#32),
    StableHlo.TRef.unary (.of main_v82 : StableHlo.TRef sig ⟨S1x128x7x5x1, .i1⟩) main_call5.v0 (broadcastInDim S512x128x7x5x32 ![0, 1, 2, 3, 4] bcast_S1x128x7x5x1_S512x128x7x5x32_0_1_2_3_4),
    StableHlo.TRef.unary (.of main_cst_13 : StableHlo.TRef sig ⟨S_, .f32⟩) main_call5.v1 (broadcastInDim S512x128x7x5x32 ![] bcast_S_S512x128x7x5x32),
    StableHlo.TRef.ternary main_call5.v0 (.of main_v81 : StableHlo.TRef sig ⟨S512x128x7x5x32, .f32⟩) main_call5.v1 main_call5.v2 select ]

/-- 25 operations: the values from `main_cst_14` to `main_v98`. -/
abbrev opsG : List (HloOp τ sig (Elt F)) :=
  [ StableHlo.nullary main_cst_14 (constant S_ .f32 0xFF800000#32),
    StableHlo.binary main_v83 main_cst_14 main_v84 ((fun x v => Host.reduce FloatOps.maximumf x v reducesTo_S512x128x7x5x32_S512x128x7x32_d3 h_S_) : (⟨S512x128x7x5x32, .f32⟩ : BufTy).Contents (Elt F) → (⟨S_, .f32⟩ : BufTy).Contents (Elt F) → (⟨S512x128x7x32, .f32⟩ : BufTy).Contents (Elt F)),
    StableHlo.unary main_v84 main_v85 ((transpose S128x512x7x32 [1, 0, 2, 3] · transposes_S512x128x7x32_S128x512x7x32_1_0_2_3) : (⟨S512x128x7x32, .f32⟩ : BufTy).Contents (Elt F) → (⟨S128x512x7x32, .f32⟩ : BufTy).Contents (Elt F)),
    StableHlo.unary main_v51 main_v86 (broadcastInDim S128x7x1 ![0, 1] bcast_S128x7_S128x7x1_0_1 : (⟨S128x7, .i32⟩ : BufTy).Contents (Elt F) → (⟨S128x7x1, .i32⟩ : BufTy).Contents (Elt F)),
    StableHlo.nullary main_v87 (iotaInDim S5 32 0),
    StableHlo.unary main_v87 main_v88 (broadcastInDim S1x1x5 ![2] bcast_S5_S1x1x5_2 : (⟨S5, .i32⟩ : BufTy).Contents (Elt F) → (⟨S1x1x5, .i32⟩ : BufTy).Contents (Elt F)),
    StableHlo.unary main_v86 main_v89 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v88 main_v90 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v89 main_v90 main_v91 (addi : (⟨S128x7x5, .i32⟩ : BufTy).Contents (Elt F) → (⟨S128x7x5, .i32⟩ : BufTy).Contents (Elt F) → (⟨S128x7x5, .i32⟩ : BufTy).Contents (Elt F)),
    StableHlo.unary main_v64 main_v92 (broadcastInDim S128x7x1 ![0, 1] bcast_S128x7_S128x7x1_0_1 : (⟨S128x7, .i32⟩ : BufTy).Contents (Elt F) → (⟨S128x7x1, .i32⟩ : BufTy).Contents (Elt F)),
    StableHlo.unary main_v92 main_v93 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v91 main_v93 main_v94 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_15 (constantI S_ 32 0#32),
    StableHlo.nullary main_c_16 (constantI S_ 32 31#32),
    StableHlo.TRef.unary (.of main_c_15 : StableHlo.TRef sig ⟨S_, .i32⟩) main_call6.v0 id,
    StableHlo.TRef.unary main_call6.v0 main_call6.v1 (broadcastInDim S128x7x5 ![] bcast_S_S128x7x5),
    StableHlo.TRef.binary main_call6.v1 (.of main_v91 : StableHlo.TRef sig ⟨S128x7x5, .i32⟩) main_call6.v2 maxsi,
    StableHlo.TRef.unary (.of main_c_16 : StableHlo.TRef sig ⟨S_, .i32⟩) main_call6.v3 id,
    StableHlo.TRef.unary main_call6.v3 main_call6.v4 (broadcastInDim S128x7x5 ![] bcast_S_S128x7x5),
    StableHlo.TRef.binary main_call6.v4 main_call6.v2 main_call6.v5 minsi,
    StableHlo.nullary main_c_17 (constantI S_ 32 0#32),
    StableHlo.unary main_c_17 main_v96 (broadcastInDim S128x7x5 ![] bcast_S_S128x7x5 : (⟨S_, .i32⟩ : BufTy).Contents (Elt F) → (⟨S128x7x5, .i32⟩ : BufTy).Contents (Elt F)),
    StableHlo.binary main_v95 main_v96 main_v97 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_18 (constantI S_ 32 32#32),
    StableHlo.unary main_c_18 main_v98 (broadcastInDim S128x7x5 ![] bcast_S_S128x7x5 : (⟨S_, .i32⟩ : BufTy).Contents (Elt F) → (⟨S128x7x5, .i32⟩ : BufTy).Contents (Elt F)) ]

/-- 26 operations: the values from `main_v99` to `main_v116`. -/
abbrev opsH : List (HloOp τ sig (Elt F)) :=
  [ StableHlo.binary main_v95 main_v98 main_v99 (addi : (⟨S128x7x5, .i32⟩ : BufTy).Contents (Elt F) → (⟨S128x7x5, .i32⟩ : BufTy).Contents (Elt F) → (⟨S128x7x5, .i32⟩ : BufTy).Contents (Elt F)),
    StableHlo.ternary main_v97 main_v99 main_v95 main_v100 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v100 main_v101 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v85 main_v101 main_v102 ((fun x i => Host.gather gather_S128x512x7x32_S128x7x5x1_S128x512x7x7x5_12_3_0_0_3_3_151271 x i) : (⟨S128x512x7x32, .f32⟩ : BufTy).Contents (Elt F) → (⟨S128x7x5x1, .i32⟩ : BufTy).Contents (Elt F) → (⟨S128x512x7x7x5, .f32⟩ : BufTy).Contents (Elt F)),
    StableHlo.unary main_v94 main_v103 (broadcastInDim S128x1x1x7x5 ![0, 3, 4] bcast_S128x7x5_S128x1x1x7x5_0_3_4 : (⟨S128x7x5, .i1⟩ : BufTy).Contents (Elt F) → (⟨S128x1x1x7x5, .i1⟩ : BufTy).Contents (Elt F)),
    StableHlo.nullary main_cst_19 (constant S_ .f32 0xFF800000#32),
    StableHlo.TRef.unary (.of main_v103 : StableHlo.TRef sig ⟨S128x1x1x7x5, .i1⟩) main_call7.v0 (broadcastInDim S128x512x7x7x5 ![0, 1, 2, 3, 4] bcast_S128x1x1x7x5_S128x512x7x7x5_0_1_2_3_4),
    StableHlo.TRef.unary (.of main_cst_19 : StableHlo.TRef sig ⟨S_, .f32⟩) main_call7.v1 (broadcastInDim S128x512x7x7x5 ![] bcast_S_S128x512x7x7x5),
    StableHlo.TRef.ternary main_call7.v0 (.of main_v102 : StableHlo.TRef sig ⟨S128x512x7x7x5, .f32⟩) main_call7.v1 main_call7.v2 select,
    StableHlo.nullary main_cst_20 (constant S_ .f32 0xFF800000#32),
    StableHlo.binary main_v104 main_cst_20 main_v105 ((fun x v => Host.reduce FloatOps.maximumf x v reducesTo_S128x512x7x7x5_S128x512x7x7_d4 h_S_) : (⟨S128x512x7x7x5, .f32⟩ : BufTy).Contents (Elt F) → (⟨S_, .f32⟩ : BufTy).Contents (Elt F) → (⟨S128x512x7x7, .f32⟩ : BufTy).Contents (Elt F)),
    StableHlo.reshape main_v105 main_v106 rfl shapeCasts_S128x512x7x7_S128x25088,
    StableHlo.binary main_v106 main_arg2 main_v107 ((fun l r => Host.dotGeneral dot_S128x25088_S25088x4096_S128x4096_1_0_0_1_n_n none l r) : (⟨S128x25088, .f32⟩ : BufTy).Contents (Elt F) → (⟨S25088x4096, .f32⟩ : BufTy).Contents (Elt F) → (⟨S128x4096, .f32⟩ : BufTy).Contents (Elt F)),
    StableHlo.unary main_arg3 main_v108 (broadcastInDim S1x4096 ![1] bcast_S4096_S1x4096_1 : (⟨S4096, .f32⟩ : BufTy).Contents (Elt F) → (⟨S1x4096, .f32⟩ : BufTy).Contents (Elt F)),
    StableHlo.unary main_v108 main_v109 (broadcastInDim S128x4096 ![0, 1] bcast_S1x4096_S128x4096_0_1 : (⟨S1x4096, .f32⟩ : BufTy).Contents (Elt F) → (⟨S128x4096, .f32⟩ : BufTy).Contents (Elt F)),
    StableHlo.binary main_v107 main_v109 main_v110 (addf : (⟨S128x4096, .f32⟩ : BufTy).Contents (Elt F) → (⟨S128x4096, .f32⟩ : BufTy).Contents (Elt F) → (⟨S128x4096, .f32⟩ : BufTy).Contents (Elt F)),
    StableHlo.TRef.nullary main_call8.cst (constant S_ .f32 0x00000000#32),
    StableHlo.TRef.unary main_call8.cst main_call8.v0 (broadcastInDim S128x4096 ![] bcast_S_S128x4096),
    StableHlo.TRef.binary (.of main_v110 : StableHlo.TRef sig ⟨S128x4096, .f32⟩) main_call8.v0 main_call8.v1 maximumf,
    StableHlo.binary main_v111 main_arg4 main_v112 ((fun l r => Host.dotGeneral dot_S128x4096_S4096x4096_S128x4096_1_0_0_1_n_n none l r) : (⟨S128x4096, .f32⟩ : BufTy).Contents (Elt F) → (⟨S4096x4096, .f32⟩ : BufTy).Contents (Elt F) → (⟨S128x4096, .f32⟩ : BufTy).Contents (Elt F)),
    StableHlo.unary main_arg5 main_v113 (broadcastInDim S1x4096 ![1] bcast_S4096_S1x4096_1 : (⟨S4096, .f32⟩ : BufTy).Contents (Elt F) → (⟨S1x4096, .f32⟩ : BufTy).Contents (Elt F)),
    StableHlo.unary main_v113 main_v114 (broadcastInDim S128x4096 ![0, 1] bcast_S1x4096_S128x4096_0_1 : (⟨S1x4096, .f32⟩ : BufTy).Contents (Elt F) → (⟨S128x4096, .f32⟩ : BufTy).Contents (Elt F)),
    StableHlo.binary main_v112 main_v114 main_v115 (addf : (⟨S128x4096, .f32⟩ : BufTy).Contents (Elt F) → (⟨S128x4096, .f32⟩ : BufTy).Contents (Elt F) → (⟨S128x4096, .f32⟩ : BufTy).Contents (Elt F)),
    StableHlo.TRef.nullary main_call9.cst (constant S_ .f32 0x00000000#32),
    StableHlo.TRef.unary main_call9.cst main_call9.v0 (broadcastInDim S128x4096 ![] bcast_S_S128x4096),
    StableHlo.TRef.binary (.of main_v115 : StableHlo.TRef sig ⟨S128x4096, .f32⟩) main_call9.v0 main_call9.v1 maximumf ]

/-- 23 operations: the values from `main_v117` to `main_v136`. -/
abbrev opsI : List (HloOp τ sig (Elt F)) :=
  [ StableHlo.binary main_v116 main_arg6 main_v117 ((fun l r => Host.dotGeneral dot_S128x4096_S4096x21_S128x21_1_0_0_1_n_n none l r) : (⟨S128x4096, .f32⟩ : BufTy).Contents (Elt F) → (⟨S4096x21, .f32⟩ : BufTy).Contents (Elt F) → (⟨S128x21, .f32⟩ : BufTy).Contents (Elt F)),
    StableHlo.unary main_arg7 main_v118 (broadcastInDim S1x21 ![1] bcast_S21_S1x21_1 : (⟨S21, .f32⟩ : BufTy).Contents (Elt F) → (⟨S1x21, .f32⟩ : BufTy).Contents (Elt F)),
    StableHlo.unary main_v118 main_v119 (broadcastInDim S128x21 ![0, 1] bcast_S1x21_S128x21_0_1 : (⟨S1x21, .f32⟩ : BufTy).Contents (Elt F) → (⟨S128x21, .f32⟩ : BufTy).Contents (Elt F)),
    StableHlo.binary main_v117 main_v119 main_v120 (addf : (⟨S128x21, .f32⟩ : BufTy).Contents (Elt F) → (⟨S128x21, .f32⟩ : BufTy).Contents (Elt F) → (⟨S128x21, .f32⟩ : BufTy).Contents (Elt F)),
    StableHlo.nullary main_cst_21 (constant S_ .f32 0xFF800000#32),
    StableHlo.binary main_v120 main_cst_21 main_v121 ((fun x v => Host.reduce FloatOps.maximumf x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.nullary main_cst_22 (constant S_ .f32 0xFF800000#32),
    StableHlo.unary main_cst_22 main_v122 (broadcastInDim S128 ![] bcast_S_S128 : (⟨S_, .f32⟩ : BufTy).Contents (Elt F) → (⟨S128, .f32⟩ : BufTy).Contents (Elt F)),
    StableHlo.binary main_v122 main_v121 main_v123 (maximumf : (⟨S128, .f32⟩ : BufTy).Contents (Elt F) → (⟨S128, .f32⟩ : BufTy).Contents (Elt F) → (⟨S128, .f32⟩ : BufTy).Contents (Elt F)),
    StableHlo.unary main_v123 main_v124 (broadcastInDim S128x1 ![0] bcast_S128_S128x1_0 : (⟨S128, .f32⟩ : BufTy).Contents (Elt F) → (⟨S128x1, .f32⟩ : BufTy).Contents (Elt F)),
    StableHlo.unary main_v124 main_v125 (broadcastInDim S128x21 ![0, 1] bcast_S128x1_S128x21_0_1 : (⟨S128x1, .f32⟩ : BufTy).Contents (Elt F) → (⟨S128x21, .f32⟩ : BufTy).Contents (Elt F)),
    StableHlo.binary main_v120 main_v125 main_v126 (subf : (⟨S128x21, .f32⟩ : BufTy).Contents (Elt F) → (⟨S128x21, .f32⟩ : BufTy).Contents (Elt F) → (⟨S128x21, .f32⟩ : BufTy).Contents (Elt F)),
    StableHlo.unary main_v126 main_v127 (Host.exp : (⟨S128x21, .f32⟩ : BufTy).Contents (Elt F) → (⟨S128x21, .f32⟩ : BufTy).Contents (Elt F)),
    StableHlo.nullary main_cst_23 (constant S_ .f32 0x00000000#32),
    StableHlo.binary main_v127 main_cst_23 main_v128 ((fun x v => Host.reduceAdd x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.unary main_v128 main_v129 (broadcastInDim S128x1 ![0] bcast_S128_S128x1_0 : (⟨S128, .f32⟩ : BufTy).Contents (Elt F) → (⟨S128x1, .f32⟩ : BufTy).Contents (Elt F)),
    StableHlo.unary main_v129 main_v130 (broadcastInDim S128x21 ![0, 1] bcast_S128x1_S128x21_0_1 : (⟨S128x1, .f32⟩ : BufTy).Contents (Elt F) → (⟨S128x21, .f32⟩ : BufTy).Contents (Elt F)),
    StableHlo.binary main_v127 main_v130 main_v131 (Host.divf : (⟨S128x21, .f32⟩ : BufTy).Contents (Elt F) → (⟨S128x21, .f32⟩ : BufTy).Contents (Elt F) → (⟨S128x21, .f32⟩ : BufTy).Contents (Elt F)),
    StableHlo.binary main_v116 main_arg8 main_v132 ((fun l r => Host.dotGeneral dot_S128x4096_S4096x84_S128x84_1_0_0_1_n_n none l r) : (⟨S128x4096, .f32⟩ : BufTy).Contents (Elt F) → (⟨S4096x84, .f32⟩ : BufTy).Contents (Elt F) → (⟨S128x84, .f32⟩ : BufTy).Contents (Elt F)),
    StableHlo.unary main_arg9 main_v133 (broadcastInDim S1x84 ![1] bcast_S84_S1x84_1 : (⟨S84, .f32⟩ : BufTy).Contents (Elt F) → (⟨S1x84, .f32⟩ : BufTy).Contents (Elt F)),
    StableHlo.unary main_v133 main_v134 (broadcastInDim S128x84 ![0, 1] bcast_S1x84_S128x84_0_1 : (⟨S1x84, .f32⟩ : BufTy).Contents (Elt F) → (⟨S128x84, .f32⟩ : BufTy).Contents (Elt F)),
    StableHlo.binary main_v132 main_v134 main_v135 (addf : (⟨S128x84, .f32⟩ : BufTy).Contents (Elt F) → (⟨S128x84, .f32⟩ : BufTy).Contents (Elt F) → (⟨S128x84, .f32⟩ : BufTy).Contents (Elt F)),
    StableHlo.binary main_v131 main_v135 main_v136 ((fun a b => concatenate S128x105 1 [⟨S128x21, a⟩, ⟨S128x84, b⟩] concatenates_S128x21_S128x84_S128x105_d1) : (⟨S128x21, .f32⟩ : BufTy).Contents (Elt F) → (⟨S128x84, .f32⟩ : BufTy).Contents (Elt F) → (⟨S128x105, .f32⟩ : BufTy).Contents (Elt F)) ]

/-- The operations of @main's window 0 (`main_part0`). -/
abbrev win0 : List (HloOp τ sig (Elt F)) := opsA ++ (opsB ++ (opsC ++ (opsD)))

/-- The operations of @main's window 1 (`main_part1`). -/
abbrev win1 : List (HloOp τ sig (Elt F)) := opsE ++ (opsF ++ (opsG))

/-- The operations of @main's window 2 (`main_part2`). -/
abbrev win2 : List (HloOp τ sig (Elt F)) := opsH ++ (opsI)

/-- @main's 245 operations, in order. -/
abbrev ops : List (HloOp τ sig (Elt F)) := win0 ++ (win1 ++ (win2))

-- one bind per operation is unfolded on each side
set_option maxRecDepth 8192 in
set_option maxHeartbeats 4000000 in
/-- Window 0 is the straight line of its operations: the called functions unfold at their calls, the records at
    their fields, and sequencing reassociates by computation. -/
theorem main_part0_eq (c : Dev nD) : main_part0 (F := F) c = seq win0 := rfl

-- one bind per operation is unfolded on each side
set_option maxRecDepth 8192 in
set_option maxHeartbeats 4000000 in
/-- Window 1 is the straight line of its operations: the called functions unfold at their calls, the records at
    their fields, and sequencing reassociates by computation. -/
theorem main_part1_eq (c : Dev nD) : main_part1 (F := F) c = seq win1 := rfl

-- one bind per operation is unfolded on each side
set_option maxRecDepth 8192 in
set_option maxHeartbeats 4000000 in
/-- Window 2 is the straight line of its operations: the called functions unfold at their calls, the records at
    their fields, and sequencing reassociates by computation. -/
theorem main_part2_eq (c : Dev nD) : main_part2 (F := F) c = seq win2 := rfl

/-- @main runs its windows in order, and a straight line of a concatenation is the straight lines in order. -/
theorem main_eq (c : Dev nD) : main (F := F) c = seq ops := by
  show main (F := F) c = seq (win0 ++ (win1 ++ win2))
  rw [seq_append win0 (win1 ++ win2), seq_append win1 win2, ← main_part0_eq c, ← main_part1_eq c, ← main_part2_eq c]
  rfl

end Cert.ReferenceIdeal.RefRun

end
-- ==== Proof.Ref.Run.lean ====
/- The run of the reference program's @main, read off its operation list (Ref/Ops.lean): the signature scopes
   nothing on the TensorCore, every operation touches TensorCore references only and determines its results, so
   every weakly fair execution terminates with each buffer at the operations' fold over the launch contents.
   Each stretch of the list comes with the references it writes; a reference outside that list keeps its contents
   through the stretch. No stretch writes an argument, which gives the frame: the arguments end as launched. -/
import proofs.«110125_j48919677501805_2_alg».proof.Proof.Ref.Ops
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The signature scopes nothing on the TensorCore -/

theorem scopedRefs_eq : (Finset.univ.filter fun b : Ref sig .tc => b.isScoped) = ∅ := by decide
theorem scopedSems_eq : (Finset.univ.filter fun sm : SemLoc sig => sm.isScoped .tc) = ∅ := by decide

/-! ## Every operation touches TensorCore references only, and determines its results -/

/-- Membership in the whole list is membership in one of its nine stretches. -/
theorem mem_ops {op : HloOp τ sig (Elt F)} (h : op ∈ (ops : List (HloOp τ sig (Elt F)))) :
    op ∈ (opsA : List (HloOp τ sig (Elt F))) ∨ op ∈ (opsB : List (HloOp τ sig (Elt F))) ∨ op ∈ (opsC : List (HloOp τ sig (Elt F))) ∨ op ∈ (opsD : List (HloOp τ sig (Elt F))) ∨ op ∈ (opsE : List (HloOp τ sig (Elt F))) ∨ op ∈ (opsF : List (HloOp τ sig (Elt F))) ∨ op ∈ (opsG : List (HloOp τ sig (Elt F))) ∨ op ∈ (opsH : List (HloOp τ sig (Elt F))) ∨ op ∈ (opsI : List (HloOp τ sig (Elt F))) := by
  simpa only [ops, win0, win1, win2, List.mem_append, or_assoc] using h

theorem opsA_sub : (opsA : List (HloOp τ sig (Elt F))).Forall fun op => op.bufs ⊆ tcRefs τ sig :=
  ⟨reshape_bufs_sub .., unary_bufs_sub .., nullary_bufs_sub .., unary_bufs_sub .., binary_bufs_sub .., unary_bufs_sub .., unary_bufs_sub .., unary_bufs_sub .., reshape_bufs_sub .., unary_bufs_sub .., reshape_bufs_sub .., unary_bufs_sub .., reshape_bufs_sub .., unary_bufs_sub .., reshape_bufs_sub .., binary_bufs_sub .., nullary_bufs_sub .., unary_bufs_sub .., binary_bufs_sub .., binary_bufs_sub .., nullary_bufs_sub .., unary_bufs_sub .., binary_bufs_sub .., nullary_bufs_sub .., unary_bufs_sub .., unary_bufs_sub .., unary_bufs_sub .., unary_bufs_sub .., unary_bufs_sub .., binary_bufs_sub .., nullary_bufs_sub ..⟩
theorem opsA_fresh : (opsA : List (HloOp τ sig (Elt F))).Forall fun op => op.fresh = ∅ := by
  simp only [List.Forall]; repeat' constructor

theorem opsB_sub : (opsB : List (HloOp τ sig (Elt F))).Forall fun op => op.bufs ⊆ tcRefs τ sig :=
  ⟨unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩
theorem opsB_fresh : (opsB : List (HloOp τ sig (Elt F))).Forall fun op => op.fresh = ∅ := by
  simp only [List.Forall]; repeat' constructor

theorem opsC_sub : (opsC : List (HloOp τ sig (Elt F))).Forall fun op => op.bufs ⊆ tcRefs τ sig :=
  ⟨unary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩
theorem opsC_fresh : (opsC : List (HloOp τ sig (Elt F))).Forall fun op => op.fresh = ∅ := by
  simp only [List.Forall]; repeat' constructor

theorem opsD_sub : (opsD : List (HloOp τ sig (Elt F))).Forall fun op => op.bufs ⊆ tcRefs τ sig :=
  ⟨unary_bufs_sub .., unary_bufs_sub .., unary_bufs_sub .., unary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩
theorem opsD_fresh : (opsD : List (HloOp τ sig (Elt F))).Forall fun op => op.fresh = ∅ := by
  simp only [List.Forall]; repeat' constructor

theorem opsE_sub : (opsE : List (HloOp τ sig (Elt F))).Forall fun op => op.bufs ⊆ tcRefs τ sig :=
  ⟨unary_bufs_sub .., unary_bufs_sub .., nullary_bufs_sub .., unary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., unary_bufs_sub .., binary_bufs_sub ..⟩
theorem opsE_fresh : (opsE : List (HloOp τ sig (Elt F))).Forall fun op => op.fresh = ∅ := by
  simp only [List.Forall]; repeat' constructor

theorem opsF_sub : (opsF : List (HloOp τ sig (Elt F))).Forall fun op => op.bufs ⊆ tcRefs τ sig :=
  ⟨unary_bufs_sub .., nullary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., unary_bufs_sub .., ternary_bufs_sub ..⟩
theorem opsF_fresh : (opsF : List (HloOp τ sig (Elt F))).Forall fun op => op.fresh = ∅ := by
  simp only [List.Forall]; repeat' constructor

theorem opsG_sub : (opsG : List (HloOp τ sig (Elt F))).Forall fun op => op.bufs ⊆ tcRefs τ sig :=
  ⟨nullary_bufs_sub .., binary_bufs_sub .., unary_bufs_sub .., unary_bufs_sub .., nullary_bufs_sub .., unary_bufs_sub .., unary_bufs_sub .., unary_bufs_sub .., binary_bufs_sub .., unary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩
theorem opsG_fresh : (opsG : List (HloOp τ sig (Elt F))).Forall fun op => op.fresh = ∅ := by
  simp only [List.Forall]; repeat' constructor

theorem opsH_sub : (opsH : List (HloOp τ sig (Elt F))).Forall fun op => op.bufs ⊆ tcRefs τ sig :=
  ⟨binary_bufs_sub .., ternary_bufs_sub .., unary_bufs_sub .., binary_bufs_sub .., unary_bufs_sub .., nullary_bufs_sub .., unary_bufs_sub .., unary_bufs_sub .., ternary_bufs_sub .., nullary_bufs_sub .., binary_bufs_sub .., reshape_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub ..⟩
theorem opsH_fresh : (opsH : List (HloOp τ sig (Elt F))).Forall fun op => op.fresh = ∅ := by
  simp only [List.Forall]; repeat' constructor

theorem opsI_sub : (opsI : List (HloOp τ sig (Elt F))).Forall fun op => op.bufs ⊆ tcRefs τ sig :=
  ⟨binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., unary_bufs_sub .., unary_bufs_sub .., binary_bufs_sub .., binary_bufs_sub ..⟩
theorem opsI_fresh : (opsI : List (HloOp τ sig (Elt F))).Forall fun op => op.fresh = ∅ := by
  simp only [List.Forall]; repeat' constructor

theorem ops_sub : (ops : List (HloOp τ sig (Elt F))).Forall fun op => op.bufs ⊆ tcRefs τ sig :=
  List.forall_iff_forall_mem.mpr fun op h => by
    rcases mem_ops h with h | h | h | h | h | h | h | h | h
    exacts [List.forall_iff_forall_mem.mp opsA_sub op h, List.forall_iff_forall_mem.mp opsB_sub op h, List.forall_iff_forall_mem.mp opsC_sub op h, List.forall_iff_forall_mem.mp opsD_sub op h, List.forall_iff_forall_mem.mp opsE_sub op h, List.forall_iff_forall_mem.mp opsF_sub op h, List.forall_iff_forall_mem.mp opsG_sub op h, List.forall_iff_forall_mem.mp opsH_sub op h, List.forall_iff_forall_mem.mp opsI_sub op h]

theorem ops_fresh : ∀ op ∈ (ops : List (HloOp τ sig (Elt F))), op.fresh = ∅ := fun op h => by
  rcases mem_ops h with h | h | h | h | h | h | h | h | h
  exacts [List.forall_iff_forall_mem.mp opsA_fresh op h, List.forall_iff_forall_mem.mp opsB_fresh op h, List.forall_iff_forall_mem.mp opsC_fresh op h, List.forall_iff_forall_mem.mp opsD_fresh op h, List.forall_iff_forall_mem.mp opsE_fresh op h, List.forall_iff_forall_mem.mp opsF_fresh op h, List.forall_iff_forall_mem.mp opsG_fresh op h, List.forall_iff_forall_mem.mp opsH_fresh op h, List.forall_iff_forall_mem.mp opsI_fresh op h]

/-! ## The run -/

/-- On every device, for any float values, from any memory with zero counters: every weakly fair execution of
    @main terminates, and every final state has each TensorCore buffer at the operations' fold over the launch
    contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## What each stretch writes, and what it therefore leaves alone -/

/-- An operation whose one written buffer is `y` writes inside any list of references that holds `y`. -/
theorem writes_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The references `opsA`'s operations write, in order. -/
abbrev opsA_W : List (Ref sig .tc) := [main_v0, main_v1, main_cst, main_v2, main_v3, main_v4, main_v5, main_v6, main_v7, main_v8, main_v9, main_v10, main_v11, main_v12, main_v13, main_v14, main_c, main_v15, main_v16, main_v17, main_c_0, main_v18, main_v19, main_v20, main_v21, main_v22, main_v23, main_v24, main_v25, main_v26, main_c_1]
theorem opsA_writes : (opsA : List (HloOp τ sig (Elt F))).Forall fun op => op.writes ⊆ (opsA_W.map (Proc.devRef (τ := τ) .tc)).toFinset :=
  ⟨writes_sub_of_mem (y := main_v0) (by decide), writes_sub_of_mem (y := main_v1) (by decide), writes_sub_of_mem (y := main_cst) (by decide), writes_sub_of_mem (y := main_v2) (by decide), writes_sub_of_mem (y := main_v3) (by decide), writes_sub_of_mem (y := main_v4) (by decide), writes_sub_of_mem (y := main_v5) (by decide), writes_sub_of_mem (y := main_v6) (by decide), writes_sub_of_mem (y := main_v7) (by decide), writes_sub_of_mem (y := main_v8) (by decide), writes_sub_of_mem (y := main_v9) (by decide), writes_sub_of_mem (y := main_v10) (by decide), writes_sub_of_mem (y := main_v11) (by decide), writes_sub_of_mem (y := main_v12) (by decide), writes_sub_of_mem (y := main_v13) (by decide), writes_sub_of_mem (y := main_v14) (by decide), writes_sub_of_mem (y := main_c) (by decide), writes_sub_of_mem (y := main_v15) (by decide), writes_sub_of_mem (y := main_v16) (by decide), writes_sub_of_mem (y := main_v17) (by decide), writes_sub_of_mem (y := main_c_0) (by decide), writes_sub_of_mem (y := main_v18) (by decide), writes_sub_of_mem (y := main_v19) (by decide), writes_sub_of_mem (y := main_v20) (by decide), writes_sub_of_mem (y := main_v21) (by decide), writes_sub_of_mem (y := main_v22) (by decide), writes_sub_of_mem (y := main_v23) (by decide), writes_sub_of_mem (y := main_v24) (by decide), writes_sub_of_mem (y := main_v25) (by decide), writes_sub_of_mem (y := main_v26) (by decide), writes_sub_of_mem (y := main_c_1) (by decide)⟩
/-- A reference `opsA` does not write keeps its contents through it. -/
theorem opsA_keep (V : Valuation τ sig (Elt F)) {r : Ref sig .tc} (h : r ∉ opsA_W) :
    after opsA V (Proc.devRef .tc r) = V (Proc.devRef .tc r) :=
  after_of_writes_sub opsA V opsA_writes h

/-- The references `opsB`'s operations write, in order. -/
abbrev opsB_W : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v27, main_v28, main_v29]
theorem opsB_writes : (opsB : List (HloOp τ sig (Elt F))).Forall fun op => op.writes ⊆ (opsB_W.map (Proc.devRef (τ := τ) .tc)).toFinset :=
  ⟨writes_sub_of_mem (y := main_call0_v0) (by decide), writes_sub_of_mem (y := main_call0_v1) (by decide), writes_sub_of_mem (y := main_call0_v2) (by decide), writes_sub_of_mem (y := main_call0_v3) (by decide), writes_sub_of_mem (y := main_call0_v4) (by decide), writes_sub_of_mem (y := main_call0_v5) (by decide), writes_sub_of_mem (y := main_call0_v6) (by decide), writes_sub_of_mem (y := main_call0_v7) (by decide), writes_sub_of_mem (y := main_call0_v8) (by decide), writes_sub_of_mem (y := main_call0_c) (by decide), writes_sub_of_mem (y := main_call0_v9) (by decide), writes_sub_of_mem (y := main_call0_v10) (by decide), writes_sub_of_mem (y := main_call0_v11) (by decide), writes_sub_of_mem (y := main_call0_c_0) (by decide), writes_sub_of_mem (y := main_call0_v12) (by decide), writes_sub_of_mem (y := main_call0_v13) (by decide), writes_sub_of_mem (y := main_v27) (by decide), writes_sub_of_mem (y := main_v28) (by decide), writes_sub_of_mem (y := main_v29) (by decide)⟩
/-- A reference `opsB` does not write keeps its contents through it. -/
theorem opsB_keep (V : Valuation τ sig (Elt F)) {r : Ref sig .tc} (h : r ∉ opsB_W) :
    after opsB V (Proc.devRef .tc r) = V (Proc.devRef .tc r) :=
  after_of_writes_sub opsB V opsB_writes h

/-- The references `opsC`'s operations write, in order. -/
abbrev opsC_W : List (Ref sig .tc) := [main_v30, main_v31, main_c_2, main_v32, main_v33, main_v34, main_v35, main_v36, main_v37, main_c_3, main_v38, main_v39, main_c_4, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v40, main_v41, main_v42]
theorem opsC_writes : (opsC : List (HloOp τ sig (Elt F))).Forall fun op => op.writes ⊆ (opsC_W.map (Proc.devRef (τ := τ) .tc)).toFinset :=
  ⟨writes_sub_of_mem (y := main_v30) (by decide), writes_sub_of_mem (y := main_v31) (by decide), writes_sub_of_mem (y := main_c_2) (by decide), writes_sub_of_mem (y := main_v32) (by decide), writes_sub_of_mem (y := main_v33) (by decide), writes_sub_of_mem (y := main_v34) (by decide), writes_sub_of_mem (y := main_v35) (by decide), writes_sub_of_mem (y := main_v36) (by decide), writes_sub_of_mem (y := main_v37) (by decide), writes_sub_of_mem (y := main_c_3) (by decide), writes_sub_of_mem (y := main_v38) (by decide), writes_sub_of_mem (y := main_v39) (by decide), writes_sub_of_mem (y := main_c_4) (by decide), writes_sub_of_mem (y := main_call1_v0) (by decide), writes_sub_of_mem (y := main_call1_v1) (by decide), writes_sub_of_mem (y := main_call1_v2) (by decide), writes_sub_of_mem (y := main_call1_v3) (by decide), writes_sub_of_mem (y := main_call1_v4) (by decide), writes_sub_of_mem (y := main_call1_v5) (by decide), writes_sub_of_mem (y := main_call1_v6) (by decide), writes_sub_of_mem (y := main_call1_v7) (by decide), writes_sub_of_mem (y := main_call1_v8) (by decide), writes_sub_of_mem (y := main_call1_c) (by decide), writes_sub_of_mem (y := main_call1_v9) (by decide), writes_sub_of_mem (y := main_call1_v10) (by decide), writes_sub_of_mem (y := main_call1_v11) (by decide), writes_sub_of_mem (y := main_call1_c_0) (by decide), writes_sub_of_mem (y := main_call1_v12) (by decide), writes_sub_of_mem (y := main_call1_v13) (by decide), writes_sub_of_mem (y := main_v40) (by decide), writes_sub_of_mem (y := main_v41) (by decide), writes_sub_of_mem (y := main_v42) (by decide)⟩
/-- A reference `opsC` does not write keeps its contents through it. -/
theorem opsC_keep (V : Valuation τ sig (Elt F)) {r : Ref sig .tc} (h : r ∉ opsC_W) :
    after opsC V (Proc.devRef .tc r) = V (Proc.devRef .tc r) :=
  after_of_writes_sub opsC V opsC_writes h

/-- The references `opsD`'s operations write, in order. -/
abbrev opsD_W : List (Ref sig .tc) := [main_v43, main_v44, main_v45, main_v46, main_v47, main_v48, main_c_5, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v49, main_v50, main_v51]
theorem opsD_writes : (opsD : List (HloOp τ sig (Elt F))).Forall fun op => op.writes ⊆ (opsD_W.map (Proc.devRef (τ := τ) .tc)).toFinset :=
  ⟨writes_sub_of_mem (y := main_v43) (by decide), writes_sub_of_mem (y := main_v44) (by decide), writes_sub_of_mem (y := main_v45) (by decide), writes_sub_of_mem (y := main_v46) (by decide), writes_sub_of_mem (y := main_v47) (by decide), writes_sub_of_mem (y := main_v48) (by decide), writes_sub_of_mem (y := main_c_5) (by decide), writes_sub_of_mem (y := main_call2_v0) (by decide), writes_sub_of_mem (y := main_call2_v1) (by decide), writes_sub_of_mem (y := main_call2_v2) (by decide), writes_sub_of_mem (y := main_call2_v3) (by decide), writes_sub_of_mem (y := main_call2_v4) (by decide), writes_sub_of_mem (y := main_call2_v5) (by decide), writes_sub_of_mem (y := main_call2_v6) (by decide), writes_sub_of_mem (y := main_call2_v7) (by decide), writes_sub_of_mem (y := main_call2_v8) (by decide), writes_sub_of_mem (y := main_call2_c) (by decide), writes_sub_of_mem (y := main_call2_v9) (by decide), writes_sub_of_mem (y := main_call2_v10) (by decide), writes_sub_of_mem (y := main_call2_v11) (by decide), writes_sub_of_mem (y := main_call2_c_0) (by decide), writes_sub_of_mem (y := main_call2_v12) (by decide), writes_sub_of_mem (y := main_call2_v13) (by decide), writes_sub_of_mem (y := main_v49) (by decide), writes_sub_of_mem (y := main_v50) (by decide), writes_sub_of_mem (y := main_v51) (by decide)⟩
/-- A reference `opsD` does not write keeps its contents through it. -/
theorem opsD_keep (V : Valuation τ sig (Elt F)) {r : Ref sig .tc} (h : r ∉ opsD_W) :
    after opsD V (Proc.devRef .tc r) = V (Proc.devRef .tc r) :=
  after_of_writes_sub opsD V opsD_writes h

/-- The references `opsE`'s operations write, in order. -/
abbrev opsE_W : List (Ref sig .tc) := [main_v52, main_v53, main_c_6, main_v54, main_v55, main_v56, main_v57, main_v58, main_v59, main_c_7, main_v60, main_v61, main_c_8, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v62, main_v63, main_v64]
theorem opsE_writes : (opsE : List (HloOp τ sig (Elt F))).Forall fun op => op.writes ⊆ (opsE_W.map (Proc.devRef (τ := τ) .tc)).toFinset :=
  ⟨writes_sub_of_mem (y := main_v52) (by decide), writes_sub_of_mem (y := main_v53) (by decide), writes_sub_of_mem (y := main_c_6) (by decide), writes_sub_of_mem (y := main_v54) (by decide), writes_sub_of_mem (y := main_v55) (by decide), writes_sub_of_mem (y := main_v56) (by decide), writes_sub_of_mem (y := main_v57) (by decide), writes_sub_of_mem (y := main_v58) (by decide), writes_sub_of_mem (y := main_v59) (by decide), writes_sub_of_mem (y := main_c_7) (by decide), writes_sub_of_mem (y := main_v60) (by decide), writes_sub_of_mem (y := main_v61) (by decide), writes_sub_of_mem (y := main_c_8) (by decide), writes_sub_of_mem (y := main_call3_v0) (by decide), writes_sub_of_mem (y := main_call3_v1) (by decide), writes_sub_of_mem (y := main_call3_v2) (by decide), writes_sub_of_mem (y := main_call3_v3) (by decide), writes_sub_of_mem (y := main_call3_v4) (by decide), writes_sub_of_mem (y := main_call3_v5) (by decide), writes_sub_of_mem (y := main_call3_v6) (by decide), writes_sub_of_mem (y := main_call3_v7) (by decide), writes_sub_of_mem (y := main_call3_v8) (by decide), writes_sub_of_mem (y := main_call3_c) (by decide), writes_sub_of_mem (y := main_call3_v9) (by decide), writes_sub_of_mem (y := main_call3_v10) (by decide), writes_sub_of_mem (y := main_call3_v11) (by decide), writes_sub_of_mem (y := main_call3_c_0) (by decide), writes_sub_of_mem (y := main_call3_v12) (by decide), writes_sub_of_mem (y := main_call3_v13) (by decide), writes_sub_of_mem (y := main_v62) (by decide), writes_sub_of_mem (y := main_v63) (by decide), writes_sub_of_mem (y := main_v64) (by decide)⟩
/-- A reference `opsE` does not write keeps its contents through it. -/
theorem opsE_keep (V : Valuation τ sig (Elt F)) {r : Ref sig .tc} (h : r ∉ opsE_W) :
    after opsE V (Proc.devRef .tc r) = V (Proc.devRef .tc r) :=
  after_of_writes_sub opsE V opsE_writes h

/-- The references `opsF`'s operations write, in order. -/
abbrev opsF_W : List (Ref sig .tc) := [main_v65, main_v66, main_v67, main_v68, main_v69, main_v70, main_v71, main_v72, main_v73, main_c_9, main_c_10, main_call4_v0, main_call4_v1, main_call4_v2, main_call4_v3, main_call4_v4, main_v74, main_c_11, main_v75, main_v76, main_c_12, main_v77, main_v78, main_v79, main_v80, main_v81, main_v82, main_cst_13, main_call5_v0, main_call5_v1, main_v83]
theorem opsF_writes : (opsF : List (HloOp τ sig (Elt F))).Forall fun op => op.writes ⊆ (opsF_W.map (Proc.devRef (τ := τ) .tc)).toFinset :=
  ⟨writes_sub_of_mem (y := main_v65) (by decide), writes_sub_of_mem (y := main_v66) (by decide), writes_sub_of_mem (y := main_v67) (by decide), writes_sub_of_mem (y := main_v68) (by decide), writes_sub_of_mem (y := main_v69) (by decide), writes_sub_of_mem (y := main_v70) (by decide), writes_sub_of_mem (y := main_v71) (by decide), writes_sub_of_mem (y := main_v72) (by decide), writes_sub_of_mem (y := main_v73) (by decide), writes_sub_of_mem (y := main_c_9) (by decide), writes_sub_of_mem (y := main_c_10) (by decide), writes_sub_of_mem (y := main_call4_v0) (by decide), writes_sub_of_mem (y := main_call4_v1) (by decide), writes_sub_of_mem (y := main_call4_v2) (by decide), writes_sub_of_mem (y := main_call4_v3) (by decide), writes_sub_of_mem (y := main_call4_v4) (by decide), writes_sub_of_mem (y := main_v74) (by decide), writes_sub_of_mem (y := main_c_11) (by decide), writes_sub_of_mem (y := main_v75) (by decide), writes_sub_of_mem (y := main_v76) (by decide), writes_sub_of_mem (y := main_c_12) (by decide), writes_sub_of_mem (y := main_v77) (by decide), writes_sub_of_mem (y := main_v78) (by decide), writes_sub_of_mem (y := main_v79) (by decide), writes_sub_of_mem (y := main_v80) (by decide), writes_sub_of_mem (y := main_v81) (by decide), writes_sub_of_mem (y := main_v82) (by decide), writes_sub_of_mem (y := main_cst_13) (by decide), writes_sub_of_mem (y := main_call5_v0) (by decide), writes_sub_of_mem (y := main_call5_v1) (by decide), writes_sub_of_mem (y := main_v83) (by decide)⟩
/-- A reference `opsF` does not write keeps its contents through it. -/
theorem opsF_keep (V : Valuation τ sig (Elt F)) {r : Ref sig .tc} (h : r ∉ opsF_W) :
    after opsF V (Proc.devRef .tc r) = V (Proc.devRef .tc r) :=
  after_of_writes_sub opsF V opsF_writes h

/-- The references `opsG`'s operations write, in order. -/
abbrev opsG_W : List (Ref sig .tc) := [main_cst_14, main_v84, main_v85, main_v86, main_v87, main_v88, main_v89, main_v90, main_v91, main_v92, main_v93, main_v94, main_c_15, main_c_16, main_call6_v0, main_call6_v1, main_call6_v2, main_call6_v3, main_call6_v4, main_v95, main_c_17, main_v96, main_v97, main_c_18, main_v98]
theorem opsG_writes : (opsG : List (HloOp τ sig (Elt F))).Forall fun op => op.writes ⊆ (opsG_W.map (Proc.devRef (τ := τ) .tc)).toFinset :=
  ⟨writes_sub_of_mem (y := main_cst_14) (by decide), writes_sub_of_mem (y := main_v84) (by decide), writes_sub_of_mem (y := main_v85) (by decide), writes_sub_of_mem (y := main_v86) (by decide), writes_sub_of_mem (y := main_v87) (by decide), writes_sub_of_mem (y := main_v88) (by decide), writes_sub_of_mem (y := main_v89) (by decide), writes_sub_of_mem (y := main_v90) (by decide), writes_sub_of_mem (y := main_v91) (by decide), writes_sub_of_mem (y := main_v92) (by decide), writes_sub_of_mem (y := main_v93) (by decide), writes_sub_of_mem (y := main_v94) (by decide), writes_sub_of_mem (y := main_c_15) (by decide), writes_sub_of_mem (y := main_c_16) (by decide), writes_sub_of_mem (y := main_call6_v0) (by decide), writes_sub_of_mem (y := main_call6_v1) (by decide), writes_sub_of_mem (y := main_call6_v2) (by decide), writes_sub_of_mem (y := main_call6_v3) (by decide), writes_sub_of_mem (y := main_call6_v4) (by decide), writes_sub_of_mem (y := main_v95) (by decide), writes_sub_of_mem (y := main_c_17) (by decide), writes_sub_of_mem (y := main_v96) (by decide), writes_sub_of_mem (y := main_v97) (by decide), writes_sub_of_mem (y := main_c_18) (by decide), writes_sub_of_mem (y := main_v98) (by decide)⟩
/-- A reference `opsG` does not write keeps its contents through it. -/
theorem opsG_keep (V : Valuation τ sig (Elt F)) {r : Ref sig .tc} (h : r ∉ opsG_W) :
    after opsG V (Proc.devRef .tc r) = V (Proc.devRef .tc r) :=
  after_of_writes_sub opsG V opsG_writes h

/-- The references `opsH`'s operations write, in order. -/
abbrev opsH_W : List (Ref sig .tc) := [main_v99, main_v100, main_v101, main_v102, main_v103, main_cst_19, main_call7_v0, main_call7_v1, main_v104, main_cst_20, main_v105, main_v106, main_v107, main_v108, main_v109, main_v110, main_call8_cst, main_call8_v0, main_v111, main_v112, main_v113, main_v114, main_v115, main_call9_cst, main_call9_v0, main_v116]
theorem opsH_writes : (opsH : List (HloOp τ sig (Elt F))).Forall fun op => op.writes ⊆ (opsH_W.map (Proc.devRef (τ := τ) .tc)).toFinset :=
  ⟨writes_sub_of_mem (y := main_v99) (by decide), writes_sub_of_mem (y := main_v100) (by decide), writes_sub_of_mem (y := main_v101) (by decide), writes_sub_of_mem (y := main_v102) (by decide), writes_sub_of_mem (y := main_v103) (by decide), writes_sub_of_mem (y := main_cst_19) (by decide), writes_sub_of_mem (y := main_call7_v0) (by decide), writes_sub_of_mem (y := main_call7_v1) (by decide), writes_sub_of_mem (y := main_v104) (by decide), writes_sub_of_mem (y := main_cst_20) (by decide), writes_sub_of_mem (y := main_v105) (by decide), writes_sub_of_mem (y := main_v106) (by decide), writes_sub_of_mem (y := main_v107) (by decide), writes_sub_of_mem (y := main_v108) (by decide), writes_sub_of_mem (y := main_v109) (by decide), writes_sub_of_mem (y := main_v110) (by decide), writes_sub_of_mem (y := main_call8_cst) (by decide), writes_sub_of_mem (y := main_call8_v0) (by decide), writes_sub_of_mem (y := main_v111) (by decide), writes_sub_of_mem (y := main_v112) (by decide), writes_sub_of_mem (y := main_v113) (by decide), writes_sub_of_mem (y := main_v114) (by decide), writes_sub_of_mem (y := main_v115) (by decide), writes_sub_of_mem (y := main_call9_cst) (by decide), writes_sub_of_mem (y := main_call9_v0) (by decide), writes_sub_of_mem (y := main_v116) (by decide)⟩
/-- A reference `opsH` does not write keeps its contents through it. -/
theorem opsH_keep (V : Valuation τ sig (Elt F)) {r : Ref sig .tc} (h : r ∉ opsH_W) :
    after opsH V (Proc.devRef .tc r) = V (Proc.devRef .tc r) :=
  after_of_writes_sub opsH V opsH_writes h

/-- The references `opsI`'s operations write, in order. -/
abbrev opsI_W : List (Ref sig .tc) := [main_v117, main_v118, main_v119, main_v120, main_cst_21, main_v121, main_cst_22, main_v122, main_v123, main_v124, main_v125, main_v126, main_v127, main_cst_23, main_v128, main_v129, main_v130, main_v131, main_v132, main_v133, main_v134, main_v135, main_v136]
theorem opsI_writes : (opsI : List (HloOp τ sig (Elt F))).Forall fun op => op.writes ⊆ (opsI_W.map (Proc.devRef (τ := τ) .tc)).toFinset :=
  ⟨writes_sub_of_mem (y := main_v117) (by decide), writes_sub_of_mem (y := main_v118) (by decide), writes_sub_of_mem (y := main_v119) (by decide), writes_sub_of_mem (y := main_v120) (by decide), writes_sub_of_mem (y := main_cst_21) (by decide), writes_sub_of_mem (y := main_v121) (by decide), writes_sub_of_mem (y := main_cst_22) (by decide), writes_sub_of_mem (y := main_v122) (by decide), writes_sub_of_mem (y := main_v123) (by decide), writes_sub_of_mem (y := main_v124) (by decide), writes_sub_of_mem (y := main_v125) (by decide), writes_sub_of_mem (y := main_v126) (by decide), writes_sub_of_mem (y := main_v127) (by decide), writes_sub_of_mem (y := main_cst_23) (by decide), writes_sub_of_mem (y := main_v128) (by decide), writes_sub_of_mem (y := main_v129) (by decide), writes_sub_of_mem (y := main_v130) (by decide), writes_sub_of_mem (y := main_v131) (by decide), writes_sub_of_mem (y := main_v132) (by decide), writes_sub_of_mem (y := main_v133) (by decide), writes_sub_of_mem (y := main_v134) (by decide), writes_sub_of_mem (y := main_v135) (by decide), writes_sub_of_mem (y := main_v136) (by decide)⟩
/-- A reference `opsI` does not write keeps its contents through it. -/
theorem opsI_keep (V : Valuation τ sig (Elt F)) {r : Ref sig .tc} (h : r ∉ opsI_W) :
    after opsI V (Proc.devRef .tc r) = V (Proc.devRef .tc r) :=
  after_of_writes_sub opsI V opsI_writes h

/-- The fold over the whole list is the folds over the stretches, one after the other. -/
theorem after_ops (V : Valuation τ sig (Elt F)) :
    after ops V = after opsI (after opsH (after opsG (after opsF (after opsE (after opsD (after opsC (after opsB (after opsA (V))))))))) := by
  simp only [ops, win0, win1, win2, after_append]

/-- A reference no stretch writes keeps its contents through the whole list. -/
theorem ops_keep (V : Valuation τ sig (Elt F)) {r : Ref sig .tc} (hA : r ∉ opsA_W) (hB : r ∉ opsB_W) (hC : r ∉ opsC_W) (hD : r ∉ opsD_W) (hE : r ∉ opsE_W) (hF : r ∉ opsF_W) (hG : r ∉ opsG_W) (hH : r ∉ opsH_W) (hI : r ∉ opsI_W) :
    after ops V (Proc.devRef .tc r) = V (Proc.devRef .tc r) := by
  rw [after_ops, opsI_keep _ hI, opsH_keep _ hH, opsG_keep _ hG, opsF_keep _ hF, opsE_keep _ hE, opsD_keep _ hD, opsC_keep _ hC, opsB_keep _ hB, opsA_keep _ hA]

/-! ## No operation writes an argument -/

theorem kept_main_arg0 (m : (ℓ : Loc nD τ sig) → Buf (Elt F) ℓ) (c : Dev nD) :
    after ops (launchContents m c) (Proc.devRef .tc main_arg0) = m ((c.tc : Thread nD τ).loc main_arg0) :=
  ops_keep (r := main_arg0) _ (by decide) (by decide) (by decide) (by decide) (by decide) (by decide) (by decide) (by decide) (by decide)

theorem kept_main_arg1 (m : (ℓ : Loc nD τ sig) → Buf (Elt F) ℓ) (c : Dev nD) :
    after ops (launchContents m c) (Proc.devRef .tc main_arg1) = m ((c.tc : Thread nD τ).loc main_arg1) :=
  ops_keep (r := main_arg1) _ (by decide) (by decide) (by decide) (by decide) (by decide) (by decide) (by decide) (by decide) (by decide)

theorem kept_main_arg2 (m : (ℓ : Loc nD τ sig) → Buf (Elt F) ℓ) (c : Dev nD) :
    after ops (launchContents m c) (Proc.devRef .tc main_arg2) = m ((c.tc : Thread nD τ).loc main_arg2) :=
  ops_keep (r := main_arg2) _ (by decide) (by decide) (by decide) (by decide) (by decide) (by decide) (by decide) (by decide) (by decide)

theorem kept_main_arg3 (m : (ℓ : Loc nD τ sig) → Buf (Elt F) ℓ) (c : Dev nD) :
    after ops (launchContents m c) (Proc.devRef .tc main_arg3) = m ((c.tc : Thread nD τ).loc main_arg3) :=
  ops_keep (r := main_arg3) _ (by decide) (by decide) (by decide) (by decide) (by decide) (by decide) (by decide) (by decide) (by decide)

theorem kept_main_arg4 (m : (ℓ : Loc nD τ sig) → Buf (Elt F) ℓ) (c : Dev nD) :
    after ops (launchContents m c) (Proc.devRef .tc main_arg4) = m ((c.tc : Thread nD τ).loc main_arg4) :=
  ops_keep (r := main_arg4) _ (by decide) (by decide) (by decide) (by decide) (by decide) (by decide) (by decide) (by decide) (by decide)

theorem kept_main_arg5 (m : (ℓ : Loc nD τ sig) → Buf (Elt F) ℓ) (c : Dev nD) :
    after ops (launchContents m c) (Proc.devRef .tc main_arg5) = m ((c.tc : Thread nD τ).loc main_arg5) :=
  ops_keep (r := main_arg5) _ (by decide) (by decide) (by decide) (by decide) (by decide) (by decide) (by decide) (by decide) (by decide)

theorem kept_main_arg6 (m : (ℓ : Loc nD τ sig) → Buf (Elt F) ℓ) (c : Dev nD) :
    after ops (launchContents m c) (Proc.devRef .tc main_arg6) = m ((c.tc : Thread nD τ).loc main_arg6) :=
  ops_keep (r := main_arg6) _ (by decide) (by decide) (by decide) (by decide) (by decide) (by decide) (by decide) (by decide) (by decide)

theorem kept_main_arg7 (m : (ℓ : Loc nD τ sig) → Buf (Elt F) ℓ) (c : Dev nD) :
    after ops (launchContents m c) (Proc.devRef .tc main_arg7) = m ((c.tc : Thread nD τ).loc main_arg7) :=
  ops_keep (r := main_arg7) _ (by decide) (by decide) (by decide) (by decide) (by decide) (by decide) (by decide) (by decide) (by decide)

theorem kept_main_arg8 (m : (ℓ : Loc nD τ sig) → Buf (Elt F) ℓ) (c : Dev nD) :
    after ops (launchContents m c) (Proc.devRef .tc main_arg8) = m ((c.tc : Thread nD τ).loc main_arg8) :=
  ops_keep (r := main_arg8) _ (by decide) (by decide) (by decide) (by decide) (by decide) (by decide) (by decide) (by decide) (by decide)

theorem kept_main_arg9 (m : (ℓ : Loc nD τ sig) → Buf (Elt F) ℓ) (c : Dev nD) :
    after ops (launchContents m c) (Proc.devRef .tc main_arg9) = m ((c.tc : Thread nD τ).loc main_arg9) :=
  ops_keep (r := main_arg9) _ (by decide) (by decide) (by decide) (by decide) (by decide) (by decide) (by decide) (by decide) (by decide)

/-! ## The frame -/

/-- On every device, for any float values, from any memory with zero counters: every weakly fair execution of
    @main terminates with every argument's buffer as launched. -/
theorem frame (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)) :=
  (θ_run defs _ _).mono (fun _ h c => ⟨(h c main_arg0).trans (kept_main_arg0 m c),
      (h c main_arg1).trans (kept_main_arg1 m c),
      (h c main_arg2).trans (kept_main_arg2 m c),
      (h c main_arg3).trans (kept_main_arg3 m c),
      (h c main_arg4).trans (kept_main_arg4 m c),
      (h c main_arg5).trans (kept_main_arg5 m c),
      (h c main_arg6).trans (kept_main_arg6 m c),
      (h c main_arg7).trans (kept_main_arg7 m c),
      (h c main_arg8).trans (kept_main_arg8 m c),
      (h c main_arg9).trans (kept_main_arg9 m c)⟩)
    (run_raw m g)

end Cert.ReferenceIdeal.RefRun

end
-- ==== Proof.KernelIdeal.Heads.lean ====
/- The kernel program packs the two output layers side by side: the class-score weights (21 columns) and the
   box weights (84 columns) concatenated to 105 columns and padded with zeros to 128 lanes, the biases likewise
   as one row of 128. Read at an entry, over the extended reals: a column below 21 of the packed weights is the
   class-score weights' column, a column `21 + q` with `q` below 84 is the box weights' column `q`; the same
   for the packed bias row; and the two slices the program takes of a 128-lane result read lanes `q` and
   `21 + q`. (A change of float format is the identity on extended reals, so the packed weights' narrowing
   disappears.) -/
import proofs.«110125_j48919677501805_2_alg».proof.Proof.Gen.KernelIdeal
import Idealize.ShloMosaic.Lib.ValueIdx
import Idealize.ShloMosaic.Lib.Pipeline.Value
import Idealize.ShloMosaic.Lib.KernelVsHost

noncomputable section

namespace Cert.KernelIdeal.Heads

open Cert.KernelIdeal Cert.KernelIdeal.Gen Idealize.ShloMosaic Idealize.ShloMosaic.ValueIdx

/-- The packed output weights: `[Ws | Wb]` padded with zeros to 128 columns, narrowed. -/
def wsb (Ws : FVec Ideal S4096x21 .f32) (Wb : FVec Ideal S4096x84 .f32) : FVec Ideal S4096x128 .bf16 :=
  truncf .bf16 (pad S4096x128 ![0, 0] ![0, 23] ![0, 0] (concatenate S4096x105 1 [⟨S4096x21, Ws⟩, ⟨S4096x84, Wb⟩] concatenates_S4096x21_S4096x84_S4096x105_d1) (sitofp .f32 (constantI S_ 32 0#32)) pads_S4096x105_S4096x128_000_0230 h_S_) bitsLt_bf16_f32

/-- The packed output biases: `[bs | bb]` padded with zeros to 128 entries, as one row. -/
def bsb (bs : FVec Ideal S21 .f32) (bb : FVec Ideal S84 .f32) : FVec Ideal S1x128 .f32 :=
  shapeCast S1x128 (pad S128 ![0] ![23] ![0] (concatenate S105 0 [⟨S21, bs⟩, ⟨S84, bb⟩] concatenates_S21_S84_S105_d0) (sitofp .f32 (constantI S_ 32 0#32)) pads_S105_S128_0230 h_S_) shapeCasts_S128_S1x128

/-- A column below 21 of the packed weights is that column of the class-score weights. -/
theorem wsb_left (Ws : FVec Ideal S4096x21 .f32) (Wb : FVec Ideal S4096x84 .f32) (κ : Fin 4096) (q : Fin 21) :
    wsb Ws Wb (ix2 κ ⟨q.val, by omega⟩) = Ws (ix2 κ q) := by
  unfold wsb
  rw [truncf_apply]
  refine (pad_apply_of_inside _ _ _ _ _ _ _ _ (ix2 κ ⟨q.val, by omega⟩) fun a => ?_).trans ?_
  · match a with
    | ⟨0, _⟩ => show κ.val = 0 + κ.val * (0 + 1); omega
    | ⟨1, _⟩ => show q.val = 0 + q.val * (0 + 1); omega
  · exact concatenate_pair_apply_left (t := S4096x105) (s₁ := S4096x21) (s₂ := S4096x84) 1 Ws Wb concatenates_S4096x21_S4096x84_S4096x105_d1 (ix2 κ ⟨q.val, by omega⟩) rfl (ix2 κ q) fun b => by
      match b with
      | ⟨0, _⟩ => rfl
      | ⟨1, _⟩ => rfl

/-- A column `21 + q`, `q` below 84, of the packed weights is column `q` of the box weights. -/
theorem wsb_right (Ws : FVec Ideal S4096x21 .f32) (Wb : FVec Ideal S4096x84 .f32) (κ : Fin 4096) (q : Fin 84) :
    wsb Ws Wb (ix2 κ ⟨21 + q.val, by omega⟩) = Wb (ix2 κ q) := by
  unfold wsb
  rw [truncf_apply]
  refine (pad_apply_of_inside _ _ _ _ _ _ _ _ (ix2 κ ⟨21 + q.val, by omega⟩) fun a => ?_).trans ?_
  · match a with
    | ⟨0, _⟩ => show κ.val = 0 + κ.val * (0 + 1); omega
    | ⟨1, _⟩ => show 21 + q.val = 0 + (21 + q.val) * (0 + 1); omega
  · refine concatenate_pair_apply_right (t := S4096x105) (s₁ := S4096x21) (s₂ := S4096x84) 1 Ws Wb concatenates_S4096x21_S4096x84_S4096x105_d1 (ix2 κ ⟨21 + q.val, by omega⟩) rfl rfl (ix2 κ q) (fun b hb => ?_) ?_
    · match b with
      | ⟨0, _⟩ => rfl
      | ⟨1, _⟩ => exact absurd rfl hb
    · show q.val + 21 = 21 + q.val; omega

/-- An entry below 21 of the packed bias row is that entry of the class-score biases. -/
theorem bsb_left (bs : FVec Ideal S21 .f32) (bb : FVec Ideal S84 .f32) (q : Fin 21) :
    bsb bs bb (ix2 0 ⟨q.val, by omega⟩) = bs (ix1 q) := by
  unfold bsb
  refine (shapeCast_apply _ shapeCasts_S128_S1x128 _ (ix1 ⟨q.val, by omega⟩) ?_).trans ?_
  · rw [Shape.rowMajor_val_one, Shape.rowMajor_val_two]
    show q.val = 0 * 128 + q.val; omega
  refine (pad_apply_of_inside _ _ _ _ _ _ _ _ (ix1 ⟨q.val, by omega⟩) fun a => ?_).trans ?_
  · match a with
    | ⟨0, _⟩ => show q.val = 0 + q.val * (0 + 1); omega
  · exact concatenate_pair_apply_left (t := S105) (s₁ := S21) (s₂ := S84) 0 bs bb concatenates_S21_S84_S105_d0 (ix1 ⟨q.val, by omega⟩) rfl (ix1 q) fun b => by
      match b with
      | ⟨0, _⟩ => rfl

/-- An entry `21 + q`, `q` below 84, of the packed bias row is entry `q` of the box biases. -/
theorem bsb_right (bs : FVec Ideal S21 .f32) (bb : FVec Ideal S84 .f32) (q : Fin 84) :
    bsb bs bb (ix2 0 ⟨21 + q.val, by omega⟩) = bb (ix1 q) := by
  unfold bsb
  refine (shapeCast_apply _ shapeCasts_S128_S1x128 _ (ix1 ⟨21 + q.val, by omega⟩) ?_).trans ?_
  · rw [Shape.rowMajor_val_one, Shape.rowMajor_val_two]
    show 21 + q.val = 0 * 128 + (21 + q.val); omega
  refine (pad_apply_of_inside _ _ _ _ _ _ _ _ (ix1 ⟨21 + q.val, by omega⟩) fun a => ?_).trans ?_
  · match a with
    | ⟨0, _⟩ => show 21 + q.val = 0 + (21 + q.val) * (0 + 1); omega
  · refine concatenate_pair_apply_right (t := S105) (s₁ := S21) (s₂ := S84) 0 bs bb concatenates_S21_S84_S105_d0 (ix1 ⟨21 + q.val, by omega⟩) rfl rfl (ix1 q) (fun b hb => ?_) ?_
    · match b with
      | ⟨0, _⟩ => exact absurd rfl hb
    · show q.val + 21 = 21 + q.val; omega

/-- The class-score slice of a 128-lane result reads lane `q`. -/
theorem slice21_apply (head : FVec Ideal S128x128 .f32) (p : Fin 128) (q : Fin 21) :
    extractStridedSlice S128x21 ![0, 0] head slices_S128x128_S128x21_0_0 (ix2 p q) = head (ix2 p ⟨q.val, by omega⟩) :=
  extractStridedSlice_apply _ _ _ _ _ fun a => by
    match a with
    | ⟨0, _⟩ => show p.val = 0 + p.val; omega
    | ⟨1, _⟩ => show q.val = 0 + q.val; omega

/-- The box slice of a 128-lane result reads lane `21 + q`. -/
theorem slice84_apply (head : FVec Ideal S128x128 .f32) (p : Fin 128) (q : Fin 84) :
    extractStridedSlice S128x84 ![0, 21] head slices_S128x128_S128x84_0_21 (ix2 p q) = head (ix2 p ⟨21 + q.val, by omega⟩) :=
  extractStridedSlice_apply _ _ _ _ _ fun a => by
    match a with
    | ⟨0, _⟩ => show p.val = 0 + p.val; omega
    | ⟨1, _⟩ => show 21 + q.val = 21 + q.val; rfl

end Cert.KernelIdeal.Heads

end
-- ==== Proof.KernelIdeal.HostStages.lean ====
/-
  The host stretches around the three matrix products, read over ANY contents `W` of the buffers before the
  stretch: what each stretch leaves in the buffers the next product is entered with is a cast, a reshape, or
  (for the fused heads) the concatenate-pad-cast of the weights, of what `W` holds in the argument arrays;
  the last stretch turns the heads' 128-lane output into the result (two slices, a row softmax of the
  first, the concatenation). And an argument array is never written, so every boundary's contents at an
  argument are the launch contents.
-/
import proofs.«110125_j48919677501805_2_alg».proof.Proof.KernelIdeal.Run
import proofs.«110125_j48919677501805_2_alg».proof.Proof.KernelIdeal.Heads
import Idealize.ShloMosaic.Lib.StableHlo.Run

set_option maxRecDepth 16384

noncomputable section

namespace Cert.KernelIdeal.Run

open Cert.KernelIdeal Cert.KernelIdeal.Gen
open Idealize.ShloMosaic Idealize.ShloMosaic.TcCoe Idealize.ShloMosaic.Tactic Idealize.SL.Sem Idealize.ShloMosaic.StableHlo

variable {F : FTy → Type} [FloatOps F]

/-! ## The stretch before the first product -/

theorem s16_v107 (W : Valuation τ sig (Elt F)) :
    (StableHlo.after (hostOps0_16 (F := F)) W (Proc.devRef .tc main_v107) : FVec F S128x25088 .bf16)
      = truncf .bf16 (StableHlo.after (hostOps0_16 (F := F)) W (Proc.devRef .tc main_v106) : FVec F S128x25088 .f32) bitsLt_bf16_f32 := by
  after_results <;> rfl

theorem s16_v108 (W : Valuation τ sig (Elt F)) :
    (StableHlo.after (hostOps0_16 (F := F)) W (Proc.devRef .tc main_v108) : FVec F S25088x4096 .bf16)
      = truncf .bf16 (W (Proc.devRef .tc main_arg2) : FVec F S25088x4096 .f32) bitsLt_bf16_f32 := by
  after_results <;> rfl

theorem s16_v109 (W : Valuation τ sig (Elt F)) :
    (StableHlo.after (hostOps0_16 (F := F)) W (Proc.devRef .tc main_v109) : FVec F S1x4096 .f32)
      = shapeCast S1x4096 (W (Proc.devRef .tc main_arg3) : FVec F S4096 .f32) shapeCasts_S4096_S1x4096 := by
  after_results <;> rfl

/-! ## Between the first and the second product -/

theorem s1_v111 (W : Valuation τ sig (Elt F)) :
    (StableHlo.after (hostOps1 (F := F)) W (Proc.devRef .tc main_v111) : FVec F S4096x4096 .bf16)
      = truncf .bf16 (W (Proc.devRef .tc main_arg4) : FVec F S4096x4096 .f32) bitsLt_bf16_f32 := by
  after_results <;> rfl

theorem s1_v112 (W : Valuation τ sig (Elt F)) :
    (StableHlo.after (hostOps1 (F := F)) W (Proc.devRef .tc main_v112) : FVec F S1x4096 .f32)
      = shapeCast S1x4096 (W (Proc.devRef .tc main_arg5) : FVec F S4096 .f32) shapeCasts_S4096_S1x4096 := by
  after_results <;> rfl

/-! ## Between the second product and the fused heads -/

/-- The two heads' weights side by side, padded with zero columns to 128 lanes. -/
def wsbF (Ws : FVec F S4096x21 .f32) (Wb : FVec F S4096x84 .f32) : FVec F S4096x128 .bf16 :=
  truncf .bf16 (pad S4096x128 ![0, 0] ![0, 23] ![0, 0] (concatenate S4096x105 1 [⟨S4096x21, Ws⟩, ⟨S4096x84, Wb⟩] concatenates_S4096x21_S4096x84_S4096x105_d1) (sitofp .f32 (constantI S_ 32 0#32)) pads_S4096x105_S4096x128_000_0230 h_S_) bitsLt_bf16_f32
/-- The two heads' biases end to end, padded with zeros to 128 lanes, as one row. -/
def bsbF (bs : FVec F S21 .f32) (bb : FVec F S84 .f32) : FVec F S1x128 .f32 :=
  shapeCast S1x128 (pad S128 ![0] ![23] ![0] (concatenate S105 0 [⟨S21, bs⟩, ⟨S84, bb⟩] concatenates_S21_S84_S105_d0) (sitofp .f32 (constantI S_ 32 0#32)) pads_S105_S128_0230 h_S_) shapeCasts_S128_S1x128

set_option maxHeartbeats 2000000 in
theorem s2_v116 (W : Valuation τ sig (Elt F)) :
    (StableHlo.after (hostOps2_4 (F := F)) (StableHlo.after (hostOps2_3 (F := F)) (StableHlo.after (hostOps2_2 (F := F)) (StableHlo.after (hostOps2_1 (F := F)) (StableHlo.after (hostOps2 (F := F)) W)))) (Proc.devRef .tc main_v116) : FVec F S4096x128 .bf16)
      = wsbF (W (Proc.devRef .tc main_arg6)) (W (Proc.devRef .tc main_arg8)) := by
  after_results <;> rfl

set_option maxHeartbeats 2000000 in
theorem s2_v119 (W : Valuation τ sig (Elt F)) :
    (StableHlo.after (hostOps2_4 (F := F)) (StableHlo.after (hostOps2_3 (F := F)) (StableHlo.after (hostOps2_2 (F := F)) (StableHlo.after (hostOps2_1 (F := F)) (StableHlo.after (hostOps2 (F := F)) W)))) (Proc.devRef .tc main_v119) : FVec F S1x128 .f32)
      = bsbF (W (Proc.devRef .tc main_arg7)) (W (Proc.devRef .tc main_arg9)) := by
  after_results <;> rfl

/-! ## After the fused heads -/

/-- A row softmax as the program spells it: the row's maximum (from minus infinity) subtracted, exponentials, divided by
    their row sum. -/
def softmaxRowsK (x : FVec F S128x21 .f32) : FVec F S128x21 .f32 :=
  let mx : FVec F S128 .f32 := maximumf (broadcastInDim S128 ![] bcast_S_S128 (constant S_ .f32 0xFF800000#32)) (Host.reduce FloatOps.maximumf x (constant S_ .f32 0xFF800000#32) reducesTo_S128x21_S128_d1 h_S_)
  let e : FVec F S128x21 .f32 := Host.exp (subf x (broadcastInDim S128x21 ![0, 1] bcast_S128x1_S128x21_0_1 (broadcastInDim S128x1 ![0] bcast_S128_S128x1_0 mx)))
  Host.divf e (broadcastInDim S128x21 ![0, 1] bcast_S128x1_S128x21_0_1 (broadcastInDim S128x1 ![0] bcast_S128_S128x1_0 (Host.reduceAdd e (constant S_ .f32 0x00000000#32) reducesTo_S128x21_S128_d1 h_S_)))

/-- The result from the heads' 128-lane output: lanes 0–20 through the row softmax, lanes 21–104 as they are. -/
def tailK (head : FVec F S128x128 .f32) : FVec F S128x105 .f32 :=
  concatenate S128x105 1 [⟨S128x21, softmaxRowsK (extractStridedSlice S128x21 ![0, 0] head slices_S128x128_S128x21_0_0)⟩,
    ⟨S128x84, extractStridedSlice S128x84 ![0, 21] head slices_S128x128_S128x84_0_21⟩] concatenates_S128x21_S128x84_S128x105_d1

set_option maxHeartbeats 4000000 in
theorem s3_out (W : Valuation τ sig (Elt F)) :
    (StableHlo.after (hostOps3 (F := F)) W (Proc.devRef .tc main_v134) : FVec F S128x105 .f32) = tailK (W (Proc.devRef .tc main_v120)) := by
  after_results <;> rfl

/-! ## An argument array holds its launch contents at every boundary -/

variable (m : (ℓ : Loc nD τ sig) → Buf (Elt F) ℓ)

theorem V16_kept (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) : V16 m c r = m ((c : Thread nD τ).loc r) :=
  (V16_of m c r h15).trans ((V15_of m c r h14).trans ((V14_of m c r h13).trans ((V13_of m c r h12).trans ((V12_of m c r h11).trans ((V11_of m c r h10).trans ((V10_of m c r h9).trans ((V9_of m c r h8).trans ((V8_of m c r h7).trans ((V7_of m c r h6).trans ((V6_of m c r h5).trans ((V5_of m c r h4).trans ((V4_of m c r h3).trans ((V3_of m c r h2).trans ((V2_of m c r h1).trans (V1_of m c r h0)))))))))))))))
theorem V17_kept (c : Dev nD) (r : Ref sig .tc) (h0 : r ∉ hostOps0_W) (h1 : r ∉ hostOps0_1_W) (h2 : r ∉ hostOps0_2_W) (h3 : r ∉ hostOps0_3_W) (h4 : r ∉ hostOps0_4_W) (h5 : r ∉ hostOps0_5_W) (h6 : r ∉ hostOps0_6_W) (h7 : r ∉ hostOps0_7_W) (h8 : r ∉ hostOps0_8_W) (h9 : r ∉ hostOps0_9_W) (h10 : r ∉ hostOps0_10_W) (h11 : r ∉ hostOps0_11_W) (h12 : r ∉ hostOps0_12_W) (h13 : r ∉ hostOps0_13_W) (h14 : r ∉ hostOps0_14_W) (h15 : r ∉ hostOps0_15_W) (h16 : r ∉ hostOps0_16_W) : V17 m c r = m ((c : Thread nD τ).loc r) :=
  (V17_of m c r h16).trans ((V16_of m c r h15).trans ((V15_of m c r h14).trans ((V14_of m c r h13).trans ((V13_of m c r h12).trans ((V12_of m c r h11).trans ((V11_of m c r h10).trans ((V10_of m c r h9).trans ((V9_of m c r h8).trans ((V8_of m c r h7).trans ((V7_of m c r h6).trans ((V6_of m c r h5).trans ((V5_of m c r h4).trans ((V4_of m c r h3).trans ((V3_of m c r h2).trans ((V2_of m c r h1).trans (V1_of m c r h0))))))))))))))))

theorem V16_arg2 (c : Dev nD) : V16 m c main_arg2 = m ((c : Thread nD τ).loc main_arg2) := V16_kept m c main_arg2 (by decide) (by decide) (by decide) (by decide) (by decide) (by decide) (by decide) (by decide) (by decide) (by decide) (by decide) (by decide) (by decide) (by decide) (by decide) (by decide)
theorem V16_arg3 (c : Dev nD) : V16 m c main_arg3 = m ((c : Thread nD τ).loc main_arg3) := V16_kept m c main_arg3 (by decide) (by decide) (by decide) (by decide) (by decide) (by decide) (by decide) (by decide) (by decide) (by decide) (by decide) (by decide) (by decide) (by decide) (by decide) (by decide)
theorem V17_arg4 (c : Dev nD) : V17 m c main_arg4 = m ((c : Thread nD τ).loc main_arg4) := V17_kept m c main_arg4 (by decide) (by decide) (by decide) (by decide) (by decide) (by decide) (by decide) (by decide) (by decide) (by decide) (by decide) (by decide) (by decide) (by decide) (by decide) (by decide) (by decide)
theorem V17_arg5 (c : Dev nD) : V17 m c main_arg5 = m ((c : Thread nD τ).loc main_arg5) := V17_kept m c main_arg5 (by decide) (by decide) (by decide) (by decide) (by decide) (by decide) (by decide) (by decide) (by decide) (by decide) (by decide) (by decide) (by decide) (by decide) (by decide) (by decide) (by decide)
theorem V17_arg6 (c : Dev nD) : V17 m c main_arg6 = m ((c : Thread nD τ).loc main_arg6) := V17_kept m c main_arg6 (by decide) (by decide) (by decide) (by decide) (by decide) (by decide) (by decide) (by decide) (by decide) (by decide) (by decide) (by decide) (by decide) (by decide) (by decide) (by decide) (by decide)
theorem V17_arg7 (c : Dev nD) : V17 m c main_arg7 = m ((c : Thread nD τ).loc main_arg7) := V17_kept m c main_arg7 (by decide) (by decide) (by decide) (by decide) (by decide) (by decide) (by decide) (by decide) (by decide) (by decide) (by decide) (by decide) (by decide) (by decide) (by decide) (by decide) (by decide)
theorem V17_arg8 (c : Dev nD) : V17 m c main_arg8 = m ((c : Thread nD τ).loc main_arg8) := V17_kept m c main_arg8 (by decide) (by decide) (by decide) (by decide) (by decide) (by decide) (by decide) (by decide) (by decide) (by decide) (by decide) (by decide) (by decide) (by decide) (by decide) (by decide) (by decide)
theorem V17_arg9 (c : Dev nD) : V17 m c main_arg9 = m ((c : Thread nD τ).loc main_arg9) := V17_kept m c main_arg9 (by decide) (by decide) (by decide) (by decide) (by decide) (by decide) (by decide) (by decide) (by decide) (by decide) (by decide) (by decide) (by decide) (by decide) (by decide) (by decide) (by decide)

/-- Past the first product: the boundary's contents at a buffer that neither a region's output nor a later stretch
    writes are the contents before the first product. -/
theorem V18_kept (outs : Outs (F := F)) (c : Dev nD) (r : Ref sig .tc) (h : r ∉ ([main_v110] : List (Ref sig .tc))) :
    V18 m outs c r = V17 m c r := V18_of m outs c r h
theorem V20_kept (outs : Outs (F := F)) (c : Dev nD) (r : Ref sig .tc) (h18 : r ∉ ([main_v110] : List (Ref sig .tc))) (h19 : r ∉ hostOps1_W)
    (h20 : r ∉ ([main_v113] : List (Ref sig .tc))) : V20 m outs c r = V17 m c r :=
  (V20_of m outs c r h20).trans ((V19_of m outs c r h19).trans (V18_of m outs c r h18))

end Cert.KernelIdeal.Run

end
-- ==== Proof.KernelIdeal.Entries.lean ====
/-
  What each matrix product is entered with, and what the program returns, along the chain of boundaries:
  the first product reads the pooled features cast to bf16, the first weight matrix cast to bf16 and the
  first bias as a row; the second reads the first's output, the second weight matrix cast and the second
  bias as a row; the fused heads read the second's output and the padded concatenated head weights and
  biases; the result is the tail of the heads' output.
-/
import proofs.«110125_j48919677501805_2_alg».proof.Proof.KernelIdeal.HostStages

set_option maxRecDepth 16384

noncomputable section

namespace Cert.KernelIdeal.Run

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

/-! ## The first product's operands -/

theorem e107 (c : Dev nD) : (V17 m c main_v107 : FVec F S128x25088 .bf16) = truncf .bf16 (V17 m c main_v106 : FVec F S128x25088 .f32) bitsLt_bf16_f32 :=
  s16_v107 (V16 m c)
theorem e108 (c : Dev nD) : (V17 m c main_v108 : FVec F S25088x4096 .bf16) = truncf .bf16 (m ((c : Thread nD τ).loc main_arg2) : FVec F S25088x4096 .f32) bitsLt_bf16_f32 := by
  have h := s16_v108 (V16 m c)
  rw [V16_arg2 m c] at h
  exact h
theorem e109 (c : Dev nD) : (V17 m c main_v109 : FVec F S1x4096 .f32) = shapeCast S1x4096 (m ((c : Thread nD τ).loc main_arg3) : FVec F S4096 .f32) shapeCasts_S4096_S1x4096 := by
  have h := s16_v109 (V16 m c)
  rw [V16_arg3 m c] at h
  exact h

/-! ## The second product's operands -/

theorem e110 (c : Dev nD) : in1 m c main_v110 = outOf0 (in0 m) main_v110 c :=
  (V19_of m (outsA m) c main_v110 (by decide)).trans (Function.update_self (Proc.devRef .tc main_v110) (outsA m 18 main_v110 c) (V17 m c))
theorem e111 (c : Dev nD) : (in1 m c main_v111 : FVec F S4096x4096 .bf16) = truncf .bf16 (m ((c : Thread nD τ).loc main_arg4) : FVec F S4096x4096 .f32) bitsLt_bf16_f32 := by
  have h := s1_v111 (V18 m (outsA m) c)
  rw [V18_kept m (outsA m) c main_arg4 (by decide), V17_arg4 m c] at h
  exact h
theorem e112 (c : Dev nD) : (in1 m c main_v112 : FVec F S1x4096 .f32) = shapeCast S1x4096 (m ((c : Thread nD τ).loc main_arg5) : FVec F S4096 .f32) shapeCasts_S4096_S1x4096 := by
  have h := s1_v112 (V18 m (outsA m) c)
  rw [V18_kept m (outsA m) c main_arg5 (by decide), V17_arg5 m c] at h
  exact h

/-! ## The fused heads' operands -/

theorem e113 (c : Dev nD) : in2 m c main_v113 = outOf1 (in1 m) main_v113 c :=
  (V25_of m (outsB m) c main_v113 (by decide)).trans ((V24_of m (outsB m) c main_v113 (by decide)).trans ((V23_of m (outsB m) c main_v113 (by decide)).trans
    ((V22_of m (outsB m) c main_v113 (by decide)).trans ((V21_of m (outsB m) c main_v113 (by decide)).trans
      (Function.update_self (Proc.devRef .tc main_v113) (outsB m 20 main_v113 c) (V19 m (outsB m) c))))))
theorem e116 (c : Dev nD) : (in2 m c main_v116 : FVec F S4096x128 .bf16)
    = wsbF (m ((c : Thread nD τ).loc main_arg6)) (m ((c : Thread nD τ).loc main_arg8)) := by
  have h := s2_v116 (V20 m (outsB m) c)
  rw [V20_kept m (outsB m) c main_arg6 (by decide) (by decide) (by decide), V17_arg6 m c,
    V20_kept m (outsB m) c main_arg8 (by decide) (by decide) (by decide), V17_arg8 m c] at h
  exact h
theorem e119 (c : Dev nD) : (in2 m c main_v119 : FVec F S1x128 .f32)
    = bsbF (m ((c : Thread nD τ).loc main_arg7)) (m ((c : Thread nD τ).loc main_arg9)) := by
  have h := s2_v119 (V20 m (outsB m) c)
  rw [V20_kept m (outsB m) c main_arg7 (by decide) (by decide) (by decide), V17_arg7 m c,
    V20_kept m (outsB m) c main_arg9 (by decide) (by decide) (by decide), V17_arg9 m c] at h
  exact h

/-! ## The result -/

theorem e120 (c : Dev nD) : V26 m (outs m) c main_v120 = outOf2 (in2 m) main_v120 c :=
  Function.update_self (Proc.devRef .tc main_v120) (outs m 26 main_v120 c) (V25 m (outs m) c)
theorem eOut (c : Dev nD) : (V27 m (outs m) c main_v134 : FVec F S128x105 .f32) = tailK (V26 m (outs m) c main_v120) :=
  s3_out (V26 m (outs m) c)

/-- A region's output array after the region is the fold of its write-backs. -/
theorem out0_eq (c : Dev nD) : outOf0 (in0 m) main_v110 c = (Reg0.dat (entryOf (in0 m)) c).arrAt 3 cfg0.N :=
  Pipeline.withArrays_arr spec0 launch0.win.arr_inj c (in0 m c) (fun w => (Reg0.dat (entryOf (in0 m)) c).arrAt w cfg0.N) 3
theorem out1_eq (c : Dev nD) : outOf1 (in1 m) main_v113 c = (Reg1.dat (entryOf (in1 m)) c).arrAt 3 cfg1.N :=
  Pipeline.withArrays_arr spec1 launch1.win.arr_inj c (in1 m c) (fun w => (Reg1.dat (entryOf (in1 m)) c).arrAt w cfg1.N) 3
theorem out2_eq (c : Dev nD) : outOf2 (in2 m) main_v120 c = (Reg2.dat (entryOf (in2 m)) c).arrAt 3 cfg2.N :=
  Pipeline.withArrays_arr spec2 launch2.win.arr_inj c (in2 m c) (fun w => (Reg2.dat (entryOf (in2 m)) c).arrAt w cfg2.N) 3

end Cert.KernelIdeal.Run

end
-- ==== Proof.KernelIdeal.Reg0.Pieces.lean ====
/-
  What each case of the first matrix product (25088 → 4096, rectified)'s body leaves, as values: the accumulator after a tile is the
  accumulator before it (zero at a first tile) plus the product of the tile of the left operand's columns
  with the block of the right operand; the output block at a last tile is that accumulator plus the bias, rectified.
-/
import proofs.«110125_j48919677501805_2_alg».proof.Proof.KernelIdeal.Reg0.Data
import Idealize.ShloMosaic.Lib.Pipeline.Value

set_option maxRecDepth 16384

noncomputable section

namespace Cert.KernelIdeal.Reg0

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The tile of the left operand the point reads: its columns `k · 3584 … k · 3584 + 3583`. -/
abbrev xTile (i : grid0.Coords) (x0 : Vec F S128x25088 .bf16) : Vec F S128x3584 .bf16 :=
  View.ld x0 (Rect.unit (s := S128x25088) (k0_off1 i) S128x3584.size (k0_off1_inb i))

/-- A first tile leaves the tile's product added onto the cleared accumulator. -/
theorem sout_A_eq (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : isFirst i) (hc1 : ¬isLast i)
    (x0 : Vec F S128x25088 .bf16) (x1 : Vec F S3584x1024 .bf16) (x2 : Vec F S1x1024 .f32) :
    sout_A c i arg2 harg2 arg3 harg3 arg4 harg4 arg5 harg5 arg6 harg6 hc0 hc1 x0 x1 x2 = k0_pay2 (xTile i x0) x1 k0_pay1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S128x1024) hz, View.readCov_unit_zero (S := S128x1024) _ hz]
  simp only [View.readAt_eq_ld, harg2.read_unread, harg3.read_unread, harg4.read_unread, harg6.read_unread,
    View.ld_unit_zero (S := S3584x1024) hz, View.ld_unit_zero (S := S128x1024) hz, View.ld_unit_zero (S := S1x1024) hz]
  all_goals rfl

/-- A middle tile adds the tile's product onto the accumulator it found. -/
theorem sout_B_eq (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : ¬isLast i)
    (x0 : Vec F S128x25088 .bf16) (x1 : Vec F S3584x1024 .bf16) (x2 : Vec F S1x1024 .f32) (xs : Vec F S128x1024 .f32) :
    sout_B c i arg2 harg2 arg3 harg3 arg4 harg4 arg5 harg5 arg6 harg6 hc0 hc1 x0 x1 x2 xs = k0_pay2 (xTile i x0) x1 xs := by
  unfold sout_B
  rw [View.read_writes_eq_canon _ _ _ (scover_B c i arg2 harg2 arg3 harg3 arg4 harg4 arg5 harg5 arg6 harg6 hc0 hc1 x0 x1 x2 xs)]
  unfold kernelRun_B
  dsimp only
  rw [View.canon_unit_zero hz]
  simp only [View.readAt_eq_ld, harg2.read_unread, harg3.read_unread, harg4.read_unread, harg6.read_unread,
    View.ld_unit_zero (S := S3584x1024) hz, View.ld_unit_zero (S := S128x1024) hz, View.ld_unit_zero (S := S1x1024) hz]
  all_goals rfl

/-- A last tile adds the tile's product onto the accumulator it found, -/
theorem sout_C_eq (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) :
    sout_C c i arg2 harg2 arg3 harg3 arg4 harg4 arg5 harg5 arg6 harg6 hc0 hc1 x0 x1 x2 xs = k0_pay2 (xTile i x0) x1 xs := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg6.read_unread,
    View.ld_unit_zero (S := S3584x1024) hz, View.ld_unit_zero (S := S128x1024) hz, View.ld_unit_zero (S := S1x1024) hz]
  all_goals rfl

/-- and stores the finished block: that accumulator and the bias row through the finishing payload. -/
theorem out_C_eq (c : Dev nD) (i : grid0.Coords) (arg2 : Memref sig .tc .vmem S128x25088 .bf16) (harg2 : arg2.IsWhole) (arg3 : Memref sig .tc .vmem S3584x1024 .bf16) (harg3 : arg3.IsWhole) (arg4 : Memref sig .tc .vmem S1x1024 .f32) (harg4 : arg4.IsWhole) (arg5 : Memref sig .tc .vmem S128x1024 .bf16) (harg5 : arg5.IsWhole) (arg6 : Memref sig .tc .vmem S128x1024 .f32) (harg6 : arg6.IsWhole) (hc0 : ¬isFirst i) (hc1 : isLast i)
    (x0 : Vec F S128x25088 .bf16) (x1 : Vec F S3584x1024 .bf16) (x2 : Vec F S1x1024 .f32) (xs : Vec F S128x1024 .f32) :
    out_C c i arg2 harg2 arg3 harg3 arg4 harg4 arg5 harg5 arg6 harg6 hc0 hc1 x0 x1 x2 xs = k0_pay3 (k0_pay2 (xTile i x0) x1 xs) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S128x1024) _ hz]
  simp only [View.readAt_eq_ld, harg2.read_unread, harg3.read_unread, harg4.read_unread, harg6.read_unread,
    View.ld_unit_zero (S := S3584x1024) hz, View.ld_unit_zero (S := S128x1024) hz, View.ld_unit_zero (S := S1x1024) hz]
  all_goals rfl

end Cert.KernelIdeal.Reg0

end
-- ==== Proof.LibPlainDot.lean ====
/-
  The plain matrix product read at an entry, over the extended reals.

  For the dimension numbers of an ordinary product of an `M × K` matrix by a `K × N` matrix
  (`DotDims.plain M K N`: no batch axis, the left operand contracted on its columns, the right one on its rows),
  at the ideal values:

  * a `tpu.matmul` into the zero accumulator, at entry `(p, q)`, is `∑ k, lhs (p, k) * rhs (k, q)`
    (`matmul_zero_plain`);
  * the host's `dot_general`, at entry `(p, q)`, is the same sum, whatever its schedule key (`dotGeneral_plain`).

  Both are generic in the three extents and in the operands' float formats (a change of format is the identity
  at the ideal values). The contraction index of these dimension numbers has one axis, of extent `K`; the sum over
  it is re-indexed to a sum over `Fin K` through `ValueIdx.contrEquiv1`, and the operand indices at output index
  `(p, q)` and contraction coordinate `k` are `(p, k)` and `(k, q)`, coordinate by coordinate.
-/
import Idealize.ShloMosaic.Lib.ValueIdx
import Idealize.ShloMosaic.PureOps.Ideal.Laws

open Idealize.ShloMosaic Idealize.ShloMosaic.ValueIdx
open scoped BigOperators

noncomputable section

namespace Cert.LibPlainDot

variable {M K N : Nat}

/-- The left operand's index at output `(p, q)` and contraction coordinate `k` is `(p, k)`. -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ => exact contrEquiv1_symm_val (DotDims.plain M K N) K rfl rfl k)

/-- The right operand's index at output `(p, q)` and contraction coordinate `k` is `(k, q)`. -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact contrEquiv1_symm_val (DotDims.plain M K N) K rfl rfl k
    | ⟨1, _⟩ => rfl)

/-- A `tpu.matmul` of an `M × K` by a `K × N` operand into the zero accumulator, at entry `(p, q)`: the sum over
    `k` of `lhs (p, k) * rhs (k, q)`. -/
theorem matmul_zero_plain {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- The host's `dot_general` of an `M × K` by a `K × N` operand, at entry `(p, q)`: the same sum. -/
theorem dotGeneral_plain {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.LibPlainDot

end
-- ==== Proof.KernelIdeal.Reg0.Value.lean ====
/-
  The first matrix product (25088 → 4096, rectified) at the ideal values, index by index. A tile's payload at entry (p, q) is the
  accumulator's entry plus the sum over the tile's 3584 columns of left-operand entry times right-operand
  entry; the window blocks are read off the arrays the region is entered with: the left operand whole,
  the right operand's block (k, j) at rows k · 3584 + a and columns j · 1024 + b, the bias row's block j.
  So after the point at position t the accumulator is what the point before left (nothing, at a first
  tile) plus tile (t mod 7)'s partial product for column block (t div 7).
-/
import proofs.«110125_j48919677501805_2_alg».proof.Proof.KernelIdeal.Reg0.Pieces
import proofs.«110125_j48919677501805_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at an entry -/

theorem pay1_apply (p : Fin 128) (q : Fin 1024) : (k0_pay1 (F := Ideal)) (ix2 p q) = 0 := by
  unfold k0_pay1
  simp only [shapeCast_self]
  exact Ideal.ofBits_zero_f32

theorem pay2_apply (v6 : Vec Ideal S128x3584 .bf16) (v8 : Vec Ideal S3584x1024 .bf16) (v10 : Vec Ideal S128x1024 .f32) (p : Fin 128) (q : Fin 1024) :
    k0_pay2 (F := Ideal) v6 v8 v10 (ix2 p q) = v10 (ix2 p q) + ∑ a : Fin 3584, v6 (ix2 p a) * v8 (ix2 a q) := by
  unfold k0_pay2
  simp only [shapeCast_self]
  exact congrArg (v10 (ix2 p q) + ·) (Cert.LibPlainDot.matmul_zero_plain (M := 128) (K := 3584) (N := 1024) none v6 v8 p q)

theorem pay3_apply (v19 : Vec Ideal S128x1024 .f32) (v20 : Vec Ideal S1x1024 .f32) (p : Fin 128) (q : Fin 1024) :
    k0_pay3 (F := Ideal) v19 v20 (ix2 p q) = max (v19 (ix2 p q) + v20 (ix2 0 q)) 0 := by
  unfold k0_pay3
  simp only [shapeCast_self]
  show max (v19 (ix2 p q) + broadcastTo S128x1024 v20 broadcasts_S1x1024_S128x1024 (ix2 p q)) (Ideal.ofBits .f32 0x00000000#32) = _
  rw [Ideal.ofBits_zero_f32, broadcastTo_apply v20 _ (ix2 p q) (ix2 0 q) (fun a => by match a with | ⟨0, _⟩ => rfl | ⟨1, _⟩ => rfl)]

/-! ## The window blocks, read off the arrays the region is entered with -/

variable (V : (c : Dev nD) → (b : Ref sig .tc) → Buf (Elt Ideal) ((c : Thread nD τ).loc b))

/-- The left operand, the right operand and the bias row as the region finds them. -/
abbrev Xa (c : Dev nD) : Vec Ideal S128x25088 .bf16 := V c (Pipeline.arrRef spec0 0)
abbrev Wa (c : Dev nD) : Vec Ideal S25088x4096 .bf16 := V c (Pipeline.arrRef spec0 1)
abbrev Ba (c : Dev nD) : Vec Ideal S1x4096 .f32 := V c (Pipeline.arrRef spec0 2)

/-- Where the windows sit at a point: the left operand's block never moves; the right operand's is (k, j); the bias
    row's and the output's are (0, j) — for position t = j · 7 + k. And the tile the body slices off the left operand
    starts at column k · 3584. -/
theorem idx_0 : ∀ t : Fin cfg0.N, win0_0.index t 0 = 0 ∧ win0_0.index t 1 = 0 :=
  (by decide +kernel : ∀ t : Fin grid0.N, win0_0.index t 0 = 0 ∧ win0_0.index t 1 = 0)
theorem idx_1 : ∀ t : Fin cfg0.N, win0_1.index t 0 = t.val % 7 ∧ win0_1.index t 1 = t.val / 7 :=
  (by decide +kernel : ∀ t : Fin grid0.N, win0_1.index t 0 = t.val % 7 ∧ win0_1.index t 1 = t.val / 7)
theorem idx_2 : ∀ t : Fin cfg0.N, win0_2.index t 0 = 0 ∧ win0_2.index t 1 = t.val / 7 :=
  (by decide +kernel : ∀ t : Fin grid0.N, win0_2.index t 0 = 0 ∧ win0_2.index t 1 = t.val / 7)
theorem idx_3 : ∀ t : Fin cfg0.N, win0_3.index t 0 = 0 ∧ win0_3.index t 1 = t.val / 7 :=
  (by decide +kernel : ∀ t : Fin grid0.N, win0_3.index t 0 = 0 ∧ win0_3.index t 1 = t.val / 7)
theorem off_tile : ∀ t : Fin cfg0.N, k0_off1 (grid0.coords t) 0 = 0 ∧ k0_off1 (grid0.coords t) 1 = (t.val % 7) * 3584 :=
  (by decide +kernel : ∀ t : Fin grid0.N, k0_off1 (grid0.coords t) 0 = 0 ∧ k0_off1 (grid0.coords t) 1 = (t.val % 7) * 3584)

theorem hN : cfg0.N = 28 := N_0
theorem t_lt (t : Fin cfg0.N) : t.val < 28 := lt_of_lt_of_eq t.isLt hN

/-- The left operand's block is the whole array. -/
theorem iblk_0_apply (c : Dev nD) (t : Fin cfg0.N) (p : Fin 128) (κ : Fin 25088) :
    (iblk V c 0 t : Vec Ideal S128x25088 .bf16) (ix2 p κ) = Xa V c (ix2 p κ) := by
  unfold iblk
  rw [View.read_apply]
  show V c (Pipeline.arrRef spec0 0) _ = V c (Pipeline.arrRef spec0 0) _
  refine congrArg _ (funext fun a => Fin.ext ?_)
  match a with
  | ⟨0, _⟩ => show win0_0.index t 0 * 128 + 1 * p.val = p.val; rw [(idx_0 t).1]; omega
  | ⟨1, _⟩ => show win0_0.index t 1 * 25088 + 1 * κ.val = κ.val; rw [(idx_0 t).2]; omega

/-- The right operand's block (k, j): rows k · 3584 + a, columns j · 1024 + b. -/
theorem iblk_1_apply (c : Dev nD) (t : Fin cfg0.N) (a : Fin 3584) (b : Fin 1024) :
    (iblk V c 1 t : Vec Ideal S3584x1024 .bf16) (ix2 a b)
      = Wa V c (ix2 ⟨(t.val % 7) * 3584 + a.val, by have := t_lt t; have := a.isLt; omega⟩
                    ⟨(t.val / 7) * 1024 + b.val, by have := t_lt t; have := b.isLt; omega⟩) := by
  unfold iblk
  rw [View.read_apply]
  show V c (Pipeline.arrRef spec0 1) _ = V c (Pipeline.arrRef spec0 1) _
  refine congrArg _ (funext fun d => Fin.ext ?_)
  match d with
  | ⟨0, _⟩ => show win0_1.index t 0 * 3584 + 1 * a.val = (t.val % 7) * 3584 + a.val; rw [(idx_1 t).1]; omega
  | ⟨1, _⟩ => show win0_1.index t 1 * 1024 + 1 * b.val = (t.val / 7) * 1024 + b.val; rw [(idx_1 t).2]; omega

/-- The bias row's block j: columns j · 1024 + b. -/
theorem iblk_2_apply (c : Dev nD) (t : Fin cfg0.N) (b : Fin 1024) :
    (iblk V c 2 t : Vec Ideal S1x1024 .f32) (ix2 0 b)
      = Ba V c (ix2 0 ⟨(t.val / 7) * 1024 + b.val, by have := t_lt t; have := b.isLt; omega⟩) := by
  unfold iblk
  rw [View.read_apply]
  show V c (Pipeline.arrRef spec0 2) _ = V c (Pipeline.arrRef spec0 2) _
  refine congrArg _ (funext fun d => Fin.ext ?_)
  match d with
  | ⟨0, _⟩ => show win0_2.index t 0 * 1 + 1 * 0 = 0; rw [(idx_2 t).1]
  | ⟨1, _⟩ => show win0_2.index t 1 * 1024 + 1 * b.val = (t.val / 7) * 1024 + b.val; rw [(idx_2 t).2]; omega

/-- The tile the body slices off the left operand's block: columns k · 3584 + a. -/
theorem xTile_apply (t : Fin cfg0.N) (x0 : Vec Ideal S128x25088 .bf16) (p : Fin 128) (a : Fin 3584) :
    xTile (grid0.coords t) x0 (ix2 p a)
      = x0 (ix2 p ⟨(t.val % 7) * 3584 + a.val, by have := t_lt t; have := a.isLt; omega⟩) := by
  show x0 _ = x0 _
  refine congrArg _ (funext fun d => Fin.ext ?_)
  match d with
  | ⟨0, _⟩ => show k0_off1 (grid0.coords t) 0 + 1 * p.val = p.val; rw [(off_tile t).1]; omega
  | ⟨1, _⟩ => show k0_off1 (grid0.coords t) 1 + 1 * a.val = (t.val % 7) * 3584 + a.val; rw [(off_tile t).2]; omega

end Cert.KernelIdeal.Reg0

end
-- ==== Proof.LibBlockedSum.lean ====
/-
  Sums over a range of indices cut into equal consecutive blocks, and the closed form of an accumulator
  that starts from a given value and adds one term per step. Nothing here is specific to one kernel: the
  statements are over an arbitrary additive commutative monoid, with two instances at literal extents.
-/
import Mathlib.Algebra.BigOperators.Fin
import Mathlib.Data.Fintype.BigOperators
import Mathlib.Logic.Equiv.Fin.Basic

open scoped BigOperators

namespace BlockedSum

/-- The position `b * bs + j` of offset `j` inside block `b`, of `nb` blocks of `bs` positions each, is below
    the total extent `nb * bs`. -/
theorem block_pos_lt {nb bs : ℕ} (b : Fin nb) (j : Fin bs) : b.val * bs + j.val < nb * bs :=
  calc b.val * bs + j.val < b.val * bs + bs := Nat.add_lt_add_left j.isLt _
    _ = (b.val + 1) * bs := (Nat.succ_mul _ _).symm
    _ ≤ nb * bs := Nat.mul_le_mul_right _ b.isLt

/-- A sum over `nb * bs` consecutive positions is the sum over the `nb` blocks of the sums inside each block:
    `∑ b, ∑ j, f (b * bs + j) = ∑ k, f k`, in any additive commutative monoid. -/
theorem sum_blocks {M : Type*} [AddCommMonoid M] {nb bs : ℕ} (f : Fin (nb * bs) → M) :
    ∑ b : Fin nb, ∑ j : Fin bs, f ⟨b.val * bs + j.val, block_pos_lt b j⟩ = ∑ k : Fin (nb * bs), f k := by
  rw [← Equiv.sum_comp (finProdFinEquiv (m := nb) (n := bs)) f, Fintype.sum_prod_type]
  refine Finset.sum_congr rfl fun b _ => Finset.sum_congr rfl fun j _ => congrArg f (Fin.ext ?_)
  show b.val * bs + j.val = j.val + bs * b.val
  rw [Nat.add_comm, Nat.mul_comm]

/-- The same with the summand given on natural numbers below the extent (the proof of the bound is irrelevant). -/
theorem sum_blocks' {M : Type*} [AddCommMonoid M] {nb bs : ℕ} (f : (k : ℕ) → k < nb * bs → M) :
    ∑ b : Fin nb, ∑ j : Fin bs, f (b.val * bs + j.val) (block_pos_lt b j) = ∑ k : Fin (nb * bs), f k.val k.isLt :=
  sum_blocks (fun k => f k.val k.isLt)

/-- Four blocks of 2048 make 8192: `∑ b : Fin 4, ∑ j : Fin 2048, f (b * 2048 + j) = ∑ k : Fin 8192, f k`. -/
theorem sum_blocks_4_2048 {M : Type*} [AddCommMonoid M] (f : Fin 8192 → M) :
    ∑ b : Fin 4, ∑ j : Fin 2048, f ⟨b.val * 2048 + j.val, by have := b.isLt; have := j.isLt; omega⟩ = ∑ k : Fin 8192, f k :=
  sum_blocks (nb := 4) (bs := 2048) f

/-- Two blocks of 2048 make 4096: `∑ b : Fin 2, ∑ j : Fin 2048, f (b * 2048 + j) = ∑ k : Fin 4096, f k`. -/
theorem sum_blocks_2_2048 {M : Type*} [AddCommMonoid M] (f : Fin 4096 → M) :
    ∑ b : Fin 2, ∑ j : Fin 2048, f ⟨b.val * 2048 + j.val, by have := b.isLt; have := j.isLt; omega⟩ = ∑ k : Fin 4096, f k :=
  sum_blocks (nb := 2) (bs := 2048) f

/-- The running form: a sequence that starts at `z` and adds `g t` at step `t`, for every step below `n`, is at
    step `n` the start plus the sum of the first `n` terms. -/
theorem running_sum_range {M : Type*} [AddCommMonoid M] (a g : ℕ → M) (z : M) (n : ℕ)
    (h0 : a 0 = z) (hs : ∀ t, t < n → a (t + 1) = a t + g t) : a n = z + ∑ t ∈ Finset.range n, g t := by
  induction n with
  | zero => rw [Finset.range_zero, Finset.sum_empty, add_zero, h0]
  | succ m ih =>
    rw [hs m (Nat.lt_succ_self m), ih fun t ht => hs t (Nat.lt_succ_of_lt ht), Finset.sum_range_succ, add_assoc]

/-- The same for every step, without a bound. -/
theorem running_sum_range_all {M : Type*} [AddCommMonoid M] (a g : ℕ → M) (z : M)
    (h0 : a 0 = z) (hs : ∀ t, a (t + 1) = a t + g t) (n : ℕ) : a n = z + ∑ t ∈ Finset.range n, g t :=
  running_sum_range a g z n h0 fun t _ => hs t

/-- The running form with the terms indexed by `Fin n`: a sequence that starts at `z` and adds `g t` at step
    `t : Fin n` is at step `n` the start plus the sum of all `n` terms. -/
theorem running_sum_fin {M : Type*} [AddCommMonoid M] {n : ℕ} (a : ℕ → M) (g : Fin n → M) (z : M)
    (h0 : a 0 = z) (hs : ∀ t : Fin n, a (t.val + 1) = a t.val + g t) : a n = z + ∑ t : Fin n, g t := by
  have h := running_sum_range a (fun t => if ht : t < n then g ⟨t, ht⟩ else 0) z n h0 fun t ht => by
    rw [dif_pos ht]; exact hs ⟨t, ht⟩
  rw [h, ← Fin.sum_univ_eq_sum_range (fun t => if ht : t < n then g ⟨t, ht⟩ else 0) n]
  exact congrArg (z + ·) (Finset.sum_congr rfl fun t _ => dif_pos t.isLt)

/-- An accumulator that starts at zero: the sum of the terms alone. -/
theorem running_sum_fin_zero {M : Type*} [AddCommMonoid M] {n : ℕ} (a : ℕ → M) (g : Fin n → M)
    (h0 : a 0 = 0) (hs : ∀ t : Fin n, a (t.val + 1) = a t.val + g t) : a n = ∑ t : Fin n, g t := by
  rw [running_sum_fin a g 0 h0 hs, zero_add]

end BlockedSum
-- ==== Proof.KernelIdeal.Reg0.Closed.lean ====
/-
  The first matrix product (25088 → 4096, rectified), closed: the output array ends holding, at row p and column col,
  the rectified sum over the whole contraction axis of left-operand entry times right-operand entry, plus the
  bias at col. The accumulator after position n is the sum of the tile parts 0 … n mod 7 for column block
  n div 7 (induction on n: a first tile starts the sum, every other tile adds its part to what the point
  before left); the 7 tile parts regroup into the sum over all 25088 indices; a last tile stores that sum plus the
  bias, rectified, as block (0, n div 7) of the output; the 4 blocks tile the array.
-/
import proofs.«110125_j48919677501805_2_alg».proof.Proof.KernelIdeal.Reg0.Value
import proofs.«110125_j48919677501805_2_alg».proof.Proof.LibBlockedSum

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction sum and its tiles -/

/-- Entry (p, col) of the full product: the sum over the whole contraction axis. -/
def dotAt (c : Dev nD) (p : Fin 128) (col : Fin 4096) : EReal := ∑ κ : Fin 25088, Xa V c (ix2 p κ) * Wa V c (ix2 κ col)

/-- Tile k's part of it: the indices k · 3584 … k · 3584 + 3583. -/
def tilePart (c : Dev nD) (p : Fin 128) (col : Fin 4096) (k : Fin 7) : EReal :=
  ∑ a : Fin 3584, Xa V c (ix2 p ⟨k.val * 3584 + a.val, by have := k.isLt; have := a.isLt; omega⟩)
    * Wa V c (ix2 ⟨k.val * 3584 + a.val, by have := k.isLt; have := a.isLt; omega⟩ col)

/-- The tiles' parts add up to the full sum (addition of extended reals is commutative and associative: no finiteness
    is needed to regroup). -/
theorem dotAt_eq_tiles (c : Dev nD) (p : Fin 128) (col : Fin 4096) : dotAt V c p col = ∑ k : Fin 7, tilePart V c p col k :=
  (BlockedSum.sum_blocks (nb := 7) (bs := 3584) (fun κ : Fin 25088 => Xa V c (ix2 p κ) * Wa V c (ix2 κ col))).symm

/-- The same tile part with the tile given by a natural number (zero past the last tile). -/
def tileN (c : Dev nD) (p : Fin 128) (col : Fin 4096) (k : ℕ) : EReal := if h : k < 7 then tilePart V c p col ⟨k, h⟩ else 0

theorem sum_tileN (c : Dev nD) (p : Fin 128) (col : Fin 4096) : ∑ k ∈ Finset.range 7, tileN V c p col k = ∑ k : Fin 7, tilePart V c p col k := by
  rw [← Fin.sum_univ_eq_sum_range (fun k => tileN V c p col k) 7]
  exact Finset.sum_congr rfl fun k _ => dif_pos k.isLt

/-! ## One point's tile product is the tile part -/

theorem tile_eq (c : Dev nD) (t : Fin cfg0.N) (p : Fin 128) (q : Fin 1024) (col : Fin 4096) (hcol : col.val = (t.val / 7) * 1024 + q.val) :
    (∑ a : Fin 3584, xTile (grid0.coords t) (iblk V c 0 t) (ix2 p a) * (iblk V c 1 t : Vec Ideal S3584x1024 .bf16) (ix2 a q))
      = tileN V c p col (t.val % 7) := by
  unfold tileN
  rw [dif_pos (Nat.mod_lt _ (by decide))]
  unfold tilePart
  refine Finset.sum_congr rfl fun a _ => ?_
  rw [xTile_apply, iblk_0_apply, iblk_1_apply]
  have e : (⟨(t.val / 7) * 1024 + q.val, by have := t_lt t; have := q.isLt; omega⟩ : Fin 4096) = col := Fin.ext hcol.symm
  rw [e]

/-! ## The accumulator, point by point -/

theorem acc_first (c : Dev nD) (t : Fin cfg0.N) (h0 : t.val % 7 = 0) (p : Fin 128) (q : Fin 1024) (col : Fin 4096)
    (hcol : col.val = (t.val / 7) * 1024 + q.val) :
    (outsAt V c t.val t.isLt).2 (ix2 p q) = tileN V c p col (t.val % 7) := by
  have h1 : ¬t.val % 7 = 6 := by omega
  rw [outsAt_A V c t h0 h1]; dsimp only
  rw [sout_A_eq, pay2_apply, pay1_apply, zero_add]
  exact tile_eq V c t p q col hcol

theorem acc_next (c : Dev nD) (t : Fin cfg0.N) (h0 : ¬t.val % 7 = 0) (p : Fin 128) (q : Fin 1024) (col : Fin 4096)
    (hcol : col.val = (t.val / 7) * 1024 + q.val) :
    (outsAt V c t.val t.isLt).2 (ix2 p q)
      = (outsAt V c (t.val - 1) (Nat.lt_of_le_of_lt (Nat.sub_le _ _) t.isLt)).2 (ix2 p q) + tileN V c p col (t.val % 7) := by
  by_cases h1 : t.val % 7 = 6
  · rw [outsAt_C V c t h0 h1]; dsimp only
    rw [sout_C_eq, pay2_apply]
    exact congrArg (_ + ·) (tile_eq V c t p q col hcol)
  · rw [outsAt_B V c t h0 h1]; dsimp only
    rw [sout_B_eq, pay2_apply]
    exact congrArg (_ + ·) (tile_eq V c t p q col hcol)

/-- After position n the accumulator holds the tile parts 0 … n mod 7 of column block n div 7, added. -/
theorem acc_eq (c : Dev nD) (p : Fin 128) (q : Fin 1024) : ∀ (n : ℕ) (hn : n < cfg0.N) (col : Fin 4096) (hcol : col.val = (n / 7) * 1024 + q.val),
    (outsAt V c n hn).2 (ix2 p q) = ∑ k ∈ Finset.range (n % 7 + 1), tileN V c p col k
  | 0, hn, col, hcol => by
    rw [acc_first V c ⟨0, hn⟩ (Nat.zero_mod _) p q col hcol]
    simp only [Nat.zero_mod, zero_add, Finset.sum_range_one]
  | n + 1, hn, col, hcol => by
    by_cases h0 : (n + 1) % 7 = 0
    · rw [acc_first V c ⟨n + 1, hn⟩ h0 p q col hcol]
      show tileN V c p col ((n + 1) % 7) = _
      rw [h0]; simp only [zero_add, Finset.sum_range_one]
    · rw [acc_next V c ⟨n + 1, hn⟩ h0 p q col hcol]
      show (outsAt V c (n + 1 - 1) _).2 (ix2 p q) + tileN V c p col ((n + 1) % 7) = _
      have hq : n / 7 = (n + 1) / 7 := by omega
      have hr : n % 7 + 1 = (n + 1) % 7 := by omega
      have ih := acc_eq c p q n (Nat.lt_of_succ_lt hn) col (by rw [hq]; exact hcol)
      simp only [Nat.add_sub_cancel] at ih ⊢
      rw [ih, hr, Finset.sum_range_succ]

/-! ## The output block at a last tile -/

theorem out_last (c : Dev nD) (t : Fin cfg0.N) (h1 : t.val % 7 = 6) (p : Fin 128) (q : Fin 1024) (col : Fin 4096)
    (hcol : col.val = (t.val / 7) * 1024 + q.val) :
    (outsAt V c t.val t.isLt).1 (ix2 p q) = max (dotAt V c p col + Ba V c (ix2 0 col)) 0 := by
  have h0 : ¬t.val % 7 = 0 := by omega
  have hacc := acc_eq V c p q t.val t.isLt col hcol
  rw [outsAt_C V c t h0 h1] at hacc ⊢
  dsimp only at hacc ⊢
  rw [out_C_eq, pay3_apply]
  rw [sout_C_eq] at hacc
  rw [hacc, h1, sum_tileN, ← dotAt_eq_tiles, iblk_2_apply]
  have e : (⟨(t.val / 7) * 1024 + q.val, by have := t_lt t; have := q.isLt; omega⟩ : Fin 4096) = col := Fin.ext hcol.symm
  rw [e]

/-! ## From blocks to the array -/

/-- What the output array ends holding. -/
def Gout (c : Dev nD) : Vec Ideal S128x4096 .bf16 := fun i => max (dotAt V c (i 0) (i 1) + Ba V c (ix2 0 (i 1))) 0

theorem xsz_3 : ∀ t : Fin cfg0.N, win0_3.xsize (grid0.coords t) 0 = 128 ∧ win0_3.xsize (grid0.coords t) 1 = 1024 :=
  (by decide +kernel : ∀ t : Fin grid0.N, win0_3.xsize (grid0.coords t) 0 = 128 ∧ win0_3.xsize (grid0.coords t) 1 = 1024)

/-- What a last tile's point writes back is block (0, j) of `Gout`. -/
theorem flushed_eq (c : Dev nD) (t : Fin cfg0.N) (hf : (cfg0.win 3).flush t = true) :
    (dat V c).flushed 3 t = ((cfg0.win 3).blk t).view.read (Elt Ideal) (Gout V c) := by
  have h1 : t.val % 7 = 6 := (flush0_3 t).mp hf
  show (cfg0.win 3).cut (grid0.coords t) ((dat V c).after 3 t) = _
  rw [after_3]
  funext y
  obtain ⟨p, q, rfl⟩ : ∃ (p : Fin 128) (q : Fin 1024), y = ix2 p q := ⟨y 0, y 1, eq_ix2 y⟩
  rw [View.read_apply]
  have he0 : (((cfg0.win 3).blk t).view.emb (ix2 p q) : S128x4096.Idx) 0 = p :=
    Fin.ext (by show win0_3.index t 0 * 128 + 1 * p.val = p.val; rw [(idx_3 t).1]; omega)
  have hcol : ((((cfg0.win 3).blk t).view.emb (ix2 p q) : S128x4096.Idx) 1).val = (t.val / 7) * 1024 + q.val := by
    show win0_3.index t 1 * 1024 + 1 * q.val = _; rw [(idx_3 t).2]; omega
  show (outsAt V c t.val t.isLt).1 (ix2 p q) = Gout V c (((cfg0.win 3).blk t).view.emb (ix2 p q))
  rw [out_last V c t h1 p q _ hcol]
  unfold Gout
  rw [he0]

/-- The output array ends holding `Gout`: the last tiles' blocks (0, j) tile it. -/
theorem final (c : Dev nD) : (dat V c).arrAt 3 cfg0.N = Gout V c :=
  (dat V c).arrAt_eq_of_cover 3 (Gout V c) (flushed_eq V c) fun i => by
    have hi0 : (i 0 : Nat) < 128 := (i 0).isLt
    have hi1 : (i 1 : Nat) < 4096 := (i 1).isLt
    have ht : (i 1 : Nat) / 1024 * 7 + 6 < cfg0.N := by rw [hN]; omega
    refine ⟨⟨(i 1 : Nat) / 1024 * 7 + 6, ht⟩, (flush0_3 _).mpr (by show ((i 1 : Nat) / 1024 * 7 + 6) % 7 = 6; omega), ?_⟩
    show i ∈ ((View.whole main_v110).slice (win0_3.rect ⟨(i 1 : Nat) / 1024 * 7 + 6, ht⟩)).set
    rw [View.set_slice_whole, Rect.mem_set_unit]
    intro a
    match a with
    | ⟨0, _⟩ =>
      show win0_3.index ⟨_, ht⟩ 0 * win0_3.size 0 ≤ (i 0 : Nat) ∧ (i 0 : Nat) < win0_3.index ⟨_, ht⟩ 0 * win0_3.size 0 + win0_3.xsize (grid0.coords ⟨_, ht⟩) 0
      rw [(idx_3 ⟨_, ht⟩).1, (xsz_3 ⟨_, ht⟩).1]; omega
    | ⟨1, _⟩ =>
      show win0_3.index ⟨_, ht⟩ 1 * win0_3.size 1 ≤ (i 1 : Nat) ∧ (i 1 : Nat) < win0_3.index ⟨_, ht⟩ 1 * win0_3.size 1 + win0_3.xsize (grid0.coords ⟨_, ht⟩) 1
      rw [(idx_3 ⟨_, ht⟩).2, (xsz_3 ⟨_, ht⟩).2]
      show ((i 1 : Nat) / 1024 * 7 + 6) / 7 * 1024 ≤ (i 1 : Nat) ∧ (i 1 : Nat) < ((i 1 : Nat) / 1024 * 7 + 6) / 7 * 1024 + 1024
      omega

end Cert.KernelIdeal.Reg0

end
-- ==== Proof.KernelIdeal.Reg1.Pieces.lean ====
/-
  What each case of the second matrix product (4096 → 4096, rectified)'s body leaves, as values: the accumulator after a tile is the
  accumulator before it (zero at a first tile) plus the product of the tile of the left operand's columns
  with the block of the right operand; the output block at a last tile is that accumulator plus the bias, rectified.
-/
import proofs.«110125_j48919677501805_2_alg».proof.Proof.KernelIdeal.Reg1.Data
import Idealize.ShloMosaic.Lib.Pipeline.Value

set_option maxRecDepth 16384

noncomputable section

namespace Cert.KernelIdeal.Reg1

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The tile of the left operand the point reads: its columns `k · 2048 … k · 2048 + 2047`. -/
abbrev xTile (i : grid1.Coords) (x0 : Vec F S128x4096 .bf16) : Vec F S128x2048 .bf16 :=
  View.ld x0 (Rect.unit (s := S128x4096) (k1_off1 i) S128x2048.size (k1_off1_inb i))

/-- A first tile leaves the tile's product added onto the cleared accumulator. -/
theorem sout_A_eq (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : isFirst i) (hc1 : ¬isLast i)
    (x0 : Vec F S128x4096 .bf16) (x1 : Vec F S2048x512 .bf16) (x2 : Vec F S1x512 .f32) :
    sout_A c i arg2 harg2 arg3 harg3 arg4 harg4 arg5 harg5 arg6 harg6 hc0 hc1 x0 x1 x2 = k1_pay2 (xTile i x0) x1 k1_pay1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S128x512) hz, View.readCov_unit_zero (S := S128x512) _ hz]
  simp only [View.readAt_eq_ld, harg2.read_unread, harg3.read_unread, harg4.read_unread, harg6.read_unread,
    View.ld_unit_zero (S := S2048x512) hz, View.ld_unit_zero (S := S128x512) hz, View.ld_unit_zero (S := S1x512) hz]
  all_goals rfl

/-- A last tile adds the tile's product onto the accumulator it found, -/
theorem sout_C_eq (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) :
    sout_C c i arg2 harg2 arg3 harg3 arg4 harg4 arg5 harg5 arg6 harg6 hc0 hc1 x0 x1 x2 xs = k1_pay2 (xTile i x0) x1 xs := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg6.read_unread,
    View.ld_unit_zero (S := S2048x512) hz, View.ld_unit_zero (S := S128x512) hz, View.ld_unit_zero (S := S1x512) hz]
  all_goals rfl

/-- and stores the finished block: that accumulator and the bias row through the finishing payload. -/
theorem out_C_eq (c : Dev nD) (i : grid1.Coords) (arg2 : Memref sig .tc .vmem S128x4096 .bf16) (harg2 : arg2.IsWhole) (arg3 : Memref sig .tc .vmem S2048x512 .bf16) (harg3 : arg3.IsWhole) (arg4 : Memref sig .tc .vmem S1x512 .f32) (harg4 : arg4.IsWhole) (arg5 : Memref sig .tc .vmem S128x512 .bf16) (harg5 : arg5.IsWhole) (arg6 : Memref sig .tc .vmem S128x512 .f32) (harg6 : arg6.IsWhole) (hc0 : ¬isFirst i) (hc1 : isLast i)
    (x0 : Vec F S128x4096 .bf16) (x1 : Vec F S2048x512 .bf16) (x2 : Vec F S1x512 .f32) (xs : Vec F S128x512 .f32) :
    out_C c i arg2 harg2 arg3 harg3 arg4 harg4 arg5 harg5 arg6 harg6 hc0 hc1 x0 x1 x2 xs = k1_pay3 (k1_pay2 (xTile i x0) x1 xs) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S128x512) _ hz]
  simp only [View.readAt_eq_ld, harg2.read_unread, harg3.read_unread, harg4.read_unread, harg6.read_unread,
    View.ld_unit_zero (S := S2048x512) hz, View.ld_unit_zero (S := S128x512) hz, View.ld_unit_zero (S := S1x512) hz]
  all_goals rfl

end Cert.KernelIdeal.Reg1

end
-- ==== Proof.KernelIdeal.Reg1.Value.lean ====
/-
  The second matrix product (4096 → 4096, rectified) at the ideal values, index by index. A tile's payload at entry (p, q) is the
  accumulator's entry plus the sum over the tile's 2048 columns of left-operand entry times right-operand
  entry; the window blocks are read off the arrays the region is entered with: the left operand whole,
  the right operand's block (k, j) at rows k · 2048 + a and columns j · 512 + b, the bias row's block j.
  So after the point at position t the accumulator is what the point before left (nothing, at a first
  tile) plus tile (t mod 2)'s partial product for column block (t div 2).
-/
import proofs.«110125_j48919677501805_2_alg».proof.Proof.KernelIdeal.Reg1.Pieces
import proofs.«110125_j48919677501805_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at an entry -/

theorem pay1_apply (p : Fin 128) (q : Fin 512) : (k1_pay1 (F := Ideal)) (ix2 p q) = 0 := by
  unfold k1_pay1
  simp only [shapeCast_self]
  exact Ideal.ofBits_zero_f32

theorem pay2_apply (v6 : Vec Ideal S128x2048 .bf16) (v8 : Vec Ideal S2048x512 .bf16) (v10 : Vec Ideal S128x512 .f32) (p : Fin 128) (q : Fin 512) :
    k1_pay2 (F := Ideal) v6 v8 v10 (ix2 p q) = v10 (ix2 p q) + ∑ a : Fin 2048, v6 (ix2 p a) * v8 (ix2 a q) := by
  unfold k1_pay2
  simp only [shapeCast_self]
  exact congrArg (v10 (ix2 p q) + ·) (Cert.LibPlainDot.matmul_zero_plain (M := 128) (K := 2048) (N := 512) none v6 v8 p q)

theorem pay3_apply (v19 : Vec Ideal S128x512 .f32) (v20 : Vec Ideal S1x512 .f32) (p : Fin 128) (q : Fin 512) :
    k1_pay3 (F := Ideal) v19 v20 (ix2 p q) = max (v19 (ix2 p q) + v20 (ix2 0 q)) 0 := by
  unfold k1_pay3
  simp only [shapeCast_self]
  show max (v19 (ix2 p q) + broadcastTo S128x512 v20 broadcasts_S1x512_S128x512 (ix2 p q)) (Ideal.ofBits .f32 0x00000000#32) = _
  rw [Ideal.ofBits_zero_f32, broadcastTo_apply v20 _ (ix2 p q) (ix2 0 q) (fun a => by match a with | ⟨0, _⟩ => rfl | ⟨1, _⟩ => rfl)]

/-! ## The window blocks, read off the arrays the region is entered with -/

variable (V : (c : Dev nD) → (b : Ref sig .tc) → Buf (Elt Ideal) ((c : Thread nD τ).loc b))

/-- The left operand, the right operand and the bias row as the region finds them. -/
abbrev Xa (c : Dev nD) : Vec Ideal S128x4096 .bf16 := V c (Pipeline.arrRef spec1 0)
abbrev Wa (c : Dev nD) : Vec Ideal S4096x4096 .bf16 := V c (Pipeline.arrRef spec1 1)
abbrev Ba (c : Dev nD) : Vec Ideal S1x4096 .f32 := V c (Pipeline.arrRef spec1 2)

/-- Where the windows sit at a point: the left operand's block never moves; the right operand's is (k, j); the bias
    row's and the output's are (0, j) — for position t = j · 2 + k. And the tile the body slices off the left operand
    starts at column k · 2048. -/
theorem idx_0 : ∀ t : Fin cfg1.N, win1_0.index t 0 = 0 ∧ win1_0.index t 1 = 0 :=
  (by decide +kernel : ∀ t : Fin grid1.N, win1_0.index t 0 = 0 ∧ win1_0.index t 1 = 0)
theorem idx_1 : ∀ t : Fin cfg1.N, win1_1.index t 0 = t.val % 2 ∧ win1_1.index t 1 = t.val / 2 :=
  (by decide +kernel : ∀ t : Fin grid1.N, win1_1.index t 0 = t.val % 2 ∧ win1_1.index t 1 = t.val / 2)
theorem idx_2 : ∀ t : Fin cfg1.N, win1_2.index t 0 = 0 ∧ win1_2.index t 1 = t.val / 2 :=
  (by decide +kernel : ∀ t : Fin grid1.N, win1_2.index t 0 = 0 ∧ win1_2.index t 1 = t.val / 2)
theorem idx_3 : ∀ t : Fin cfg1.N, win1_3.index t 0 = 0 ∧ win1_3.index t 1 = t.val / 2 :=
  (by decide +kernel : ∀ t : Fin grid1.N, win1_3.index t 0 = 0 ∧ win1_3.index t 1 = t.val / 2)
theorem off_tile : ∀ t : Fin cfg1.N, k1_off1 (grid1.coords t) 0 = 0 ∧ k1_off1 (grid1.coords t) 1 = (t.val % 2) * 2048 :=
  (by decide +kernel : ∀ t : Fin grid1.N, k1_off1 (grid1.coords t) 0 = 0 ∧ k1_off1 (grid1.coords t) 1 = (t.val % 2) * 2048)

theorem hN : cfg1.N = 16 := N_1
theorem t_lt (t : Fin cfg1.N) : t.val < 16 := lt_of_lt_of_eq t.isLt hN

/-- The left operand's block is the whole array. -/
theorem iblk_0_apply (c : Dev nD) (t : Fin cfg1.N) (p : Fin 128) (κ : Fin 4096) :
    (iblk V c 0 t : Vec Ideal S128x4096 .bf16) (ix2 p κ) = Xa V c (ix2 p κ) := by
  unfold iblk
  rw [View.read_apply]
  show V c (Pipeline.arrRef spec1 0) _ = V c (Pipeline.arrRef spec1 0) _
  refine congrArg _ (funext fun a => Fin.ext ?_)
  match a with
  | ⟨0, _⟩ => show win1_0.index t 0 * 128 + 1 * p.val = p.val; rw [(idx_0 t).1]; omega
  | ⟨1, _⟩ => show win1_0.index t 1 * 4096 + 1 * κ.val = κ.val; rw [(idx_0 t).2]; omega

/-- The right operand's block (k, j): rows k · 2048 + a, columns j · 512 + b. -/
theorem iblk_1_apply (c : Dev nD) (t : Fin cfg1.N) (a : Fin 2048) (b : Fin 512) :
    (iblk V c 1 t : Vec Ideal S2048x512 .bf16) (ix2 a b)
      = Wa V c (ix2 ⟨(t.val % 2) * 2048 + a.val, by have := t_lt t; have := a.isLt; omega⟩
                    ⟨(t.val / 2) * 512 + b.val, by have := t_lt t; have := b.isLt; omega⟩) := by
  unfold iblk
  rw [View.read_apply]
  show V c (Pipeline.arrRef spec1 1) _ = V c (Pipeline.arrRef spec1 1) _
  refine congrArg _ (funext fun d => Fin.ext ?_)
  match d with
  | ⟨0, _⟩ => show win1_1.index t 0 * 2048 + 1 * a.val = (t.val % 2) * 2048 + a.val; rw [(idx_1 t).1]; omega
  | ⟨1, _⟩ => show win1_1.index t 1 * 512 + 1 * b.val = (t.val / 2) * 512 + b.val; rw [(idx_1 t).2]; omega

/-- The bias row's block j: columns j · 512 + b. -/
theorem iblk_2_apply (c : Dev nD) (t : Fin cfg1.N) (b : Fin 512) :
    (iblk V c 2 t : Vec Ideal S1x512 .f32) (ix2 0 b)
      = Ba V c (ix2 0 ⟨(t.val / 2) * 512 + b.val, by have := t_lt t; have := b.isLt; omega⟩) := by
  unfold iblk
  rw [View.read_apply]
  show V c (Pipeline.arrRef spec1 2) _ = V c (Pipeline.arrRef spec1 2) _
  refine congrArg _ (funext fun d => Fin.ext ?_)
  match d with
  | ⟨0, _⟩ => show win1_2.index t 0 * 1 + 1 * 0 = 0; rw [(idx_2 t).1]
  | ⟨1, _⟩ => show win1_2.index t 1 * 512 + 1 * b.val = (t.val / 2) * 512 + b.val; rw [(idx_2 t).2]; omega

/-- The tile the body slices off the left operand's block: columns k · 2048 + a. -/
theorem xTile_apply (t : Fin cfg1.N) (x0 : Vec Ideal S128x4096 .bf16) (p : Fin 128) (a : Fin 2048) :
    xTile (grid1.coords t) x0 (ix2 p a)
      = x0 (ix2 p ⟨(t.val % 2) * 2048 + a.val, by have := t_lt t; have := a.isLt; omega⟩) := by
  show x0 _ = x0 _
  refine congrArg _ (funext fun d => Fin.ext ?_)
  match d with
  | ⟨0, _⟩ => show k1_off1 (grid1.coords t) 0 + 1 * p.val = p.val; rw [(off_tile t).1]; omega
  | ⟨1, _⟩ => show k1_off1 (grid1.coords t) 1 + 1 * a.val = (t.val % 2) * 2048 + a.val; rw [(off_tile t).2]; omega

end Cert.KernelIdeal.Reg1

end
-- ==== Proof.KernelIdeal.Reg1.Closed.lean ====
/-
  The second matrix product (4096 → 4096, rectified), closed: the output array ends holding, at row p and column col,
  the rectified sum over the whole contraction axis of left-operand entry times right-operand entry, plus the
  bias at col. The accumulator after position n is the sum of the tile parts 0 … n mod 2 for column block
  n div 2 (induction on n: a first tile starts the sum, every other tile adds its part to what the point
  before left); the 2 tile parts regroup into the sum over all 4096 indices; a last tile stores that sum plus the
  bias, rectified, as block (0, n div 2) of the output; the 8 blocks tile the array.
-/
import proofs.«110125_j48919677501805_2_alg».proof.Proof.KernelIdeal.Reg1.Value
import proofs.«110125_j48919677501805_2_alg».proof.Proof.LibBlockedSum

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction sum and its tiles -/

/-- Entry (p, col) of the full product: the sum over the whole contraction axis. -/
def dotAt (c : Dev nD) (p : Fin 128) (col : Fin 4096) : EReal := ∑ κ : Fin 4096, Xa V c (ix2 p κ) * Wa V c (ix2 κ col)

/-- Tile k's part of it: the indices k · 2048 … k · 2048 + 2047. -/
def tilePart (c : Dev nD) (p : Fin 128) (col : Fin 4096) (k : Fin 2) : EReal :=
  ∑ a : Fin 2048, Xa V c (ix2 p ⟨k.val * 2048 + a.val, by have := k.isLt; have := a.isLt; omega⟩)
    * Wa V c (ix2 ⟨k.val * 2048 + a.val, by have := k.isLt; have := a.isLt; omega⟩ col)

/-- The tiles' parts add up to the full sum (addition of extended reals is commutative and associative: no finiteness
    is needed to regroup). -/
theorem dotAt_eq_tiles (c : Dev nD) (p : Fin 128) (col : Fin 4096) : dotAt V c p col = ∑ k : Fin 2, tilePart V c p col k :=
  (BlockedSum.sum_blocks (nb := 2) (bs := 2048) (fun κ : Fin 4096 => Xa V c (ix2 p κ) * Wa V c (ix2 κ col))).symm

/-- The same tile part with the tile given by a natural number (zero past the last tile). -/
def tileN (c : Dev nD) (p : Fin 128) (col : Fin 4096) (k : ℕ) : EReal := if h : k < 2 then tilePart V c p col ⟨k, h⟩ else 0

theorem sum_tileN (c : Dev nD) (p : Fin 128) (col : Fin 4096) : ∑ k ∈ Finset.range 2, tileN V c p col k = ∑ k : Fin 2, tilePart V c p col k := by
  rw [← Fin.sum_univ_eq_sum_range (fun k => tileN V c p col k) 2]
  exact Finset.sum_congr rfl fun k _ => dif_pos k.isLt

/-! ## One point's tile product is the tile part -/

theorem tile_eq (c : Dev nD) (t : Fin cfg1.N) (p : Fin 128) (q : Fin 512) (col : Fin 4096) (hcol : col.val = (t.val / 2) * 512 + q.val) :
    (∑ a : Fin 2048, xTile (grid1.coords t) (iblk V c 0 t) (ix2 p a) * (iblk V c 1 t : Vec Ideal S2048x512 .bf16) (ix2 a q))
      = tileN V c p col (t.val % 2) := by
  unfold tileN
  rw [dif_pos (Nat.mod_lt _ (by decide))]
  unfold tilePart
  refine Finset.sum_congr rfl fun a _ => ?_
  rw [xTile_apply, iblk_0_apply, iblk_1_apply]
  have e : (⟨(t.val / 2) * 512 + q.val, by have := t_lt t; have := q.isLt; omega⟩ : Fin 4096) = col := Fin.ext hcol.symm
  rw [e]

/-! ## The accumulator, point by point -/

theorem acc_first (c : Dev nD) (t : Fin cfg1.N) (h0 : t.val % 2 = 0) (p : Fin 128) (q : Fin 512) (col : Fin 4096)
    (hcol : col.val = (t.val / 2) * 512 + q.val) :
    (outsAt V c t.val t.isLt).2 (ix2 p q) = tileN V c p col (t.val % 2) := by
  have h1 : ¬t.val % 2 = 1 := by omega
  rw [outsAt_A V c t h0 h1]; dsimp only
  rw [sout_A_eq, pay2_apply, pay1_apply, zero_add]
  exact tile_eq V c t p q col hcol

theorem acc_next (c : Dev nD) (t : Fin cfg1.N) (h0 : ¬t.val % 2 = 0) (p : Fin 128) (q : Fin 512) (col : Fin 4096)
    (hcol : col.val = (t.val / 2) * 512 + q.val) :
    (outsAt V c t.val t.isLt).2 (ix2 p q)
      = (outsAt V c (t.val - 1) (Nat.lt_of_le_of_lt (Nat.sub_le _ _) t.isLt)).2 (ix2 p q) + tileN V c p col (t.val % 2) := by
  have h1 : t.val % 2 = 1 := by omega
  rw [outsAt_C V c t h0 h1]; dsimp only
  rw [sout_C_eq, pay2_apply]
  exact congrArg (_ + ·) (tile_eq V c t p q col hcol)

/-- After position n the accumulator holds the tile parts 0 … n mod 2 of column block n div 2, added. -/
theorem acc_eq (c : Dev nD) (p : Fin 128) (q : Fin 512) : ∀ (n : ℕ) (hn : n < cfg1.N) (col : Fin 4096) (hcol : col.val = (n / 2) * 512 + q.val),
    (outsAt V c n hn).2 (ix2 p q) = ∑ k ∈ Finset.range (n % 2 + 1), tileN V c p col k
  | 0, hn, col, hcol => by
    rw [acc_first V c ⟨0, hn⟩ (Nat.zero_mod _) p q col hcol]
    simp only [Nat.zero_mod, zero_add, Finset.sum_range_one]
  | n + 1, hn, col, hcol => by
    by_cases h0 : (n + 1) % 2 = 0
    · rw [acc_first V c ⟨n + 1, hn⟩ h0 p q col hcol]
      show tileN V c p col ((n + 1) % 2) = _
      rw [h0]; simp only [zero_add, Finset.sum_range_one]
    · rw [acc_next V c ⟨n + 1, hn⟩ h0 p q col hcol]
      show (outsAt V c (n + 1 - 1) _).2 (ix2 p q) + tileN V c p col ((n + 1) % 2) = _
      have hq : n / 2 = (n + 1) / 2 := by omega
      have hr : n % 2 + 1 = (n + 1) % 2 := by omega
      have ih := acc_eq c p q n (Nat.lt_of_succ_lt hn) col (by rw [hq]; exact hcol)
      simp only [Nat.add_sub_cancel] at ih ⊢
      rw [ih, hr, Finset.sum_range_succ]

/-! ## The output block at a last tile -/

theorem out_last (c : Dev nD) (t : Fin cfg1.N) (h1 : t.val % 2 = 1) (p : Fin 128) (q : Fin 512) (col : Fin 4096)
    (hcol : col.val = (t.val / 2) * 512 + q.val) :
    (outsAt V c t.val t.isLt).1 (ix2 p q) = max (dotAt V c p col + Ba V c (ix2 0 col)) 0 := by
  have h0 : ¬t.val % 2 = 0 := by omega
  have hacc := acc_eq V c p q t.val t.isLt col hcol
  rw [outsAt_C V c t h0 h1] at hacc ⊢
  dsimp only at hacc ⊢
  rw [out_C_eq, pay3_apply]
  rw [sout_C_eq] at hacc
  rw [hacc, h1, sum_tileN, ← dotAt_eq_tiles, iblk_2_apply]
  have e : (⟨(t.val / 2) * 512 + q.val, by have := t_lt t; have := q.isLt; omega⟩ : Fin 4096) = col := Fin.ext hcol.symm
  rw [e]

/-! ## From blocks to the array -/

/-- What the output array ends holding. -/
def Gout (c : Dev nD) : Vec Ideal S128x4096 .bf16 := fun i => max (dotAt V c (i 0) (i 1) + Ba V c (ix2 0 (i 1))) 0

theorem xsz_3 : ∀ t : Fin cfg1.N, win1_3.xsize (grid1.coords t) 0 = 128 ∧ win1_3.xsize (grid1.coords t) 1 = 512 :=
  (by decide +kernel : ∀ t : Fin grid1.N, win1_3.xsize (grid1.coords t) 0 = 128 ∧ win1_3.xsize (grid1.coords t) 1 = 512)

/-- What a last tile's point writes back is block (0, j) of `Gout`. -/
theorem flushed_eq (c : Dev nD) (t : Fin cfg1.N) (hf : (cfg1.win 3).flush t = true) :
    (dat V c).flushed 3 t = ((cfg1.win 3).blk t).view.read (Elt Ideal) (Gout V c) := by
  have h1 : t.val % 2 = 1 := (flush1_3 t).mp hf
  show (cfg1.win 3).cut (grid1.coords t) ((dat V c).after 3 t) = _
  rw [after_3]
  funext y
  obtain ⟨p, q, rfl⟩ : ∃ (p : Fin 128) (q : Fin 512), y = ix2 p q := ⟨y 0, y 1, eq_ix2 y⟩
  rw [View.read_apply]
  have he0 : (((cfg1.win 3).blk t).view.emb (ix2 p q) : S128x4096.Idx) 0 = p :=
    Fin.ext (by show win1_3.index t 0 * 128 + 1 * p.val = p.val; rw [(idx_3 t).1]; omega)
  have hcol : ((((cfg1.win 3).blk t).view.emb (ix2 p q) : S128x4096.Idx) 1).val = (t.val / 2) * 512 + q.val := by
    show win1_3.index t 1 * 512 + 1 * q.val = _; rw [(idx_3 t).2]; omega
  show (outsAt V c t.val t.isLt).1 (ix2 p q) = Gout V c (((cfg1.win 3).blk t).view.emb (ix2 p q))
  rw [out_last V c t h1 p q _ hcol]
  unfold Gout
  rw [he0]

/-- The output array ends holding `Gout`: the last tiles' blocks (0, j) tile it. -/
theorem final (c : Dev nD) : (dat V c).arrAt 3 cfg1.N = Gout V c :=
  (dat V c).arrAt_eq_of_cover 3 (Gout V c) (flushed_eq V c) fun i => by
    have hi0 : (i 0 : Nat) < 128 := (i 0).isLt
    have hi1 : (i 1 : Nat) < 4096 := (i 1).isLt
    have ht : (i 1 : Nat) / 512 * 2 + 1 < cfg1.N := by rw [hN]; omega
    refine ⟨⟨(i 1 : Nat) / 512 * 2 + 1, ht⟩, (flush1_3 _).mpr (by show ((i 1 : Nat) / 512 * 2 + 1) % 2 = 1; omega), ?_⟩
    show i ∈ ((View.whole main_v113).slice (win1_3.rect ⟨(i 1 : Nat) / 512 * 2 + 1, ht⟩)).set
    rw [View.set_slice_whole, Rect.mem_set_unit]
    intro a
    match a with
    | ⟨0, _⟩ =>
      show win1_3.index ⟨_, ht⟩ 0 * win1_3.size 0 ≤ (i 0 : Nat) ∧ (i 0 : Nat) < win1_3.index ⟨_, ht⟩ 0 * win1_3.size 0 + win1_3.xsize (grid1.coords ⟨_, ht⟩) 0
      rw [(idx_3 ⟨_, ht⟩).1, (xsz_3 ⟨_, ht⟩).1]; omega
    | ⟨1, _⟩ =>
      show win1_3.index ⟨_, ht⟩ 1 * win1_3.size 1 ≤ (i 1 : Nat) ∧ (i 1 : Nat) < win1_3.index ⟨_, ht⟩ 1 * win1_3.size 1 + win1_3.xsize (grid1.coords ⟨_, ht⟩) 1
      rw [(idx_3 ⟨_, ht⟩).2, (xsz_3 ⟨_, ht⟩).2]
      show ((i 1 : Nat) / 512 * 2 + 1) / 2 * 512 ≤ (i 1 : Nat) ∧ (i 1 : Nat) < ((i 1 : Nat) / 512 * 2 + 1) / 2 * 512 + 512
      omega

end Cert.KernelIdeal.Reg1

end
-- ==== Proof.KernelIdeal.Reg2.Pieces.lean ====
/-
  What each case of the fused classification and box heads (4096 → 128 lanes, no rectifier)'s body leaves, as values: the accumulator after a tile is the
  accumulator before it (zero at a first tile) plus the product of the tile of the left operand's columns
  with the block of the right operand; the output block at a last tile is that accumulator plus the bias.
-/
import proofs.«110125_j48919677501805_2_alg».proof.Proof.KernelIdeal.Reg2.Data
import Idealize.ShloMosaic.Lib.Pipeline.Value

set_option maxRecDepth 16384

noncomputable section

namespace Cert.KernelIdeal.Reg2

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- The tile of the left operand the point reads: its columns `k · 2048 … k · 2048 + 2047`. -/
abbrev xTile (i : grid2.Coords) (x0 : Vec F S128x4096 .bf16) : Vec F S128x2048 .bf16 :=
  View.ld x0 (Rect.unit (s := S128x4096) (k2_off1 i) S128x2048.size (k2_off1_inb i))

/-- A first tile leaves the tile's product added onto the cleared accumulator. -/
theorem sout_A_eq (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : isFirst i) (hc1 : ¬isLast i)
    (x0 : Vec F S128x4096 .bf16) (x1 : Vec F S2048x128 .bf16) (x2 : Vec F S1x128 .f32) :
    sout_A c i arg2 harg2 arg3 harg3 arg4 harg4 arg5 harg5 arg6 harg6 hc0 hc1 x0 x1 x2 = k2_pay2 (xTile i x0) x1 k2_pay1 := by
  unfold sout_A
  rw [View.read_writes_eq_canon _ _ _ (scover_A c i arg2 harg2 arg3 harg3 arg4 harg4 arg5 harg5 arg6 harg6 hc0 hc1 x0 x1 x2)]
  unfold kernelRun_A
  dsimp only
  sl_unfold_words
  rw [View.canon_cons_unit_zero (S := S128x128) hz, View.readCov_unit_zero (S := S128x128) _ hz]
  simp only [View.readAt_eq_ld, harg2.read_unread, harg3.read_unread, harg4.read_unread, harg6.read_unread,
    View.ld_unit_zero (S := S2048x128) hz, View.ld_unit_zero (S := S128x128) hz, View.ld_unit_zero (S := S1x128) hz]
  all_goals rfl

/-- A last tile adds the tile's product onto the accumulator it found, -/
theorem sout_C_eq (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) :
    sout_C c i arg2 harg2 arg3 harg3 arg4 harg4 arg5 harg5 arg6 harg6 hc0 hc1 x0 x1 x2 xs = k2_pay2 (xTile i x0) x1 xs := by
  unfold sout_C
  rw [View.read_writes_eq_canon _ _ _ (scover_C c i arg2 harg2 arg3 harg3 arg4 harg4 arg5 harg5 arg6 harg6 hc0 hc1 x0 x1 x2 xs)]
  unfold kernelRun_C
  dsimp only
  sl_unfold_words
  rw [View.canon_unit_zero hz]
  simp only [View.readAt_eq_ld, harg2.read_unread, harg3.read_unread, harg4.read_unread, harg6.read_unread,
    View.ld_unit_zero (S := S2048x128) hz, View.ld_unit_zero (S := S128x128) hz, View.ld_unit_zero (S := S1x128) hz]
  all_goals rfl

/-- and stores the finished block: that accumulator and the bias row through the finishing payload. -/
theorem out_C_eq (c : Dev nD) (i : grid2.Coords) (arg2 : Memref sig .tc .vmem S128x4096 .bf16) (harg2 : arg2.IsWhole) (arg3 : Memref sig .tc .vmem S2048x128 .bf16) (harg3 : arg3.IsWhole) (arg4 : Memref sig .tc .vmem S1x128 .f32) (harg4 : arg4.IsWhole) (arg5 : Memref sig .tc .vmem S128x128 .f32) (harg5 : arg5.IsWhole) (arg6 : Memref sig .tc .vmem S128x128 .f32) (harg6 : arg6.IsWhole) (hc0 : ¬isFirst i) (hc1 : isLast i)
    (x0 : Vec F S128x4096 .bf16) (x1 : Vec F S2048x128 .bf16) (x2 : Vec F S1x128 .f32) (xs : Vec F S128x128 .f32) :
    out_C c i arg2 harg2 arg3 harg3 arg4 harg4 arg5 harg5 arg6 harg6 hc0 hc1 x0 x1 x2 xs = k2_pay3 (k2_pay2 (xTile i x0) x1 xs) x2 := by
  unfold out_C
  rw [View.read_writes_eq_canon _ _ _ (cover_C c i arg2 harg2 arg3 harg3 arg4 harg4 arg5 harg5 arg6 harg6 hc0 hc1 x0 x1 x2 xs)]
  unfold kernelRun_C
  dsimp only
  sl_unfold_words
  rw [View.canon_unit_zero hz, View.readCov_unit_zero (S := S128x128) _ hz]
  simp only [View.readAt_eq_ld, harg2.read_unread, harg3.read_unread, harg4.read_unread, harg6.read_unread,
    View.ld_unit_zero (S := S2048x128) hz, View.ld_unit_zero (S := S128x128) hz, View.ld_unit_zero (S := S1x128) hz]
  all_goals rfl

end Cert.KernelIdeal.Reg2

end
-- ==== Proof.KernelIdeal.Reg2.Value.lean ====
/-
  The fused classification and box heads (4096 → 128 lanes, no rectifier) at the ideal values, index by index. A tile's payload at entry (p, q) is the
  accumulator's entry plus the sum over the tile's 2048 columns of left-operand entry times right-operand
  entry; the window blocks are read off the arrays the region is entered with: the left operand whole,
  the right operand's block (k, j) at rows k · 2048 + a and columns j · 128 + b, the bias row's block j.
  So after the point at position t the accumulator is what the point before left (nothing, at a first
  tile) plus tile (t mod 2)'s partial product for column block (t div 2).
-/
import proofs.«110125_j48919677501805_2_alg».proof.Proof.KernelIdeal.Reg2.Pieces
import proofs.«110125_j48919677501805_2_alg».proof.Proof.LibPlainDot
import Idealize.ShloMosaic.Lib.ValueIdx
import Idealize.ShloMosaic.Lib.Pipeline.Value
import Idealize.ShloMosaic.PureOps.Ideal.Laws

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

/-! ## The payloads at an entry -/

theorem pay1_apply (p : Fin 128) (q : Fin 128) : (k2_pay1 (F := Ideal)) (ix2 p q) = 0 := by
  unfold k2_pay1
  simp only [shapeCast_self]
  exact Ideal.ofBits_zero_f32

theorem pay2_apply (v6 : Vec Ideal S128x2048 .bf16) (v8 : Vec Ideal S2048x128 .bf16) (v10 : Vec Ideal S128x128 .f32) (p : Fin 128) (q : Fin 128) :
    k2_pay2 (F := Ideal) v6 v8 v10 (ix2 p q) = v10 (ix2 p q) + ∑ a : Fin 2048, v6 (ix2 p a) * v8 (ix2 a q) := by
  unfold k2_pay2
  simp only [shapeCast_self]
  exact congrArg (v10 (ix2 p q) + ·) (Cert.LibPlainDot.matmul_zero_plain (M := 128) (K := 2048) (N := 128) none v6 v8 p q)

theorem pay3_apply (v19 : Vec Ideal S128x128 .f32) (v20 : Vec Ideal S1x128 .f32) (p : Fin 128) (q : Fin 128) :
    k2_pay3 (F := Ideal) v19 v20 (ix2 p q) = v19 (ix2 p q) + v20 (ix2 0 q) := by
  unfold k2_pay3
  simp only [shapeCast_self]
  show v19 (ix2 p q) + broadcastTo S128x128 v20 broadcasts_S1x128_S128x128 (ix2 p q) = _
  rw [broadcastTo_apply v20 _ (ix2 p q) (ix2 0 q) (fun a => by match a with | ⟨0, _⟩ => rfl | ⟨1, _⟩ => rfl)]

/-! ## The window blocks, read off the arrays the region is entered with -/

variable (V : (c : Dev nD) → (b : Ref sig .tc) → Buf (Elt Ideal) ((c : Thread nD τ).loc b))

/-- The left operand, the right operand and the bias row as the region finds them. -/
abbrev Xa (c : Dev nD) : Vec Ideal S128x4096 .bf16 := V c (Pipeline.arrRef spec2 0)
abbrev Wa (c : Dev nD) : Vec Ideal S4096x128 .bf16 := V c (Pipeline.arrRef spec2 1)
abbrev Ba (c : Dev nD) : Vec Ideal S1x128 .f32 := V c (Pipeline.arrRef spec2 2)

/-- Where the windows sit at a point: the left operand's block never moves; the right operand's is (k, j); the bias
    row's and the output's are (0, j) — for position t = j · 2 + k. And the tile the body slices off the left operand
    starts at column k · 2048. -/
theorem idx_0 : ∀ t : Fin cfg2.N, win2_0.index t 0 = 0 ∧ win2_0.index t 1 = 0 :=
  (by decide +kernel : ∀ t : Fin grid2.N, win2_0.index t 0 = 0 ∧ win2_0.index t 1 = 0)
theorem idx_1 : ∀ t : Fin cfg2.N, win2_1.index t 0 = t.val % 2 ∧ win2_1.index t 1 = t.val / 2 :=
  (by decide +kernel : ∀ t : Fin grid2.N, win2_1.index t 0 = t.val % 2 ∧ win2_1.index t 1 = t.val / 2)
theorem idx_2 : ∀ t : Fin cfg2.N, win2_2.index t 0 = 0 ∧ win2_2.index t 1 = t.val / 2 :=
  (by decide +kernel : ∀ t : Fin grid2.N, win2_2.index t 0 = 0 ∧ win2_2.index t 1 = t.val / 2)
theorem idx_3 : ∀ t : Fin cfg2.N, win2_3.index t 0 = 0 ∧ win2_3.index t 1 = t.val / 2 :=
  (by decide +kernel : ∀ t : Fin grid2.N, win2_3.index t 0 = 0 ∧ win2_3.index t 1 = t.val / 2)
theorem off_tile : ∀ t : Fin cfg2.N, k2_off1 (grid2.coords t) 0 = 0 ∧ k2_off1 (grid2.coords t) 1 = (t.val % 2) * 2048 :=
  (by decide +kernel : ∀ t : Fin grid2.N, k2_off1 (grid2.coords t) 0 = 0 ∧ k2_off1 (grid2.coords t) 1 = (t.val % 2) * 2048)

theorem hN : cfg2.N = 2 := N_2
theorem t_lt (t : Fin cfg2.N) : t.val < 2 := lt_of_lt_of_eq t.isLt hN

/-- The left operand's block is the whole array. -/
theorem iblk_0_apply (c : Dev nD) (t : Fin cfg2.N) (p : Fin 128) (κ : Fin 4096) :
    (iblk V c 0 t : Vec Ideal S128x4096 .bf16) (ix2 p κ) = Xa V c (ix2 p κ) := by
  unfold iblk
  rw [View.read_apply]
  show V c (Pipeline.arrRef spec2 0) _ = V c (Pipeline.arrRef spec2 0) _
  refine congrArg _ (funext fun a => Fin.ext ?_)
  match a with
  | ⟨0, _⟩ => show win2_0.index t 0 * 128 + 1 * p.val = p.val; rw [(idx_0 t).1]; omega
  | ⟨1, _⟩ => show win2_0.index t 1 * 4096 + 1 * κ.val = κ.val; rw [(idx_0 t).2]; omega

/-- The right operand's block (k, j): rows k · 2048 + a, columns j · 128 + b. -/
theorem iblk_1_apply (c : Dev nD) (t : Fin cfg2.N) (a : Fin 2048) (b : Fin 128) :
    (iblk V c 1 t : Vec Ideal S2048x128 .bf16) (ix2 a b)
      = Wa V c (ix2 ⟨(t.val % 2) * 2048 + a.val, by have := t_lt t; have := a.isLt; omega⟩
                    ⟨(t.val / 2) * 128 + b.val, by have := t_lt t; have := b.isLt; omega⟩) := by
  unfold iblk
  rw [View.read_apply]
  show V c (Pipeline.arrRef spec2 1) _ = V c (Pipeline.arrRef spec2 1) _
  refine congrArg _ (funext fun d => Fin.ext ?_)
  match d with
  | ⟨0, _⟩ => show win2_1.index t 0 * 2048 + 1 * a.val = (t.val % 2) * 2048 + a.val; rw [(idx_1 t).1]; omega
  | ⟨1, _⟩ => show win2_1.index t 1 * 128 + 1 * b.val = (t.val / 2) * 128 + b.val; rw [(idx_1 t).2]; omega

/-- The bias row's block j: columns j · 128 + b. -/
theorem iblk_2_apply (c : Dev nD) (t : Fin cfg2.N) (b : Fin 128) :
    (iblk V c 2 t : Vec Ideal S1x128 .f32) (ix2 0 b)
      = Ba V c (ix2 0 ⟨(t.val / 2) * 128 + b.val, by have := t_lt t; have := b.isLt; omega⟩) := by
  unfold iblk
  rw [View.read_apply]
  show V c (Pipeline.arrRef spec2 2) _ = V c (Pipeline.arrRef spec2 2) _
  refine congrArg _ (funext fun d => Fin.ext ?_)
  match d with
  | ⟨0, _⟩ => show win2_2.index t 0 * 1 + 1 * 0 = 0; rw [(idx_2 t).1]
  | ⟨1, _⟩ => show win2_2.index t 1 * 128 + 1 * b.val = (t.val / 2) * 128 + b.val; rw [(idx_2 t).2]; omega

/-- The tile the body slices off the left operand's block: columns k · 2048 + a. -/
theorem xTile_apply (t : Fin cfg2.N) (x0 : Vec Ideal S128x4096 .bf16) (p : Fin 128) (a : Fin 2048) :
    xTile (grid2.coords t) x0 (ix2 p a)
      = x0 (ix2 p ⟨(t.val % 2) * 2048 + a.val, by have := t_lt t; have := a.isLt; omega⟩) := by
  show x0 _ = x0 _
  refine congrArg _ (funext fun d => Fin.ext ?_)
  match d with
  | ⟨0, _⟩ => show k2_off1 (grid2.coords t) 0 + 1 * p.val = p.val; rw [(off_tile t).1]; omega
  | ⟨1, _⟩ => show k2_off1 (grid2.coords t) 1 + 1 * a.val = (t.val % 2) * 2048 + a.val; rw [(off_tile t).2]; omega

end Cert.KernelIdeal.Reg2

end
-- ==== Proof.KernelIdeal.Reg2.Closed.lean ====
/-
  The fused classification and box heads (4096 → 128 lanes, no rectifier), closed: the output array ends holding, at row p and column col,
  sum over the whole contraction axis of left-operand entry times right-operand entry, plus the
  bias at col. The accumulator after position n is the sum of the tile parts 0 … n mod 2 for column block
  n div 2 (induction on n: a first tile starts the sum, every other tile adds its part to what the point
  before left); the 2 tile parts regroup into the sum over all 4096 indices; a last tile stores that sum plus the
  bias as block (0, n div 2) of the output; the 1 blocks tile the array.
-/
import proofs.«110125_j48919677501805_2_alg».proof.Proof.KernelIdeal.Reg2.Value
import proofs.«110125_j48919677501805_2_alg».proof.Proof.LibBlockedSum

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

/-! ## The contraction sum and its tiles -/

/-- Entry (p, col) of the full product: the sum over the whole contraction axis. -/
def dotAt (c : Dev nD) (p : Fin 128) (col : Fin 128) : EReal := ∑ κ : Fin 4096, Xa V c (ix2 p κ) * Wa V c (ix2 κ col)

/-- Tile k's part of it: the indices k · 2048 … k · 2048 + 2047. -/
def tilePart (c : Dev nD) (p : Fin 128) (col : Fin 128) (k : Fin 2) : EReal :=
  ∑ a : Fin 2048, Xa V c (ix2 p ⟨k.val * 2048 + a.val, by have := k.isLt; have := a.isLt; omega⟩)
    * Wa V c (ix2 ⟨k.val * 2048 + a.val, by have := k.isLt; have := a.isLt; omega⟩ col)

/-- The tiles' parts add up to the full sum (addition of extended reals is commutative and associative: no finiteness
    is needed to regroup). -/
theorem dotAt_eq_tiles (c : Dev nD) (p : Fin 128) (col : Fin 128) : dotAt V c p col = ∑ k : Fin 2, tilePart V c p col k :=
  (BlockedSum.sum_blocks (nb := 2) (bs := 2048) (fun κ : Fin 4096 => Xa V c (ix2 p κ) * Wa V c (ix2 κ col))).symm

/-- The same tile part with the tile given by a natural number (zero past the last tile). -/
def tileN (c : Dev nD) (p : Fin 128) (col : Fin 128) (k : ℕ) : EReal := if h : k < 2 then tilePart V c p col ⟨k, h⟩ else 0

theorem sum_tileN (c : Dev nD) (p : Fin 128) (col : Fin 128) : ∑ k ∈ Finset.range 2, tileN V c p col k = ∑ k : Fin 2, tilePart V c p col k := by
  rw [← Fin.sum_univ_eq_sum_range (fun k => tileN V c p col k) 2]
  exact Finset.sum_congr rfl fun k _ => dif_pos k.isLt

/-! ## One point's tile product is the tile part -/

theorem tile_eq (c : Dev nD) (t : Fin cfg2.N) (p : Fin 128) (q : Fin 128) (col : Fin 128) (hcol : col.val = (t.val / 2) * 128 + q.val) :
    (∑ a : Fin 2048, xTile (grid2.coords t) (iblk V c 0 t) (ix2 p a) * (iblk V c 1 t : Vec Ideal S2048x128 .bf16) (ix2 a q))
      = tileN V c p col (t.val % 2) := by
  unfold tileN
  rw [dif_pos (Nat.mod_lt _ (by decide))]
  unfold tilePart
  refine Finset.sum_congr rfl fun a _ => ?_
  rw [xTile_apply, iblk_0_apply, iblk_1_apply]
  have e : (⟨(t.val / 2) * 128 + q.val, by have := t_lt t; have := q.isLt; omega⟩ : Fin 128) = col := Fin.ext hcol.symm
  rw [e]

/-! ## The accumulator, point by point -/

theorem acc_first (c : Dev nD) (t : Fin cfg2.N) (h0 : t.val % 2 = 0) (p : Fin 128) (q : Fin 128) (col : Fin 128)
    (hcol : col.val = (t.val / 2) * 128 + q.val) :
    (outsAt V c t.val t.isLt).2 (ix2 p q) = tileN V c p col (t.val % 2) := by
  have h1 : ¬t.val % 2 = 1 := by omega
  rw [outsAt_A V c t h0 h1]; dsimp only
  rw [sout_A_eq, pay2_apply, pay1_apply, zero_add]
  exact tile_eq V c t p q col hcol

theorem acc_next (c : Dev nD) (t : Fin cfg2.N) (h0 : ¬t.val % 2 = 0) (p : Fin 128) (q : Fin 128) (col : Fin 128)
    (hcol : col.val = (t.val / 2) * 128 + q.val) :
    (outsAt V c t.val t.isLt).2 (ix2 p q)
      = (outsAt V c (t.val - 1) (Nat.lt_of_le_of_lt (Nat.sub_le _ _) t.isLt)).2 (ix2 p q) + tileN V c p col (t.val % 2) := by
  have h1 : t.val % 2 = 1 := by omega
  rw [outsAt_C V c t h0 h1]; dsimp only
  rw [sout_C_eq, pay2_apply]
  exact congrArg (_ + ·) (tile_eq V c t p q col hcol)

/-- After position n the accumulator holds the tile parts 0 … n mod 2 of column block n div 2, added. -/
theorem acc_eq (c : Dev nD) (p : Fin 128) (q : Fin 128) : ∀ (n : ℕ) (hn : n < cfg2.N) (col : Fin 128) (hcol : col.val = (n / 2) * 128 + q.val),
    (outsAt V c n hn).2 (ix2 p q) = ∑ k ∈ Finset.range (n % 2 + 1), tileN V c p col k
  | 0, hn, col, hcol => by
    rw [acc_first V c ⟨0, hn⟩ (Nat.zero_mod _) p q col hcol]
    simp only [Nat.zero_mod, zero_add, Finset.sum_range_one]
  | n + 1, hn, col, hcol => by
    by_cases h0 : (n + 1) % 2 = 0
    · rw [acc_first V c ⟨n + 1, hn⟩ h0 p q col hcol]
      show tileN V c p col ((n + 1) % 2) = _
      rw [h0]; simp only [zero_add, Finset.sum_range_one]
    · rw [acc_next V c ⟨n + 1, hn⟩ h0 p q col hcol]
      show (outsAt V c (n + 1 - 1) _).2 (ix2 p q) + tileN V c p col ((n + 1) % 2) = _
      have hq : n / 2 = (n + 1) / 2 := by omega
      have hr : n % 2 + 1 = (n + 1) % 2 := by omega
      have ih := acc_eq c p q n (Nat.lt_of_succ_lt hn) col (by rw [hq]; exact hcol)
      simp only [Nat.add_sub_cancel] at ih ⊢
      rw [ih, hr, Finset.sum_range_succ]

/-! ## The output block at a last tile -/

theorem out_last (c : Dev nD) (t : Fin cfg2.N) (h1 : t.val % 2 = 1) (p : Fin 128) (q : Fin 128) (col : Fin 128)
    (hcol : col.val = (t.val / 2) * 128 + q.val) :
    (outsAt V c t.val t.isLt).1 (ix2 p q) = dotAt V c p col + Ba V c (ix2 0 col) := by
  have h0 : ¬t.val % 2 = 0 := by omega
  have hacc := acc_eq V c p q t.val t.isLt col hcol
  rw [outsAt_C V c t h0 h1] at hacc ⊢
  dsimp only at hacc ⊢
  rw [out_C_eq, pay3_apply]
  rw [sout_C_eq] at hacc
  rw [hacc, h1, sum_tileN, ← dotAt_eq_tiles, iblk_2_apply]
  have e : (⟨(t.val / 2) * 128 + q.val, by have := t_lt t; have := q.isLt; omega⟩ : Fin 128) = col := Fin.ext hcol.symm
  rw [e]

/-! ## From blocks to the array -/

/-- What the output array ends holding. -/
def Gout (c : Dev nD) : Vec Ideal S128x128 .f32 := fun i => dotAt V c (i 0) (i 1) + Ba V c (ix2 0 (i 1))

theorem xsz_3 : ∀ t : Fin cfg2.N, win2_3.xsize (grid2.coords t) 0 = 128 ∧ win2_3.xsize (grid2.coords t) 1 = 128 :=
  (by decide +kernel : ∀ t : Fin grid2.N, win2_3.xsize (grid2.coords t) 0 = 128 ∧ win2_3.xsize (grid2.coords t) 1 = 128)

/-- What a last tile's point writes back is block (0, j) of `Gout`. -/
theorem flushed_eq (c : Dev nD) (t : Fin cfg2.N) (hf : (cfg2.win 3).flush t = true) :
    (dat V c).flushed 3 t = ((cfg2.win 3).blk t).view.read (Elt Ideal) (Gout V c) := by
  have h1 : t.val % 2 = 1 := (flush2_3 t).mp hf
  show (cfg2.win 3).cut (grid2.coords t) ((dat V c).after 3 t) = _
  rw [after_3]
  funext y
  obtain ⟨p, q, rfl⟩ : ∃ (p : Fin 128) (q : Fin 128), y = ix2 p q := ⟨y 0, y 1, eq_ix2 y⟩
  rw [View.read_apply]
  have he0 : (((cfg2.win 3).blk t).view.emb (ix2 p q) : S128x128.Idx) 0 = p :=
    Fin.ext (by show win2_3.index t 0 * 128 + 1 * p.val = p.val; rw [(idx_3 t).1]; omega)
  have hcol : ((((cfg2.win 3).blk t).view.emb (ix2 p q) : S128x128.Idx) 1).val = (t.val / 2) * 128 + q.val := by
    show win2_3.index t 1 * 128 + 1 * q.val = _; rw [(idx_3 t).2]; omega
  show (outsAt V c t.val t.isLt).1 (ix2 p q) = Gout V c (((cfg2.win 3).blk t).view.emb (ix2 p q))
  rw [out_last V c t h1 p q _ hcol]
  unfold Gout
  rw [he0]

/-- The output array ends holding `Gout`: the last tiles' blocks (0, j) tile it. -/
theorem final (c : Dev nD) : (dat V c).arrAt 3 cfg2.N = Gout V c :=
  (dat V c).arrAt_eq_of_cover 3 (Gout V c) (flushed_eq V c) fun i => by
    have hi0 : (i 0 : Nat) < 128 := (i 0).isLt
    have hi1 : (i 1 : Nat) < 128 := (i 1).isLt
    have ht : (i 1 : Nat) / 128 * 2 + 1 < cfg2.N := by rw [hN]; omega
    refine ⟨⟨(i 1 : Nat) / 128 * 2 + 1, ht⟩, (flush2_3 _).mpr (by show ((i 1 : Nat) / 128 * 2 + 1) % 2 = 1; omega), ?_⟩
    show i ∈ ((View.whole main_v120).slice (win2_3.rect ⟨(i 1 : Nat) / 128 * 2 + 1, ht⟩)).set
    rw [View.set_slice_whole, Rect.mem_set_unit]
    intro a
    match a with
    | ⟨0, _⟩ =>
      show win2_3.index ⟨_, ht⟩ 0 * win2_3.size 0 ≤ (i 0 : Nat) ∧ (i 0 : Nat) < win2_3.index ⟨_, ht⟩ 0 * win2_3.size 0 + win2_3.xsize (grid2.coords ⟨_, ht⟩) 0
      rw [(idx_3 ⟨_, ht⟩).1, (xsz_3 ⟨_, ht⟩).1]; omega
    | ⟨1, _⟩ =>
      show win2_3.index ⟨_, ht⟩ 1 * win2_3.size 1 ≤ (i 1 : Nat) ∧ (i 1 : Nat) < win2_3.index ⟨_, ht⟩ 1 * win2_3.size 1 + win2_3.xsize (grid2.coords ⟨_, ht⟩) 1
      rw [(idx_3 ⟨_, ht⟩).2, (xsz_3 ⟨_, ht⟩).2]
      show ((i 1 : Nat) / 128 * 2 + 1) / 2 * 128 ≤ (i 1 : Nat) ∧ (i 1 : Nat) < ((i 1 : Nat) / 128 * 2 + 1) / 2 * 128 + 128
      omega

end Cert.KernelIdeal.Reg2

end
-- ==== Proof.Ref.Stages.lean ====
/- The fold of the reference's operation list cut at named buffers: the pooled features `main_v106` (left as a
   value), the two hidden layers' outputs `main_v111` and `main_v116`, the class scores `main_v120`, their
   row-wise softmax `main_v131`, the box outputs `main_v135` and the result `main_v136`. The last two stretches
   of the list are split at these buffers; each piece's result is a pure term of the values it reads, and since no
   later piece writes a buffer an earlier one wrote, what the whole fold holds at a named buffer is that term of
   what the whole fold holds at the earlier named buffers and of the arguments as launched. -/
import proofs.«110125_j48919677501805_2_alg».proof.Proof.Ref.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces -/

/-- 12 operations: the values from `main_v99` to `main_v106`. -/
abbrev opsH1 : List (HloOp τ sig (Elt F)) :=
  [ StableHlo.binary main_v95 main_v98 main_v99 (addi : (⟨S128x7x5, .i32⟩ : BufTy).Contents (Elt F) → (⟨S128x7x5, .i32⟩ : BufTy).Contents (Elt F) → (⟨S128x7x5, .i32⟩ : BufTy).Contents (Elt F)),
    StableHlo.ternary main_v97 main_v99 main_v95 main_v100 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v100 main_v101 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v85 main_v101 main_v102 ((fun x i => Host.gather gather_S128x512x7x32_S128x7x5x1_S128x512x7x7x5_12_3_0_0_3_3_151271 x i) : (⟨S128x512x7x32, .f32⟩ : BufTy).Contents (Elt F) → (⟨S128x7x5x1, .i32⟩ : BufTy).Contents (Elt F) → (⟨S128x512x7x7x5, .f32⟩ : BufTy).Contents (Elt F)),
    StableHlo.unary main_v94 main_v103 (broadcastInDim S128x1x1x7x5 ![0, 3, 4] bcast_S128x7x5_S128x1x1x7x5_0_3_4 : (⟨S128x7x5, .i1⟩ : BufTy).Contents (Elt F) → (⟨S128x1x1x7x5, .i1⟩ : BufTy).Contents (Elt F)),
    StableHlo.nullary main_cst_19 (constant S_ .f32 0xFF800000#32),
    StableHlo.TRef.unary (.of main_v103 : StableHlo.TRef sig ⟨S128x1x1x7x5, .i1⟩) main_call7.v0 (broadcastInDim S128x512x7x7x5 ![0, 1, 2, 3, 4] bcast_S128x1x1x7x5_S128x512x7x7x5_0_1_2_3_4),
    StableHlo.TRef.unary (.of main_cst_19 : StableHlo.TRef sig ⟨S_, .f32⟩) main_call7.v1 (broadcastInDim S128x512x7x7x5 ![] bcast_S_S128x512x7x7x5),
    StableHlo.TRef.ternary main_call7.v0 (.of main_v102 : StableHlo.TRef sig ⟨S128x512x7x7x5, .f32⟩) main_call7.v1 main_call7.v2 select,
    StableHlo.nullary main_cst_20 (constant S_ .f32 0xFF800000#32),
    StableHlo.binary main_v104 main_cst_20 main_v105 ((fun x v => Host.reduce FloatOps.maximumf x v reducesTo_S128x512x7x7x5_S128x512x7x7_d4 h_S_) : (⟨S128x512x7x7x5, .f32⟩ : BufTy).Contents (Elt F) → (⟨S_, .f32⟩ : BufTy).Contents (Elt F) → (⟨S128x512x7x7, .f32⟩ : BufTy).Contents (Elt F)),
    StableHlo.reshape main_v105 main_v106 rfl shapeCasts_S128x512x7x7_S128x25088 ]

/-- 7 operations: the values from `main_v107` to `main_v111`. -/
abbrev st6 : List (HloOp τ sig (Elt F)) :=
  [ StableHlo.binary main_v106 main_arg2 main_v107 ((fun l r => Host.dotGeneral dot_S128x25088_S25088x4096_S128x4096_1_0_0_1_n_n none l r) : (⟨S128x25088, .f32⟩ : BufTy).Contents (Elt F) → (⟨S25088x4096, .f32⟩ : BufTy).Contents (Elt F) → (⟨S128x4096, .f32⟩ : BufTy).Contents (Elt F)),
    StableHlo.unary main_arg3 main_v108 (broadcastInDim S1x4096 ![1] bcast_S4096_S1x4096_1 : (⟨S4096, .f32⟩ : BufTy).Contents (Elt F) → (⟨S1x4096, .f32⟩ : BufTy).Contents (Elt F)),
    StableHlo.unary main_v108 main_v109 (broadcastInDim S128x4096 ![0, 1] bcast_S1x4096_S128x4096_0_1 : (⟨S1x4096, .f32⟩ : BufTy).Contents (Elt F) → (⟨S128x4096, .f32⟩ : BufTy).Contents (Elt F)),
    StableHlo.binary main_v107 main_v109 main_v110 (addf : (⟨S128x4096, .f32⟩ : BufTy).Contents (Elt F) → (⟨S128x4096, .f32⟩ : BufTy).Contents (Elt F) → (⟨S128x4096, .f32⟩ : BufTy).Contents (Elt F)),
    StableHlo.TRef.nullary main_call8.cst (constant S_ .f32 0x00000000#32),
    StableHlo.TRef.unary main_call8.cst main_call8.v0 (broadcastInDim S128x4096 ![] bcast_S_S128x4096),
    StableHlo.TRef.binary (.of main_v110 : StableHlo.TRef sig ⟨S128x4096, .f32⟩) main_call8.v0 main_call8.v1 maximumf ]

/-- 7 operations: the values from `main_v112` to `main_v116`. -/
abbrev st7 : List (HloOp τ sig (Elt F)) :=
  [ StableHlo.binary main_v111 main_arg4 main_v112 ((fun l r => Host.dotGeneral dot_S128x4096_S4096x4096_S128x4096_1_0_0_1_n_n none l r) : (⟨S128x4096, .f32⟩ : BufTy).Contents (Elt F) → (⟨S4096x4096, .f32⟩ : BufTy).Contents (Elt F) → (⟨S128x4096, .f32⟩ : BufTy).Contents (Elt F)),
    StableHlo.unary main_arg5 main_v113 (broadcastInDim S1x4096 ![1] bcast_S4096_S1x4096_1 : (⟨S4096, .f32⟩ : BufTy).Contents (Elt F) → (⟨S1x4096, .f32⟩ : BufTy).Contents (Elt F)),
    StableHlo.unary main_v113 main_v114 (broadcastInDim S128x4096 ![0, 1] bcast_S1x4096_S128x4096_0_1 : (⟨S1x4096, .f32⟩ : BufTy).Contents (Elt F) → (⟨S128x4096, .f32⟩ : BufTy).Contents (Elt F)),
    StableHlo.binary main_v112 main_v114 main_v115 (addf : (⟨S128x4096, .f32⟩ : BufTy).Contents (Elt F) → (⟨S128x4096, .f32⟩ : BufTy).Contents (Elt F) → (⟨S128x4096, .f32⟩ : BufTy).Contents (Elt F)),
    StableHlo.TRef.nullary main_call9.cst (constant S_ .f32 0x00000000#32),
    StableHlo.TRef.unary main_call9.cst main_call9.v0 (broadcastInDim S128x4096 ![] bcast_S_S128x4096),
    StableHlo.TRef.binary (.of main_v115 : StableHlo.TRef sig ⟨S128x4096, .f32⟩) main_call9.v0 main_call9.v1 maximumf ]

/-- 4 operations: the values from `main_v117` to `main_v120`. -/
abbrev stL : List (HloOp τ sig (Elt F)) :=
  [ StableHlo.binary main_v116 main_arg6 main_v117 ((fun l r => Host.dotGeneral dot_S128x4096_S4096x21_S128x21_1_0_0_1_n_n none l r) : (⟨S128x4096, .f32⟩ : BufTy).Contents (Elt F) → (⟨S4096x21, .f32⟩ : BufTy).Contents (Elt F) → (⟨S128x21, .f32⟩ : BufTy).Contents (Elt F)),
    StableHlo.unary main_arg7 main_v118 (broadcastInDim S1x21 ![1] bcast_S21_S1x21_1 : (⟨S21, .f32⟩ : BufTy).Contents (Elt F) → (⟨S1x21, .f32⟩ : BufTy).Contents (Elt F)),
    StableHlo.unary main_v118 main_v119 (broadcastInDim S128x21 ![0, 1] bcast_S1x21_S128x21_0_1 : (⟨S1x21, .f32⟩ : BufTy).Contents (Elt F) → (⟨S128x21, .f32⟩ : BufTy).Contents (Elt F)),
    StableHlo.binary main_v117 main_v119 main_v120 (addf : (⟨S128x21, .f32⟩ : BufTy).Contents (Elt F) → (⟨S128x21, .f32⟩ : BufTy).Contents (Elt F) → (⟨S128x21, .f32⟩ : BufTy).Contents (Elt F)) ]

/-- 14 operations: the values from `main_cst_21` to `main_v131`. -/
abbrev stS : List (HloOp τ sig (Elt F)) :=
  [ StableHlo.nullary main_cst_21 (constant S_ .f32 0xFF800000#32),
    StableHlo.binary main_v120 main_cst_21 main_v121 ((fun x v => Host.reduce FloatOps.maximumf x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.nullary main_cst_22 (constant S_ .f32 0xFF800000#32),
    StableHlo.unary main_cst_22 main_v122 (broadcastInDim S128 ![] bcast_S_S128 : (⟨S_, .f32⟩ : BufTy).Contents (Elt F) → (⟨S128, .f32⟩ : BufTy).Contents (Elt F)),
    StableHlo.binary main_v122 main_v121 main_v123 (maximumf : (⟨S128, .f32⟩ : BufTy).Contents (Elt F) → (⟨S128, .f32⟩ : BufTy).Contents (Elt F) → (⟨S128, .f32⟩ : BufTy).Contents (Elt F)),
    StableHlo.unary main_v123 main_v124 (broadcastInDim S128x1 ![0] bcast_S128_S128x1_0 : (⟨S128, .f32⟩ : BufTy).Contents (Elt F) → (⟨S128x1, .f32⟩ : BufTy).Contents (Elt F)),
    StableHlo.unary main_v124 main_v125 (broadcastInDim S128x21 ![0, 1] bcast_S128x1_S128x21_0_1 : (⟨S128x1, .f32⟩ : BufTy).Contents (Elt F) → (⟨S128x21, .f32⟩ : BufTy).Contents (Elt F)),
    StableHlo.binary main_v120 main_v125 main_v126 (subf : (⟨S128x21, .f32⟩ : BufTy).Contents (Elt F) → (⟨S128x21, .f32⟩ : BufTy).Contents (Elt F) → (⟨S128x21, .f32⟩ : BufTy).Contents (Elt F)),
    StableHlo.unary main_v126 main_v127 (Host.exp : (⟨S128x21, .f32⟩ : BufTy).Contents (Elt F) → (⟨S128x21, .f32⟩ : BufTy).Contents (Elt F)),
    StableHlo.nullary main_cst_23 (constant S_ .f32 0x00000000#32),
    StableHlo.binary main_v127 main_cst_23 main_v128 ((fun x v => Host.reduceAdd x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.unary main_v128 main_v129 (broadcastInDim S128x1 ![0] bcast_S128_S128x1_0 : (⟨S128, .f32⟩ : BufTy).Contents (Elt F) → (⟨S128x1, .f32⟩ : BufTy).Contents (Elt F)),
    StableHlo.unary main_v129 main_v130 (broadcastInDim S128x21 ![0, 1] bcast_S128x1_S128x21_0_1 : (⟨S128x1, .f32⟩ : BufTy).Contents (Elt F) → (⟨S128x21, .f32⟩ : BufTy).Contents (Elt F)),
    StableHlo.binary main_v127 main_v130 main_v131 (Host.divf : (⟨S128x21, .f32⟩ : BufTy).Contents (Elt F) → (⟨S128x21, .f32⟩ : BufTy).Contents (Elt F) → (⟨S128x21, .f32⟩ : BufTy).Contents (Elt F)) ]

/-- 4 operations: the values from `main_v132` to `main_v135`. -/
abbrev stB : List (HloOp τ sig (Elt F)) :=
  [ StableHlo.binary main_v116 main_arg8 main_v132 ((fun l r => Host.dotGeneral dot_S128x4096_S4096x84_S128x84_1_0_0_1_n_n none l r) : (⟨S128x4096, .f32⟩ : BufTy).Contents (Elt F) → (⟨S4096x84, .f32⟩ : BufTy).Contents (Elt F) → (⟨S128x84, .f32⟩ : BufTy).Contents (Elt F)),
    StableHlo.unary main_arg9 main_v133 (broadcastInDim S1x84 ![1] bcast_S84_S1x84_1 : (⟨S84, .f32⟩ : BufTy).Contents (Elt F) → (⟨S1x84, .f32⟩ : BufTy).Contents (Elt F)),
    StableHlo.unary main_v133 main_v134 (broadcastInDim S128x84 ![0, 1] bcast_S1x84_S128x84_0_1 : (⟨S1x84, .f32⟩ : BufTy).Contents (Elt F) → (⟨S128x84, .f32⟩ : BufTy).Contents (Elt F)),
    StableHlo.binary main_v132 main_v134 main_v135 (addf : (⟨S128x84, .f32⟩ : BufTy).Contents (Elt F) → (⟨S128x84, .f32⟩ : BufTy).Contents (Elt F) → (⟨S128x84, .f32⟩ : BufTy).Contents (Elt F)) ]

/-- 1 operations: the values from `main_v136` to `main_v136`. -/
abbrev stC : List (HloOp τ sig (Elt F)) :=
  [ StableHlo.binary main_v131 main_v135 main_v136 ((fun a b => concatenate S128x105 1 [⟨S128x21, a⟩, ⟨S128x84, b⟩] concatenates_S128x21_S128x84_S128x105_d1) : (⟨S128x21, .f32⟩ : BufTy).Contents (Elt F) → (⟨S128x84, .f32⟩ : BufTy).Contents (Elt F) → (⟨S128x105, .f32⟩ : BufTy).Contents (Elt F)) ]

theorem opsH_split : (opsH : List (HloOp τ sig (Elt F))) = opsH1 ++ (st6 ++ st7) := rfl
theorem opsI_split : (opsI : List (HloOp τ sig (Elt F))) = stL ++ (stS ++ (stB ++ stC)) := rfl

/-- The fold over the whole list, piece by piece. -/
theorem ops_stages (V : Valuation τ sig (Elt F)) :
    after ops V = after stC (after stB (after stS (after stL (after st7 (after st6 (after opsH1
      (after opsG (after opsF (after opsE (after opsD (after opsC (after opsB (after opsA V))))))))))))) := by
  rw [after_ops, opsH_split, opsI_split]; simp only [after_append]

/-! ## What each piece writes -/

/-- The references `st6`'s operations write, in order. -/
abbrev st6_W : List (Ref sig .tc) := [main_v107, main_v108, main_v109, main_v110, main_call8_cst, main_call8_v0, main_v111]
theorem st6_writes : (st6 : List (HloOp τ sig (Elt F))).Forall fun op => op.writes ⊆ (st6_W.map (Proc.devRef (τ := τ) .tc)).toFinset :=
  ⟨writes_sub_of_mem (y := main_v107) (by decide), writes_sub_of_mem (y := main_v108) (by decide), writes_sub_of_mem (y := main_v109) (by decide), writes_sub_of_mem (y := main_v110) (by decide), writes_sub_of_mem (y := main_call8_cst) (by decide), writes_sub_of_mem (y := main_call8_v0) (by decide), writes_sub_of_mem (y := main_v111) (by decide)⟩
/-- A reference `st6` does not write keeps its contents through it (the reference un-indexed, so that the
    equation rewrites under `simp` at any literal reference). -/
theorem st6_keep (V : Valuation τ sig (Elt F)) {r : Ref sig .tc} (h : r ∉ st6_W) :
    after st6 V (no_index (Proc.devRef .tc r)) = V (Proc.devRef .tc r) :=
  after_of_writes_sub st6 V st6_writes h

/-- The references `st7`'s operations write, in order. -/
abbrev st7_W : List (Ref sig .tc) := [main_v112, main_v113, main_v114, main_v115, main_call9_cst, main_call9_v0, main_v116]
theorem st7_writes : (st7 : List (HloOp τ sig (Elt F))).Forall fun op => op.writes ⊆ (st7_W.map (Proc.devRef (τ := τ) .tc)).toFinset :=
  ⟨writes_sub_of_mem (y := main_v112) (by decide), writes_sub_of_mem (y := main_v113) (by decide), writes_sub_of_mem (y := main_v114) (by decide), writes_sub_of_mem (y := main_v115) (by decide), writes_sub_of_mem (y := main_call9_cst) (by decide), writes_sub_of_mem (y := main_call9_v0) (by decide), writes_sub_of_mem (y := main_v116) (by decide)⟩
/-- A reference `st7` does not write keeps its contents through it (the reference un-indexed, so that the
    equation rewrites under `simp` at any literal reference). -/
theorem st7_keep (V : Valuation τ sig (Elt F)) {r : Ref sig .tc} (h : r ∉ st7_W) :
    after st7 V (no_index (Proc.devRef .tc r)) = V (Proc.devRef .tc r) :=
  after_of_writes_sub st7 V st7_writes h

/-- The references `stL`'s operations write, in order. -/
abbrev stL_W : List (Ref sig .tc) := [main_v117, main_v118, main_v119, main_v120]
theorem stL_writes : (stL : List (HloOp τ sig (Elt F))).Forall fun op => op.writes ⊆ (stL_W.map (Proc.devRef (τ := τ) .tc)).toFinset :=
  ⟨writes_sub_of_mem (y := main_v117) (by decide), writes_sub_of_mem (y := main_v118) (by decide), writes_sub_of_mem (y := main_v119) (by decide), writes_sub_of_mem (y := main_v120) (by decide)⟩
/-- A reference `stL` does not write keeps its contents through it (the reference un-indexed, so that the
    equation rewrites under `simp` at any literal reference). -/
theorem stL_keep (V : Valuation τ sig (Elt F)) {r : Ref sig .tc} (h : r ∉ stL_W) :
    after stL V (no_index (Proc.devRef .tc r)) = V (Proc.devRef .tc r) :=
  after_of_writes_sub stL V stL_writes h

/-- The references `stS`'s operations write, in order. -/
abbrev stS_W : List (Ref sig .tc) := [main_cst_21, main_v121, main_cst_22, main_v122, main_v123, main_v124, main_v125, main_v126, main_v127, main_cst_23, main_v128, main_v129, main_v130, main_v131]
theorem stS_writes : (stS : List (HloOp τ sig (Elt F))).Forall fun op => op.writes ⊆ (stS_W.map (Proc.devRef (τ := τ) .tc)).toFinset :=
  ⟨writes_sub_of_mem (y := main_cst_21) (by decide), writes_sub_of_mem (y := main_v121) (by decide), writes_sub_of_mem (y := main_cst_22) (by decide), writes_sub_of_mem (y := main_v122) (by decide), writes_sub_of_mem (y := main_v123) (by decide), writes_sub_of_mem (y := main_v124) (by decide), writes_sub_of_mem (y := main_v125) (by decide), writes_sub_of_mem (y := main_v126) (by decide), writes_sub_of_mem (y := main_v127) (by decide), writes_sub_of_mem (y := main_cst_23) (by decide), writes_sub_of_mem (y := main_v128) (by decide), writes_sub_of_mem (y := main_v129) (by decide), writes_sub_of_mem (y := main_v130) (by decide), writes_sub_of_mem (y := main_v131) (by decide)⟩
/-- A reference `stS` does not write keeps its contents through it (the reference un-indexed, so that the
    equation rewrites under `simp` at any literal reference). -/
theorem stS_keep (V : Valuation τ sig (Elt F)) {r : Ref sig .tc} (h : r ∉ stS_W) :
    after stS V (no_index (Proc.devRef .tc r)) = V (Proc.devRef .tc r) :=
  after_of_writes_sub stS V stS_writes h

/-- The references `stB`'s operations write, in order. -/
abbrev stB_W : List (Ref sig .tc) := [main_v132, main_v133, main_v134, main_v135]
theorem stB_writes : (stB : List (HloOp τ sig (Elt F))).Forall fun op => op.writes ⊆ (stB_W.map (Proc.devRef (τ := τ) .tc)).toFinset :=
  ⟨writes_sub_of_mem (y := main_v132) (by decide), writes_sub_of_mem (y := main_v133) (by decide), writes_sub_of_mem (y := main_v134) (by decide), writes_sub_of_mem (y := main_v135) (by decide)⟩
/-- A reference `stB` does not write keeps its contents through it (the reference un-indexed, so that the
    equation rewrites under `simp` at any literal reference). -/
theorem stB_keep (V : Valuation τ sig (Elt F)) {r : Ref sig .tc} (h : r ∉ stB_W) :
    after stB V (no_index (Proc.devRef .tc r)) = V (Proc.devRef .tc r) :=
  after_of_writes_sub stB V stB_writes h

/-- The references `stC`'s operations write, in order. -/
abbrev stC_W : List (Ref sig .tc) := [main_v136]
theorem stC_writes : (stC : List (HloOp τ sig (Elt F))).Forall fun op => op.writes ⊆ (stC_W.map (Proc.devRef (τ := τ) .tc)).toFinset :=
  writes_sub_of_mem (y := main_v136) (by decide)
/-- A reference `stC` does not write keeps its contents through it (the reference un-indexed, so that the
    equation rewrites under `simp` at any literal reference). -/
theorem stC_keep (V : Valuation τ sig (Elt F)) {r : Ref sig .tc} (h : r ∉ stC_W) :
    after stC V (no_index (Proc.devRef .tc r)) = V (Proc.devRef .tc r) :=
  after_of_writes_sub stC V stC_writes h

/-! ## Each piece's result, from any contents -/

/-- Row-wise softmax of the class scores as the program computes it: the row maximum (started at -∞) subtracted,
    the exponential, and the division by the row sum (started at 0). -/
def softmaxRows (x : (⟨S128x21, .f32⟩ : BufTy).Contents (Elt F)) : (⟨S128x21, .f32⟩ : BufTy).Contents (Elt F) :=
  let mx : (⟨S128, .f32⟩ : BufTy).Contents (Elt F) := (maximumf (broadcastInDim S128 ![] bcast_S_S128 (constant S_ .f32 0xFF800000#32)) (Host.reduce FloatOps.maximumf x (constant S_ .f32 0xFF800000#32) reducesTo_S128x21_S128_d1 h_S_))
  let e : (⟨S128x21, .f32⟩ : BufTy).Contents (Elt F) := (Host.exp (subf x (broadcastInDim S128x21 ![0, 1] bcast_S128x1_S128x21_0_1 (broadcastInDim S128x1 ![0] bcast_S128_S128x1_0 mx))))
  (Host.divf e (broadcastInDim S128x21 ![0, 1] bcast_S128x1_S128x21_0_1 (broadcastInDim S128x1 ![0] bcast_S128_S128x1_0 (Host.reduceAdd e (constant S_ .f32 0x00000000#32) reducesTo_S128x21_S128_d1 h_S_))))

theorem st6_main_v111 (W : Valuation τ sig (Elt F)) :
    after st6 W (Proc.devRef .tc main_v111)
      = (maximumf (addf (Host.dotGeneral dot_S128x25088_S25088x4096_S128x4096_1_0_0_1_n_n none (W (Proc.devRef .tc main_v106) : (⟨S128x25088, .f32⟩ : BufTy).Contents (Elt F)) (W (Proc.devRef .tc main_arg2) : (⟨S25088x4096, .f32⟩ : BufTy).Contents (Elt F))) (broadcastInDim S128x4096 ![0, 1] bcast_S1x4096_S128x4096_0_1 (broadcastInDim S1x4096 ![1] bcast_S4096_S1x4096_1 (W (Proc.devRef .tc main_arg3) : (⟨S4096, .f32⟩ : BufTy).Contents (Elt F))))) (broadcastInDim S128x4096 ![] bcast_S_S128x4096 (constant S_ .f32 0x00000000#32))) := by
  after_results <;> rfl

theorem st7_main_v116 (W : Valuation τ sig (Elt F)) :
    after st7 W (Proc.devRef .tc main_v116)
      = (maximumf (addf (Host.dotGeneral dot_S128x4096_S4096x4096_S128x4096_1_0_0_1_n_n none (W (Proc.devRef .tc main_v111) : (⟨S128x4096, .f32⟩ : BufTy).Contents (Elt F)) (W (Proc.devRef .tc main_arg4) : (⟨S4096x4096, .f32⟩ : BufTy).Contents (Elt F))) (broadcastInDim S128x4096 ![0, 1] bcast_S1x4096_S128x4096_0_1 (broadcastInDim S1x4096 ![1] bcast_S4096_S1x4096_1 (W (Proc.devRef .tc main_arg5) : (⟨S4096, .f32⟩ : BufTy).Contents (Elt F))))) (broadcastInDim S128x4096 ![] bcast_S_S128x4096 (constant S_ .f32 0x00000000#32))) := by
  after_results <;> rfl

theorem stL_main_v120 (W : Valuation τ sig (Elt F)) :
    after stL W (Proc.devRef .tc main_v120)
      = (addf (Host.dotGeneral dot_S128x4096_S4096x21_S128x21_1_0_0_1_n_n none (W (Proc.devRef .tc main_v116) : (⟨S128x4096, .f32⟩ : BufTy).Contents (Elt F)) (W (Proc.devRef .tc main_arg6) : (⟨S4096x21, .f32⟩ : BufTy).Contents (Elt F))) (broadcastInDim S128x21 ![0, 1] bcast_S1x21_S128x21_0_1 (broadcastInDim S1x21 ![1] bcast_S21_S1x21_1 (W (Proc.devRef .tc main_arg7) : (⟨S21, .f32⟩ : BufTy).Contents (Elt F))))) := by
  after_results <;> rfl

theorem stS_main_v131 (W : Valuation τ sig (Elt F)) :
    after stS W (Proc.devRef .tc main_v131)
      = (softmaxRows (W (Proc.devRef .tc main_v120) : (⟨S128x21, .f32⟩ : BufTy).Contents (Elt F))) := by
  after_results <;> rfl

theorem stB_main_v135 (W : Valuation τ sig (Elt F)) :
    after stB W (Proc.devRef .tc main_v135)
      = (addf (Host.dotGeneral dot_S128x4096_S4096x84_S128x84_1_0_0_1_n_n none (W (Proc.devRef .tc main_v116) : (⟨S128x4096, .f32⟩ : BufTy).Contents (Elt F)) (W (Proc.devRef .tc main_arg8) : (⟨S4096x84, .f32⟩ : BufTy).Contents (Elt F))) (broadcastInDim S128x84 ![0, 1] bcast_S1x84_S128x84_0_1 (broadcastInDim S1x84 ![1] bcast_S84_S1x84_1 (W (Proc.devRef .tc main_arg9) : (⟨S84, .f32⟩ : BufTy).Contents (Elt F))))) := by
  after_results <;> rfl

theorem stC_main_v136 (W : Valuation τ sig (Elt F)) :
    after stC W (Proc.devRef .tc main_v136)
      = (concatenate S128x105 1 [⟨S128x21, (W (Proc.devRef .tc main_v131) : (⟨S128x21, .f32⟩ : BufTy).Contents (Elt F))⟩, ⟨S128x84, (W (Proc.devRef .tc main_v135) : (⟨S128x84, .f32⟩ : BufTy).Contents (Elt F))⟩] concatenates_S128x21_S128x84_S128x105_d1) := by
  after_results <;> rfl

/-! ## The same over the whole fold -/

theorem stage_main_v111 (m : (ℓ : Loc nD τ sig) → Buf (Elt F) ℓ) (c : Dev nD) :
    after ops (launchContents m c) (Proc.devRef .tc main_v111)
      = (maximumf (addf (Host.dotGeneral dot_S128x25088_S25088x4096_S128x4096_1_0_0_1_n_n none (after ops (launchContents m c) (Proc.devRef .tc main_v106) : (⟨S128x25088, .f32⟩ : BufTy).Contents (Elt F)) (m ((c.tc : Thread nD τ).loc main_arg2) : (⟨S25088x4096, .f32⟩ : BufTy).Contents (Elt F))) (broadcastInDim S128x4096 ![0, 1] bcast_S1x4096_S128x4096_0_1 (broadcastInDim S1x4096 ![1] bcast_S4096_S1x4096_1 (m ((c.tc : Thread nD τ).loc main_arg3) : (⟨S4096, .f32⟩ : BufTy).Contents (Elt F))))) (broadcastInDim S128x4096 ![] bcast_S_S128x4096 (constant S_ .f32 0x00000000#32))) := by
  rw [← kept_main_arg2 m c, ← kept_main_arg3 m c, ops_stages]
  simp (disch := decide) only [st6_keep, st7_keep, stL_keep, stS_keep, stB_keep, stC_keep]
  rw [st6_main_v111]
  try simp (disch := decide) only [st6_keep, st7_keep, stL_keep, stS_keep, stB_keep, stC_keep]

theorem stage_main_v116 (m : (ℓ : Loc nD τ sig) → Buf (Elt F) ℓ) (c : Dev nD) :
    after ops (launchContents m c) (Proc.devRef .tc main_v116)
      = (maximumf (addf (Host.dotGeneral dot_S128x4096_S4096x4096_S128x4096_1_0_0_1_n_n none (after ops (launchContents m c) (Proc.devRef .tc main_v111) : (⟨S128x4096, .f32⟩ : BufTy).Contents (Elt F)) (m ((c.tc : Thread nD τ).loc main_arg4) : (⟨S4096x4096, .f32⟩ : BufTy).Contents (Elt F))) (broadcastInDim S128x4096 ![0, 1] bcast_S1x4096_S128x4096_0_1 (broadcastInDim S1x4096 ![1] bcast_S4096_S1x4096_1 (m ((c.tc : Thread nD τ).loc main_arg5) : (⟨S4096, .f32⟩ : BufTy).Contents (Elt F))))) (broadcastInDim S128x4096 ![] bcast_S_S128x4096 (constant S_ .f32 0x00000000#32))) := by
  rw [← kept_main_arg4 m c, ← kept_main_arg5 m c, ops_stages]
  simp (disch := decide) only [st6_keep, st7_keep, stL_keep, stS_keep, stB_keep, stC_keep]
  rw [st7_main_v116]
  try simp (disch := decide) only [st6_keep, st7_keep, stL_keep, stS_keep, stB_keep, stC_keep]

theorem stage_main_v120 (m : (ℓ : Loc nD τ sig) → Buf (Elt F) ℓ) (c : Dev nD) :
    after ops (launchContents m c) (Proc.devRef .tc main_v120)
      = (addf (Host.dotGeneral dot_S128x4096_S4096x21_S128x21_1_0_0_1_n_n none (after ops (launchContents m c) (Proc.devRef .tc main_v116) : (⟨S128x4096, .f32⟩ : BufTy).Contents (Elt F)) (m ((c.tc : Thread nD τ).loc main_arg6) : (⟨S4096x21, .f32⟩ : BufTy).Contents (Elt F))) (broadcastInDim S128x21 ![0, 1] bcast_S1x21_S128x21_0_1 (broadcastInDim S1x21 ![1] bcast_S21_S1x21_1 (m ((c.tc : Thread nD τ).loc main_arg7) : (⟨S21, .f32⟩ : BufTy).Contents (Elt F))))) := by
  rw [← kept_main_arg6 m c, ← kept_main_arg7 m c, ops_stages]
  simp (disch := decide) only [st6_keep, st7_keep, stL_keep, stS_keep, stB_keep, stC_keep]
  rw [stL_main_v120]
  try simp (disch := decide) only [st6_keep, st7_keep, stL_keep, stS_keep, stB_keep, stC_keep]

theorem stage_main_v131 (m : (ℓ : Loc nD τ sig) → Buf (Elt F) ℓ) (c : Dev nD) :
    after ops (launchContents m c) (Proc.devRef .tc main_v131)
      = (softmaxRows (after ops (launchContents m c) (Proc.devRef .tc main_v120) : (⟨S128x21, .f32⟩ : BufTy).Contents (Elt F))) := by
  rw [ops_stages]
  simp (disch := decide) only [st6_keep, st7_keep, stL_keep, stS_keep, stB_keep, stC_keep]
  rw [stS_main_v131]
  try simp (disch := decide) only [st6_keep, st7_keep, stL_keep, stS_keep, stB_keep, stC_keep]

theorem stage_main_v135 (m : (ℓ : Loc nD τ sig) → Buf (Elt F) ℓ) (c : Dev nD) :
    after ops (launchContents m c) (Proc.devRef .tc main_v135)
      = (addf (Host.dotGeneral dot_S128x4096_S4096x84_S128x84_1_0_0_1_n_n none (after ops (launchContents m c) (Proc.devRef .tc main_v116) : (⟨S128x4096, .f32⟩ : BufTy).Contents (Elt F)) (m ((c.tc : Thread nD τ).loc main_arg8) : (⟨S4096x84, .f32⟩ : BufTy).Contents (Elt F))) (broadcastInDim S128x84 ![0, 1] bcast_S1x84_S128x84_0_1 (broadcastInDim S1x84 ![1] bcast_S84_S1x84_1 (m ((c.tc : Thread nD τ).loc main_arg9) : (⟨S84, .f32⟩ : BufTy).Contents (Elt F))))) := by
  rw [← kept_main_arg8 m c, ← kept_main_arg9 m c, ops_stages]
  simp (disch := decide) only [st6_keep, st7_keep, stL_keep, stS_keep, stB_keep, stC_keep]
  rw [stB_main_v135]
  try simp (disch := decide) only [st6_keep, st7_keep, stL_keep, stS_keep, stB_keep, stC_keep]

theorem stage_main_v136 (m : (ℓ : Loc nD τ sig) → Buf (Elt F) ℓ) (c : Dev nD) :
    after ops (launchContents m c) (Proc.devRef .tc main_v136)
      = (concatenate S128x105 1 [⟨S128x21, (after ops (launchContents m c) (Proc.devRef .tc main_v131) : (⟨S128x21, .f32⟩ : BufTy).Contents (Elt F))⟩, ⟨S128x84, (after ops (launchContents m c) (Proc.devRef .tc main_v135) : (⟨S128x84, .f32⟩ : BufTy).Contents (Elt F))⟩] concatenates_S128x21_S128x84_S128x105_d1) := by
  -- the operands sit inside the concatenation's list, whose shape evidence mentions the list: rewritten one by one
  rw [ops_stages, stC_main_v136, stC_keep (r := main_v131) _ (by decide), stC_keep (r := main_v135) _ (by decide)]

/-- The result over the class scores and the box outputs: the softmax of the one beside the other. -/
theorem stage_out (m : (ℓ : Loc nD τ sig) → Buf (Elt F) ℓ) (c : Dev nD) :
    after ops (launchContents m c) (Proc.devRef .tc main_v136)
      = (concatenate S128x105 1 [⟨S128x21, (softmaxRows (after ops (launchContents m c) (Proc.devRef .tc main_v120) : (⟨S128x21, .f32⟩ : BufTy).Contents (Elt F)))⟩, ⟨S128x84, (after ops (launchContents m c) (Proc.devRef .tc main_v135) : (⟨S128x84, .f32⟩ : BufTy).Contents (Elt F))⟩] concatenates_S128x21_S128x84_S128x105_d1) := by
  rw [stage_main_v136, stage_main_v131]

end Cert.ReferenceIdeal.RefRun

end
-- ==== Proof.Ref.Dense.lean ====
/- The reference's four dense layers — the two hidden layers, the class scores and the box outputs — as functions
   of their operands, the stage equations restated over them, and each function read at an entry over the extended
   reals: a product's entry is the sum over the contracted axis of the operands' products, a bias row broadcast
   along the rows adds its entry at the column, and the hidden layers' clamp is the maximum with `0`. -/
import proofs.«110125_j48919677501805_2_alg».proof.Proof.Ref.Stages
import proofs.«110125_j48919677501805_2_alg».proof.Proof.LibPlainDot
import Idealize.ShloMosaic.Lib.ValueIdx
import Idealize.ShloMosaic.Lib.Pipeline.Value
import Idealize.ShloMosaic.PureOps.Ideal.Laws

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

open Idealize.ShloMosaic.ValueIdx
open scoped BigOperators

/-! ## The four dense layers as functions of their operands -/

/-- The first hidden layer: the pooled features times the weights, plus the bias row, clamped below at zero. -/
def fc6R (X : FVec F S128x25088 .f32) (W : FVec F S25088x4096 .f32) (b : FVec F S4096 .f32) : FVec F S128x4096 .f32 :=
  (maximumf (addf (Host.dotGeneral dot_S128x25088_S25088x4096_S128x4096_1_0_0_1_n_n none X W) (broadcastInDim S128x4096 ![0, 1] bcast_S1x4096_S128x4096_0_1 (broadcastInDim S1x4096 ![1] bcast_S4096_S1x4096_1 b))) (broadcastInDim S128x4096 ![] bcast_S_S128x4096 (constant S_ .f32 0x00000000#32)))

/-- The second hidden layer, of the same form. -/
def fc7R (X : FVec F S128x4096 .f32) (W : FVec F S4096x4096 .f32) (b : FVec F S4096 .f32) : FVec F S128x4096 .f32 :=
  (maximumf (addf (Host.dotGeneral dot_S128x4096_S4096x4096_S128x4096_1_0_0_1_n_n none X W) (broadcastInDim S128x4096 ![0, 1] bcast_S1x4096_S128x4096_0_1 (broadcastInDim S1x4096 ![1] bcast_S4096_S1x4096_1 b))) (broadcastInDim S128x4096 ![] bcast_S_S128x4096 (constant S_ .f32 0x00000000#32)))

/-- The class scores: the hidden features times the weights, plus the bias row. -/
def logitsR (X : FVec F S128x4096 .f32) (W : FVec F S4096x21 .f32) (b : FVec F S21 .f32) : FVec F S128x21 .f32 :=
  (addf (Host.dotGeneral dot_S128x4096_S4096x21_S128x21_1_0_0_1_n_n none X W) (broadcastInDim S128x21 ![0, 1] bcast_S1x21_S128x21_0_1 (broadcastInDim S1x21 ![1] bcast_S21_S1x21_1 b)))

/-- The box outputs, of the same form. -/
def bboxR (X : FVec F S128x4096 .f32) (W : FVec F S4096x84 .f32) (b : FVec F S84 .f32) : FVec F S128x84 .f32 :=
  (addf (Host.dotGeneral dot_S128x4096_S4096x84_S128x84_1_0_0_1_n_n none X W) (broadcastInDim S128x84 ![0, 1] bcast_S1x84_S128x84_0_1 (broadcastInDim S1x84 ![1] bcast_S84_S1x84_1 b)))

/-! ## The stage equations over them -/

theorem stage_fc6R (m : (ℓ : Loc nD τ sig) → Buf (Elt F) ℓ) (c : Dev nD) :
    after ops (launchContents m c) (Proc.devRef .tc main_v111)
      = fc6R (after ops (launchContents m c) (Proc.devRef .tc main_v106) : (⟨S128x25088, .f32⟩ : BufTy).Contents (Elt F)) (m ((c.tc : Thread nD τ).loc main_arg2) : (⟨S25088x4096, .f32⟩ : BufTy).Contents (Elt F)) (m ((c.tc : Thread nD τ).loc main_arg3) : (⟨S4096, .f32⟩ : BufTy).Contents (Elt F)) :=
  stage_main_v111 m c

theorem stage_fc7R (m : (ℓ : Loc nD τ sig) → Buf (Elt F) ℓ) (c : Dev nD) :
    after ops (launchContents m c) (Proc.devRef .tc main_v116)
      = fc7R (after ops (launchContents m c) (Proc.devRef .tc main_v111) : (⟨S128x4096, .f32⟩ : BufTy).Contents (Elt F)) (m ((c.tc : Thread nD τ).loc main_arg4) : (⟨S4096x4096, .f32⟩ : BufTy).Contents (Elt F)) (m ((c.tc : Thread nD τ).loc main_arg5) : (⟨S4096, .f32⟩ : BufTy).Contents (Elt F)) :=
  stage_main_v116 m c

theorem stage_logitsR (m : (ℓ : Loc nD τ sig) → Buf (Elt F) ℓ) (c : Dev nD) :
    after ops (launchContents m c) (Proc.devRef .tc main_v120)
      = logitsR (after ops (launchContents m c) (Proc.devRef .tc main_v116) : (⟨S128x4096, .f32⟩ : BufTy).Contents (Elt F)) (m ((c.tc : Thread nD τ).loc main_arg6) : (⟨S4096x21, .f32⟩ : BufTy).Contents (Elt F)) (m ((c.tc : Thread nD τ).loc main_arg7) : (⟨S21, .f32⟩ : BufTy).Contents (Elt F)) :=
  stage_main_v120 m c

theorem stage_bboxR (m : (ℓ : Loc nD τ sig) → Buf (Elt F) ℓ) (c : Dev nD) :
    after ops (launchContents m c) (Proc.devRef .tc main_v135)
      = bboxR (after ops (launchContents m c) (Proc.devRef .tc main_v116) : (⟨S128x4096, .f32⟩ : BufTy).Contents (Elt F)) (m ((c.tc : Thread nD τ).loc main_arg8) : (⟨S4096x84, .f32⟩ : BufTy).Contents (Elt F)) (m ((c.tc : Thread nD τ).loc main_arg9) : (⟨S84, .f32⟩ : BufTy).Contents (Elt F)) :=
  stage_main_v135 m c

/-! ## Read at an entry, over the extended reals -/

/-- A bias vector broadcast along the rows reads its entry at the column. -/
theorem bias4096_apply {α : Type} (b : S4096.Idx → α) (p : Fin 128) (q : Fin 4096) :
    broadcastInDim S128x4096 ![0, 1] bcast_S1x4096_S128x4096_0_1 (broadcastInDim S1x4096 ![1] bcast_S4096_S1x4096_1 b) (ix2 p q) = b (ix1 q) :=
  (broadcastInDim_apply _ _ _ _ (ix2 0 q) fun a => by
    match a with
    | ⟨0, _⟩ => rfl
    | ⟨1, _⟩ => rfl).trans
  (broadcastInDim_apply _ _ _ _ (ix1 q) fun a => by
    match a with
    | ⟨0, _⟩ => rfl)

/-- A bias vector broadcast along the rows reads its entry at the column. -/
theorem bias21_apply {α : Type} (b : S21.Idx → α) (p : Fin 128) (q : Fin 21) :
    broadcastInDim S128x21 ![0, 1] bcast_S1x21_S128x21_0_1 (broadcastInDim S1x21 ![1] bcast_S21_S1x21_1 b) (ix2 p q) = b (ix1 q) :=
  (broadcastInDim_apply _ _ _ _ (ix2 0 q) fun a => by
    match a with
    | ⟨0, _⟩ => rfl
    | ⟨1, _⟩ => rfl).trans
  (broadcastInDim_apply _ _ _ _ (ix1 q) fun a => by
    match a with
    | ⟨0, _⟩ => rfl)

/-- A bias vector broadcast along the rows reads its entry at the column. -/
theorem bias84_apply {α : Type} (b : S84.Idx → α) (p : Fin 128) (q : Fin 84) :
    broadcastInDim S128x84 ![0, 1] bcast_S1x84_S128x84_0_1 (broadcastInDim S1x84 ![1] bcast_S84_S1x84_1 b) (ix2 p q) = b (ix1 q) :=
  (broadcastInDim_apply _ _ _ _ (ix2 0 q) fun a => by
    match a with
    | ⟨0, _⟩ => rfl
    | ⟨1, _⟩ => rfl).trans
  (broadcastInDim_apply _ _ _ _ (ix1 q) fun a => by
    match a with
    | ⟨0, _⟩ => rfl)

/-- The splat of the zero word is the extended real `0` at every entry. -/
theorem zero4096_apply (p : Fin 128) (q : Fin 4096) :
    broadcastInDim S128x4096 ![] bcast_S_S128x4096 (constant (F := Ideal) S_ .f32 0x00000000#32) (ix2 p q) = 0 :=
  (broadcastInDim_apply _ _ _ _ ix0 fun a => a.elim0).trans Ideal.ofBits_zero_f32

/-- The product's entry is the sum over the contracted axis: these dimension numbers are the plain matrix product's. -/
theorem fc6R_dot (X : FVec Ideal S128x25088 .f32) (W : FVec Ideal S25088x4096 .f32) (p : Fin 128) (q : Fin 4096) :
    Host.dotGeneral dot_S128x25088_S25088x4096_S128x4096_1_0_0_1_n_n none X W (ix2 p q) = ∑ κ : Fin 25088, X (ix2 p κ) * W (ix2 κ q) :=
  Cert.LibPlainDot.dotGeneral_plain (M := 128) (K := 25088) (N := 4096) none .single X W p q

/-- The product's entry is the sum over the contracted axis: these dimension numbers are the plain matrix product's. -/
theorem fc7R_dot (X : FVec Ideal S128x4096 .f32) (W : FVec Ideal S4096x4096 .f32) (p : Fin 128) (q : Fin 4096) :
    Host.dotGeneral dot_S128x4096_S4096x4096_S128x4096_1_0_0_1_n_n none X W (ix2 p q) = ∑ κ : Fin 4096, X (ix2 p κ) * W (ix2 κ q) :=
  Cert.LibPlainDot.dotGeneral_plain (M := 128) (K := 4096) (N := 4096) none .single X W p q

/-- The product's entry is the sum over the contracted axis: these dimension numbers are the plain matrix product's. -/
theorem logitsR_dot (X : FVec Ideal S128x4096 .f32) (W : FVec Ideal S4096x21 .f32) (p : Fin 128) (q : Fin 21) :
    Host.dotGeneral dot_S128x4096_S4096x21_S128x21_1_0_0_1_n_n none X W (ix2 p q) = ∑ κ : Fin 4096, X (ix2 p κ) * W (ix2 κ q) :=
  Cert.LibPlainDot.dotGeneral_plain (M := 128) (K := 4096) (N := 21) none .single X W p q

/-- The product's entry is the sum over the contracted axis: these dimension numbers are the plain matrix product's. -/
theorem bboxR_dot (X : FVec Ideal S128x4096 .f32) (W : FVec Ideal S4096x84 .f32) (p : Fin 128) (q : Fin 84) :
    Host.dotGeneral dot_S128x4096_S4096x84_S128x84_1_0_0_1_n_n none X W (ix2 p q) = ∑ κ : Fin 4096, X (ix2 p κ) * W (ix2 κ q) :=
  Cert.LibPlainDot.dotGeneral_plain (M := 128) (K := 4096) (N := 84) none .single X W p q

theorem fc6_apply (X : FVec Ideal S128x25088 .f32) (W : FVec Ideal S25088x4096 .f32) (b : FVec Ideal S4096 .f32) (p : Fin 128) (col : Fin 4096) :
    fc6R X W b (ix2 p col) = max ((∑ κ : Fin 25088, X (ix2 p κ) * W (ix2 κ col)) + b (ix1 col)) 0 := by
  unfold fc6R
  exact congrArg₂ max (congrArg₂ (· + ·) (fc6R_dot X W p col) (bias4096_apply b p col)) (zero4096_apply p col)

theorem fc7_apply (X : FVec Ideal S128x4096 .f32) (W : FVec Ideal S4096x4096 .f32) (b : FVec Ideal S4096 .f32) (p : Fin 128) (col : Fin 4096) :
    fc7R X W b (ix2 p col) = max ((∑ κ : Fin 4096, X (ix2 p κ) * W (ix2 κ col)) + b (ix1 col)) 0 := by
  unfold fc7R
  exact congrArg₂ max (congrArg₂ (· + ·) (fc7R_dot X W p col) (bias4096_apply b p col)) (zero4096_apply p col)

theorem logits_apply (X : FVec Ideal S128x4096 .f32) (W : FVec Ideal S4096x21 .f32) (b : FVec Ideal S21 .f32) (p : Fin 128) (q : Fin 21) :
    logitsR X W b (ix2 p q) = (∑ κ : Fin 4096, X (ix2 p κ) * W (ix2 κ q)) + b (ix1 q) := by
  unfold logitsR
  exact congrArg₂ (· + ·) (logitsR_dot X W p q) (bias21_apply b p q)

theorem bbox_apply (X : FVec Ideal S128x4096 .f32) (W : FVec Ideal S4096x84 .f32) (b : FVec Ideal S84 .f32) (p : Fin 128) (q : Fin 84) :
    bboxR X W b (ix2 p q) = (∑ κ : Fin 4096, X (ix2 p κ) * W (ix2 κ q)) + b (ix1 q) := by
  unfold bboxR
  exact congrArg₂ (· + ·) (bboxR_dot X W p q) (bias84_apply b p q)

end Cert.ReferenceIdeal.RefRun

end
-- ==== Proof.Bridge.Final.lean ====
/-
  The two programs return the same array, over the extended reals.

  Both pool the features the same way (taken here as a hypothesis on the pooled features, proved from the
  two host prefixes elsewhere). From there: a product accumulated tile by tile from zero is the whole
  product (sums of extended reals regroup freely), a cast to another float format is the identity, and the
  bias row added at the last tile is the bias added by the reference — so the first and second layers agree
  entry by entry. The kernel's fused heads multiply by the two weight matrices set side by side and padded
  with zero columns; its lanes 0–20 are the reference's class scores and its lanes 21–104 the box
  regressions. Both programs finish with the same row softmax of the class scores and the same
  concatenation.
-/
import proofs.«110125_j48919677501805_2_alg».proof.Proof.KernelIdeal.Entries
import proofs.«110125_j48919677501805_2_alg».proof.Proof.KernelIdeal.Reg0.Closed
import proofs.«110125_j48919677501805_2_alg».proof.Proof.KernelIdeal.Reg1.Closed
import proofs.«110125_j48919677501805_2_alg».proof.Proof.KernelIdeal.Reg2.Closed
import proofs.«110125_j48919677501805_2_alg».proof.Proof.KernelIdeal.Heads
import proofs.«110125_j48919677501805_2_alg».proof.Proof.Ref.Dense
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.Bridge

open Cert.KernelIdeal Cert.KernelIdeal.Gen Cert.KernelIdeal.Run
open Idealize.ShloMosaic Idealize.ShloMosaic.TcCoe Idealize.ShloMosaic.ValueIdx Idealize.SL.Sem Idealize.ShloMosaic.StableHlo
open scoped BigOperators

variable (m : (ℓ : Loc nD τ sig) → Buf (Elt Ideal) ℓ)

/-! ## The kernel program's layers, entry by entry -/

/-- The pooled features, the two hidden layers and the heads' output as the kernel program holds them. -/
abbrev pooledK (c : Dev nD) : FVec Ideal S128x25088 .f32 := V17 m c main_v106
abbrev h1K (c : Dev nD) : FVec Ideal S128x4096 .bf16 := in1 m c main_v110
abbrev h2K (c : Dev nD) : FVec Ideal S128x4096 .bf16 := in2 m c main_v113
abbrev headK (c : Dev nD) : FVec Ideal S128x128 .f32 := V26 m (outs m) c main_v120

theorem h1K_apply (c : Dev nD) (p : Fin 128) (col : Fin 4096) :
    h1K m c (ix2 p col) = max ((∑ κ : Fin 25088, pooledK m c (ix2 p κ) * ((m ((c : Thread nD τ).loc main_arg2)) : FVec Ideal S25088x4096 .f32) (ix2 κ col))
      + ((m ((c : Thread nD τ).loc main_arg3)) : FVec Ideal S4096 .f32) (ix1 col)) 0 := by
  show (in1 m c main_v110 : FVec Ideal S128x4096 .bf16) (ix2 p col) = _
  rw [e110, out0_eq, Reg0.final]
  show max (Reg0.dotAt (entryOf (in0 m)) c p col + Reg0.Ba (entryOf (in0 m)) c (ix2 0 col)) 0 = _
  have hsum : Reg0.dotAt (entryOf (in0 m)) c p col
      = ∑ κ : Fin 25088, pooledK m c (ix2 p κ) * ((m ((c : Thread nD τ).loc main_arg2)) : FVec Ideal S25088x4096 .f32) (ix2 κ col) := by
    unfold Reg0.dotAt
    refine Finset.sum_congr rfl fun κ _ => ?_
    have hx : Reg0.Xa (entryOf (in0 m)) c (ix2 p κ) = pooledK m c (ix2 p κ) := by
      show (V17 m c main_v107 : FVec Ideal S128x25088 .bf16) (ix2 p κ) = _
      rw [e107]
      rw [truncf_apply]
    have hw : Reg0.Wa (entryOf (in0 m)) c (ix2 κ col) = ((m ((c : Thread nD τ).loc main_arg2)) : FVec Ideal S25088x4096 .f32) (ix2 κ col) := by
      show (V17 m c main_v108 : FVec Ideal S25088x4096 .bf16) (ix2 κ col) = _
      rw [e108, truncf_apply]
    rw [hx, hw]
  have hb : Reg0.Ba (entryOf (in0 m)) c (ix2 0 col) = ((m ((c : Thread nD τ).loc main_arg3)) : FVec Ideal S4096 .f32) (ix1 col) := by
    show (V17 m c main_v109 : FVec Ideal S1x4096 .f32) (ix2 0 col) = _
    rw [e109]
    exact shapeCast_a_1a_apply _ _ 0 col
  rw [hsum, hb]

theorem h2K_apply (c : Dev nD) (p : Fin 128) (col : Fin 4096) :
    h2K m c (ix2 p col) = max ((∑ κ : Fin 4096, h1K m c (ix2 p κ) * ((m ((c : Thread nD τ).loc main_arg4)) : FVec Ideal S4096x4096 .f32) (ix2 κ col))
      + ((m ((c : Thread nD τ).loc main_arg5)) : FVec Ideal S4096 .f32) (ix1 col)) 0 := by
  show (in2 m c main_v113 : FVec Ideal S128x4096 .bf16) (ix2 p col) = _
  rw [e113, out1_eq, Reg1.final]
  show max (Reg1.dotAt (entryOf (in1 m)) c p col + Reg1.Ba (entryOf (in1 m)) c (ix2 0 col)) 0 = _
  have hsum : Reg1.dotAt (entryOf (in1 m)) c p col
      = ∑ κ : Fin 4096, h1K m c (ix2 p κ) * ((m ((c : Thread nD τ).loc main_arg4)) : FVec Ideal S4096x4096 .f32) (ix2 κ col) := by
    unfold Reg1.dotAt
    refine Finset.sum_congr rfl fun κ _ => ?_
    have hw : Reg1.Wa (entryOf (in1 m)) c (ix2 κ col) = ((m ((c : Thread nD τ).loc main_arg4)) : FVec Ideal S4096x4096 .f32) (ix2 κ col) := by
      show (in1 m c main_v111 : FVec Ideal S4096x4096 .bf16) (ix2 κ col) = _
      rw [e111, truncf_apply]
    rw [hw]
  have hb : Reg1.Ba (entryOf (in1 m)) c (ix2 0 col) = ((m ((c : Thread nD τ).loc main_arg5)) : FVec Ideal S4096 .f32) (ix1 col) := by
    show (in1 m c main_v112 : FVec Ideal S1x4096 .f32) (ix2 0 col) = _
    rw [e112]
    exact shapeCast_a_1a_apply _ _ 0 col
  rw [hsum, hb]

theorem headK_apply (c : Dev nD) (p : Fin 128) (col : Fin 128) :
    headK m c (ix2 p col) = (∑ κ : Fin 4096, h2K m c (ix2 p κ) * Heads.wsb (m ((c : Thread nD τ).loc main_arg6)) (m ((c : Thread nD τ).loc main_arg8)) (ix2 κ col))
      + Heads.bsb (m ((c : Thread nD τ).loc main_arg7)) (m ((c : Thread nD τ).loc main_arg9)) (ix2 0 col) := by
  show (V26 m (outs m) c main_v120 : FVec Ideal S128x128 .f32) (ix2 p col) = _
  rw [e120, out2_eq, Reg2.final]
  show Reg2.dotAt (entryOf (in2 m)) c p col + Reg2.Ba (entryOf (in2 m)) c (ix2 0 col) = _
  have hsum : Reg2.dotAt (entryOf (in2 m)) c p col
      = ∑ κ : Fin 4096, h2K m c (ix2 p κ) * Heads.wsb (m ((c : Thread nD τ).loc main_arg6)) (m ((c : Thread nD τ).loc main_arg8)) (ix2 κ col) := by
    unfold Reg2.dotAt
    refine Finset.sum_congr rfl fun κ _ => ?_
    have hw : Reg2.Wa (entryOf (in2 m)) c (ix2 κ col) = Heads.wsb (m ((c : Thread nD τ).loc main_arg6)) (m ((c : Thread nD τ).loc main_arg8)) (ix2 κ col) := by
      show (in2 m c main_v116 : FVec Ideal S4096x128 .bf16) (ix2 κ col) = _
      rw [e116]
      rfl
    rw [hw]
  have hb : Reg2.Ba (entryOf (in2 m)) c (ix2 0 col) = Heads.bsb (m ((c : Thread nD τ).loc main_arg7)) (m ((c : Thread nD τ).loc main_arg9)) (ix2 0 col) := by
    show (in2 m c main_v119 : FVec Ideal S1x128 .f32) (ix2 0 col) = _
    rw [e119]
    rfl
  rw [hsum, hb]

/-! ## Against the reference, layer by layer

The reference's stage values enter as variables with their defining equations (the reference's stage equations,
supplied where the claim is assembled), its arguments as variables equal to the kernel program's. -/

section
variable (c : Dev nD)
  (XR : FVec Ideal Cert.ReferenceIdeal.S128x25088 .f32) (H1R H2R : FVec Ideal Cert.ReferenceIdeal.S128x4096 .f32)
  (LR : FVec Ideal Cert.ReferenceIdeal.S128x21 .f32) (BR : FVec Ideal Cert.ReferenceIdeal.S128x84 .f32) (OUT : FVec Ideal Cert.ReferenceIdeal.S128x105 .f32)
  (W6 : FVec Ideal Cert.ReferenceIdeal.S25088x4096 .f32) (b6 : FVec Ideal Cert.ReferenceIdeal.S4096 .f32) (W7 : FVec Ideal Cert.ReferenceIdeal.S4096x4096 .f32) (b7 : FVec Ideal Cert.ReferenceIdeal.S4096 .f32)
  (Ws : FVec Ideal Cert.ReferenceIdeal.S4096x21 .f32) (bs : FVec Ideal Cert.ReferenceIdeal.S21 .f32) (Wb : FVec Ideal Cert.ReferenceIdeal.S4096x84 .f32) (bb : FVec Ideal Cert.ReferenceIdeal.S84 .f32)
  (e1 : H1R = Cert.ReferenceIdeal.RefRun.fc6R XR W6 b6) (e2 : H2R = Cert.ReferenceIdeal.RefRun.fc7R H1R W7 b7) (e3 : LR = Cert.ReferenceIdeal.RefRun.logitsR H2R Ws bs) (e4 : BR = Cert.ReferenceIdeal.RefRun.bboxR H2R Wb bb)
  (eo : OUT = concatenate Cert.ReferenceIdeal.S128x105 1 [⟨Cert.ReferenceIdeal.S128x21, Cert.ReferenceIdeal.RefRun.softmaxRows (F := Ideal) LR⟩, ⟨Cert.ReferenceIdeal.S128x84, BR⟩] Cert.ReferenceIdeal.Facts₀.concatenates_S128x21_S128x84_S128x105_d1)
  (hpool : ∀ (p : Fin 128) (κ : Fin 25088), XR (ix2 p κ) = pooledK m c (ix2 p κ))
  (a2 : W6 = (m ((c : Thread nD τ).loc main_arg2))) (a3 : b6 = (m ((c : Thread nD τ).loc main_arg3)))
  (a4 : W7 = (m ((c : Thread nD τ).loc main_arg4))) (a5 : b7 = (m ((c : Thread nD τ).loc main_arg5)))
  (a6 : Ws = (m ((c : Thread nD τ).loc main_arg6))) (a7 : bs = (m ((c : Thread nD τ).loc main_arg7)))
  (a8 : Wb = (m ((c : Thread nD τ).loc main_arg8))) (a9 : bb = (m ((c : Thread nD τ).loc main_arg9)))

include e1 hpool a2 a3 in
theorem layer1 (p : Fin 128) (col : Fin 4096) : H1R (ix2 p col) = h1K m c (ix2 p col) := by
  rw [e1, Cert.ReferenceIdeal.RefRun.fc6_apply, h1K_apply, a2, a3]
  simp only [hpool]

include e1 e2 hpool a2 a3 a4 a5 in
theorem layer2 (p : Fin 128) (col : Fin 4096) : H2R (ix2 p col) = h2K m c (ix2 p col) := by
  rw [e2, Cert.ReferenceIdeal.RefRun.fc7_apply, h2K_apply, a4, a5]
  simp only [layer1 m c XR H1R W6 b6 e1 hpool a2 a3]

include e1 e2 e3 hpool a2 a3 a4 a5 a6 a7 in
/-- The class scores are lanes 0–20 of the heads' output. -/
theorem scores (p : Fin 128) (q : Fin 21) :
    LR (ix2 p q) = extractStridedSlice S128x21 ![0, 0] (headK m c) slices_S128x128_S128x21_0_0 (ix2 p q) := by
  rw [e3, Cert.ReferenceIdeal.RefRun.logits_apply, Heads.slice21_apply, headK_apply, Heads.bsb_left, a6, a7]
  simp only [layer2 m c XR H1R H2R W6 b6 W7 b7 e1 e2 hpool a2 a3 a4 a5, Heads.wsb_left]

include e1 e2 e4 hpool a2 a3 a4 a5 a8 a9 in
/-- The box regressions are lanes 21–104 of the heads' output. -/
theorem boxes (p : Fin 128) (q : Fin 84) :
    BR (ix2 p q) = extractStridedSlice S128x84 ![0, 21] (headK m c) slices_S128x128_S128x84_0_21 (ix2 p q) := by
  rw [e4, Cert.ReferenceIdeal.RefRun.bbox_apply, Heads.slice84_apply, headK_apply, Heads.bsb_right, a8, a9]
  simp only [layer2 m c XR H1R H2R W6 b6 W7 b7 e1 e2 hpool a2 a3 a4 a5, Heads.wsb_right]

/-- Both programs finish the same way: the row softmax of the class scores beside the box regressions. -/
theorem tail_same (l : FVec Ideal S128x21 .f32) (b : FVec Ideal S128x84 .f32) :
    concatenate Cert.ReferenceIdeal.S128x105 1 [⟨Cert.ReferenceIdeal.S128x21, Cert.ReferenceIdeal.RefRun.softmaxRows (F := Ideal) l⟩, ⟨Cert.ReferenceIdeal.S128x84, b⟩] Cert.ReferenceIdeal.Facts₀.concatenates_S128x21_S128x84_S128x105_d1
      = concatenate S128x105 1 [⟨S128x21, softmaxRowsK (F := Ideal) l⟩, ⟨S128x84, b⟩] concatenates_S128x21_S128x84_S128x105_d1 := rfl

include e1 e2 e3 e4 eo hpool a2 a3 a4 a5 a6 a7 a8 a9 in
/-- The reference's result is the kernel program's. -/
theorem result_eq : OUT = (V27 m (outs m) c main_v134 : FVec Ideal S128x105 .f32) := by
  have hl : LR = extractStridedSlice S128x21 ![0, 0] (headK m c) slices_S128x128_S128x21_0_0 :=
    funext fun j => by
      obtain ⟨p, q, rfl⟩ : ∃ (p : Fin 128) (q : Fin 21), j = ix2 p q := ⟨j 0, j 1, eq_ix2 j⟩
      exact scores m c XR H1R H2R LR W6 b6 W7 b7 Ws bs e1 e2 e3 hpool a2 a3 a4 a5 a6 a7 p q
  have hb : BR = extractStridedSlice S128x84 ![0, 21] (headK m c) slices_S128x128_S128x84_0_21 :=
    funext fun j => by
      obtain ⟨p, q, rfl⟩ : ∃ (p : Fin 128) (q : Fin 84), j = ix2 p q := ⟨j 0, j 1, eq_ix2 j⟩
      exact boxes m c XR H1R H2R BR W6 b6 W7 b7 Wb bb e1 e2 e4 hpool a2 a3 a4 a5 a8 a9 p q
  rw [eo, eOut, hl, hb]
  exact tail_same _ _

end

end Cert.Bridge

end
-- ==== Proof.Bridge.RefCut.lean ====
/- The reference's operation list cut at narrow places of its dataflow — after `main_v19`, `main_v29`, `main_v42`,
   `main_v51`, `main_v64`, `main_v83`, `main_v102` and `main_v106` —, where few buffers written so far are still read
   later. Each buffer is written once, so what the whole fold holds at one of these buffers is a pure term of what
   it holds at the buffers its piece reads from earlier pieces (or of the arguments): the piece's own reading of
   it, with every later piece leaving it alone. -/
import proofs.«110125_j48919677501805_2_alg».proof.Proof.Ref.Run

set_option maxRecDepth 2048

noncomputable section

namespace Cert.Bridge.Ref

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-! ## The pieces -/

/-- 23 operations: the values from `main_v0` to `main_v19`. -/
abbrev rP1 : List (HloOp τ sig (Elt F)) :=
  [ StableHlo.reshape main_arg0 main_v0 rfl shapeCasts_S1x512x32x32_S512x32x32,
    StableHlo.unary main_arg1 main_v1 ((extractStridedSlice S128x4 ![0, 1] · slices_S128x5_S128x4_0_1) : (⟨S128x5, .f32⟩ : BufTy).Contents (Elt F) → (⟨S128x4, .f32⟩ : BufTy).Contents (Elt F)),
    StableHlo.nullary main_cst (constant S_ .f32 0x3D800000#32),
    StableHlo.unary main_cst main_v2 (broadcastInDim S128x4 ![] bcast_S_S128x4 : (⟨S_, .f32⟩ : BufTy).Contents (Elt F) → (⟨S128x4, .f32⟩ : BufTy).Contents (Elt F)),
    StableHlo.binary main_v1 main_v2 main_v3 (mulf : (⟨S128x4, .f32⟩ : BufTy).Contents (Elt F) → (⟨S128x4, .f32⟩ : BufTy).Contents (Elt F) → (⟨S128x4, .f32⟩ : BufTy).Contents (Elt F)),
    StableHlo.unary main_v3 main_v4 (Host.floor : (⟨S128x4, .f32⟩ : BufTy).Contents (Elt F) → (⟨S128x4, .f32⟩ : BufTy).Contents (Elt F)),
    StableHlo.unary main_v4 main_v5 (fptosi 32 : (⟨S128x4, .f32⟩ : BufTy).Contents (Elt F) → (⟨S128x4, .i32⟩ : BufTy).Contents (Elt F)),
    StableHlo.unary main_v5 main_v6 ((extractStridedSlice S128x1 ![0, 0] · slices_S128x4_S128x1_0_0) : (⟨S128x4, .i32⟩ : BufTy).Contents (Elt F) → (⟨S128x1, .i32⟩ : BufTy).Contents (Elt F)),
    StableHlo.reshape main_v6 main_v7 rfl shapeCasts_S128x1_S128,
    StableHlo.unary main_v5 main_v8 ((extractStridedSlice S128x1 ![0, 1] · slices_S128x4_S128x1_0_1) : (⟨S128x4, .i32⟩ : BufTy).Contents (Elt F) → (⟨S128x1, .i32⟩ : BufTy).Contents (Elt F)),
    StableHlo.reshape main_v8 main_v9 rfl shapeCasts_S128x1_S128,
    StableHlo.unary main_v5 main_v10 ((extractStridedSlice S128x1 ![0, 2] · slices_S128x4_S128x1_0_2) : (⟨S128x4, .i32⟩ : BufTy).Contents (Elt F) → (⟨S128x1, .i32⟩ : BufTy).Contents (Elt F)),
    StableHlo.reshape main_v10 main_v11 rfl shapeCasts_S128x1_S128,
    StableHlo.unary main_v5 main_v12 ((extractStridedSlice S128x1 ![0, 3] · slices_S128x4_S128x1_0_3) : (⟨S128x4, .i32⟩ : BufTy).Contents (Elt F) → (⟨S128x1, .i32⟩ : BufTy).Contents (Elt F)),
    StableHlo.reshape main_v12 main_v13 rfl shapeCasts_S128x1_S128,
    StableHlo.binary main_v13 main_v9 main_v14 (subi : (⟨S128, .i32⟩ : BufTy).Contents (Elt F) → (⟨S128, .i32⟩ : BufTy).Contents (Elt F) → (⟨S128, .i32⟩ : BufTy).Contents (Elt F)),
    StableHlo.nullary main_c (constantI S_ 32 1#32),
    StableHlo.unary main_c main_v15 (broadcastInDim S128 ![] bcast_S_S128 : (⟨S_, .i32⟩ : BufTy).Contents (Elt F) → (⟨S128, .i32⟩ : BufTy).Contents (Elt F)),
    StableHlo.binary main_v14 main_v15 main_v16 (addi : (⟨S128, .i32⟩ : BufTy).Contents (Elt F) → (⟨S128, .i32⟩ : BufTy).Contents (Elt F) → (⟨S128, .i32⟩ : BufTy).Contents (Elt F)),
    StableHlo.binary main_v11 main_v7 main_v17 (subi : (⟨S128, .i32⟩ : BufTy).Contents (Elt F) → (⟨S128, .i32⟩ : BufTy).Contents (Elt F) → (⟨S128, .i32⟩ : BufTy).Contents (Elt F)),
    StableHlo.nullary main_c_0 (constantI S_ 32 1#32),
    StableHlo.unary main_c_0 main_v18 (broadcastInDim S128 ![] bcast_S_S128 : (⟨S_, .i32⟩ : BufTy).Contents (Elt F) → (⟨S128, .i32⟩ : BufTy).Contents (Elt F)),
    StableHlo.binary main_v17 main_v18 main_v19 (addi : (⟨S128, .i32⟩ : BufTy).Contents (Elt F) → (⟨S128, .i32⟩ : BufTy).Contents (Elt F) → (⟨S128, .i32⟩ : BufTy).Contents (Elt F)) ]

/-- 27 operations: the values from `main_v20` to `main_v29`. -/
abbrev rP2 : List (HloOp τ sig (Elt F)) :=
  [ StableHlo.nullary main_v20 (iotaInDim S7 32 0),
    StableHlo.unary main_v9 main_v21 (broadcastInDim S128x1 ![0] bcast_S128_S128x1_0 : (⟨S128, .i32⟩ : BufTy).Contents (Elt F) → (⟨S128x1, .i32⟩ : BufTy).Contents (Elt F)),
    StableHlo.unary main_v20 main_v22 (broadcastInDim S1x7 ![1] bcast_S7_S1x7_1 : (⟨S7, .i32⟩ : BufTy).Contents (Elt F) → (⟨S1x7, .i32⟩ : BufTy).Contents (Elt F)),
    StableHlo.unary main_v16 main_v23 (broadcastInDim S128x1 ![0] bcast_S128_S128x1_0 : (⟨S128, .i32⟩ : BufTy).Contents (Elt F) → (⟨S128x1, .i32⟩ : BufTy).Contents (Elt F)),
    StableHlo.unary main_v22 main_v24 (broadcastInDim S128x7 ![0, 1] bcast_S1x7_S128x7_0_1 : (⟨S1x7, .i32⟩ : BufTy).Contents (Elt F) → (⟨S128x7, .i32⟩ : BufTy).Contents (Elt F)),
    StableHlo.unary main_v23 main_v25 (broadcastInDim S128x7 ![0, 1] bcast_S128x1_S128x7_0_1 : (⟨S128x1, .i32⟩ : BufTy).Contents (Elt F) → (⟨S128x7, .i32⟩ : BufTy).Contents (Elt F)),
    StableHlo.binary main_v24 main_v25 main_v26 (muli : (⟨S128x7, .i32⟩ : BufTy).Contents (Elt F) → (⟨S128x7, .i32⟩ : BufTy).Contents (Elt F) → (⟨S128x7, .i32⟩ : BufTy).Contents (Elt F)),
    StableHlo.nullary main_c_1 (constantI S_ 32 7#32),
    StableHlo.TRef.unary (.of main_c_1 : StableHlo.TRef sig ⟨S_, .i32⟩) main_call0.v0 id,
    StableHlo.TRef.unary main_call0.v0 main_call0.v1 (broadcastInDim S128x7 ![] bcast_S_S128x7),
    StableHlo.TRef.binary (.of main_v26 : StableHlo.TRef sig ⟨S128x7, .i32⟩) main_call0.v1 main_call0.v2 Host.divsi,
    StableHlo.TRef.unary (.of main_v26 : StableHlo.TRef sig ⟨S128x7, .i32⟩) main_call0.v3 signi,
    StableHlo.TRef.unary main_call0.v0 main_call0.v4 signi,
    StableHlo.TRef.unary main_call0.v4 main_call0.v5 (broadcastInDim S128x7 ![] bcast_S_S128x7),
    StableHlo.TRef.binary main_call0.v3 main_call0.v5 main_call0.v6 (cmpi .ne),
    StableHlo.TRef.unary main_call0.v0 main_call0.v7 (broadcastInDim S128x7 ![] bcast_S_S128x7),
    StableHlo.TRef.binary (.of main_v26 : StableHlo.TRef sig ⟨S128x7, .i32⟩) main_call0.v7 main_call0.v8 Host.remsi,
    StableHlo.TRef.nullary main_call0.c (constantI S_ 32 0#32),
    StableHlo.TRef.unary main_call0.c main_call0.v9 (broadcastInDim S128x7 ![] bcast_S_S128x7),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S128x7 ![] bcast_S_S128x7),
    StableHlo.TRef.binary main_call0.v2 main_call0.v12 main_call0.v13 subi,
    StableHlo.TRef.ternary main_call0.v11 main_call0.v13 main_call0.v2 main_call0.call0.v0 select,
    StableHlo.unary main_v21 main_v28 (broadcastInDim S128x7 ![0, 1] bcast_S128x1_S128x7_0_1 : (⟨S128x1, .i32⟩ : BufTy).Contents (Elt F) → (⟨S128x7, .i32⟩ : BufTy).Contents (Elt F)),
    StableHlo.binary main_v28 main_v27 main_v29 (addi : (⟨S128x7, .i32⟩ : BufTy).Contents (Elt F) → (⟨S128x7, .i32⟩ : BufTy).Contents (Elt F) → (⟨S128x7, .i32⟩ : BufTy).Contents (Elt F)) ]

/-- 32 operations: the values from `main_v30` to `main_v42`. -/
abbrev rP3 : List (HloOp τ sig (Elt F)) :=
  [ StableHlo.unary main_v9 main_v30 (broadcastInDim S128x1 ![0] bcast_S128_S128x1_0 : (⟨S128, .i32⟩ : BufTy).Contents (Elt F) → (⟨S128x1, .i32⟩ : BufTy).Contents (Elt F)),
    StableHlo.unary main_v20 main_v31 (broadcastInDim S1x7 ![1] bcast_S7_S1x7_1 : (⟨S7, .i32⟩ : BufTy).Contents (Elt F) → (⟨S1x7, .i32⟩ : BufTy).Contents (Elt F)),
    StableHlo.nullary main_c_2 (constantI S_ 32 1#32),
    StableHlo.unary main_c_2 main_v32 (broadcastInDim S1x7 ![] bcast_S_S1x7 : (⟨S_, .i32⟩ : BufTy).Contents (Elt F) → (⟨S1x7, .i32⟩ : BufTy).Contents (Elt F)),
    StableHlo.binary main_v31 main_v32 main_v33 (addi : (⟨S1x7, .i32⟩ : BufTy).Contents (Elt F) → (⟨S1x7, .i32⟩ : BufTy).Contents (Elt F) → (⟨S1x7, .i32⟩ : BufTy).Contents (Elt F)),
    StableHlo.unary main_v16 main_v34 (broadcastInDim S128x1 ![0] bcast_S128_S128x1_0 : (⟨S128, .i32⟩ : BufTy).Contents (Elt F) → (⟨S128x1, .i32⟩ : BufTy).Contents (Elt F)),
    StableHlo.unary main_v33 main_v35 (broadcastInDim S128x7 ![0, 1] bcast_S1x7_S128x7_0_1 : (⟨S1x7, .i32⟩ : BufTy).Contents (Elt F) → (⟨S128x7, .i32⟩ : BufTy).Contents (Elt F)),
    StableHlo.unary main_v34 main_v36 (broadcastInDim S128x7 ![0, 1] bcast_S128x1_S128x7_0_1 : (⟨S128x1, .i32⟩ : BufTy).Contents (Elt F) → (⟨S128x7, .i32⟩ : BufTy).Contents (Elt F)),
    StableHlo.binary main_v35 main_v36 main_v37 (muli : (⟨S128x7, .i32⟩ : BufTy).Contents (Elt F) → (⟨S128x7, .i32⟩ : BufTy).Contents (Elt F) → (⟨S128x7, .i32⟩ : BufTy).Contents (Elt F)),
    StableHlo.nullary main_c_3 (constantI S_ 32 6#32),
    StableHlo.unary main_c_3 main_v38 (broadcastInDim S128x7 ![] bcast_S_S128x7 : (⟨S_, .i32⟩ : BufTy).Contents (Elt F) → (⟨S128x7, .i32⟩ : BufTy).Contents (Elt F)),
    StableHlo.binary main_v37 main_v38 main_v39 (addi : (⟨S128x7, .i32⟩ : BufTy).Contents (Elt F) → (⟨S128x7, .i32⟩ : BufTy).Contents (Elt F) → (⟨S128x7, .i32⟩ : BufTy).Contents (Elt F)),
    StableHlo.nullary main_c_4 (constantI S_ 32 7#32),
    StableHlo.TRef.unary (.of main_c_4 : StableHlo.TRef sig ⟨S_, .i32⟩) main_call1.v0 id,
    StableHlo.TRef.unary main_call1.v0 main_call1.v1 (broadcastInDim S128x7 ![] bcast_S_S128x7),
    StableHlo.TRef.binary (.of main_v39 : StableHlo.TRef sig ⟨S128x7, .i32⟩) main_call1.v1 main_call1.v2 Host.divsi,
    StableHlo.TRef.unary (.of main_v39 : StableHlo.TRef sig ⟨S128x7, .i32⟩) main_call1.v3 signi,
    StableHlo.TRef.unary main_call1.v0 main_call1.v4 signi,
    StableHlo.TRef.unary main_call1.v4 main_call1.v5 (broadcastInDim S128x7 ![] bcast_S_S128x7),
    StableHlo.TRef.binary main_call1.v3 main_call1.v5 main_call1.v6 (cmpi .ne),
    StableHlo.TRef.unary main_call1.v0 main_call1.v7 (broadcastInDim S128x7 ![] bcast_S_S128x7),
    StableHlo.TRef.binary (.of main_v39 : StableHlo.TRef sig ⟨S128x7, .i32⟩) main_call1.v7 main_call1.v8 Host.remsi,
    StableHlo.TRef.nullary main_call1.c (constantI S_ 32 0#32),
    StableHlo.TRef.unary main_call1.c main_call1.v9 (broadcastInDim S128x7 ![] bcast_S_S128x7),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S128x7 ![] bcast_S_S128x7),
    StableHlo.TRef.binary main_call1.v2 main_call1.v12 main_call1.v13 subi,
    StableHlo.TRef.ternary main_call1.v11 main_call1.v13 main_call1.v2 main_call1.call0.v0 select,
    StableHlo.unary main_v30 main_v41 (broadcastInDim S128x7 ![0, 1] bcast_S128x1_S128x7_0_1 : (⟨S128x1, .i32⟩ : BufTy).Contents (Elt F) → (⟨S128x7, .i32⟩ : BufTy).Contents (Elt F)),
    StableHlo.binary main_v41 main_v40 main_v42 (addi : (⟨S128x7, .i32⟩ : BufTy).Contents (Elt F) → (⟨S128x7, .i32⟩ : BufTy).Contents (Elt F) → (⟨S128x7, .i32⟩ : BufTy).Contents (Elt F)) ]

/-- 26 operations: the values from `main_v43` to `main_v51`. -/
abbrev rP4 : List (HloOp τ sig (Elt F)) :=
  [ StableHlo.unary main_v7 main_v43 (broadcastInDim S128x1 ![0] bcast_S128_S128x1_0 : (⟨S128, .i32⟩ : BufTy).Contents (Elt F) → (⟨S128x1, .i32⟩ : BufTy).Contents (Elt F)),
    StableHlo.unary main_v20 main_v44 (broadcastInDim S1x7 ![1] bcast_S7_S1x7_1 : (⟨S7, .i32⟩ : BufTy).Contents (Elt F) → (⟨S1x7, .i32⟩ : BufTy).Contents (Elt F)),
    StableHlo.unary main_v19 main_v45 (broadcastInDim S128x1 ![0] bcast_S128_S128x1_0 : (⟨S128, .i32⟩ : BufTy).Contents (Elt F) → (⟨S128x1, .i32⟩ : BufTy).Contents (Elt F)),
    StableHlo.unary main_v44 main_v46 (broadcastInDim S128x7 ![0, 1] bcast_S1x7_S128x7_0_1 : (⟨S1x7, .i32⟩ : BufTy).Contents (Elt F) → (⟨S128x7, .i32⟩ : BufTy).Contents (Elt F)),
    StableHlo.unary main_v45 main_v47 (broadcastInDim S128x7 ![0, 1] bcast_S128x1_S128x7_0_1 : (⟨S128x1, .i32⟩ : BufTy).Contents (Elt F) → (⟨S128x7, .i32⟩ : BufTy).Contents (Elt F)),
    StableHlo.binary main_v46 main_v47 main_v48 (muli : (⟨S128x7, .i32⟩ : BufTy).Contents (Elt F) → (⟨S128x7, .i32⟩ : BufTy).Contents (Elt F) → (⟨S128x7, .i32⟩ : BufTy).Contents (Elt F)),
    StableHlo.nullary main_c_5 (constantI S_ 32 7#32),
    StableHlo.TRef.unary (.of main_c_5 : StableHlo.TRef sig ⟨S_, .i32⟩) main_call2.v0 id,
    StableHlo.TRef.unary main_call2.v0 main_call2.v1 (broadcastInDim S128x7 ![] bcast_S_S128x7),
    StableHlo.TRef.binary (.of main_v48 : StableHlo.TRef sig ⟨S128x7, .i32⟩) main_call2.v1 main_call2.v2 Host.divsi,
    StableHlo.TRef.unary (.of main_v48 : StableHlo.TRef sig ⟨S128x7, .i32⟩) main_call2.v3 signi,
    StableHlo.TRef.unary main_call2.v0 main_call2.v4 signi,
    StableHlo.TRef.unary main_call2.v4 main_call2.v5 (broadcastInDim S128x7 ![] bcast_S_S128x7),
    StableHlo.TRef.binary main_call2.v3 main_call2.v5 main_call2.v6 (cmpi .ne),
    StableHlo.TRef.unary main_call2.v0 main_call2.v7 (broadcastInDim S128x7 ![] bcast_S_S128x7),
    StableHlo.TRef.binary (.of main_v48 : StableHlo.TRef sig ⟨S128x7, .i32⟩) main_call2.v7 main_call2.v8 Host.remsi,
    StableHlo.TRef.nullary main_call2.c (constantI S_ 32 0#32),
    StableHlo.TRef.unary main_call2.c main_call2.v9 (broadcastInDim S128x7 ![] bcast_S_S128x7),
    StableHlo.TRef.binary main_call2.v8 main_call2.v9 main_call2.v10 (cmpi .ne),
    StableHlo.TRef.binary main_call2.v6 main_call2.v10 main_call2.v11 andi,
    StableHlo.TRef.nullary main_call2.c_0 (constantI S_ 32 1#32),
    StableHlo.TRef.unary main_call2.c_0 main_call2.v12 (broadcastInDim S128x7 ![] bcast_S_S128x7),
    StableHlo.TRef.binary main_call2.v2 main_call2.v12 main_call2.v13 subi,
    StableHlo.TRef.ternary main_call2.v11 main_call2.v13 main_call2.v2 main_call2.call0.v0 select,
    StableHlo.unary main_v43 main_v50 (broadcastInDim S128x7 ![0, 1] bcast_S128x1_S128x7_0_1 : (⟨S128x1, .i32⟩ : BufTy).Contents (Elt F) → (⟨S128x7, .i32⟩ : BufTy).Contents (Elt F)),
    StableHlo.binary main_v50 main_v49 main_v51 (addi : (⟨S128x7, .i32⟩ : BufTy).Contents (Elt F) → (⟨S128x7, .i32⟩ : BufTy).Contents (Elt F) → (⟨S128x7, .i32⟩ : BufTy).Contents (Elt F)) ]

/-- 32 operations: the values from `main_v52` to `main_v64`. -/
abbrev rP5 : List (HloOp τ sig (Elt F)) :=
  [ StableHlo.unary main_v7 main_v52 (broadcastInDim S128x1 ![0] bcast_S128_S128x1_0 : (⟨S128, .i32⟩ : BufTy).Contents (Elt F) → (⟨S128x1, .i32⟩ : BufTy).Contents (Elt F)),
    StableHlo.unary main_v20 main_v53 (broadcastInDim S1x7 ![1] bcast_S7_S1x7_1 : (⟨S7, .i32⟩ : BufTy).Contents (Elt F) → (⟨S1x7, .i32⟩ : BufTy).Contents (Elt F)),
    StableHlo.nullary main_c_6 (constantI S_ 32 1#32),
    StableHlo.unary main_c_6 main_v54 (broadcastInDim S1x7 ![] bcast_S_S1x7 : (⟨S_, .i32⟩ : BufTy).Contents (Elt F) → (⟨S1x7, .i32⟩ : BufTy).Contents (Elt F)),
    StableHlo.binary main_v53 main_v54 main_v55 (addi : (⟨S1x7, .i32⟩ : BufTy).Contents (Elt F) → (⟨S1x7, .i32⟩ : BufTy).Contents (Elt F) → (⟨S1x7, .i32⟩ : BufTy).Contents (Elt F)),
    StableHlo.unary main_v19 main_v56 (broadcastInDim S128x1 ![0] bcast_S128_S128x1_0 : (⟨S128, .i32⟩ : BufTy).Contents (Elt F) → (⟨S128x1, .i32⟩ : BufTy).Contents (Elt F)),
    StableHlo.unary main_v55 main_v57 (broadcastInDim S128x7 ![0, 1] bcast_S1x7_S128x7_0_1 : (⟨S1x7, .i32⟩ : BufTy).Contents (Elt F) → (⟨S128x7, .i32⟩ : BufTy).Contents (Elt F)),
    StableHlo.unary main_v56 main_v58 (broadcastInDim S128x7 ![0, 1] bcast_S128x1_S128x7_0_1 : (⟨S128x1, .i32⟩ : BufTy).Contents (Elt F) → (⟨S128x7, .i32⟩ : BufTy).Contents (Elt F)),
    StableHlo.binary main_v57 main_v58 main_v59 (muli : (⟨S128x7, .i32⟩ : BufTy).Contents (Elt F) → (⟨S128x7, .i32⟩ : BufTy).Contents (Elt F) → (⟨S128x7, .i32⟩ : BufTy).Contents (Elt F)),
    StableHlo.nullary main_c_7 (constantI S_ 32 6#32),
    StableHlo.unary main_c_7 main_v60 (broadcastInDim S128x7 ![] bcast_S_S128x7 : (⟨S_, .i32⟩ : BufTy).Contents (Elt F) → (⟨S128x7, .i32⟩ : BufTy).Contents (Elt F)),
    StableHlo.binary main_v59 main_v60 main_v61 (addi : (⟨S128x7, .i32⟩ : BufTy).Contents (Elt F) → (⟨S128x7, .i32⟩ : BufTy).Contents (Elt F) → (⟨S128x7, .i32⟩ : BufTy).Contents (Elt F)),
    StableHlo.nullary main_c_8 (constantI S_ 32 7#32),
    StableHlo.TRef.unary (.of main_c_8 : StableHlo.TRef sig ⟨S_, .i32⟩) main_call3.v0 id,
    StableHlo.TRef.unary main_call3.v0 main_call3.v1 (broadcastInDim S128x7 ![] bcast_S_S128x7),
    StableHlo.TRef.binary (.of main_v61 : StableHlo.TRef sig ⟨S128x7, .i32⟩) main_call3.v1 main_call3.v2 Host.divsi,
    StableHlo.TRef.unary (.of main_v61 : StableHlo.TRef sig ⟨S128x7, .i32⟩) main_call3.v3 signi,
    StableHlo.TRef.unary main_call3.v0 main_call3.v4 signi,
    StableHlo.TRef.unary main_call3.v4 main_call3.v5 (broadcastInDim S128x7 ![] bcast_S_S128x7),
    StableHlo.TRef.binary main_call3.v3 main_call3.v5 main_call3.v6 (cmpi .ne),
    StableHlo.TRef.unary main_call3.v0 main_call3.v7 (broadcastInDim S128x7 ![] bcast_S_S128x7),
    StableHlo.TRef.binary (.of main_v61 : StableHlo.TRef sig ⟨S128x7, .i32⟩) main_call3.v7 main_call3.v8 Host.remsi,
    StableHlo.TRef.nullary main_call3.c (constantI S_ 32 0#32),
    StableHlo.TRef.unary main_call3.c main_call3.v9 (broadcastInDim S128x7 ![] bcast_S_S128x7),
    StableHlo.TRef.binary main_call3.v8 main_call3.v9 main_call3.v10 (cmpi .ne),
    StableHlo.TRef.binary main_call3.v6 main_call3.v10 main_call3.v11 andi,
    StableHlo.TRef.nullary main_call3.c_0 (constantI S_ 32 1#32),
    StableHlo.TRef.unary main_call3.c_0 main_call3.v12 (broadcastInDim S128x7 ![] bcast_S_S128x7),
    StableHlo.TRef.binary main_call3.v2 main_call3.v12 main_call3.v13 subi,
    StableHlo.TRef.ternary main_call3.v11 main_call3.v13 main_call3.v2 main_call3.call0.v0 select,
    StableHlo.unary main_v52 main_v63 (broadcastInDim S128x7 ![0, 1] bcast_S128x1_S128x7_0_1 : (⟨S128x1, .i32⟩ : BufTy).Contents (Elt F) → (⟨S128x7, .i32⟩ : BufTy).Contents (Elt F)),
    StableHlo.binary main_v63 main_v62 main_v64 (addi : (⟨S128x7, .i32⟩ : BufTy).Contents (Elt F) → (⟨S128x7, .i32⟩ : BufTy).Contents (Elt F) → (⟨S128x7, .i32⟩ : BufTy).Contents (Elt F)) ]

/-- 31 operations: the values from `main_v65` to `main_v83`. -/
abbrev rP6 : List (HloOp τ sig (Elt F)) :=
  [ StableHlo.unary main_v29 main_v65 (broadcastInDim S128x7x1 ![0, 1] bcast_S128x7_S128x7x1_0_1 : (⟨S128x7, .i32⟩ : BufTy).Contents (Elt F) → (⟨S128x7x1, .i32⟩ : BufTy).Contents (Elt F)),
    StableHlo.nullary main_v66 (iotaInDim S5 32 0),
    StableHlo.unary main_v66 main_v67 (broadcastInDim S1x1x5 ![2] bcast_S5_S1x1x5_2 : (⟨S5, .i32⟩ : BufTy).Contents (Elt F) → (⟨S1x1x5, .i32⟩ : BufTy).Contents (Elt F)),
    StableHlo.unary main_v65 main_v68 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v67 main_v69 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v68 main_v69 main_v70 (addi : (⟨S128x7x5, .i32⟩ : BufTy).Contents (Elt F) → (⟨S128x7x5, .i32⟩ : BufTy).Contents (Elt F) → (⟨S128x7x5, .i32⟩ : BufTy).Contents (Elt F)),
    StableHlo.unary main_v42 main_v71 (broadcastInDim S128x7x1 ![0, 1] bcast_S128x7_S128x7x1_0_1 : (⟨S128x7, .i32⟩ : BufTy).Contents (Elt F) → (⟨S128x7x1, .i32⟩ : BufTy).Contents (Elt F)),
    StableHlo.unary main_v71 main_v72 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v70 main_v72 main_v73 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_9 (constantI S_ 32 0#32),
    StableHlo.nullary main_c_10 (constantI S_ 32 31#32),
    StableHlo.TRef.unary (.of main_c_9 : StableHlo.TRef sig ⟨S_, .i32⟩) main_call4.v0 id,
    StableHlo.TRef.unary main_call4.v0 main_call4.v1 (broadcastInDim S128x7x5 ![] bcast_S_S128x7x5),
    StableHlo.TRef.binary main_call4.v1 (.of main_v70 : StableHlo.TRef sig ⟨S128x7x5, .i32⟩) main_call4.v2 maxsi,
    StableHlo.TRef.unary (.of main_c_10 : StableHlo.TRef sig ⟨S_, .i32⟩) main_call4.v3 id,
    StableHlo.TRef.unary main_call4.v3 main_call4.v4 (broadcastInDim S128x7x5 ![] bcast_S_S128x7x5),
    StableHlo.TRef.binary main_call4.v4 main_call4.v2 main_call4.v5 minsi,
    StableHlo.nullary main_c_11 (constantI S_ 32 0#32),
    StableHlo.unary main_c_11 main_v75 (broadcastInDim S128x7x5 ![] bcast_S_S128x7x5 : (⟨S_, .i32⟩ : BufTy).Contents (Elt F) → (⟨S128x7x5, .i32⟩ : BufTy).Contents (Elt F)),
    StableHlo.binary main_v74 main_v75 main_v76 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_12 (constantI S_ 32 32#32),
    StableHlo.unary main_c_12 main_v77 (broadcastInDim S128x7x5 ![] bcast_S_S128x7x5 : (⟨S_, .i32⟩ : BufTy).Contents (Elt F) → (⟨S128x7x5, .i32⟩ : BufTy).Contents (Elt F)),
    StableHlo.binary main_v74 main_v77 main_v78 (addi : (⟨S128x7x5, .i32⟩ : BufTy).Contents (Elt F) → (⟨S128x7x5, .i32⟩ : BufTy).Contents (Elt F) → (⟨S128x7x5, .i32⟩ : BufTy).Contents (Elt F)),
    StableHlo.ternary main_v76 main_v78 main_v74 main_v79 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v79 main_v80 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v0 main_v80 main_v81 ((fun x i => Host.gather gather_S512x32x32_S128x7x5x1_S512x128x7x5x32_04_1_n_n_1_3_512132 x i) : (⟨S512x32x32, .f32⟩ : BufTy).Contents (Elt F) → (⟨S128x7x5x1, .i32⟩ : BufTy).Contents (Elt F) → (⟨S512x128x7x5x32, .f32⟩ : BufTy).Contents (Elt F)),
    StableHlo.unary main_v73 main_v82 (broadcastInDim S1x128x7x5x1 ![1, 2, 3] bcast_S128x7x5_S1x128x7x5x1_1_2_3 : (⟨S128x7x5, .i1⟩ : BufTy).Contents (Elt F) → (⟨S1x128x7x5x1, .i1⟩ : BufTy).Contents (Elt F)),
    StableHlo.nullary main_cst_13 (constant S_ .f32 0xFF800000#32),
    StableHlo.TRef.unary (.of main_v82 : StableHlo.TRef sig ⟨S1x128x7x5x1, .i1⟩) main_call5.v0 (broadcastInDim S512x128x7x5x32 ![0, 1, 2, 3, 4] bcast_S1x128x7x5x1_S512x128x7x5x32_0_1_2_3_4),
    StableHlo.TRef.unary (.of main_cst_13 : StableHlo.TRef sig ⟨S_, .f32⟩) main_call5.v1 (broadcastInDim S512x128x7x5x32 ![] bcast_S_S512x128x7x5x32),
    StableHlo.TRef.ternary main_call5.v0 (.of main_v81 : StableHlo.TRef sig ⟨S512x128x7x5x32, .f32⟩) main_call5.v1 main_call5.v2 select ]

/-- 29 operations: the values from `main_cst_14` to `main_v102`. -/
abbrev rP7 : List (HloOp τ sig (Elt F)) :=
  [ StableHlo.nullary main_cst_14 (constant S_ .f32 0xFF800000#32),
    StableHlo.binary main_v83 main_cst_14 main_v84 ((fun x v => Host.reduce FloatOps.maximumf x v reducesTo_S512x128x7x5x32_S512x128x7x32_d3 h_S_) : (⟨S512x128x7x5x32, .f32⟩ : BufTy).Contents (Elt F) → (⟨S_, .f32⟩ : BufTy).Contents (Elt F) → (⟨S512x128x7x32, .f32⟩ : BufTy).Contents (Elt F)),
    StableHlo.unary main_v84 main_v85 ((transpose S128x512x7x32 [1, 0, 2, 3] · transposes_S512x128x7x32_S128x512x7x32_1_0_2_3) : (⟨S512x128x7x32, .f32⟩ : BufTy).Contents (Elt F) → (⟨S128x512x7x32, .f32⟩ : BufTy).Contents (Elt F)),
    StableHlo.unary main_v51 main_v86 (broadcastInDim S128x7x1 ![0, 1] bcast_S128x7_S128x7x1_0_1 : (⟨S128x7, .i32⟩ : BufTy).Contents (Elt F) → (⟨S128x7x1, .i32⟩ : BufTy).Contents (Elt F)),
    StableHlo.nullary main_v87 (iotaInDim S5 32 0),
    StableHlo.unary main_v87 main_v88 (broadcastInDim S1x1x5 ![2] bcast_S5_S1x1x5_2 : (⟨S5, .i32⟩ : BufTy).Contents (Elt F) → (⟨S1x1x5, .i32⟩ : BufTy).Contents (Elt F)),
    StableHlo.unary main_v86 main_v89 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v88 main_v90 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v89 main_v90 main_v91 (addi : (⟨S128x7x5, .i32⟩ : BufTy).Contents (Elt F) → (⟨S128x7x5, .i32⟩ : BufTy).Contents (Elt F) → (⟨S128x7x5, .i32⟩ : BufTy).Contents (Elt F)),
    StableHlo.unary main_v64 main_v92 (broadcastInDim S128x7x1 ![0, 1] bcast_S128x7_S128x7x1_0_1 : (⟨S128x7, .i32⟩ : BufTy).Contents (Elt F) → (⟨S128x7x1, .i32⟩ : BufTy).Contents (Elt F)),
    StableHlo.unary main_v92 main_v93 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v91 main_v93 main_v94 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_15 (constantI S_ 32 0#32),
    StableHlo.nullary main_c_16 (constantI S_ 32 31#32),
    StableHlo.TRef.unary (.of main_c_15 : StableHlo.TRef sig ⟨S_, .i32⟩) main_call6.v0 id,
    StableHlo.TRef.unary main_call6.v0 main_call6.v1 (broadcastInDim S128x7x5 ![] bcast_S_S128x7x5),
    StableHlo.TRef.binary main_call6.v1 (.of main_v91 : StableHlo.TRef sig ⟨S128x7x5, .i32⟩) main_call6.v2 maxsi,
    StableHlo.TRef.unary (.of main_c_16 : StableHlo.TRef sig ⟨S_, .i32⟩) main_call6.v3 id,
    StableHlo.TRef.unary main_call6.v3 main_call6.v4 (broadcastInDim S128x7x5 ![] bcast_S_S128x7x5),
    StableHlo.TRef.binary main_call6.v4 main_call6.v2 main_call6.v5 minsi,
    StableHlo.nullary main_c_17 (constantI S_ 32 0#32),
    StableHlo.unary main_c_17 main_v96 (broadcastInDim S128x7x5 ![] bcast_S_S128x7x5 : (⟨S_, .i32⟩ : BufTy).Contents (Elt F) → (⟨S128x7x5, .i32⟩ : BufTy).Contents (Elt F)),
    StableHlo.binary main_v95 main_v96 main_v97 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_18 (constantI S_ 32 32#32),
    StableHlo.unary main_c_18 main_v98 (broadcastInDim S128x7x5 ![] bcast_S_S128x7x5 : (⟨S_, .i32⟩ : BufTy).Contents (Elt F) → (⟨S128x7x5, .i32⟩ : BufTy).Contents (Elt F)),
    StableHlo.binary main_v95 main_v98 main_v99 (addi : (⟨S128x7x5, .i32⟩ : BufTy).Contents (Elt F) → (⟨S128x7x5, .i32⟩ : BufTy).Contents (Elt F) → (⟨S128x7x5, .i32⟩ : BufTy).Contents (Elt F)),
    StableHlo.ternary main_v97 main_v99 main_v95 main_v100 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v100 main_v101 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v85 main_v101 main_v102 ((fun x i => Host.gather gather_S128x512x7x32_S128x7x5x1_S128x512x7x7x5_12_3_0_0_3_3_151271 x i) : (⟨S128x512x7x32, .f32⟩ : BufTy).Contents (Elt F) → (⟨S128x7x5x1, .i32⟩ : BufTy).Contents (Elt F) → (⟨S128x512x7x7x5, .f32⟩ : BufTy).Contents (Elt F)) ]

/-- 8 operations: the values from `main_v103` to `main_v106`. -/
abbrev rP8 : List (HloOp τ sig (Elt F)) :=
  [ StableHlo.unary main_v94 main_v103 (broadcastInDim S128x1x1x7x5 ![0, 3, 4] bcast_S128x7x5_S128x1x1x7x5_0_3_4 : (⟨S128x7x5, .i1⟩ : BufTy).Contents (Elt F) → (⟨S128x1x1x7x5, .i1⟩ : BufTy).Contents (Elt F)),
    StableHlo.nullary main_cst_19 (constant S_ .f32 0xFF800000#32),
    StableHlo.TRef.unary (.of main_v103 : StableHlo.TRef sig ⟨S128x1x1x7x5, .i1⟩) main_call7.v0 (broadcastInDim S128x512x7x7x5 ![0, 1, 2, 3, 4] bcast_S128x1x1x7x5_S128x512x7x7x5_0_1_2_3_4),
    StableHlo.TRef.unary (.of main_cst_19 : StableHlo.TRef sig ⟨S_, .f32⟩) main_call7.v1 (broadcastInDim S128x512x7x7x5 ![] bcast_S_S128x512x7x7x5),
    StableHlo.TRef.ternary main_call7.v0 (.of main_v102 : StableHlo.TRef sig ⟨S128x512x7x7x5, .f32⟩) main_call7.v1 main_call7.v2 select,
    StableHlo.nullary main_cst_20 (constant S_ .f32 0xFF800000#32),
    StableHlo.binary main_v104 main_cst_20 main_v105 ((fun x v => Host.reduce FloatOps.maximumf x v reducesTo_S128x512x7x7x5_S128x512x7x7_d4 h_S_) : (⟨S128x512x7x7x5, .f32⟩ : BufTy).Contents (Elt F) → (⟨S_, .f32⟩ : BufTy).Contents (Elt F) → (⟨S128x512x7x7, .f32⟩ : BufTy).Contents (Elt F)),
    StableHlo.reshape main_v105 main_v106 rfl shapeCasts_S128x512x7x7_S128x25088 ]

/-- 37 operations: the values from `main_v107` to `main_v136`. -/
abbrev rTail : List (HloOp τ sig (Elt F)) :=
  [ StableHlo.binary main_v106 main_arg2 main_v107 ((fun l r => Host.dotGeneral dot_S128x25088_S25088x4096_S128x4096_1_0_0_1_n_n none l r) : (⟨S128x25088, .f32⟩ : BufTy).Contents (Elt F) → (⟨S25088x4096, .f32⟩ : BufTy).Contents (Elt F) → (⟨S128x4096, .f32⟩ : BufTy).Contents (Elt F)),
    StableHlo.unary main_arg3 main_v108 (broadcastInDim S1x4096 ![1] bcast_S4096_S1x4096_1 : (⟨S4096, .f32⟩ : BufTy).Contents (Elt F) → (⟨S1x4096, .f32⟩ : BufTy).Contents (Elt F)),
    StableHlo.unary main_v108 main_v109 (broadcastInDim S128x4096 ![0, 1] bcast_S1x4096_S128x4096_0_1 : (⟨S1x4096, .f32⟩ : BufTy).Contents (Elt F) → (⟨S128x4096, .f32⟩ : BufTy).Contents (Elt F)),
    StableHlo.binary main_v107 main_v109 main_v110 (addf : (⟨S128x4096, .f32⟩ : BufTy).Contents (Elt F) → (⟨S128x4096, .f32⟩ : BufTy).Contents (Elt F) → (⟨S128x4096, .f32⟩ : BufTy).Contents (Elt F)),
    StableHlo.TRef.nullary main_call8.cst (constant S_ .f32 0x00000000#32),
    StableHlo.TRef.unary main_call8.cst main_call8.v0 (broadcastInDim S128x4096 ![] bcast_S_S128x4096),
    StableHlo.TRef.binary (.of main_v110 : StableHlo.TRef sig ⟨S128x4096, .f32⟩) main_call8.v0 main_call8.v1 maximumf,
    StableHlo.binary main_v111 main_arg4 main_v112 ((fun l r => Host.dotGeneral dot_S128x4096_S4096x4096_S128x4096_1_0_0_1_n_n none l r) : (⟨S128x4096, .f32⟩ : BufTy).Contents (Elt F) → (⟨S4096x4096, .f32⟩ : BufTy).Contents (Elt F) → (⟨S128x4096, .f32⟩ : BufTy).Contents (Elt F)),
    StableHlo.unary main_arg5 main_v113 (broadcastInDim S1x4096 ![1] bcast_S4096_S1x4096_1 : (⟨S4096, .f32⟩ : BufTy).Contents (Elt F) → (⟨S1x4096, .f32⟩ : BufTy).Contents (Elt F)),
    StableHlo.unary main_v113 main_v114 (broadcastInDim S128x4096 ![0, 1] bcast_S1x4096_S128x4096_0_1 : (⟨S1x4096, .f32⟩ : BufTy).Contents (Elt F) → (⟨S128x4096, .f32⟩ : BufTy).Contents (Elt F)),
    StableHlo.binary main_v112 main_v114 main_v115 (addf : (⟨S128x4096, .f32⟩ : BufTy).Contents (Elt F) → (⟨S128x4096, .f32⟩ : BufTy).Contents (Elt F) → (⟨S128x4096, .f32⟩ : BufTy).Contents (Elt F)),
    StableHlo.TRef.nullary main_call9.cst (constant S_ .f32 0x00000000#32),
    StableHlo.TRef.unary main_call9.cst main_call9.v0 (broadcastInDim S128x4096 ![] bcast_S_S128x4096),
    StableHlo.TRef.binary (.of main_v115 : StableHlo.TRef sig ⟨S128x4096, .f32⟩) main_call9.v0 main_call9.v1 maximumf,
    StableHlo.binary main_v116 main_arg6 main_v117 ((fun l r => Host.dotGeneral dot_S128x4096_S4096x21_S128x21_1_0_0_1_n_n none l r) : (⟨S128x4096, .f32⟩ : BufTy).Contents (Elt F) → (⟨S4096x21, .f32⟩ : BufTy).Contents (Elt F) → (⟨S128x21, .f32⟩ : BufTy).Contents (Elt F)),
    StableHlo.unary main_arg7 main_v118 (broadcastInDim S1x21 ![1] bcast_S21_S1x21_1 : (⟨S21, .f32⟩ : BufTy).Contents (Elt F) → (⟨S1x21, .f32⟩ : BufTy).Contents (Elt F)),
    StableHlo.unary main_v118 main_v119 (broadcastInDim S128x21 ![0, 1] bcast_S1x21_S128x21_0_1 : (⟨S1x21, .f32⟩ : BufTy).Contents (Elt F) → (⟨S128x21, .f32⟩ : BufTy).Contents (Elt F)),
    StableHlo.binary main_v117 main_v119 main_v120 (addf : (⟨S128x21, .f32⟩ : BufTy).Contents (Elt F) → (⟨S128x21, .f32⟩ : BufTy).Contents (Elt F) → (⟨S128x21, .f32⟩ : BufTy).Contents (Elt F)),
    StableHlo.nullary main_cst_21 (constant S_ .f32 0xFF800000#32),
    StableHlo.binary main_v120 main_cst_21 main_v121 ((fun x v => Host.reduce FloatOps.maximumf x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.nullary main_cst_22 (constant S_ .f32 0xFF800000#32),
    StableHlo.unary main_cst_22 main_v122 (broadcastInDim S128 ![] bcast_S_S128 : (⟨S_, .f32⟩ : BufTy).Contents (Elt F) → (⟨S128, .f32⟩ : BufTy).Contents (Elt F)),
    StableHlo.binary main_v122 main_v121 main_v123 (maximumf : (⟨S128, .f32⟩ : BufTy).Contents (Elt F) → (⟨S128, .f32⟩ : BufTy).Contents (Elt F) → (⟨S128, .f32⟩ : BufTy).Contents (Elt F)),
    StableHlo.unary main_v123 main_v124 (broadcastInDim S128x1 ![0] bcast_S128_S128x1_0 : (⟨S128, .f32⟩ : BufTy).Contents (Elt F) → (⟨S128x1, .f32⟩ : BufTy).Contents (Elt F)),
    StableHlo.unary main_v124 main_v125 (broadcastInDim S128x21 ![0, 1] bcast_S128x1_S128x21_0_1 : (⟨S128x1, .f32⟩ : BufTy).Contents (Elt F) → (⟨S128x21, .f32⟩ : BufTy).Contents (Elt F)),
    StableHlo.binary main_v120 main_v125 main_v126 (subf : (⟨S128x21, .f32⟩ : BufTy).Contents (Elt F) → (⟨S128x21, .f32⟩ : BufTy).Contents (Elt F) → (⟨S128x21, .f32⟩ : BufTy).Contents (Elt F)),
    StableHlo.unary main_v126 main_v127 (Host.exp : (⟨S128x21, .f32⟩ : BufTy).Contents (Elt F) → (⟨S128x21, .f32⟩ : BufTy).Contents (Elt F)),
    StableHlo.nullary main_cst_23 (constant S_ .f32 0x00000000#32),
    StableHlo.binary main_v127 main_cst_23 main_v128 ((fun x v => Host.reduceAdd x v reducesTo_S128x21_S128_d1 h_S_) : (⟨S128x21, .f32⟩ : BufTy).Contents (Elt F) → (⟨S_, .f32⟩ : BufTy).Contents (Elt F) → (⟨S128, .f32⟩ : BufTy).Contents (Elt F)),
    StableHlo.unary main_v128 main_v129 (broadcastInDim S128x1 ![0] bcast_S128_S128x1_0 : (⟨S128, .f32⟩ : BufTy).Contents (Elt F) → (⟨S128x1, .f32⟩ : BufTy).Contents (Elt F)),
    StableHlo.unary main_v129 main_v130 (broadcastInDim S128x21 ![0, 1] bcast_S128x1_S128x21_0_1 : (⟨S128x1, .f32⟩ : BufTy).Contents (Elt F) → (⟨S128x21, .f32⟩ : BufTy).Contents (Elt F)),
    StableHlo.binary main_v127 main_v130 main_v131 (Host.divf : (⟨S128x21, .f32⟩ : BufTy).Contents (Elt F) → (⟨S128x21, .f32⟩ : BufTy).Contents (Elt F) → (⟨S128x21, .f32⟩ : BufTy).Contents (Elt F)),
    StableHlo.binary main_v116 main_arg8 main_v132 ((fun l r => Host.dotGeneral dot_S128x4096_S4096x84_S128x84_1_0_0_1_n_n none l r) : (⟨S128x4096, .f32⟩ : BufTy).Contents (Elt F) → (⟨S4096x84, .f32⟩ : BufTy).Contents (Elt F) → (⟨S128x84, .f32⟩ : BufTy).Contents (Elt F)),
    StableHlo.unary main_arg9 main_v133 (broadcastInDim S1x84 ![1] bcast_S84_S1x84_1 : (⟨S84, .f32⟩ : BufTy).Contents (Elt F) → (⟨S1x84, .f32⟩ : BufTy).Contents (Elt F)),
    StableHlo.unary main_v133 main_v134 (broadcastInDim S128x84 ![0, 1] bcast_S1x84_S128x84_0_1 : (⟨S1x84, .f32⟩ : BufTy).Contents (Elt F) → (⟨S128x84, .f32⟩ : BufTy).Contents (Elt F)),
    StableHlo.binary main_v132 main_v134 main_v135 (addf : (⟨S128x84, .f32⟩ : BufTy).Contents (Elt F) → (⟨S128x84, .f32⟩ : BufTy).Contents (Elt F) → (⟨S128x84, .f32⟩ : BufTy).Contents (Elt F)),
    StableHlo.binary main_v131 main_v135 main_v136 ((fun a b => concatenate S128x105 1 [⟨S128x21, a⟩, ⟨S128x84, b⟩] concatenates_S128x21_S128x84_S128x105_d1) : (⟨S128x21, .f32⟩ : BufTy).Contents (Elt F) → (⟨S128x84, .f32⟩ : BufTy).Contents (Elt F) → (⟨S128x105, .f32⟩ : BufTy).Contents (Elt F)) ]

/-- An operation whose one written buffer is `y` writes inside any list of references that holds `y`. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## What each piece writes, and what it therefore leaves alone -/

abbrev rP1_W : List (Ref sig .tc) := [main_v0, main_v1, main_cst, main_v2, main_v3, main_v4, main_v5, main_v6, main_v7, main_v8, main_v9, main_v10, main_v11, main_v12, main_v13, main_v14, main_c, main_v15, main_v16, main_v17, main_c_0, main_v18, main_v19]
theorem rP1_writes : (rP1 : List (HloOp τ sig (Elt F))).Forall fun op => op.writes ⊆ (rP1_W.map (Proc.devRef (τ := τ) .tc)).toFinset :=
  ⟨wsub (y := main_v0) (by decide), wsub (y := main_v1) (by decide), wsub (y := main_cst) (by decide), wsub (y := main_v2) (by decide), wsub (y := main_v3) (by decide), wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_v12) (by decide), wsub (y := main_v13) (by decide), wsub (y := main_v14) (by decide), wsub (y := main_c) (by decide), wsub (y := main_v15) (by decide), wsub (y := main_v16) (by decide), wsub (y := main_v17) (by decide), wsub (y := main_c_0) (by decide), wsub (y := main_v18) (by decide), wsub (y := main_v19) (by decide)⟩
theorem rP1_keep (V : Valuation τ sig (Elt F)) {r : Ref sig .tc} (h : r ∉ rP1_W) :
    after rP1 V (no_index (Proc.devRef .tc r)) = V (Proc.devRef .tc r) :=
  after_of_writes_sub rP1 V rP1_writes h

abbrev rP2_W : List (Ref sig .tc) := [main_v20, main_v21, main_v22, main_v23, main_v24, main_v25, main_v26, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v27, main_v28, main_v29]
theorem rP2_writes : (rP2 : List (HloOp τ sig (Elt F))).Forall fun op => op.writes ⊆ (rP2_W.map (Proc.devRef (τ := τ) .tc)).toFinset :=
  ⟨wsub (y := main_v20) (by decide), wsub (y := main_v21) (by decide), wsub (y := main_v22) (by decide), wsub (y := main_v23) (by decide), wsub (y := main_v24) (by decide), wsub (y := main_v25) (by decide), wsub (y := main_v26) (by decide), wsub (y := main_c_1) (by decide), wsub (y := main_call0_v0) (by decide), wsub (y := main_call0_v1) (by decide), wsub (y := main_call0_v2) (by decide), wsub (y := main_call0_v3) (by decide), wsub (y := main_call0_v4) (by decide), wsub (y := main_call0_v5) (by decide), wsub (y := main_call0_v6) (by decide), wsub (y := main_call0_v7) (by decide), wsub (y := main_call0_v8) (by decide), wsub (y := main_call0_c) (by decide), wsub (y := main_call0_v9) (by decide), wsub (y := main_call0_v10) (by decide), wsub (y := main_call0_v11) (by decide), wsub (y := main_call0_c_0) (by decide), wsub (y := main_call0_v12) (by decide), wsub (y := main_call0_v13) (by decide), wsub (y := main_v27) (by decide), wsub (y := main_v28) (by decide), wsub (y := main_v29) (by decide)⟩
theorem rP2_keep (V : Valuation τ sig (Elt F)) {r : Ref sig .tc} (h : r ∉ rP2_W) :
    after rP2 V (no_index (Proc.devRef .tc r)) = V (Proc.devRef .tc r) :=
  after_of_writes_sub rP2 V rP2_writes h

abbrev rP3_W : List (Ref sig .tc) := [main_v30, main_v31, main_c_2, main_v32, main_v33, main_v34, main_v35, main_v36, main_v37, main_c_3, main_v38, main_v39, main_c_4, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v40, main_v41, main_v42]
theorem rP3_writes : (rP3 : List (HloOp τ sig (Elt F))).Forall fun op => op.writes ⊆ (rP3_W.map (Proc.devRef (τ := τ) .tc)).toFinset :=
  ⟨wsub (y := main_v30) (by decide), wsub (y := main_v31) (by decide), wsub (y := main_c_2) (by decide), wsub (y := main_v32) (by decide), wsub (y := main_v33) (by decide), wsub (y := main_v34) (by decide), wsub (y := main_v35) (by decide), wsub (y := main_v36) (by decide), wsub (y := main_v37) (by decide), wsub (y := main_c_3) (by decide), wsub (y := main_v38) (by decide), wsub (y := main_v39) (by decide), wsub (y := main_c_4) (by decide), wsub (y := main_call1_v0) (by decide), wsub (y := main_call1_v1) (by decide), wsub (y := main_call1_v2) (by decide), wsub (y := main_call1_v3) (by decide), wsub (y := main_call1_v4) (by decide), wsub (y := main_call1_v5) (by decide), wsub (y := main_call1_v6) (by decide), wsub (y := main_call1_v7) (by decide), wsub (y := main_call1_v8) (by decide), wsub (y := main_call1_c) (by decide), wsub (y := main_call1_v9) (by decide), wsub (y := main_call1_v10) (by decide), wsub (y := main_call1_v11) (by decide), wsub (y := main_call1_c_0) (by decide), wsub (y := main_call1_v12) (by decide), wsub (y := main_call1_v13) (by decide), wsub (y := main_v40) (by decide), wsub (y := main_v41) (by decide), wsub (y := main_v42) (by decide)⟩
theorem rP3_keep (V : Valuation τ sig (Elt F)) {r : Ref sig .tc} (h : r ∉ rP3_W) :
    after rP3 V (no_index (Proc.devRef .tc r)) = V (Proc.devRef .tc r) :=
  after_of_writes_sub rP3 V rP3_writes h

abbrev rP4_W : List (Ref sig .tc) := [main_v43, main_v44, main_v45, main_v46, main_v47, main_v48, main_c_5, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v49, main_v50, main_v51]
theorem rP4_writes : (rP4 : List (HloOp τ sig (Elt F))).Forall fun op => op.writes ⊆ (rP4_W.map (Proc.devRef (τ := τ) .tc)).toFinset :=
  ⟨wsub (y := main_v43) (by decide), wsub (y := main_v44) (by decide), wsub (y := main_v45) (by decide), wsub (y := main_v46) (by decide), wsub (y := main_v47) (by decide), wsub (y := main_v48) (by decide), wsub (y := main_c_5) (by decide), wsub (y := main_call2_v0) (by decide), wsub (y := main_call2_v1) (by decide), wsub (y := main_call2_v2) (by decide), wsub (y := main_call2_v3) (by decide), wsub (y := main_call2_v4) (by decide), wsub (y := main_call2_v5) (by decide), wsub (y := main_call2_v6) (by decide), wsub (y := main_call2_v7) (by decide), wsub (y := main_call2_v8) (by decide), wsub (y := main_call2_c) (by decide), wsub (y := main_call2_v9) (by decide), wsub (y := main_call2_v10) (by decide), wsub (y := main_call2_v11) (by decide), wsub (y := main_call2_c_0) (by decide), wsub (y := main_call2_v12) (by decide), wsub (y := main_call2_v13) (by decide), wsub (y := main_v49) (by decide), wsub (y := main_v50) (by decide), wsub (y := main_v51) (by decide)⟩
theorem rP4_keep (V : Valuation τ sig (Elt F)) {r : Ref sig .tc} (h : r ∉ rP4_W) :
    after rP4 V (no_index (Proc.devRef .tc r)) = V (Proc.devRef .tc r) :=
  after_of_writes_sub rP4 V rP4_writes h

abbrev rP5_W : List (Ref sig .tc) := [main_v52, main_v53, main_c_6, main_v54, main_v55, main_v56, main_v57, main_v58, main_v59, main_c_7, main_v60, main_v61, main_c_8, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v62, main_v63, main_v64]
theorem rP5_writes : (rP5 : List (HloOp τ sig (Elt F))).Forall fun op => op.writes ⊆ (rP5_W.map (Proc.devRef (τ := τ) .tc)).toFinset :=
  ⟨wsub (y := main_v52) (by decide), wsub (y := main_v53) (by decide), wsub (y := main_c_6) (by decide), wsub (y := main_v54) (by decide), wsub (y := main_v55) (by decide), wsub (y := main_v56) (by decide), wsub (y := main_v57) (by decide), wsub (y := main_v58) (by decide), wsub (y := main_v59) (by decide), wsub (y := main_c_7) (by decide), wsub (y := main_v60) (by decide), wsub (y := main_v61) (by decide), wsub (y := main_c_8) (by decide), wsub (y := main_call3_v0) (by decide), wsub (y := main_call3_v1) (by decide), wsub (y := main_call3_v2) (by decide), wsub (y := main_call3_v3) (by decide), wsub (y := main_call3_v4) (by decide), wsub (y := main_call3_v5) (by decide), wsub (y := main_call3_v6) (by decide), wsub (y := main_call3_v7) (by decide), wsub (y := main_call3_v8) (by decide), wsub (y := main_call3_c) (by decide), wsub (y := main_call3_v9) (by decide), wsub (y := main_call3_v10) (by decide), wsub (y := main_call3_v11) (by decide), wsub (y := main_call3_c_0) (by decide), wsub (y := main_call3_v12) (by decide), wsub (y := main_call3_v13) (by decide), wsub (y := main_v62) (by decide), wsub (y := main_v63) (by decide), wsub (y := main_v64) (by decide)⟩
theorem rP5_keep (V : Valuation τ sig (Elt F)) {r : Ref sig .tc} (h : r ∉ rP5_W) :
    after rP5 V (no_index (Proc.devRef .tc r)) = V (Proc.devRef .tc r) :=
  after_of_writes_sub rP5 V rP5_writes h

abbrev rP6_W : List (Ref sig .tc) := [main_v65, main_v66, main_v67, main_v68, main_v69, main_v70, main_v71, main_v72, main_v73, main_c_9, main_c_10, main_call4_v0, main_call4_v1, main_call4_v2, main_call4_v3, main_call4_v4, main_v74, main_c_11, main_v75, main_v76, main_c_12, main_v77, main_v78, main_v79, main_v80, main_v81, main_v82, main_cst_13, main_call5_v0, main_call5_v1, main_v83]
theorem rP6_writes : (rP6 : List (HloOp τ sig (Elt F))).Forall fun op => op.writes ⊆ (rP6_W.map (Proc.devRef (τ := τ) .tc)).toFinset :=
  ⟨wsub (y := main_v65) (by decide), wsub (y := main_v66) (by decide), wsub (y := main_v67) (by decide), wsub (y := main_v68) (by decide), wsub (y := main_v69) (by decide), wsub (y := main_v70) (by decide), wsub (y := main_v71) (by decide), wsub (y := main_v72) (by decide), wsub (y := main_v73) (by decide), wsub (y := main_c_9) (by decide), wsub (y := main_c_10) (by decide), wsub (y := main_call4_v0) (by decide), wsub (y := main_call4_v1) (by decide), wsub (y := main_call4_v2) (by decide), wsub (y := main_call4_v3) (by decide), wsub (y := main_call4_v4) (by decide), wsub (y := main_v74) (by decide), wsub (y := main_c_11) (by decide), wsub (y := main_v75) (by decide), wsub (y := main_v76) (by decide), wsub (y := main_c_12) (by decide), wsub (y := main_v77) (by decide), wsub (y := main_v78) (by decide), wsub (y := main_v79) (by decide), wsub (y := main_v80) (by decide), wsub (y := main_v81) (by decide), wsub (y := main_v82) (by decide), wsub (y := main_cst_13) (by decide), wsub (y := main_call5_v0) (by decide), wsub (y := main_call5_v1) (by decide), wsub (y := main_v83) (by decide)⟩
theorem rP6_keep (V : Valuation τ sig (Elt F)) {r : Ref sig .tc} (h : r ∉ rP6_W) :
    after rP6 V (no_index (Proc.devRef .tc r)) = V (Proc.devRef .tc r) :=
  after_of_writes_sub rP6 V rP6_writes h

abbrev rP7_W : List (Ref sig .tc) := [main_cst_14, main_v84, main_v85, main_v86, main_v87, main_v88, main_v89, main_v90, main_v91, main_v92, main_v93, main_v94, main_c_15, main_c_16, main_call6_v0, main_call6_v1, main_call6_v2, main_call6_v3, main_call6_v4, main_v95, main_c_17, main_v96, main_v97, main_c_18, main_v98, main_v99, main_v100, main_v101, main_v102]
theorem rP7_writes : (rP7 : List (HloOp τ sig (Elt F))).Forall fun op => op.writes ⊆ (rP7_W.map (Proc.devRef (τ := τ) .tc)).toFinset :=
  ⟨wsub (y := main_cst_14) (by decide), wsub (y := main_v84) (by decide), wsub (y := main_v85) (by decide), wsub (y := main_v86) (by decide), wsub (y := main_v87) (by decide), wsub (y := main_v88) (by decide), wsub (y := main_v89) (by decide), wsub (y := main_v90) (by decide), wsub (y := main_v91) (by decide), wsub (y := main_v92) (by decide), wsub (y := main_v93) (by decide), wsub (y := main_v94) (by decide), wsub (y := main_c_15) (by decide), wsub (y := main_c_16) (by decide), wsub (y := main_call6_v0) (by decide), wsub (y := main_call6_v1) (by decide), wsub (y := main_call6_v2) (by decide), wsub (y := main_call6_v3) (by decide), wsub (y := main_call6_v4) (by decide), wsub (y := main_v95) (by decide), wsub (y := main_c_17) (by decide), wsub (y := main_v96) (by decide), wsub (y := main_v97) (by decide), wsub (y := main_c_18) (by decide), wsub (y := main_v98) (by decide), wsub (y := main_v99) (by decide), wsub (y := main_v100) (by decide), wsub (y := main_v101) (by decide), wsub (y := main_v102) (by decide)⟩
theorem rP7_keep (V : Valuation τ sig (Elt F)) {r : Ref sig .tc} (h : r ∉ rP7_W) :
    after rP7 V (no_index (Proc.devRef .tc r)) = V (Proc.devRef .tc r) :=
  after_of_writes_sub rP7 V rP7_writes h

abbrev rP8_W : List (Ref sig .tc) := [main_v103, main_cst_19, main_call7_v0, main_call7_v1, main_v104, main_cst_20, main_v105, main_v106]
theorem rP8_writes : (rP8 : List (HloOp τ sig (Elt F))).Forall fun op => op.writes ⊆ (rP8_W.map (Proc.devRef (τ := τ) .tc)).toFinset :=
  ⟨wsub (y := main_v103) (by decide), wsub (y := main_cst_19) (by decide), wsub (y := main_call7_v0) (by decide), wsub (y := main_call7_v1) (by decide), wsub (y := main_v104) (by decide), wsub (y := main_cst_20) (by decide), wsub (y := main_v105) (by decide), wsub (y := main_v106) (by decide)⟩
theorem rP8_keep (V : Valuation τ sig (Elt F)) {r : Ref sig .tc} (h : r ∉ rP8_W) :
    after rP8 V (no_index (Proc.devRef .tc r)) = V (Proc.devRef .tc r) :=
  after_of_writes_sub rP8 V rP8_writes h

abbrev rTail_W : List (Ref sig .tc) := [main_v107, main_v108, main_v109, main_v110, main_call8_cst, main_call8_v0, main_v111, main_v112, main_v113, main_v114, main_v115, main_call9_cst, main_call9_v0, main_v116, main_v117, main_v118, main_v119, main_v120, main_cst_21, main_v121, main_cst_22, main_v122, main_v123, main_v124, main_v125, main_v126, main_v127, main_cst_23, main_v128, main_v129, main_v130, main_v131, main_v132, main_v133, main_v134, main_v135, main_v136]
theorem rTail_writes : (rTail : List (HloOp τ sig (Elt F))).Forall fun op => op.writes ⊆ (rTail_W.map (Proc.devRef (τ := τ) .tc)).toFinset :=
  ⟨wsub (y := main_v107) (by decide), wsub (y := main_v108) (by decide), wsub (y := main_v109) (by decide), wsub (y := main_v110) (by decide), wsub (y := main_call8_cst) (by decide), wsub (y := main_call8_v0) (by decide), wsub (y := main_v111) (by decide), wsub (y := main_v112) (by decide), wsub (y := main_v113) (by decide), wsub (y := main_v114) (by decide), wsub (y := main_v115) (by decide), wsub (y := main_call9_cst) (by decide), wsub (y := main_call9_v0) (by decide), wsub (y := main_v116) (by decide), wsub (y := main_v117) (by decide), wsub (y := main_v118) (by decide), wsub (y := main_v119) (by decide), wsub (y := main_v120) (by decide), wsub (y := main_cst_21) (by decide), wsub (y := main_v121) (by decide), wsub (y := main_cst_22) (by decide), wsub (y := main_v122) (by decide), wsub (y := main_v123) (by decide), wsub (y := main_v124) (by decide), wsub (y := main_v125) (by decide), wsub (y := main_v126) (by decide), wsub (y := main_v127) (by decide), wsub (y := main_cst_23) (by decide), wsub (y := main_v128) (by decide), wsub (y := main_v129) (by decide), wsub (y := main_v130) (by decide), wsub (y := main_v131) (by decide), wsub (y := main_v132) (by decide), wsub (y := main_v133) (by decide), wsub (y := main_v134) (by decide), wsub (y := main_v135) (by decide), wsub (y := main_v136) (by decide)⟩
theorem rTail_keep (V : Valuation τ sig (Elt F)) {r : Ref sig .tc} (h : r ∉ rTail_W) :
    after rTail V (no_index (Proc.devRef .tc r)) = V (Proc.devRef .tc r) :=
  after_of_writes_sub rTail V rTail_writes h

/-! ## The whole list is the pieces in order -/

theorem ops_cut : (ops : List (HloOp τ sig (Elt F))) = rP1 ++ (rP2 ++ (rP3 ++ (rP4 ++ (rP5 ++ (rP6 ++ (rP7 ++ (rP8 ++ (rTail)))))))) := rfl

theorem cut (V : Valuation τ sig (Elt F)) :
    after ops V = after rTail (after rP8 (after rP7 (after rP6 (after rP5 (after rP4 (after rP3 (after rP2 (after rP1 (V))))))))) := by
  rw [ops_cut]; simp only [after_append]

/-! ## Each named buffer read off its piece, from any contents -/

theorem read_main_v0 (W : Valuation τ sig (Elt F)) :
    after rP1 W (Proc.devRef .tc main_v0)
      = (shapeCast S512x32x32 (W (Proc.devRef .tc main_arg0) : (⟨S1x512x32x32, .f32⟩ : BufTy).Contents (Elt F)) shapeCasts_S1x512x32x32_S512x32x32) := by
  after_results_simp <;> rfl

theorem read_main_v7 (W : Valuation τ sig (Elt F)) :
    after rP1 W (Proc.devRef .tc main_v7)
      = (shapeCast S128 (extractStridedSlice S128x1 ![0, 0] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128) := by
  after_results_simp <;> rfl

theorem read_main_v9 (W : Valuation τ sig (Elt F)) :
    after rP1 W (Proc.devRef .tc main_v9)
      = (shapeCast S128 (extractStridedSlice S128x1 ![0, 1] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128) := by
  after_results_simp <;> rfl

theorem read_main_v16 (W : Valuation τ sig (Elt F)) :
    after rP1 W (Proc.devRef .tc main_v16)
      = (addi (subi (shapeCast S128 (extractStridedSlice S128x1 ![0, 3] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_3) shapeCasts_S128x1_S128) (shapeCast S128 (extractStridedSlice S128x1 ![0, 1] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128)) (broadcastInDim S128 ![] bcast_S_S128 (constantI S_ 32 1#32))) := by
  after_results_simp <;> rfl

theorem read_main_v19 (W : Valuation τ sig (Elt F)) :
    after rP1 W (Proc.devRef .tc main_v19)
      = (addi (subi (shapeCast S128 (extractStridedSlice S128x1 ![0, 2] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_2) shapeCasts_S128x1_S128) (shapeCast S128 (extractStridedSlice S128x1 ![0, 0] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128)) (broadcastInDim S128 ![] bcast_S_S128 (constantI S_ 32 1#32))) := by
  after_results_simp <;> rfl

theorem read_main_v20 (W : Valuation τ sig (Elt F)) :
    after rP2 W (Proc.devRef .tc main_v20)
      = (iotaInDim S7 32 0) := by
  after_results_simp <;> rfl

theorem read_main_v29 (W : Valuation τ sig (Elt F)) :
    after rP2 W (Proc.devRef .tc main_v29)
      = (addi (broadcastInDim S128x7 ![0, 1] bcast_S128x1_S128x7_0_1 (broadcastInDim S128x1 ![0] bcast_S128_S128x1_0 (W (Proc.devRef .tc main_v9) : (⟨S128, .i32⟩ : BufTy).Contents (Elt F)))) (select (andi (cmpi .ne (signi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))))) := by
  after_results_simp <;> rfl

theorem read_main_v42 (W : Valuation τ sig (Elt F)) :
    after rP3 W (Proc.devRef .tc main_v42)
      = (addi (broadcastInDim S128x7 ![0, 1] bcast_S128x1_S128x7_0_1 (broadcastInDim S128x1 ![0] bcast_S128_S128x1_0 (W (Proc.devRef .tc main_v9) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  after_results_simp <;> rfl

theorem read_main_v51 (W : Valuation τ sig (Elt F)) :
    after rP4 W (Proc.devRef .tc main_v51)
      = (addi (broadcastInDim S128x7 ![0, 1] bcast_S128x1_S128x7_0_1 (broadcastInDim S128x1 ![0] bcast_S128_S128x1_0 (W (Proc.devRef .tc main_v7) : (⟨S128, .i32⟩ : BufTy).Contents (Elt F)))) (select (andi (cmpi .ne (signi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))))) := by
  after_results_simp <;> rfl

theorem read_main_v64 (W : Valuation τ sig (Elt F)) :
    after rP5 W (Proc.devRef .tc main_v64)
      = (addi (broadcastInDim S128x7 ![0, 1] bcast_S128x1_S128x7_0_1 (broadcastInDim S128x1 ![0] bcast_S128_S128x1_0 (W (Proc.devRef .tc main_v7) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  after_results_simp <;> rfl

theorem read_main_v83 (W : Valuation τ sig (Elt F)) :
    after rP6 W (Proc.devRef .tc main_v83)
      = (select (broadcastInDim S512x128x7x5x32 ![0, 1, 2, 3, 4] bcast_S1x128x7x5x1_S512x128x7x5x32_0_1_2_3_4 (broadcastInDim S1x128x7x5x1 ![1, 2, 3] bcast_S128x7x5_S1x128x7x5x1_1_2_3 (cmpi .slt (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (W (Proc.devRef .tc main_v42) : (⟨S128x7, .i32⟩ : BufTy).Contents (Elt F))))))) (Host.gather gather_S512x32x32_S128x7x5x1_S512x128x7x5x32_04_1_n_n_1_3_512132 (W (Proc.devRef .tc main_v0) : (⟨S512x32x32, .f32⟩ : BufTy).Contents (Elt F)) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) (broadcastInDim S512x128x7x5x32 ![] bcast_S_S512x128x7x5x32 (constant S_ .f32 0xFF800000#32))) := by
  after_results_simp <;> rfl

theorem read_main_v94 (W : Valuation τ sig (Elt F)) :
    after rP7 W (Proc.devRef .tc main_v94)
      = (cmpi .slt (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (W (Proc.devRef .tc main_v64) : (⟨S128x7, .i32⟩ : BufTy).Contents (Elt F))))) := by
  after_results_simp <;> rfl

theorem read_main_v102 (W : Valuation τ sig (Elt F)) :
    after rP7 W (Proc.devRef .tc main_v102)
      = (Host.gather gather_S128x512x7x32_S128x7x5x1_S128x512x7x7x5_12_3_0_0_3_3_151271 (transpose S128x512x7x32 [1, 0, 2, 3] (Host.reduce FloatOps.maximumf (W (Proc.devRef .tc main_v83) : (⟨S512x128x7x5x32, .f32⟩ : BufTy).Contents (Elt F)) (constant S_ .f32 0xFF800000#32) reducesTo_S512x128x7x5x32_S512x128x7x32_d3 h_S_) transposes_S512x128x7x32_S128x512x7x32_1_0_2_3) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) := by
  after_results_simp <;> rfl

theorem read_main_v106 (W : Valuation τ sig (Elt F)) :
    after rP8 W (Proc.devRef .tc main_v106)
      = (shapeCast S128x25088 (Host.reduce FloatOps.maximumf (select (broadcastInDim S128x512x7x7x5 ![0, 1, 2, 3, 4] bcast_S128x1x1x7x5_S128x512x7x7x5_0_1_2_3_4 (broadcastInDim S128x1x1x7x5 ![0, 3, 4] bcast_S128x7x5_S128x1x1x7x5_0_3_4 (W (Proc.devRef .tc main_v94) : (⟨S128x7x5, .i1⟩ : BufTy).Contents (Elt F)))) (W (Proc.devRef .tc main_v102) : (⟨S128x512x7x7x5, .f32⟩ : BufTy).Contents (Elt F)) (broadcastInDim S128x512x7x7x5 ![] bcast_S_S128x512x7x7x5 (constant S_ .f32 0xFF800000#32))) (constant S_ .f32 0xFF800000#32) reducesTo_S128x512x7x7x5_S128x512x7x7_d4 h_S_) shapeCasts_S128x512x7x7_S128x25088) := by
  after_results_simp <;> rfl

/-! ## The same over the whole fold: each named buffer as a term of the earlier named buffers -/

theorem val_main_v0 (V : Valuation τ sig (Elt F)) :
    after ops V (Proc.devRef .tc main_v0)
      = (shapeCast S512x32x32 (after ops V (Proc.devRef .tc main_arg0) : (⟨S1x512x32x32, .f32⟩ : BufTy).Contents (Elt F)) shapeCasts_S1x512x32x32_S512x32x32) := by
  rw [cut V]
  simp (disch := decide) only [rP1_keep, rP2_keep, rP3_keep, rP4_keep, rP5_keep, rP6_keep, rP7_keep, rP8_keep, rTail_keep]
  rw [read_main_v0]
  try simp (disch := decide) only [rP1_keep, rP2_keep, rP3_keep, rP4_keep, rP5_keep, rP6_keep, rP7_keep, rP8_keep, rTail_keep]

theorem val_main_v7 (V : Valuation τ sig (Elt F)) :
    after ops V (Proc.devRef .tc main_v7)
      = (shapeCast S128 (extractStridedSlice S128x1 ![0, 0] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128) := by
  rw [cut V]
  simp (disch := decide) only [rP1_keep, rP2_keep, rP3_keep, rP4_keep, rP5_keep, rP6_keep, rP7_keep, rP8_keep, rTail_keep]
  rw [read_main_v7]
  try simp (disch := decide) only [rP1_keep, rP2_keep, rP3_keep, rP4_keep, rP5_keep, rP6_keep, rP7_keep, rP8_keep, rTail_keep]

theorem val_main_v9 (V : Valuation τ sig (Elt F)) :
    after ops V (Proc.devRef .tc main_v9)
      = (shapeCast S128 (extractStridedSlice S128x1 ![0, 1] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128) := by
  rw [cut V]
  simp (disch := decide) only [rP1_keep, rP2_keep, rP3_keep, rP4_keep, rP5_keep, rP6_keep, rP7_keep, rP8_keep, rTail_keep]
  rw [read_main_v9]
  try simp (disch := decide) only [rP1_keep, rP2_keep, rP3_keep, rP4_keep, rP5_keep, rP6_keep, rP7_keep, rP8_keep, rTail_keep]

theorem val_main_v16 (V : Valuation τ sig (Elt F)) :
    after ops V (Proc.devRef .tc main_v16)
      = (addi (subi (shapeCast S128 (extractStridedSlice S128x1 ![0, 3] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_3) shapeCasts_S128x1_S128) (shapeCast S128 (extractStridedSlice S128x1 ![0, 1] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128)) (broadcastInDim S128 ![] bcast_S_S128 (constantI S_ 32 1#32))) := by
  rw [cut V]
  simp (disch := decide) only [rP1_keep, rP2_keep, rP3_keep, rP4_keep, rP5_keep, rP6_keep, rP7_keep, rP8_keep, rTail_keep]
  rw [read_main_v16]
  try simp (disch := decide) only [rP1_keep, rP2_keep, rP3_keep, rP4_keep, rP5_keep, rP6_keep, rP7_keep, rP8_keep, rTail_keep]

theorem val_main_v19 (V : Valuation τ sig (Elt F)) :
    after ops V (Proc.devRef .tc main_v19)
      = (addi (subi (shapeCast S128 (extractStridedSlice S128x1 ![0, 2] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_2) shapeCasts_S128x1_S128) (shapeCast S128 (extractStridedSlice S128x1 ![0, 0] (fptosi 32 (Host.floor (mulf (extractStridedSlice S128x4 ![0, 1] (after ops V (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128)) (broadcastInDim S128 ![] bcast_S_S128 (constantI S_ 32 1#32))) := by
  rw [cut V]
  simp (disch := decide) only [rP1_keep, rP2_keep, rP3_keep, rP4_keep, rP5_keep, rP6_keep, rP7_keep, rP8_keep, rTail_keep]
  rw [read_main_v19]
  try simp (disch := decide) only [rP1_keep, rP2_keep, rP3_keep, rP4_keep, rP5_keep, rP6_keep, rP7_keep, rP8_keep, rTail_keep]

theorem val_main_v20 (V : Valuation τ sig (Elt F)) :
    after ops V (Proc.devRef .tc main_v20)
      = (iotaInDim S7 32 0) := by
  rw [cut V]
  simp (disch := decide) only [rP1_keep, rP2_keep, rP3_keep, rP4_keep, rP5_keep, rP6_keep, rP7_keep, rP8_keep, rTail_keep]
  rw [read_main_v20]
  try simp (disch := decide) only [rP1_keep, rP2_keep, rP3_keep, rP4_keep, rP5_keep, rP6_keep, rP7_keep, rP8_keep, rTail_keep]

theorem val_main_v29 (V : Valuation τ sig (Elt F)) :
    after ops V (Proc.devRef .tc main_v29)
      = (addi (broadcastInDim S128x7 ![0, 1] bcast_S128x1_S128x7_0_1 (broadcastInDim S128x1 ![0] bcast_S128_S128x1_0 (after ops V (Proc.devRef .tc main_v9) : (⟨S128, .i32⟩ : BufTy).Contents (Elt F)))) (select (andi (cmpi .ne (signi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (after ops V (Proc.devRef .tc main_v16) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (id (constantI S_ 32 7#32)))))) := by
  rw [cut V]
  simp (disch := decide) only [rP1_keep, rP2_keep, rP3_keep, rP4_keep, rP5_keep, rP6_keep, rP7_keep, rP8_keep, rTail_keep]
  rw [read_main_v29]
  try simp (disch := decide) only [rP1_keep, rP2_keep, rP3_keep, rP4_keep, rP5_keep, rP6_keep, rP7_keep, rP8_keep, rTail_keep]

theorem val_main_v42 (V : Valuation τ sig (Elt F)) :
    after ops V (Proc.devRef .tc main_v42)
      = (addi (broadcastInDim S128x7 ![0, 1] bcast_S128x1_S128x7_0_1 (broadcastInDim S128x1 ![0] bcast_S128_S128x1_0 (after ops V (Proc.devRef .tc main_v9) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  rw [cut V]
  simp (disch := decide) only [rP1_keep, rP2_keep, rP3_keep, rP4_keep, rP5_keep, rP6_keep, rP7_keep, rP8_keep, rTail_keep]
  rw [read_main_v42]
  try simp (disch := decide) only [rP1_keep, rP2_keep, rP3_keep, rP4_keep, rP5_keep, rP6_keep, rP7_keep, rP8_keep, rTail_keep]

theorem val_main_v51 (V : Valuation τ sig (Elt F)) :
    after ops V (Proc.devRef .tc main_v51)
      = (addi (broadcastInDim S128x7 ![0, 1] bcast_S128x1_S128x7_0_1 (broadcastInDim S128x1 ![0] bcast_S128_S128x1_0 (after ops V (Proc.devRef .tc main_v7) : (⟨S128, .i32⟩ : BufTy).Contents (Elt F)))) (select (andi (cmpi .ne (signi (muli (broadcastInDim S128x7 ![0, 1] bcast_S1x7_S128x7_0_1 (broadcastInDim S1x7 ![1] bcast_S7_S1x7_1 (after ops V (Proc.devRef .tc main_v20) : (⟨S7, .i32⟩ : BufTy).Contents (Elt F)))) (broadcastInDim S128x7 ![0, 1] bcast_S128x1_S128x7_0_1 (broadcastInDim S128x1 ![0] bcast_S128_S128x1_0 (after ops V (Proc.devRef .tc main_v19) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (after ops V (Proc.devRef .tc main_v20) : (⟨S7, .i32⟩ : BufTy).Contents (Elt F)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (after ops V (Proc.devRef .tc main_v20) : (⟨S7, .i32⟩ : BufTy).Contents (Elt F)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (after ops V (Proc.devRef .tc main_v20) : (⟨S7, .i32⟩ : BufTy).Contents (Elt F)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (id (constantI S_ 32 7#32)))))) := by
  rw [cut V]
  simp (disch := decide) only [rP1_keep, rP2_keep, rP3_keep, rP4_keep, rP5_keep, rP6_keep, rP7_keep, rP8_keep, rTail_keep]
  rw [read_main_v51]
  try simp (disch := decide) only [rP1_keep, rP2_keep, rP3_keep, rP4_keep, rP5_keep, rP6_keep, rP7_keep, rP8_keep, rTail_keep]

theorem val_main_v64 (V : Valuation τ sig (Elt F)) :
    after ops V (Proc.devRef .tc main_v64)
      = (addi (broadcastInDim S128x7 ![0, 1] bcast_S128x1_S128x7_0_1 (broadcastInDim S128x1 ![0] bcast_S128_S128x1_0 (after ops V (Proc.devRef .tc main_v7) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (after ops V (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (after ops V (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  rw [cut V]
  simp (disch := decide) only [rP1_keep, rP2_keep, rP3_keep, rP4_keep, rP5_keep, rP6_keep, rP7_keep, rP8_keep, rTail_keep]
  rw [read_main_v64]
  try simp (disch := decide) only [rP1_keep, rP2_keep, rP3_keep, rP4_keep, rP5_keep, rP6_keep, rP7_keep, rP8_keep, rTail_keep]

theorem val_main_v83 (V : Valuation τ sig (Elt F)) :
    after ops V (Proc.devRef .tc main_v83)
      = (select (broadcastInDim S512x128x7x5x32 ![0, 1, 2, 3, 4] bcast_S1x128x7x5x1_S512x128x7x5x32_0_1_2_3_4 (broadcastInDim S1x128x7x5x1 ![1, 2, 3] bcast_S128x7x5_S1x128x7x5x1_1_2_3 (cmpi .slt (addi (broadcastInDim S128x7x5 ![0, 1, 2] bcast_S128x7x1_S128x7x5_0_1_2 (broadcastInDim S128x7x1 ![0, 1] bcast_S128x7_S128x7x1_0_1 (after ops V (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (after ops V (Proc.devRef .tc main_v42) : (⟨S128x7, .i32⟩ : BufTy).Contents (Elt F))))))) (Host.gather gather_S512x32x32_S128x7x5x1_S512x128x7x5x32_04_1_n_n_1_3_512132 (after ops V (Proc.devRef .tc main_v0) : (⟨S512x32x32, .f32⟩ : BufTy).Contents (Elt F)) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) (broadcastInDim S512x128x7x5x32 ![] bcast_S_S512x128x7x5x32 (constant S_ .f32 0xFF800000#32))) := by
  rw [cut V]
  simp (disch := decide) only [rP1_keep, rP2_keep, rP3_keep, rP4_keep, rP5_keep, rP6_keep, rP7_keep, rP8_keep, rTail_keep]
  rw [read_main_v83]
  try simp (disch := decide) only [rP1_keep, rP2_keep, rP3_keep, rP4_keep, rP5_keep, rP6_keep, rP7_keep, rP8_keep, rTail_keep]

theorem val_main_v94 (V : Valuation τ sig (Elt F)) :
    after ops V (Proc.devRef .tc main_v94)
      = (cmpi .slt (addi (broadcastInDim S128x7x5 ![0, 1, 2] bcast_S128x7x1_S128x7x5_0_1_2 (broadcastInDim S128x7x1 ![0, 1] bcast_S128x7_S128x7x1_0_1 (after ops V (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (after ops V (Proc.devRef .tc main_v64) : (⟨S128x7, .i32⟩ : BufTy).Contents (Elt F))))) := by
  rw [cut V]
  simp (disch := decide) only [rP1_keep, rP2_keep, rP3_keep, rP4_keep, rP5_keep, rP6_keep, rP7_keep, rP8_keep, rTail_keep]
  rw [read_main_v94]
  try simp (disch := decide) only [rP1_keep, rP2_keep, rP3_keep, rP4_keep, rP5_keep, rP6_keep, rP7_keep, rP8_keep, rTail_keep]

theorem val_main_v102 (V : Valuation τ sig (Elt F)) :
    after ops V (Proc.devRef .tc main_v102)
      = (Host.gather gather_S128x512x7x32_S128x7x5x1_S128x512x7x7x5_12_3_0_0_3_3_151271 (transpose S128x512x7x32 [1, 0, 2, 3] (Host.reduce FloatOps.maximumf (after ops V (Proc.devRef .tc main_v83) : (⟨S512x128x7x5x32, .f32⟩ : BufTy).Contents (Elt F)) (constant S_ .f32 0xFF800000#32) reducesTo_S512x128x7x5x32_S512x128x7x32_d3 h_S_) transposes_S512x128x7x32_S128x512x7x32_1_0_2_3) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (after ops V (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) := by
  rw [cut V]
  simp (disch := decide) only [rP1_keep, rP2_keep, rP3_keep, rP4_keep, rP5_keep, rP6_keep, rP7_keep, rP8_keep, rTail_keep]
  rw [read_main_v102]
  try simp (disch := decide) only [rP1_keep, rP2_keep, rP3_keep, rP4_keep, rP5_keep, rP6_keep, rP7_keep, rP8_keep, rTail_keep]

theorem val_main_v106 (V : Valuation τ sig (Elt F)) :
    after ops V (Proc.devRef .tc main_v106)
      = (shapeCast S128x25088 (Host.reduce FloatOps.maximumf (select (broadcastInDim S128x512x7x7x5 ![0, 1, 2, 3, 4] bcast_S128x1x1x7x5_S128x512x7x7x5_0_1_2_3_4 (broadcastInDim S128x1x1x7x5 ![0, 3, 4] bcast_S128x7x5_S128x1x1x7x5_0_3_4 (after ops V (Proc.devRef .tc main_v94) : (⟨S128x7x5, .i1⟩ : BufTy).Contents (Elt F)))) (after ops V (Proc.devRef .tc main_v102) : (⟨S128x512x7x7x5, .f32⟩ : BufTy).Contents (Elt F)) (broadcastInDim S128x512x7x7x5 ![] bcast_S_S128x512x7x7x5 (constant S_ .f32 0xFF800000#32))) (constant S_ .f32 0xFF800000#32) reducesTo_S128x512x7x7x5_S128x512x7x7_d4 h_S_) shapeCasts_S128x512x7x7_S128x25088) := by
  rw [cut V]
  simp (disch := decide) only [rP1_keep, rP2_keep, rP3_keep, rP4_keep, rP5_keep, rP6_keep, rP7_keep, rP8_keep, rTail_keep]
  rw [read_main_v106]
  try simp (disch := decide) only [rP1_keep, rP2_keep, rP3_keep, rP4_keep, rP5_keep, rP6_keep, rP7_keep, rP8_keep, rTail_keep]

end Cert.Bridge.Ref

end
-- ==== Proof.Bridge.KerCut.lean ====
/- The kernel program's host operations before its first kernel region — the same pooling operations as the
   reference's, in the same order — cut at the same narrow places of the dataflow: after `main_v19`, `main_v29`,
   `main_v42`, `main_v51`, `main_v64`, `main_v83`, `main_v102` and `main_v106`. What the buffers hold after these
   stretches, at one of the named buffers, is a pure term of what they hold at the buffers its piece reads from
   earlier pieces (or of the arguments). -/
import proofs.«110125_j48919677501805_2_alg».proof.Proof.Gen.KernelIdeal.Regions

set_option maxRecDepth 2048

noncomputable section

namespace Cert.Bridge.Ker

open Cert.KernelIdeal Cert.KernelIdeal.Gen Idealize.ShloMosaic Idealize.ShloMosaic.TcCoe Idealize.SL.Sem Idealize.ShloMosaic.StableHlo

variable {F : FTy → Type} [FloatOps F]

/-! ## The pieces -/

/-- 23 operations: the values from `main_v0` to `main_v19`. -/
abbrev kP1 : List (HloOp τ sig (Elt F)) :=
  [ StableHlo.reshape main_arg0 main_v0 rfl shapeCasts_S1x512x32x32_S512x32x32,
    StableHlo.unary main_arg1 main_v1 ((extractStridedSlice S128x4 ![0, 1] · slices_S128x5_S128x4_0_1) : (⟨S128x5, .f32⟩ : BufTy).Contents (Elt F) → (⟨S128x4, .f32⟩ : BufTy).Contents (Elt F)),
    StableHlo.nullary main_cst (constant S_ .f32 0x3D800000#32),
    StableHlo.unary main_cst main_v2 (broadcastInDim S128x4 ![] bcast_S_S128x4 : (⟨S_, .f32⟩ : BufTy).Contents (Elt F) → (⟨S128x4, .f32⟩ : BufTy).Contents (Elt F)),
    StableHlo.binary main_v1 main_v2 main_v3 (mulf : (⟨S128x4, .f32⟩ : BufTy).Contents (Elt F) → (⟨S128x4, .f32⟩ : BufTy).Contents (Elt F) → (⟨S128x4, .f32⟩ : BufTy).Contents (Elt F)),
    StableHlo.unary main_v3 main_v4 (Host.floor : (⟨S128x4, .f32⟩ : BufTy).Contents (Elt F) → (⟨S128x4, .f32⟩ : BufTy).Contents (Elt F)),
    StableHlo.unary main_v4 main_v5 (fptosi 32 : (⟨S128x4, .f32⟩ : BufTy).Contents (Elt F) → (⟨S128x4, .i32⟩ : BufTy).Contents (Elt F)),
    StableHlo.unary main_v5 main_v6 ((extractStridedSlice S128x1 ![0, 0] · slices_S128x4_S128x1_0_0) : (⟨S128x4, .i32⟩ : BufTy).Contents (Elt F) → (⟨S128x1, .i32⟩ : BufTy).Contents (Elt F)),
    StableHlo.reshape main_v6 main_v7 rfl shapeCasts_S128x1_S128,
    StableHlo.unary main_v5 main_v8 ((extractStridedSlice S128x1 ![0, 1] · slices_S128x4_S128x1_0_1) : (⟨S128x4, .i32⟩ : BufTy).Contents (Elt F) → (⟨S128x1, .i32⟩ : BufTy).Contents (Elt F)),
    StableHlo.reshape main_v8 main_v9 rfl shapeCasts_S128x1_S128,
    StableHlo.unary main_v5 main_v10 ((extractStridedSlice S128x1 ![0, 2] · slices_S128x4_S128x1_0_2) : (⟨S128x4, .i32⟩ : BufTy).Contents (Elt F) → (⟨S128x1, .i32⟩ : BufTy).Contents (Elt F)),
    StableHlo.reshape main_v10 main_v11 rfl shapeCasts_S128x1_S128,
    StableHlo.unary main_v5 main_v12 ((extractStridedSlice S128x1 ![0, 3] · slices_S128x4_S128x1_0_3) : (⟨S128x4, .i32⟩ : BufTy).Contents (Elt F) → (⟨S128x1, .i32⟩ : BufTy).Contents (Elt F)),
    StableHlo.reshape main_v12 main_v13 rfl shapeCasts_S128x1_S128,
    StableHlo.binary main_v13 main_v9 main_v14 (subi : (⟨S128, .i32⟩ : BufTy).Contents (Elt F) → (⟨S128, .i32⟩ : BufTy).Contents (Elt F) → (⟨S128, .i32⟩ : BufTy).Contents (Elt F)),
    StableHlo.nullary main_c (constantI S_ 32 1#32),
    StableHlo.unary main_c main_v15 (broadcastInDim S128 ![] bcast_S_S128 : (⟨S_, .i32⟩ : BufTy).Contents (Elt F) → (⟨S128, .i32⟩ : BufTy).Contents (Elt F)),
    StableHlo.binary main_v14 main_v15 main_v16 (addi : (⟨S128, .i32⟩ : BufTy).Contents (Elt F) → (⟨S128, .i32⟩ : BufTy).Contents (Elt F) → (⟨S128, .i32⟩ : BufTy).Contents (Elt F)),
    StableHlo.binary main_v11 main_v7 main_v17 (subi : (⟨S128, .i32⟩ : BufTy).Contents (Elt F) → (⟨S128, .i32⟩ : BufTy).Contents (Elt F) → (⟨S128, .i32⟩ : BufTy).Contents (Elt F)),
    StableHlo.nullary main_c_0 (constantI S_ 32 1#32),
    StableHlo.unary main_c_0 main_v18 (broadcastInDim S128 ![] bcast_S_S128 : (⟨S_, .i32⟩ : BufTy).Contents (Elt F) → (⟨S128, .i32⟩ : BufTy).Contents (Elt F)),
    StableHlo.binary main_v17 main_v18 main_v19 (addi : (⟨S128, .i32⟩ : BufTy).Contents (Elt F) → (⟨S128, .i32⟩ : BufTy).Contents (Elt F) → (⟨S128, .i32⟩ : BufTy).Contents (Elt F)) ]

/-- 27 operations: the values from `main_v20` to `main_v29`. -/
abbrev kP2 : List (HloOp τ sig (Elt F)) :=
  [ StableHlo.nullary main_v20 (iotaInDim S7 32 0),
    StableHlo.unary main_v9 main_v21 (broadcastInDim S128x1 ![0] bcast_S128_S128x1_0 : (⟨S128, .i32⟩ : BufTy).Contents (Elt F) → (⟨S128x1, .i32⟩ : BufTy).Contents (Elt F)),
    StableHlo.unary main_v20 main_v22 (broadcastInDim S1x7 ![1] bcast_S7_S1x7_1 : (⟨S7, .i32⟩ : BufTy).Contents (Elt F) → (⟨S1x7, .i32⟩ : BufTy).Contents (Elt F)),
    StableHlo.unary main_v16 main_v23 (broadcastInDim S128x1 ![0] bcast_S128_S128x1_0 : (⟨S128, .i32⟩ : BufTy).Contents (Elt F) → (⟨S128x1, .i32⟩ : BufTy).Contents (Elt F)),
    StableHlo.unary main_v22 main_v24 (broadcastInDim S128x7 ![0, 1] bcast_S1x7_S128x7_0_1 : (⟨S1x7, .i32⟩ : BufTy).Contents (Elt F) → (⟨S128x7, .i32⟩ : BufTy).Contents (Elt F)),
    StableHlo.unary main_v23 main_v25 (broadcastInDim S128x7 ![0, 1] bcast_S128x1_S128x7_0_1 : (⟨S128x1, .i32⟩ : BufTy).Contents (Elt F) → (⟨S128x7, .i32⟩ : BufTy).Contents (Elt F)),
    StableHlo.binary main_v24 main_v25 main_v26 (muli : (⟨S128x7, .i32⟩ : BufTy).Contents (Elt F) → (⟨S128x7, .i32⟩ : BufTy).Contents (Elt F) → (⟨S128x7, .i32⟩ : BufTy).Contents (Elt F)),
    StableHlo.nullary main_c_1 (constantI S_ 32 7#32),
    StableHlo.TRef.unary (.of main_c_1 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S128x7, .i32⟩) (broadcastInDim S128x7 ![] bcast_S_S128x7),
    StableHlo.TRef.binary (.of main_v26 : StableHlo.TRef sig ⟨S128x7, .i32⟩) (.of main_call0_v1 : StableHlo.TRef sig ⟨S128x7, .i32⟩) (.of main_call0_v2 : StableHlo.TRef sig ⟨S128x7, .i32⟩) Host.divsi,
    StableHlo.TRef.unary (.of main_v26 : StableHlo.TRef sig ⟨S128x7, .i32⟩) (.of main_call0_v3 : StableHlo.TRef sig ⟨S128x7, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S128x7, .i32⟩) (broadcastInDim S128x7 ![] bcast_S_S128x7),
    StableHlo.TRef.binary (.of main_call0_v3 : StableHlo.TRef sig ⟨S128x7, .i32⟩) (.of main_call0_v5 : StableHlo.TRef sig ⟨S128x7, .i32⟩) (.of main_call0_v6 : StableHlo.TRef sig ⟨S128x7, .i1⟩) (cmpi .ne),
    StableHlo.TRef.unary (.of main_call0_v0 : StableHlo.TRef sig ⟨S_, .i32⟩) (.of main_call0_v7 : StableHlo.TRef sig ⟨S128x7, .i32⟩) (broadcastInDim S128x7 ![] bcast_S_S128x7),
    StableHlo.TRef.binary (.of main_v26 : StableHlo.TRef sig ⟨S128x7, .i32⟩) (.of main_call0_v7 : StableHlo.TRef sig ⟨S128x7, .i32⟩) (.of main_call0_v8 : StableHlo.TRef sig ⟨S128x7, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S128x7, .i32⟩) (broadcastInDim S128x7 ![] bcast_S_S128x7),
    StableHlo.TRef.binary (.of main_call0_v8 : StableHlo.TRef sig ⟨S128x7, .i32⟩) (.of main_call0_v9 : StableHlo.TRef sig ⟨S128x7, .i32⟩) (.of main_call0_v10 : StableHlo.TRef sig ⟨S128x7, .i1⟩) (cmpi .ne),
    StableHlo.TRef.binary (.of main_call0_v6 : StableHlo.TRef sig ⟨S128x7, .i1⟩) (.of main_call0_v10 : StableHlo.TRef sig ⟨S128x7, .i1⟩) (.of main_call0_v11 : StableHlo.TRef sig ⟨S128x7, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S128x7, .i32⟩) (broadcastInDim S128x7 ![] bcast_S_S128x7),
    StableHlo.TRef.binary (.of main_call0_v2 : StableHlo.TRef sig ⟨S128x7, .i32⟩) (.of main_call0_v12 : StableHlo.TRef sig ⟨S128x7, .i32⟩) (.of main_call0_v13 : StableHlo.TRef sig ⟨S128x7, .i32⟩) subi,
    StableHlo.TRef.ternary (.of main_call0_v11 : StableHlo.TRef sig ⟨S128x7, .i1⟩) (.of main_call0_v13 : StableHlo.TRef sig ⟨S128x7, .i32⟩) (.of main_call0_v2 : StableHlo.TRef sig ⟨S128x7, .i32⟩) (.of main_v27 : StableHlo.TRef sig ⟨S128x7, .i32⟩) select,
    StableHlo.unary main_v21 main_v28 (broadcastInDim S128x7 ![0, 1] bcast_S128x1_S128x7_0_1 : (⟨S128x1, .i32⟩ : BufTy).Contents (Elt F) → (⟨S128x7, .i32⟩ : BufTy).Contents (Elt F)),
    StableHlo.binary main_v28 main_v27 main_v29 (addi : (⟨S128x7, .i32⟩ : BufTy).Contents (Elt F) → (⟨S128x7, .i32⟩ : BufTy).Contents (Elt F) → (⟨S128x7, .i32⟩ : BufTy).Contents (Elt F)) ]

/-- 32 operations: the values from `main_v30` to `main_v42`. -/
abbrev kP3 : List (HloOp τ sig (Elt F)) :=
  [ StableHlo.unary main_v9 main_v30 (broadcastInDim S128x1 ![0] bcast_S128_S128x1_0 : (⟨S128, .i32⟩ : BufTy).Contents (Elt F) → (⟨S128x1, .i32⟩ : BufTy).Contents (Elt F)),
    StableHlo.unary main_v20 main_v31 (broadcastInDim S1x7 ![1] bcast_S7_S1x7_1 : (⟨S7, .i32⟩ : BufTy).Contents (Elt F) → (⟨S1x7, .i32⟩ : BufTy).Contents (Elt F)),
    StableHlo.nullary main_c_2 (constantI S_ 32 1#32),
    StableHlo.unary main_c_2 main_v32 (broadcastInDim S1x7 ![] bcast_S_S1x7 : (⟨S_, .i32⟩ : BufTy).Contents (Elt F) → (⟨S1x7, .i32⟩ : BufTy).Contents (Elt F)),
    StableHlo.binary main_v31 main_v32 main_v33 (addi : (⟨S1x7, .i32⟩ : BufTy).Contents (Elt F) → (⟨S1x7, .i32⟩ : BufTy).Contents (Elt F) → (⟨S1x7, .i32⟩ : BufTy).Contents (Elt F)),
    StableHlo.unary main_v16 main_v34 (broadcastInDim S128x1 ![0] bcast_S128_S128x1_0 : (⟨S128, .i32⟩ : BufTy).Contents (Elt F) → (⟨S128x1, .i32⟩ : BufTy).Contents (Elt F)),
    StableHlo.unary main_v33 main_v35 (broadcastInDim S128x7 ![0, 1] bcast_S1x7_S128x7_0_1 : (⟨S1x7, .i32⟩ : BufTy).Contents (Elt F) → (⟨S128x7, .i32⟩ : BufTy).Contents (Elt F)),
    StableHlo.unary main_v34 main_v36 (broadcastInDim S128x7 ![0, 1] bcast_S128x1_S128x7_0_1 : (⟨S128x1, .i32⟩ : BufTy).Contents (Elt F) → (⟨S128x7, .i32⟩ : BufTy).Contents (Elt F)),
    StableHlo.binary main_v35 main_v36 main_v37 (muli : (⟨S128x7, .i32⟩ : BufTy).Contents (Elt F) → (⟨S128x7, .i32⟩ : BufTy).Contents (Elt F) → (⟨S128x7, .i32⟩ : BufTy).Contents (Elt F)),
    StableHlo.nullary main_c_3 (constantI S_ 32 6#32),
    StableHlo.unary main_c_3 main_v38 (broadcastInDim S128x7 ![] bcast_S_S128x7 : (⟨S_, .i32⟩ : BufTy).Contents (Elt F) → (⟨S128x7, .i32⟩ : BufTy).Contents (Elt F)),
    StableHlo.binary main_v37 main_v38 main_v39 (addi : (⟨S128x7, .i32⟩ : BufTy).Contents (Elt F) → (⟨S128x7, .i32⟩ : BufTy).Contents (Elt F) → (⟨S128x7, .i32⟩ : BufTy).Contents (Elt F)),
    StableHlo.nullary main_c_4 (constantI S_ 32 7#32),
    StableHlo.TRef.unary (.of main_c_4 : StableHlo.TRef sig ⟨S_, .i32⟩) (.of main_call1_v0 : StableHlo.TRef sig ⟨S_, .i32⟩) id,
    StableHlo.TRef.unary (.of main_call1_v0 : StableHlo.TRef sig ⟨S_, .i32⟩) (.of main_call1_v1 : StableHlo.TRef sig ⟨S128x7, .i32⟩) (broadcastInDim S128x7 ![] bcast_S_S128x7),
    StableHlo.TRef.binary (.of main_v39 : StableHlo.TRef sig ⟨S128x7, .i32⟩) (.of main_call1_v1 : StableHlo.TRef sig ⟨S128x7, .i32⟩) (.of main_call1_v2 : StableHlo.TRef sig ⟨S128x7, .i32⟩) Host.divsi,
    StableHlo.TRef.unary (.of main_v39 : StableHlo.TRef sig ⟨S128x7, .i32⟩) (.of main_call1_v3 : StableHlo.TRef sig ⟨S128x7, .i32⟩) signi,
    StableHlo.TRef.unary (.of main_call1_v0 : StableHlo.TRef sig ⟨S_, .i32⟩) (.of main_call1_v4 : StableHlo.TRef sig ⟨S_, .i32⟩) signi,
    StableHlo.TRef.unary (.of main_call1_v4 : StableHlo.TRef sig ⟨S_, .i32⟩) (.of main_call1_v5 : StableHlo.TRef sig ⟨S128x7, .i32⟩) (broadcastInDim S128x7 ![] bcast_S_S128x7),
    StableHlo.TRef.binary (.of main_call1_v3 : StableHlo.TRef sig ⟨S128x7, .i32⟩) (.of main_call1_v5 : StableHlo.TRef sig ⟨S128x7, .i32⟩) (.of main_call1_v6 : StableHlo.TRef sig ⟨S128x7, .i1⟩) (cmpi .ne),
    StableHlo.TRef.unary (.of main_call1_v0 : StableHlo.TRef sig ⟨S_, .i32⟩) (.of main_call1_v7 : StableHlo.TRef sig ⟨S128x7, .i32⟩) (broadcastInDim S128x7 ![] bcast_S_S128x7),
    StableHlo.TRef.binary (.of main_v39 : StableHlo.TRef sig ⟨S128x7, .i32⟩) (.of main_call1_v7 : StableHlo.TRef sig ⟨S128x7, .i32⟩) (.of main_call1_v8 : StableHlo.TRef sig ⟨S128x7, .i32⟩) Host.remsi,
    StableHlo.TRef.nullary (.of main_call1_c : StableHlo.TRef sig ⟨S_, .i32⟩) (constantI S_ 32 0#32),
    StableHlo.TRef.unary (.of main_call1_c : StableHlo.TRef sig ⟨S_, .i32⟩) (.of main_call1_v9 : StableHlo.TRef sig ⟨S128x7, .i32⟩) (broadcastInDim S128x7 ![] bcast_S_S128x7),
    StableHlo.TRef.binary (.of main_call1_v8 : StableHlo.TRef sig ⟨S128x7, .i32⟩) (.of main_call1_v9 : StableHlo.TRef sig ⟨S128x7, .i32⟩) (.of main_call1_v10 : StableHlo.TRef sig ⟨S128x7, .i1⟩) (cmpi .ne),
    StableHlo.TRef.binary (.of main_call1_v6 : StableHlo.TRef sig ⟨S128x7, .i1⟩) (.of main_call1_v10 : StableHlo.TRef sig ⟨S128x7, .i1⟩) (.of main_call1_v11 : StableHlo.TRef sig ⟨S128x7, .i1⟩) andi,
    StableHlo.TRef.nullary (.of main_call1_c_0 : StableHlo.TRef sig ⟨S_, .i32⟩) (constantI S_ 32 1#32),
    StableHlo.TRef.unary (.of main_call1_c_0 : StableHlo.TRef sig ⟨S_, .i32⟩) (.of main_call1_v12 : StableHlo.TRef sig ⟨S128x7, .i32⟩) (broadcastInDim S128x7 ![] bcast_S_S128x7),
    StableHlo.TRef.binary (.of main_call1_v2 : StableHlo.TRef sig ⟨S128x7, .i32⟩) (.of main_call1_v12 : StableHlo.TRef sig ⟨S128x7, .i32⟩) (.of main_call1_v13 : StableHlo.TRef sig ⟨S128x7, .i32⟩) subi,
    StableHlo.TRef.ternary (.of main_call1_v11 : StableHlo.TRef sig ⟨S128x7, .i1⟩) (.of main_call1_v13 : StableHlo.TRef sig ⟨S128x7, .i32⟩) (.of main_call1_v2 : StableHlo.TRef sig ⟨S128x7, .i32⟩) (.of main_v40 : StableHlo.TRef sig ⟨S128x7, .i32⟩) select,
    StableHlo.unary main_v30 main_v41 (broadcastInDim S128x7 ![0, 1] bcast_S128x1_S128x7_0_1 : (⟨S128x1, .i32⟩ : BufTy).Contents (Elt F) → (⟨S128x7, .i32⟩ : BufTy).Contents (Elt F)),
    StableHlo.binary main_v41 main_v40 main_v42 (addi : (⟨S128x7, .i32⟩ : BufTy).Contents (Elt F) → (⟨S128x7, .i32⟩ : BufTy).Contents (Elt F) → (⟨S128x7, .i32⟩ : BufTy).Contents (Elt F)) ]

/-- 26 operations: the values from `main_v43` to `main_v51`. -/
abbrev kP4 : List (HloOp τ sig (Elt F)) :=
  [ StableHlo.unary main_v7 main_v43 (broadcastInDim S128x1 ![0] bcast_S128_S128x1_0 : (⟨S128, .i32⟩ : BufTy).Contents (Elt F) → (⟨S128x1, .i32⟩ : BufTy).Contents (Elt F)),
    StableHlo.unary main_v20 main_v44 (broadcastInDim S1x7 ![1] bcast_S7_S1x7_1 : (⟨S7, .i32⟩ : BufTy).Contents (Elt F) → (⟨S1x7, .i32⟩ : BufTy).Contents (Elt F)),
    StableHlo.unary main_v19 main_v45 (broadcastInDim S128x1 ![0] bcast_S128_S128x1_0 : (⟨S128, .i32⟩ : BufTy).Contents (Elt F) → (⟨S128x1, .i32⟩ : BufTy).Contents (Elt F)),
    StableHlo.unary main_v44 main_v46 (broadcastInDim S128x7 ![0, 1] bcast_S1x7_S128x7_0_1 : (⟨S1x7, .i32⟩ : BufTy).Contents (Elt F) → (⟨S128x7, .i32⟩ : BufTy).Contents (Elt F)),
    StableHlo.unary main_v45 main_v47 (broadcastInDim S128x7 ![0, 1] bcast_S128x1_S128x7_0_1 : (⟨S128x1, .i32⟩ : BufTy).Contents (Elt F) → (⟨S128x7, .i32⟩ : BufTy).Contents (Elt F)),
    StableHlo.binary main_v46 main_v47 main_v48 (muli : (⟨S128x7, .i32⟩ : BufTy).Contents (Elt F) → (⟨S128x7, .i32⟩ : BufTy).Contents (Elt F) → (⟨S128x7, .i32⟩ : BufTy).Contents (Elt F)),
    StableHlo.nullary main_c_5 (constantI S_ 32 7#32),
    StableHlo.TRef.unary (.of main_c_5 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S128x7, .i32⟩) (broadcastInDim S128x7 ![] bcast_S_S128x7),
    StableHlo.TRef.binary (.of main_v48 : StableHlo.TRef sig ⟨S128x7, .i32⟩) (.of main_call2_v1 : StableHlo.TRef sig ⟨S128x7, .i32⟩) (.of main_call2_v2 : StableHlo.TRef sig ⟨S128x7, .i32⟩) Host.divsi,
    StableHlo.TRef.unary (.of main_v48 : StableHlo.TRef sig ⟨S128x7, .i32⟩) (.of main_call2_v3 : StableHlo.TRef sig ⟨S128x7, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S128x7, .i32⟩) (broadcastInDim S128x7 ![] bcast_S_S128x7),
    StableHlo.TRef.binary (.of main_call2_v3 : StableHlo.TRef sig ⟨S128x7, .i32⟩) (.of main_call2_v5 : StableHlo.TRef sig ⟨S128x7, .i32⟩) (.of main_call2_v6 : StableHlo.TRef sig ⟨S128x7, .i1⟩) (cmpi .ne),
    StableHlo.TRef.unary (.of main_call2_v0 : StableHlo.TRef sig ⟨S_, .i32⟩) (.of main_call2_v7 : StableHlo.TRef sig ⟨S128x7, .i32⟩) (broadcastInDim S128x7 ![] bcast_S_S128x7),
    StableHlo.TRef.binary (.of main_v48 : StableHlo.TRef sig ⟨S128x7, .i32⟩) (.of main_call2_v7 : StableHlo.TRef sig ⟨S128x7, .i32⟩) (.of main_call2_v8 : StableHlo.TRef sig ⟨S128x7, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S128x7, .i32⟩) (broadcastInDim S128x7 ![] bcast_S_S128x7),
    StableHlo.TRef.binary (.of main_call2_v8 : StableHlo.TRef sig ⟨S128x7, .i32⟩) (.of main_call2_v9 : StableHlo.TRef sig ⟨S128x7, .i32⟩) (.of main_call2_v10 : StableHlo.TRef sig ⟨S128x7, .i1⟩) (cmpi .ne),
    StableHlo.TRef.binary (.of main_call2_v6 : StableHlo.TRef sig ⟨S128x7, .i1⟩) (.of main_call2_v10 : StableHlo.TRef sig ⟨S128x7, .i1⟩) (.of main_call2_v11 : StableHlo.TRef sig ⟨S128x7, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S128x7, .i32⟩) (broadcastInDim S128x7 ![] bcast_S_S128x7),
    StableHlo.TRef.binary (.of main_call2_v2 : StableHlo.TRef sig ⟨S128x7, .i32⟩) (.of main_call2_v12 : StableHlo.TRef sig ⟨S128x7, .i32⟩) (.of main_call2_v13 : StableHlo.TRef sig ⟨S128x7, .i32⟩) subi,
    StableHlo.TRef.ternary (.of main_call2_v11 : StableHlo.TRef sig ⟨S128x7, .i1⟩) (.of main_call2_v13 : StableHlo.TRef sig ⟨S128x7, .i32⟩) (.of main_call2_v2 : StableHlo.TRef sig ⟨S128x7, .i32⟩) (.of main_v49 : StableHlo.TRef sig ⟨S128x7, .i32⟩) select,
    StableHlo.unary main_v43 main_v50 (broadcastInDim S128x7 ![0, 1] bcast_S128x1_S128x7_0_1 : (⟨S128x1, .i32⟩ : BufTy).Contents (Elt F) → (⟨S128x7, .i32⟩ : BufTy).Contents (Elt F)),
    StableHlo.binary main_v50 main_v49 main_v51 (addi : (⟨S128x7, .i32⟩ : BufTy).Contents (Elt F) → (⟨S128x7, .i32⟩ : BufTy).Contents (Elt F) → (⟨S128x7, .i32⟩ : BufTy).Contents (Elt F)) ]

/-- 32 operations: the values from `main_v52` to `main_v64`. -/
abbrev kP5 : List (HloOp τ sig (Elt F)) :=
  [ StableHlo.unary main_v7 main_v52 (broadcastInDim S128x1 ![0] bcast_S128_S128x1_0 : (⟨S128, .i32⟩ : BufTy).Contents (Elt F) → (⟨S128x1, .i32⟩ : BufTy).Contents (Elt F)),
    StableHlo.unary main_v20 main_v53 (broadcastInDim S1x7 ![1] bcast_S7_S1x7_1 : (⟨S7, .i32⟩ : BufTy).Contents (Elt F) → (⟨S1x7, .i32⟩ : BufTy).Contents (Elt F)),
    StableHlo.nullary main_c_6 (constantI S_ 32 1#32),
    StableHlo.unary main_c_6 main_v54 (broadcastInDim S1x7 ![] bcast_S_S1x7 : (⟨S_, .i32⟩ : BufTy).Contents (Elt F) → (⟨S1x7, .i32⟩ : BufTy).Contents (Elt F)),
    StableHlo.binary main_v53 main_v54 main_v55 (addi : (⟨S1x7, .i32⟩ : BufTy).Contents (Elt F) → (⟨S1x7, .i32⟩ : BufTy).Contents (Elt F) → (⟨S1x7, .i32⟩ : BufTy).Contents (Elt F)),
    StableHlo.unary main_v19 main_v56 (broadcastInDim S128x1 ![0] bcast_S128_S128x1_0 : (⟨S128, .i32⟩ : BufTy).Contents (Elt F) → (⟨S128x1, .i32⟩ : BufTy).Contents (Elt F)),
    StableHlo.unary main_v55 main_v57 (broadcastInDim S128x7 ![0, 1] bcast_S1x7_S128x7_0_1 : (⟨S1x7, .i32⟩ : BufTy).Contents (Elt F) → (⟨S128x7, .i32⟩ : BufTy).Contents (Elt F)),
    StableHlo.unary main_v56 main_v58 (broadcastInDim S128x7 ![0, 1] bcast_S128x1_S128x7_0_1 : (⟨S128x1, .i32⟩ : BufTy).Contents (Elt F) → (⟨S128x7, .i32⟩ : BufTy).Contents (Elt F)),
    StableHlo.binary main_v57 main_v58 main_v59 (muli : (⟨S128x7, .i32⟩ : BufTy).Contents (Elt F) → (⟨S128x7, .i32⟩ : BufTy).Contents (Elt F) → (⟨S128x7, .i32⟩ : BufTy).Contents (Elt F)),
    StableHlo.nullary main_c_7 (constantI S_ 32 6#32),
    StableHlo.unary main_c_7 main_v60 (broadcastInDim S128x7 ![] bcast_S_S128x7 : (⟨S_, .i32⟩ : BufTy).Contents (Elt F) → (⟨S128x7, .i32⟩ : BufTy).Contents (Elt F)),
    StableHlo.binary main_v59 main_v60 main_v61 (addi : (⟨S128x7, .i32⟩ : BufTy).Contents (Elt F) → (⟨S128x7, .i32⟩ : BufTy).Contents (Elt F) → (⟨S128x7, .i32⟩ : BufTy).Contents (Elt F)),
    StableHlo.nullary main_c_8 (constantI S_ 32 7#32),
    StableHlo.TRef.unary (.of main_c_8 : StableHlo.TRef sig ⟨S_, .i32⟩) (.of main_call3_v0 : StableHlo.TRef sig ⟨S_, .i32⟩) id,
    StableHlo.TRef.unary (.of main_call3_v0 : StableHlo.TRef sig ⟨S_, .i32⟩) (.of main_call3_v1 : StableHlo.TRef sig ⟨S128x7, .i32⟩) (broadcastInDim S128x7 ![] bcast_S_S128x7),
    StableHlo.TRef.binary (.of main_v61 : StableHlo.TRef sig ⟨S128x7, .i32⟩) (.of main_call3_v1 : StableHlo.TRef sig ⟨S128x7, .i32⟩) (.of main_call3_v2 : StableHlo.TRef sig ⟨S128x7, .i32⟩) Host.divsi,
    StableHlo.TRef.unary (.of main_v61 : StableHlo.TRef sig ⟨S128x7, .i32⟩) (.of main_call3_v3 : StableHlo.TRef sig ⟨S128x7, .i32⟩) signi,
    StableHlo.TRef.unary (.of main_call3_v0 : StableHlo.TRef sig ⟨S_, .i32⟩) (.of main_call3_v4 : StableHlo.TRef sig ⟨S_, .i32⟩) signi,
    StableHlo.TRef.unary (.of main_call3_v4 : StableHlo.TRef sig ⟨S_, .i32⟩) (.of main_call3_v5 : StableHlo.TRef sig ⟨S128x7, .i32⟩) (broadcastInDim S128x7 ![] bcast_S_S128x7),
    StableHlo.TRef.binary (.of main_call3_v3 : StableHlo.TRef sig ⟨S128x7, .i32⟩) (.of main_call3_v5 : StableHlo.TRef sig ⟨S128x7, .i32⟩) (.of main_call3_v6 : StableHlo.TRef sig ⟨S128x7, .i1⟩) (cmpi .ne),
    StableHlo.TRef.unary (.of main_call3_v0 : StableHlo.TRef sig ⟨S_, .i32⟩) (.of main_call3_v7 : StableHlo.TRef sig ⟨S128x7, .i32⟩) (broadcastInDim S128x7 ![] bcast_S_S128x7),
    StableHlo.TRef.binary (.of main_v61 : StableHlo.TRef sig ⟨S128x7, .i32⟩) (.of main_call3_v7 : StableHlo.TRef sig ⟨S128x7, .i32⟩) (.of main_call3_v8 : StableHlo.TRef sig ⟨S128x7, .i32⟩) Host.remsi,
    StableHlo.TRef.nullary (.of main_call3_c : StableHlo.TRef sig ⟨S_, .i32⟩) (constantI S_ 32 0#32),
    StableHlo.TRef.unary (.of main_call3_c : StableHlo.TRef sig ⟨S_, .i32⟩) (.of main_call3_v9 : StableHlo.TRef sig ⟨S128x7, .i32⟩) (broadcastInDim S128x7 ![] bcast_S_S128x7),
    StableHlo.TRef.binary (.of main_call3_v8 : StableHlo.TRef sig ⟨S128x7, .i32⟩) (.of main_call3_v9 : StableHlo.TRef sig ⟨S128x7, .i32⟩) (.of main_call3_v10 : StableHlo.TRef sig ⟨S128x7, .i1⟩) (cmpi .ne),
    StableHlo.TRef.binary (.of main_call3_v6 : StableHlo.TRef sig ⟨S128x7, .i1⟩) (.of main_call3_v10 : StableHlo.TRef sig ⟨S128x7, .i1⟩) (.of main_call3_v11 : StableHlo.TRef sig ⟨S128x7, .i1⟩) andi,
    StableHlo.TRef.nullary (.of main_call3_c_0 : StableHlo.TRef sig ⟨S_, .i32⟩) (constantI S_ 32 1#32),
    StableHlo.TRef.unary (.of main_call3_c_0 : StableHlo.TRef sig ⟨S_, .i32⟩) (.of main_call3_v12 : StableHlo.TRef sig ⟨S128x7, .i32⟩) (broadcastInDim S128x7 ![] bcast_S_S128x7),
    StableHlo.TRef.binary (.of main_call3_v2 : StableHlo.TRef sig ⟨S128x7, .i32⟩) (.of main_call3_v12 : StableHlo.TRef sig ⟨S128x7, .i32⟩) (.of main_call3_v13 : StableHlo.TRef sig ⟨S128x7, .i32⟩) subi,
    StableHlo.TRef.ternary (.of main_call3_v11 : StableHlo.TRef sig ⟨S128x7, .i1⟩) (.of main_call3_v13 : StableHlo.TRef sig ⟨S128x7, .i32⟩) (.of main_call3_v2 : StableHlo.TRef sig ⟨S128x7, .i32⟩) (.of main_v62 : StableHlo.TRef sig ⟨S128x7, .i32⟩) select,
    StableHlo.unary main_v52 main_v63 (broadcastInDim S128x7 ![0, 1] bcast_S128x1_S128x7_0_1 : (⟨S128x1, .i32⟩ : BufTy).Contents (Elt F) → (⟨S128x7, .i32⟩ : BufTy).Contents (Elt F)),
    StableHlo.binary main_v63 main_v62 main_v64 (addi : (⟨S128x7, .i32⟩ : BufTy).Contents (Elt F) → (⟨S128x7, .i32⟩ : BufTy).Contents (Elt F) → (⟨S128x7, .i32⟩ : BufTy).Contents (Elt F)) ]

/-- 31 operations: the values from `main_v65` to `main_v83`. -/
abbrev kP6 : List (HloOp τ sig (Elt F)) :=
  [ StableHlo.unary main_v29 main_v65 (broadcastInDim S128x7x1 ![0, 1] bcast_S128x7_S128x7x1_0_1 : (⟨S128x7, .i32⟩ : BufTy).Contents (Elt F) → (⟨S128x7x1, .i32⟩ : BufTy).Contents (Elt F)),
    StableHlo.nullary main_v66 (iotaInDim S5 32 0),
    StableHlo.unary main_v66 main_v67 (broadcastInDim S1x1x5 ![2] bcast_S5_S1x1x5_2 : (⟨S5, .i32⟩ : BufTy).Contents (Elt F) → (⟨S1x1x5, .i32⟩ : BufTy).Contents (Elt F)),
    StableHlo.unary main_v65 main_v68 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v67 main_v69 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v68 main_v69 main_v70 (addi : (⟨S128x7x5, .i32⟩ : BufTy).Contents (Elt F) → (⟨S128x7x5, .i32⟩ : BufTy).Contents (Elt F) → (⟨S128x7x5, .i32⟩ : BufTy).Contents (Elt F)),
    StableHlo.unary main_v42 main_v71 (broadcastInDim S128x7x1 ![0, 1] bcast_S128x7_S128x7x1_0_1 : (⟨S128x7, .i32⟩ : BufTy).Contents (Elt F) → (⟨S128x7x1, .i32⟩ : BufTy).Contents (Elt F)),
    StableHlo.unary main_v71 main_v72 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v70 main_v72 main_v73 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_9 (constantI S_ 32 0#32),
    StableHlo.nullary main_c_10 (constantI S_ 32 31#32),
    StableHlo.TRef.unary (.of main_c_9 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S128x7x5, .i32⟩) (broadcastInDim S128x7x5 ![] bcast_S_S128x7x5),
    StableHlo.TRef.binary (.of main_call4_v1 : StableHlo.TRef sig ⟨S128x7x5, .i32⟩) (.of main_v70 : StableHlo.TRef sig ⟨S128x7x5, .i32⟩) (.of main_call4_v2 : StableHlo.TRef sig ⟨S128x7x5, .i32⟩) maxsi,
    StableHlo.TRef.unary (.of main_c_10 : StableHlo.TRef sig ⟨S_, .i32⟩) (.of main_call4_v3 : StableHlo.TRef sig ⟨S_, .i32⟩) id,
    StableHlo.TRef.unary (.of main_call4_v3 : StableHlo.TRef sig ⟨S_, .i32⟩) (.of main_call4_v4 : StableHlo.TRef sig ⟨S128x7x5, .i32⟩) (broadcastInDim S128x7x5 ![] bcast_S_S128x7x5),
    StableHlo.TRef.binary (.of main_call4_v4 : StableHlo.TRef sig ⟨S128x7x5, .i32⟩) (.of main_call4_v2 : StableHlo.TRef sig ⟨S128x7x5, .i32⟩) (.of main_v74 : StableHlo.TRef sig ⟨S128x7x5, .i32⟩) minsi,
    StableHlo.nullary main_c_11 (constantI S_ 32 0#32),
    StableHlo.unary main_c_11 main_v75 (broadcastInDim S128x7x5 ![] bcast_S_S128x7x5 : (⟨S_, .i32⟩ : BufTy).Contents (Elt F) → (⟨S128x7x5, .i32⟩ : BufTy).Contents (Elt F)),
    StableHlo.binary main_v74 main_v75 main_v76 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_12 (constantI S_ 32 32#32),
    StableHlo.unary main_c_12 main_v77 (broadcastInDim S128x7x5 ![] bcast_S_S128x7x5 : (⟨S_, .i32⟩ : BufTy).Contents (Elt F) → (⟨S128x7x5, .i32⟩ : BufTy).Contents (Elt F)),
    StableHlo.binary main_v74 main_v77 main_v78 (addi : (⟨S128x7x5, .i32⟩ : BufTy).Contents (Elt F) → (⟨S128x7x5, .i32⟩ : BufTy).Contents (Elt F) → (⟨S128x7x5, .i32⟩ : BufTy).Contents (Elt F)),
    StableHlo.ternary main_v76 main_v78 main_v74 main_v79 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v79 main_v80 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v0 main_v80 main_v81 ((fun x i => Host.gather gather_S512x32x32_S128x7x5x1_S512x128x7x5x32_04_1_n_n_1_3_512132 x i) : (⟨S512x32x32, .f32⟩ : BufTy).Contents (Elt F) → (⟨S128x7x5x1, .i32⟩ : BufTy).Contents (Elt F) → (⟨S512x128x7x5x32, .f32⟩ : BufTy).Contents (Elt F)),
    StableHlo.unary main_v73 main_v82 (broadcastInDim S1x128x7x5x1 ![1, 2, 3] bcast_S128x7x5_S1x128x7x5x1_1_2_3 : (⟨S128x7x5, .i1⟩ : BufTy).Contents (Elt F) → (⟨S1x128x7x5x1, .i1⟩ : BufTy).Contents (Elt F)),
    StableHlo.nullary main_cst_13 (constant S_ .f32 0xFF800000#32),
    StableHlo.TRef.unary (.of main_v82 : StableHlo.TRef sig ⟨S1x128x7x5x1, .i1⟩) (.of main_call5_v0 : StableHlo.TRef sig ⟨S512x128x7x5x32, .i1⟩) (broadcastInDim S512x128x7x5x32 ![0, 1, 2, 3, 4] bcast_S1x128x7x5x1_S512x128x7x5x32_0_1_2_3_4),
    StableHlo.TRef.unary (.of main_cst_13 : StableHlo.TRef sig ⟨S_, .f32⟩) (.of main_call5_v1 : StableHlo.TRef sig ⟨S512x128x7x5x32, .f32⟩) (broadcastInDim S512x128x7x5x32 ![] bcast_S_S512x128x7x5x32),
    StableHlo.TRef.ternary (.of main_call5_v0 : StableHlo.TRef sig ⟨S512x128x7x5x32, .i1⟩) (.of main_v81 : StableHlo.TRef sig ⟨S512x128x7x5x32, .f32⟩) (.of main_call5_v1 : StableHlo.TRef sig ⟨S512x128x7x5x32, .f32⟩) (.of main_v83 : StableHlo.TRef sig ⟨S512x128x7x5x32, .f32⟩) select ]

/-- 29 operations: the values from `main_cst_14` to `main_v102`. -/
abbrev kP7 : List (HloOp τ sig (Elt F)) :=
  [ StableHlo.nullary main_cst_14 (constant S_ .f32 0xFF800000#32),
    StableHlo.binary main_v83 main_cst_14 main_v84 ((fun x v => Host.reduce FloatOps.maximumf x v reducesTo_S512x128x7x5x32_S512x128x7x32_d3 h_S_) : (⟨S512x128x7x5x32, .f32⟩ : BufTy).Contents (Elt F) → (⟨S_, .f32⟩ : BufTy).Contents (Elt F) → (⟨S512x128x7x32, .f32⟩ : BufTy).Contents (Elt F)),
    StableHlo.unary main_v84 main_v85 ((transpose S128x512x7x32 [1, 0, 2, 3] · transposes_S512x128x7x32_S128x512x7x32_1_0_2_3) : (⟨S512x128x7x32, .f32⟩ : BufTy).Contents (Elt F) → (⟨S128x512x7x32, .f32⟩ : BufTy).Contents (Elt F)),
    StableHlo.unary main_v51 main_v86 (broadcastInDim S128x7x1 ![0, 1] bcast_S128x7_S128x7x1_0_1 : (⟨S128x7, .i32⟩ : BufTy).Contents (Elt F) → (⟨S128x7x1, .i32⟩ : BufTy).Contents (Elt F)),
    StableHlo.nullary main_v87 (iotaInDim S5 32 0),
    StableHlo.unary main_v87 main_v88 (broadcastInDim S1x1x5 ![2] bcast_S5_S1x1x5_2 : (⟨S5, .i32⟩ : BufTy).Contents (Elt F) → (⟨S1x1x5, .i32⟩ : BufTy).Contents (Elt F)),
    StableHlo.unary main_v86 main_v89 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.unary main_v88 main_v90 (broadcastInDim S128x7x5 ![0, 1, 2] bcast_S1x1x5_S128x7x5_0_1_2 : (⟨S1x1x5, .i32⟩ : BufTy).Contents (Elt F) → (⟨S128x7x5, .i32⟩ : BufTy).Contents (Elt F)),
    StableHlo.binary main_v89 main_v90 main_v91 (addi : (⟨S128x7x5, .i32⟩ : BufTy).Contents (Elt F) → (⟨S128x7x5, .i32⟩ : BufTy).Contents (Elt F) → (⟨S128x7x5, .i32⟩ : BufTy).Contents (Elt F)),
    StableHlo.unary main_v64 main_v92 (broadcastInDim S128x7x1 ![0, 1] bcast_S128x7_S128x7x1_0_1 : (⟨S128x7, .i32⟩ : BufTy).Contents (Elt F) → (⟨S128x7x1, .i32⟩ : BufTy).Contents (Elt F)),
    StableHlo.unary main_v92 main_v93 (broadcastInDim S128x7x5 ![0, 1, 2] bcast_S128x7x1_S128x7x5_0_1_2 : (⟨S128x7x1, .i32⟩ : BufTy).Contents (Elt F) → (⟨S128x7x5, .i32⟩ : BufTy).Contents (Elt F)),
    StableHlo.binary main_v91 main_v93 main_v94 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_15 (constantI S_ 32 0#32),
    StableHlo.nullary main_c_16 (constantI S_ 32 31#32),
    StableHlo.TRef.unary (.of main_c_15 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S128x7x5, .i32⟩) (broadcastInDim S128x7x5 ![] bcast_S_S128x7x5),
    StableHlo.TRef.binary (.of main_call6_v1 : StableHlo.TRef sig ⟨S128x7x5, .i32⟩) (.of main_v91 : StableHlo.TRef sig ⟨S128x7x5, .i32⟩) (.of main_call6_v2 : StableHlo.TRef sig ⟨S128x7x5, .i32⟩) maxsi,
    StableHlo.TRef.unary (.of main_c_16 : StableHlo.TRef sig ⟨S_, .i32⟩) (.of main_call6_v3 : StableHlo.TRef sig ⟨S_, .i32⟩) id,
    StableHlo.TRef.unary (.of main_call6_v3 : StableHlo.TRef sig ⟨S_, .i32⟩) (.of main_call6_v4 : StableHlo.TRef sig ⟨S128x7x5, .i32⟩) (broadcastInDim S128x7x5 ![] bcast_S_S128x7x5),
    StableHlo.TRef.binary (.of main_call6_v4 : StableHlo.TRef sig ⟨S128x7x5, .i32⟩) (.of main_call6_v2 : StableHlo.TRef sig ⟨S128x7x5, .i32⟩) (.of main_v95 : StableHlo.TRef sig ⟨S128x7x5, .i32⟩) minsi,
    StableHlo.nullary main_c_17 (constantI S_ 32 0#32),
    StableHlo.unary main_c_17 main_v96 (broadcastInDim S128x7x5 ![] bcast_S_S128x7x5 : (⟨S_, .i32⟩ : BufTy).Contents (Elt F) → (⟨S128x7x5, .i32⟩ : BufTy).Contents (Elt F)),
    StableHlo.binary main_v95 main_v96 main_v97 (cmpi .slt : (⟨S128x7x5, .i32⟩ : BufTy).Contents (Elt F) → (⟨S128x7x5, .i32⟩ : BufTy).Contents (Elt F) → (⟨S128x7x5, .i1⟩ : BufTy).Contents (Elt F)),
    StableHlo.nullary main_c_18 (constantI S_ 32 32#32),
    StableHlo.unary main_c_18 main_v98 (broadcastInDim S128x7x5 ![] bcast_S_S128x7x5 : (⟨S_, .i32⟩ : BufTy).Contents (Elt F) → (⟨S128x7x5, .i32⟩ : BufTy).Contents (Elt F)),
    StableHlo.binary main_v95 main_v98 main_v99 (addi : (⟨S128x7x5, .i32⟩ : BufTy).Contents (Elt F) → (⟨S128x7x5, .i32⟩ : BufTy).Contents (Elt F) → (⟨S128x7x5, .i32⟩ : BufTy).Contents (Elt F)),
    StableHlo.ternary main_v97 main_v99 main_v95 main_v100 (select : (⟨S128x7x5, .i1⟩ : BufTy).Contents (Elt F) → (⟨S128x7x5, .i32⟩ : BufTy).Contents (Elt F) → (⟨S128x7x5, .i32⟩ : BufTy).Contents (Elt F) → (⟨S128x7x5, .i32⟩ : BufTy).Contents (Elt F)),
    StableHlo.unary main_v100 main_v101 (broadcastInDim S128x7x5x1 ![0, 1, 2] bcast_S128x7x5_S128x7x5x1_0_1_2 : (⟨S128x7x5, .i32⟩ : BufTy).Contents (Elt F) → (⟨S128x7x5x1, .i32⟩ : BufTy).Contents (Elt F)),
    StableHlo.binary main_v85 main_v101 main_v102 ((fun x i => Host.gather gather_S128x512x7x32_S128x7x5x1_S128x512x7x7x5_12_3_0_0_3_3_151271 x i) : (⟨S128x512x7x32, .f32⟩ : BufTy).Contents (Elt F) → (⟨S128x7x5x1, .i32⟩ : BufTy).Contents (Elt F) → (⟨S128x512x7x7x5, .f32⟩ : BufTy).Contents (Elt F)) ]

/-- 8 operations: the values from `main_v103` to `main_v106`. -/
abbrev kP8 : List (HloOp τ sig (Elt F)) :=
  [ StableHlo.unary main_v94 main_v103 (broadcastInDim S128x1x1x7x5 ![0, 3, 4] bcast_S128x7x5_S128x1x1x7x5_0_3_4 : (⟨S128x7x5, .i1⟩ : BufTy).Contents (Elt F) → (⟨S128x1x1x7x5, .i1⟩ : BufTy).Contents (Elt F)),
    StableHlo.nullary main_cst_19 (constant S_ .f32 0xFF800000#32),
    StableHlo.TRef.unary (.of main_v103 : StableHlo.TRef sig ⟨S128x1x1x7x5, .i1⟩) (.of main_call7_v0 : StableHlo.TRef sig ⟨S128x512x7x7x5, .i1⟩) (broadcastInDim S128x512x7x7x5 ![0, 1, 2, 3, 4] bcast_S128x1x1x7x5_S128x512x7x7x5_0_1_2_3_4),
    StableHlo.TRef.unary (.of main_cst_19 : StableHlo.TRef sig ⟨S_, .f32⟩) (.of main_call7_v1 : StableHlo.TRef sig ⟨S128x512x7x7x5, .f32⟩) (broadcastInDim S128x512x7x7x5 ![] bcast_S_S128x512x7x7x5),
    StableHlo.TRef.ternary (.of main_call7_v0 : StableHlo.TRef sig ⟨S128x512x7x7x5, .i1⟩) (.of main_v102 : StableHlo.TRef sig ⟨S128x512x7x7x5, .f32⟩) (.of main_call7_v1 : StableHlo.TRef sig ⟨S128x512x7x7x5, .f32⟩) (.of main_v104 : StableHlo.TRef sig ⟨S128x512x7x7x5, .f32⟩) select,
    StableHlo.nullary main_cst_20 (constant S_ .f32 0xFF800000#32),
    StableHlo.binary main_v104 main_cst_20 main_v105 ((fun x v => Host.reduce FloatOps.maximumf x v reducesTo_S128x512x7x7x5_S128x512x7x7_d4 h_S_) : (⟨S128x512x7x7x5, .f32⟩ : BufTy).Contents (Elt F) → (⟨S_, .f32⟩ : BufTy).Contents (Elt F) → (⟨S128x512x7x7, .f32⟩ : BufTy).Contents (Elt F)),
    StableHlo.reshape main_v105 main_v106 rfl shapeCasts_S128x512x7x7_S128x25088 ]

/-- 3 operations: the values from `main_v107` to `main_v109`. -/
abbrev kTail : List (HloOp τ sig (Elt F)) :=
  [ StableHlo.unary main_v106 main_v107 ((truncf .bf16 · bitsLt_bf16_f32) : (⟨S128x25088, .f32⟩ : BufTy).Contents (Elt F) → (⟨S128x25088, .bf16⟩ : BufTy).Contents (Elt F)),
    StableHlo.unary main_arg2 main_v108 ((truncf .bf16 · bitsLt_bf16_f32) : (⟨S25088x4096, .f32⟩ : BufTy).Contents (Elt F) → (⟨S25088x4096, .bf16⟩ : BufTy).Contents (Elt F)),
    StableHlo.reshape main_arg3 main_v109 rfl shapeCasts_S4096_S1x4096 ]

/-- An operation whose one written buffer is `y` writes inside any list of references that holds `y`. -/
theorem wsub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-! ## What each piece writes, and what it therefore leaves alone -/

abbrev kP1_W : List (Ref sig .tc) := [main_v0, main_v1, main_cst, main_v2, main_v3, main_v4, main_v5, main_v6, main_v7, main_v8, main_v9, main_v10, main_v11, main_v12, main_v13, main_v14, main_c, main_v15, main_v16, main_v17, main_c_0, main_v18, main_v19]
theorem kP1_writes : (kP1 : List (HloOp τ sig (Elt F))).Forall fun op => op.writes ⊆ (kP1_W.map (Proc.devRef (τ := τ) .tc)).toFinset :=
  ⟨wsub (y := main_v0) (by decide), wsub (y := main_v1) (by decide), wsub (y := main_cst) (by decide), wsub (y := main_v2) (by decide), wsub (y := main_v3) (by decide), wsub (y := main_v4) (by decide), wsub (y := main_v5) (by decide), wsub (y := main_v6) (by decide), wsub (y := main_v7) (by decide), wsub (y := main_v8) (by decide), wsub (y := main_v9) (by decide), wsub (y := main_v10) (by decide), wsub (y := main_v11) (by decide), wsub (y := main_v12) (by decide), wsub (y := main_v13) (by decide), wsub (y := main_v14) (by decide), wsub (y := main_c) (by decide), wsub (y := main_v15) (by decide), wsub (y := main_v16) (by decide), wsub (y := main_v17) (by decide), wsub (y := main_c_0) (by decide), wsub (y := main_v18) (by decide), wsub (y := main_v19) (by decide)⟩
theorem kP1_keep (V : Valuation τ sig (Elt F)) {r : Ref sig .tc} (h : r ∉ kP1_W) :
    after kP1 V (no_index (Proc.devRef .tc r)) = V (Proc.devRef .tc r) :=
  after_of_writes_sub kP1 V kP1_writes h

abbrev kP2_W : List (Ref sig .tc) := [main_v20, main_v21, main_v22, main_v23, main_v24, main_v25, main_v26, main_c_1, main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v27, main_v28, main_v29]
theorem kP2_writes : (kP2 : List (HloOp τ sig (Elt F))).Forall fun op => op.writes ⊆ (kP2_W.map (Proc.devRef (τ := τ) .tc)).toFinset :=
  ⟨wsub (y := main_v20) (by decide), wsub (y := main_v21) (by decide), wsub (y := main_v22) (by decide), wsub (y := main_v23) (by decide), wsub (y := main_v24) (by decide), wsub (y := main_v25) (by decide), wsub (y := main_v26) (by decide), wsub (y := main_c_1) (by decide), wsub (y := main_call0_v0) (by decide), wsub (y := main_call0_v1) (by decide), wsub (y := main_call0_v2) (by decide), wsub (y := main_call0_v3) (by decide), wsub (y := main_call0_v4) (by decide), wsub (y := main_call0_v5) (by decide), wsub (y := main_call0_v6) (by decide), wsub (y := main_call0_v7) (by decide), wsub (y := main_call0_v8) (by decide), wsub (y := main_call0_c) (by decide), wsub (y := main_call0_v9) (by decide), wsub (y := main_call0_v10) (by decide), wsub (y := main_call0_v11) (by decide), wsub (y := main_call0_c_0) (by decide), wsub (y := main_call0_v12) (by decide), wsub (y := main_call0_v13) (by decide), wsub (y := main_v27) (by decide), wsub (y := main_v28) (by decide), wsub (y := main_v29) (by decide)⟩
theorem kP2_keep (V : Valuation τ sig (Elt F)) {r : Ref sig .tc} (h : r ∉ kP2_W) :
    after kP2 V (no_index (Proc.devRef .tc r)) = V (Proc.devRef .tc r) :=
  after_of_writes_sub kP2 V kP2_writes h

abbrev kP3_W : List (Ref sig .tc) := [main_v30, main_v31, main_c_2, main_v32, main_v33, main_v34, main_v35, main_v36, main_v37, main_c_3, main_v38, main_v39, main_c_4, main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v40, main_v41, main_v42]
theorem kP3_writes : (kP3 : List (HloOp τ sig (Elt F))).Forall fun op => op.writes ⊆ (kP3_W.map (Proc.devRef (τ := τ) .tc)).toFinset :=
  ⟨wsub (y := main_v30) (by decide), wsub (y := main_v31) (by decide), wsub (y := main_c_2) (by decide), wsub (y := main_v32) (by decide), wsub (y := main_v33) (by decide), wsub (y := main_v34) (by decide), wsub (y := main_v35) (by decide), wsub (y := main_v36) (by decide), wsub (y := main_v37) (by decide), wsub (y := main_c_3) (by decide), wsub (y := main_v38) (by decide), wsub (y := main_v39) (by decide), wsub (y := main_c_4) (by decide), wsub (y := main_call1_v0) (by decide), wsub (y := main_call1_v1) (by decide), wsub (y := main_call1_v2) (by decide), wsub (y := main_call1_v3) (by decide), wsub (y := main_call1_v4) (by decide), wsub (y := main_call1_v5) (by decide), wsub (y := main_call1_v6) (by decide), wsub (y := main_call1_v7) (by decide), wsub (y := main_call1_v8) (by decide), wsub (y := main_call1_c) (by decide), wsub (y := main_call1_v9) (by decide), wsub (y := main_call1_v10) (by decide), wsub (y := main_call1_v11) (by decide), wsub (y := main_call1_c_0) (by decide), wsub (y := main_call1_v12) (by decide), wsub (y := main_call1_v13) (by decide), wsub (y := main_v40) (by decide), wsub (y := main_v41) (by decide), wsub (y := main_v42) (by decide)⟩
theorem kP3_keep (V : Valuation τ sig (Elt F)) {r : Ref sig .tc} (h : r ∉ kP3_W) :
    after kP3 V (no_index (Proc.devRef .tc r)) = V (Proc.devRef .tc r) :=
  after_of_writes_sub kP3 V kP3_writes h

abbrev kP4_W : List (Ref sig .tc) := [main_v43, main_v44, main_v45, main_v46, main_v47, main_v48, main_c_5, main_call2_v0, main_call2_v1, main_call2_v2, main_call2_v3, main_call2_v4, main_call2_v5, main_call2_v6, main_call2_v7, main_call2_v8, main_call2_c, main_call2_v9, main_call2_v10, main_call2_v11, main_call2_c_0, main_call2_v12, main_call2_v13, main_v49, main_v50, main_v51]
theorem kP4_writes : (kP4 : List (HloOp τ sig (Elt F))).Forall fun op => op.writes ⊆ (kP4_W.map (Proc.devRef (τ := τ) .tc)).toFinset :=
  ⟨wsub (y := main_v43) (by decide), wsub (y := main_v44) (by decide), wsub (y := main_v45) (by decide), wsub (y := main_v46) (by decide), wsub (y := main_v47) (by decide), wsub (y := main_v48) (by decide), wsub (y := main_c_5) (by decide), wsub (y := main_call2_v0) (by decide), wsub (y := main_call2_v1) (by decide), wsub (y := main_call2_v2) (by decide), wsub (y := main_call2_v3) (by decide), wsub (y := main_call2_v4) (by decide), wsub (y := main_call2_v5) (by decide), wsub (y := main_call2_v6) (by decide), wsub (y := main_call2_v7) (by decide), wsub (y := main_call2_v8) (by decide), wsub (y := main_call2_c) (by decide), wsub (y := main_call2_v9) (by decide), wsub (y := main_call2_v10) (by decide), wsub (y := main_call2_v11) (by decide), wsub (y := main_call2_c_0) (by decide), wsub (y := main_call2_v12) (by decide), wsub (y := main_call2_v13) (by decide), wsub (y := main_v49) (by decide), wsub (y := main_v50) (by decide), wsub (y := main_v51) (by decide)⟩
theorem kP4_keep (V : Valuation τ sig (Elt F)) {r : Ref sig .tc} (h : r ∉ kP4_W) :
    after kP4 V (no_index (Proc.devRef .tc r)) = V (Proc.devRef .tc r) :=
  after_of_writes_sub kP4 V kP4_writes h

abbrev kP5_W : List (Ref sig .tc) := [main_v52, main_v53, main_c_6, main_v54, main_v55, main_v56, main_v57, main_v58, main_v59, main_c_7, main_v60, main_v61, main_c_8, main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v62, main_v63, main_v64]
theorem kP5_writes : (kP5 : List (HloOp τ sig (Elt F))).Forall fun op => op.writes ⊆ (kP5_W.map (Proc.devRef (τ := τ) .tc)).toFinset :=
  ⟨wsub (y := main_v52) (by decide), wsub (y := main_v53) (by decide), wsub (y := main_c_6) (by decide), wsub (y := main_v54) (by decide), wsub (y := main_v55) (by decide), wsub (y := main_v56) (by decide), wsub (y := main_v57) (by decide), wsub (y := main_v58) (by decide), wsub (y := main_v59) (by decide), wsub (y := main_c_7) (by decide), wsub (y := main_v60) (by decide), wsub (y := main_v61) (by decide), wsub (y := main_c_8) (by decide), wsub (y := main_call3_v0) (by decide), wsub (y := main_call3_v1) (by decide), wsub (y := main_call3_v2) (by decide), wsub (y := main_call3_v3) (by decide), wsub (y := main_call3_v4) (by decide), wsub (y := main_call3_v5) (by decide), wsub (y := main_call3_v6) (by decide), wsub (y := main_call3_v7) (by decide), wsub (y := main_call3_v8) (by decide), wsub (y := main_call3_c) (by decide), wsub (y := main_call3_v9) (by decide), wsub (y := main_call3_v10) (by decide), wsub (y := main_call3_v11) (by decide), wsub (y := main_call3_c_0) (by decide), wsub (y := main_call3_v12) (by decide), wsub (y := main_call3_v13) (by decide), wsub (y := main_v62) (by decide), wsub (y := main_v63) (by decide), wsub (y := main_v64) (by decide)⟩
theorem kP5_keep (V : Valuation τ sig (Elt F)) {r : Ref sig .tc} (h : r ∉ kP5_W) :
    after kP5 V (no_index (Proc.devRef .tc r)) = V (Proc.devRef .tc r) :=
  after_of_writes_sub kP5 V kP5_writes h

abbrev kP6_W : List (Ref sig .tc) := [main_v65, main_v66, main_v67, main_v68, main_v69, main_v70, main_v71, main_v72, main_v73, main_c_9, main_c_10, main_call4_v0, main_call4_v1, main_call4_v2, main_call4_v3, main_call4_v4, main_v74, main_c_11, main_v75, main_v76, main_c_12, main_v77, main_v78, main_v79, main_v80, main_v81, main_v82, main_cst_13, main_call5_v0, main_call5_v1, main_v83]
theorem kP6_writes : (kP6 : List (HloOp τ sig (Elt F))).Forall fun op => op.writes ⊆ (kP6_W.map (Proc.devRef (τ := τ) .tc)).toFinset :=
  ⟨wsub (y := main_v65) (by decide), wsub (y := main_v66) (by decide), wsub (y := main_v67) (by decide), wsub (y := main_v68) (by decide), wsub (y := main_v69) (by decide), wsub (y := main_v70) (by decide), wsub (y := main_v71) (by decide), wsub (y := main_v72) (by decide), wsub (y := main_v73) (by decide), wsub (y := main_c_9) (by decide), wsub (y := main_c_10) (by decide), wsub (y := main_call4_v0) (by decide), wsub (y := main_call4_v1) (by decide), wsub (y := main_call4_v2) (by decide), wsub (y := main_call4_v3) (by decide), wsub (y := main_call4_v4) (by decide), wsub (y := main_v74) (by decide), wsub (y := main_c_11) (by decide), wsub (y := main_v75) (by decide), wsub (y := main_v76) (by decide), wsub (y := main_c_12) (by decide), wsub (y := main_v77) (by decide), wsub (y := main_v78) (by decide), wsub (y := main_v79) (by decide), wsub (y := main_v80) (by decide), wsub (y := main_v81) (by decide), wsub (y := main_v82) (by decide), wsub (y := main_cst_13) (by decide), wsub (y := main_call5_v0) (by decide), wsub (y := main_call5_v1) (by decide), wsub (y := main_v83) (by decide)⟩
theorem kP6_keep (V : Valuation τ sig (Elt F)) {r : Ref sig .tc} (h : r ∉ kP6_W) :
    after kP6 V (no_index (Proc.devRef .tc r)) = V (Proc.devRef .tc r) :=
  after_of_writes_sub kP6 V kP6_writes h

abbrev kP7_W : List (Ref sig .tc) := [main_cst_14, main_v84, main_v85, main_v86, main_v87, main_v88, main_v89, main_v90, main_v91, main_v92, main_v93, main_v94, main_c_15, main_c_16, main_call6_v0, main_call6_v1, main_call6_v2, main_call6_v3, main_call6_v4, main_v95, main_c_17, main_v96, main_v97, main_c_18, main_v98, main_v99, main_v100, main_v101, main_v102]
theorem kP7_writes : (kP7 : List (HloOp τ sig (Elt F))).Forall fun op => op.writes ⊆ (kP7_W.map (Proc.devRef (τ := τ) .tc)).toFinset :=
  ⟨wsub (y := main_cst_14) (by decide), wsub (y := main_v84) (by decide), wsub (y := main_v85) (by decide), wsub (y := main_v86) (by decide), wsub (y := main_v87) (by decide), wsub (y := main_v88) (by decide), wsub (y := main_v89) (by decide), wsub (y := main_v90) (by decide), wsub (y := main_v91) (by decide), wsub (y := main_v92) (by decide), wsub (y := main_v93) (by decide), wsub (y := main_v94) (by decide), wsub (y := main_c_15) (by decide), wsub (y := main_c_16) (by decide), wsub (y := main_call6_v0) (by decide), wsub (y := main_call6_v1) (by decide), wsub (y := main_call6_v2) (by decide), wsub (y := main_call6_v3) (by decide), wsub (y := main_call6_v4) (by decide), wsub (y := main_v95) (by decide), wsub (y := main_c_17) (by decide), wsub (y := main_v96) (by decide), wsub (y := main_v97) (by decide), wsub (y := main_c_18) (by decide), wsub (y := main_v98) (by decide), wsub (y := main_v99) (by decide), wsub (y := main_v100) (by decide), wsub (y := main_v101) (by decide), wsub (y := main_v102) (by decide)⟩
theorem kP7_keep (V : Valuation τ sig (Elt F)) {r : Ref sig .tc} (h : r ∉ kP7_W) :
    after kP7 V (no_index (Proc.devRef .tc r)) = V (Proc.devRef .tc r) :=
  after_of_writes_sub kP7 V kP7_writes h

abbrev kP8_W : List (Ref sig .tc) := [main_v103, main_cst_19, main_call7_v0, main_call7_v1, main_v104, main_cst_20, main_v105, main_v106]
theorem kP8_writes : (kP8 : List (HloOp τ sig (Elt F))).Forall fun op => op.writes ⊆ (kP8_W.map (Proc.devRef (τ := τ) .tc)).toFinset :=
  ⟨wsub (y := main_v103) (by decide), wsub (y := main_cst_19) (by decide), wsub (y := main_call7_v0) (by decide), wsub (y := main_call7_v1) (by decide), wsub (y := main_v104) (by decide), wsub (y := main_cst_20) (by decide), wsub (y := main_v105) (by decide), wsub (y := main_v106) (by decide)⟩
theorem kP8_keep (V : Valuation τ sig (Elt F)) {r : Ref sig .tc} (h : r ∉ kP8_W) :
    after kP8 V (no_index (Proc.devRef .tc r)) = V (Proc.devRef .tc r) :=
  after_of_writes_sub kP8 V kP8_writes h

abbrev kTail_W : List (Ref sig .tc) := [main_v107, main_v108, main_v109]
theorem kTail_writes : (kTail : List (HloOp τ sig (Elt F))).Forall fun op => op.writes ⊆ (kTail_W.map (Proc.devRef (τ := τ) .tc)).toFinset :=
  ⟨wsub (y := main_v107) (by decide), wsub (y := main_v108) (by decide), wsub (y := main_v109) (by decide)⟩
theorem kTail_keep (V : Valuation τ sig (Elt F)) {r : Ref sig .tc} (h : r ∉ kTail_W) :
    after kTail V (no_index (Proc.devRef .tc r)) = V (Proc.devRef .tc r) :=
  after_of_writes_sub kTail V kTail_writes h

/-! ## The seventeen stretches are the pieces in order -/

theorem hostOps_cut : (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16)))))))))))))))) : List (HloOp τ sig (Elt F))) = kP1 ++ (kP2 ++ (kP3 ++ (kP4 ++ (kP5 ++ (kP6 ++ (kP7 ++ (kP8 ++ (kTail)))))))) := rfl

theorem cut (m : (ℓ : Loc nD τ sig) → Buf (Elt F) ℓ) (c : Dev nD) :
    V17 m c = after kTail (after kP8 (after kP7 (after kP6 (after kP5 (after kP4 (after kP3 (after kP2 (after kP1 (V0 m c))))))))) := by
  have e : V17 m c = after (hostOps0 ++ (hostOps0_1 ++ (hostOps0_2 ++ (hostOps0_3 ++ (hostOps0_4 ++ (hostOps0_5 ++ (hostOps0_6 ++ (hostOps0_7 ++ (hostOps0_8 ++ (hostOps0_9 ++ (hostOps0_10 ++ (hostOps0_11 ++ (hostOps0_12 ++ (hostOps0_13 ++ (hostOps0_14 ++ (hostOps0_15 ++ (hostOps0_16))))))))))))))))) (V0 m c) := by
    simp only [after_append]
  rw [e, hostOps_cut]; simp only [after_append]

/-! ## Each named buffer read off its piece, from any contents -/

theorem read_main_v0 (W : Valuation τ sig (Elt F)) :
    after kP1 W (Proc.devRef .tc main_v0)
      = (shapeCast S512x32x32 (W (Proc.devRef .tc main_arg0) : (⟨S1x512x32x32, .f32⟩ : BufTy).Contents (Elt F)) shapeCasts_S1x512x32x32_S512x32x32) := by
  after_results_simp <;> rfl

theorem read_main_v7 (W : Valuation τ sig (Elt F)) :
    after kP1 W (Proc.devRef .tc main_v7)
      = (shapeCast S128 (extractStridedSlice S128x1 ![0, 0] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128) := by
  after_results_simp <;> rfl

theorem read_main_v9 (W : Valuation τ sig (Elt F)) :
    after kP1 W (Proc.devRef .tc main_v9)
      = (shapeCast S128 (extractStridedSlice S128x1 ![0, 1] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128) := by
  after_results_simp <;> rfl

theorem read_main_v16 (W : Valuation τ sig (Elt F)) :
    after kP1 W (Proc.devRef .tc main_v16)
      = (addi (subi (shapeCast S128 (extractStridedSlice S128x1 ![0, 3] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_3) shapeCasts_S128x1_S128) (shapeCast S128 (extractStridedSlice S128x1 ![0, 1] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128)) (broadcastInDim S128 ![] bcast_S_S128 (constantI S_ 32 1#32))) := by
  after_results_simp <;> rfl

theorem read_main_v19 (W : Valuation τ sig (Elt F)) :
    after kP1 W (Proc.devRef .tc main_v19)
      = (addi (subi (shapeCast S128 (extractStridedSlice S128x1 ![0, 2] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_2) shapeCasts_S128x1_S128) (shapeCast S128 (extractStridedSlice S128x1 ![0, 0] (fptosi 32 (Host.floor (mulf (extractStridedSlice S128x4 ![0, 1] (W (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128)) (broadcastInDim S128 ![] bcast_S_S128 (constantI S_ 32 1#32))) := by
  after_results_simp <;> rfl

theorem read_main_v20 (W : Valuation τ sig (Elt F)) :
    after kP2 W (Proc.devRef .tc main_v20)
      = (iotaInDim S7 32 0) := by
  after_results_simp <;> rfl

theorem read_main_v29 (W : Valuation τ sig (Elt F)) :
    after kP2 W (Proc.devRef .tc main_v29)
      = (addi (broadcastInDim S128x7 ![0, 1] bcast_S128x1_S128x7_0_1 (broadcastInDim S128x1 ![0] bcast_S128_S128x1_0 (W (Proc.devRef .tc main_v9) : (⟨S128, .i32⟩ : BufTy).Contents (Elt F)))) (select (andi (cmpi .ne (signi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (id (constantI S_ 32 7#32)))))) := by
  after_results_simp <;> rfl

theorem read_main_v42 (W : Valuation τ sig (Elt F)) :
    after kP3 W (Proc.devRef .tc main_v42)
      = (addi (broadcastInDim S128x7 ![0, 1] bcast_S128x1_S128x7_0_1 (broadcastInDim S128x1 ![0] bcast_S128_S128x1_0 (W (Proc.devRef .tc main_v9) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  after_results_simp <;> rfl

theorem read_main_v51 (W : Valuation τ sig (Elt F)) :
    after kP4 W (Proc.devRef .tc main_v51)
      = (addi (broadcastInDim S128x7 ![0, 1] bcast_S128x1_S128x7_0_1 (broadcastInDim S128x1 ![0] bcast_S128_S128x1_0 (W (Proc.devRef .tc main_v7) : (⟨S128, .i32⟩ : BufTy).Contents (Elt F)))) (select (andi (cmpi .ne (signi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (W (Proc.devRef .tc main_v20) : (⟨S7, .i32⟩ : BufTy).Contents (Elt F)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (id (constantI S_ 32 7#32)))))) := by
  after_results_simp <;> rfl

theorem read_main_v64 (W : Valuation τ sig (Elt F)) :
    after kP5 W (Proc.devRef .tc main_v64)
      = (addi (broadcastInDim S128x7 ![0, 1] bcast_S128x1_S128x7_0_1 (broadcastInDim S128x1 ![0] bcast_S128_S128x1_0 (W (Proc.devRef .tc main_v7) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (W (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (W (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  after_results_simp <;> rfl

theorem read_main_v83 (W : Valuation τ sig (Elt F)) :
    after kP6 W (Proc.devRef .tc main_v83)
      = (select (broadcastInDim S512x128x7x5x32 ![0, 1, 2, 3, 4] bcast_S1x128x7x5x1_S512x128x7x5x32_0_1_2_3_4 (broadcastInDim S1x128x7x5x1 ![1, 2, 3] bcast_S128x7x5_S1x128x7x5x1_1_2_3 (cmpi .slt (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (W (Proc.devRef .tc main_v42) : (⟨S128x7, .i32⟩ : BufTy).Contents (Elt F))))))) (Host.gather gather_S512x32x32_S128x7x5x1_S512x128x7x5x32_04_1_n_n_1_3_512132 (W (Proc.devRef .tc main_v0) : (⟨S512x32x32, .f32⟩ : BufTy).Contents (Elt F)) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) (broadcastInDim S512x128x7x5x32 ![] bcast_S_S512x128x7x5x32 (constant S_ .f32 0xFF800000#32))) := by
  after_results_simp <;> rfl

theorem read_main_v94 (W : Valuation τ sig (Elt F)) :
    after kP7 W (Proc.devRef .tc main_v94)
      = (cmpi .slt (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (W (Proc.devRef .tc main_v64) : (⟨S128x7, .i32⟩ : BufTy).Contents (Elt F))))) := by
  after_results_simp <;> rfl

theorem read_main_v102 (W : Valuation τ sig (Elt F)) :
    after kP7 W (Proc.devRef .tc main_v102)
      = (Host.gather gather_S128x512x7x32_S128x7x5x1_S128x512x7x7x5_12_3_0_0_3_3_151271 (transpose S128x512x7x32 [1, 0, 2, 3] (Host.reduce FloatOps.maximumf (W (Proc.devRef .tc main_v83) : (⟨S512x128x7x5x32, .f32⟩ : BufTy).Contents (Elt F)) (constant S_ .f32 0xFF800000#32) reducesTo_S512x128x7x5x32_S512x128x7x32_d3 h_S_) transposes_S512x128x7x32_S128x512x7x32_1_0_2_3) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (W (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) := by
  after_results_simp <;> rfl

theorem read_main_v106 (W : Valuation τ sig (Elt F)) :
    after kP8 W (Proc.devRef .tc main_v106)
      = (shapeCast S128x25088 (Host.reduce FloatOps.maximumf (select (broadcastInDim S128x512x7x7x5 ![0, 1, 2, 3, 4] bcast_S128x1x1x7x5_S128x512x7x7x5_0_1_2_3_4 (broadcastInDim S128x1x1x7x5 ![0, 3, 4] bcast_S128x7x5_S128x1x1x7x5_0_3_4 (W (Proc.devRef .tc main_v94) : (⟨S128x7x5, .i1⟩ : BufTy).Contents (Elt F)))) (W (Proc.devRef .tc main_v102) : (⟨S128x512x7x7x5, .f32⟩ : BufTy).Contents (Elt F)) (broadcastInDim S128x512x7x7x5 ![] bcast_S_S128x512x7x7x5 (constant S_ .f32 0xFF800000#32))) (constant S_ .f32 0xFF800000#32) reducesTo_S128x512x7x7x5_S128x512x7x7_d4 h_S_) shapeCasts_S128x512x7x7_S128x25088) := by
  after_results_simp <;> rfl

/-! ## The same over the whole fold: each named buffer as a term of the earlier named buffers -/

theorem val_main_v0 (m : (ℓ : Loc nD τ sig) → Buf (Elt F) ℓ) (c : Dev nD) :
    V17 m c (Proc.devRef .tc main_v0)
      = (shapeCast S512x32x32 (V17 m c (Proc.devRef .tc main_arg0) : (⟨S1x512x32x32, .f32⟩ : BufTy).Contents (Elt F)) shapeCasts_S1x512x32x32_S512x32x32) := by
  rw [cut m c]
  simp (disch := decide) only [kP1_keep, kP2_keep, kP3_keep, kP4_keep, kP5_keep, kP6_keep, kP7_keep, kP8_keep, kTail_keep]
  rw [read_main_v0]
  try simp (disch := decide) only [kP1_keep, kP2_keep, kP3_keep, kP4_keep, kP5_keep, kP6_keep, kP7_keep, kP8_keep, kTail_keep]

theorem val_main_v7 (m : (ℓ : Loc nD τ sig) → Buf (Elt F) ℓ) (c : Dev nD) :
    V17 m c (Proc.devRef .tc main_v7)
      = (shapeCast S128 (extractStridedSlice S128x1 ![0, 0] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128) := by
  rw [cut m c]
  simp (disch := decide) only [kP1_keep, kP2_keep, kP3_keep, kP4_keep, kP5_keep, kP6_keep, kP7_keep, kP8_keep, kTail_keep]
  rw [read_main_v7]
  try simp (disch := decide) only [kP1_keep, kP2_keep, kP3_keep, kP4_keep, kP5_keep, kP6_keep, kP7_keep, kP8_keep, kTail_keep]

theorem val_main_v9 (m : (ℓ : Loc nD τ sig) → Buf (Elt F) ℓ) (c : Dev nD) :
    V17 m c (Proc.devRef .tc main_v9)
      = (shapeCast S128 (extractStridedSlice S128x1 ![0, 1] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128) := by
  rw [cut m c]
  simp (disch := decide) only [kP1_keep, kP2_keep, kP3_keep, kP4_keep, kP5_keep, kP6_keep, kP7_keep, kP8_keep, kTail_keep]
  rw [read_main_v9]
  try simp (disch := decide) only [kP1_keep, kP2_keep, kP3_keep, kP4_keep, kP5_keep, kP6_keep, kP7_keep, kP8_keep, kTail_keep]

theorem val_main_v16 (m : (ℓ : Loc nD τ sig) → Buf (Elt F) ℓ) (c : Dev nD) :
    V17 m c (Proc.devRef .tc main_v16)
      = (addi (subi (shapeCast S128 (extractStridedSlice S128x1 ![0, 3] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_3) shapeCasts_S128x1_S128) (shapeCast S128 (extractStridedSlice S128x1 ![0, 1] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_1) shapeCasts_S128x1_S128)) (broadcastInDim S128 ![] bcast_S_S128 (constantI S_ 32 1#32))) := by
  rw [cut m c]
  simp (disch := decide) only [kP1_keep, kP2_keep, kP3_keep, kP4_keep, kP5_keep, kP6_keep, kP7_keep, kP8_keep, kTail_keep]
  rw [read_main_v16]
  try simp (disch := decide) only [kP1_keep, kP2_keep, kP3_keep, kP4_keep, kP5_keep, kP6_keep, kP7_keep, kP8_keep, kTail_keep]

theorem val_main_v19 (m : (ℓ : Loc nD τ sig) → Buf (Elt F) ℓ) (c : Dev nD) :
    V17 m c (Proc.devRef .tc main_v19)
      = (addi (subi (shapeCast S128 (extractStridedSlice S128x1 ![0, 2] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_2) shapeCasts_S128x1_S128) (shapeCast S128 (extractStridedSlice S128x1 ![0, 0] (fptosi 32 (Host.floor (mulf (extractStridedSlice S128x4 ![0, 1] (V17 m c (Proc.devRef .tc main_arg1) : (⟨S128x5, .f32⟩ : BufTy).Contents (Elt F)) slices_S128x5_S128x4_0_1) (broadcastInDim S128x4 ![] bcast_S_S128x4 (constant S_ .f32 0x3D800000#32))))) slices_S128x4_S128x1_0_0) shapeCasts_S128x1_S128)) (broadcastInDim S128 ![] bcast_S_S128 (constantI S_ 32 1#32))) := by
  rw [cut m c]
  simp (disch := decide) only [kP1_keep, kP2_keep, kP3_keep, kP4_keep, kP5_keep, kP6_keep, kP7_keep, kP8_keep, kTail_keep]
  rw [read_main_v19]
  try simp (disch := decide) only [kP1_keep, kP2_keep, kP3_keep, kP4_keep, kP5_keep, kP6_keep, kP7_keep, kP8_keep, kTail_keep]

theorem val_main_v20 (m : (ℓ : Loc nD τ sig) → Buf (Elt F) ℓ) (c : Dev nD) :
    V17 m c (Proc.devRef .tc main_v20)
      = (iotaInDim S7 32 0) := by
  rw [cut m c]
  simp (disch := decide) only [kP1_keep, kP2_keep, kP3_keep, kP4_keep, kP5_keep, kP6_keep, kP7_keep, kP8_keep, kTail_keep]
  rw [read_main_v20]
  try simp (disch := decide) only [kP1_keep, kP2_keep, kP3_keep, kP4_keep, kP5_keep, kP6_keep, kP7_keep, kP8_keep, kTail_keep]

theorem val_main_v29 (m : (ℓ : Loc nD τ sig) → Buf (Elt F) ℓ) (c : Dev nD) :
    V17 m c (Proc.devRef .tc main_v29)
      = (addi (broadcastInDim S128x7 ![0, 1] bcast_S128x1_S128x7_0_1 (broadcastInDim S128x1 ![0] bcast_S128_S128x1_0 (V17 m c (Proc.devRef .tc main_v9) : (⟨S128, .i32⟩ : BufTy).Contents (Elt F)))) (select (andi (cmpi .ne (signi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (V17 m c (Proc.devRef .tc main_v16) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (iotaInDim S7 32 0))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (id (constantI S_ 32 7#32)))))) := by
  rw [cut m c]
  simp (disch := decide) only [kP1_keep, kP2_keep, kP3_keep, kP4_keep, kP5_keep, kP6_keep, kP7_keep, kP8_keep, kTail_keep]
  rw [read_main_v29]
  try simp (disch := decide) only [kP1_keep, kP2_keep, kP3_keep, kP4_keep, kP5_keep, kP6_keep, kP7_keep, kP8_keep, kTail_keep]

theorem val_main_v42 (m : (ℓ : Loc nD τ sig) → Buf (Elt F) ℓ) (c : Dev nD) :
    V17 m c (Proc.devRef .tc main_v42)
      = (addi (broadcastInDim S128x7 ![0, 1] bcast_S128x1_S128x7_0_1 (broadcastInDim S128x1 ![0] bcast_S128_S128x1_0 (V17 m c (Proc.devRef .tc main_v9) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v16) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  rw [cut m c]
  simp (disch := decide) only [kP1_keep, kP2_keep, kP3_keep, kP4_keep, kP5_keep, kP6_keep, kP7_keep, kP8_keep, kTail_keep]
  rw [read_main_v42]
  try simp (disch := decide) only [kP1_keep, kP2_keep, kP3_keep, kP4_keep, kP5_keep, kP6_keep, kP7_keep, kP8_keep, kTail_keep]

theorem val_main_v51 (m : (ℓ : Loc nD τ sig) → Buf (Elt F) ℓ) (c : Dev nD) :
    V17 m c (Proc.devRef .tc main_v51)
      = (addi (broadcastInDim S128x7 ![0, 1] bcast_S128x1_S128x7_0_1 (broadcastInDim S128x1 ![0] bcast_S128_S128x1_0 (V17 m c (Proc.devRef .tc main_v7) : (⟨S128, .i32⟩ : BufTy).Contents (Elt F)))) (select (andi (cmpi .ne (signi (muli (broadcastInDim S128x7 ![0, 1] bcast_S1x7_S128x7_0_1 (broadcastInDim S1x7 ![1] bcast_S7_S1x7_1 (V17 m c (Proc.devRef .tc main_v20) : (⟨S7, .i32⟩ : BufTy).Contents (Elt F)))) (broadcastInDim S128x7 ![0, 1] bcast_S128x1_S128x7_0_1 (broadcastInDim S128x1 ![0] bcast_S128_S128x1_0 (V17 m c (Proc.devRef .tc main_v19) : (⟨S128, .i32⟩ : BufTy).Contents (Elt F)))))) (broadcastInDim S128x7 ![] bcast_S_S128x7 (signi (id (constantI S_ 32 7#32))))) (cmpi .ne (Host.remsi (muli (broadcastInDim S128x7 ![0, 1] bcast_S1x7_S128x7_0_1 (broadcastInDim S1x7 ![1] bcast_S7_S1x7_1 (V17 m c (Proc.devRef .tc main_v20) : (⟨S7, .i32⟩ : BufTy).Contents (Elt F)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 0#32)))) (subi (Host.divsi (muli (broadcastInDim S128x7 ![0, 1] bcast_S1x7_S128x7_0_1 (broadcastInDim S1x7 ![1] bcast_S7_S1x7_1 (V17 m c (Proc.devRef .tc main_v20) : (⟨S7, .i32⟩ : BufTy).Contents (Elt F)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (id (constantI S_ 32 7#32)))) (broadcastInDim S128x7 ![] bcast_S_S128x7 (constantI S_ 32 1#32))) (Host.divsi (muli (broadcastInDim S128x7 ![0, 1] bcast_S1x7_S128x7_0_1 (broadcastInDim S1x7 ![1] bcast_S7_S1x7_1 (V17 m c (Proc.devRef .tc main_v20) : (⟨S7, .i32⟩ : BufTy).Contents (Elt F)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (id (constantI S_ 32 7#32)))))) := by
  rw [cut m c]
  simp (disch := decide) only [kP1_keep, kP2_keep, kP3_keep, kP4_keep, kP5_keep, kP6_keep, kP7_keep, kP8_keep, kTail_keep]
  rw [read_main_v51]
  try simp (disch := decide) only [kP1_keep, kP2_keep, kP3_keep, kP4_keep, kP5_keep, kP6_keep, kP7_keep, kP8_keep, kTail_keep]

theorem val_main_v64 (m : (ℓ : Loc nD τ sig) → Buf (Elt F) ℓ) (c : Dev nD) :
    V17 m c (Proc.devRef .tc main_v64)
      = (addi (broadcastInDim S128x7 ![0, 1] bcast_S128x1_S128x7_0_1 (broadcastInDim S128x1 ![0] bcast_S128_S128x1_0 (V17 m c (Proc.devRef .tc main_v7) : (⟨S128, .i32⟩ : BufTy).Contents (Elt F)))) (select (andi (cmpi .ne (signi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (constantI S_ 32 6#32)))) (broadcastInDim S128x7 ![] bcast_S_S128x7 (signi (id (constantI S_ 32 7#32))))) (cmpi .ne (Host.remsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 0#32)))) (subi (Host.divsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))) (broadcastInDim S128x7 ![] bcast_S_S128x7 (constantI S_ 32 1#32))) (Host.divsi (addi (muli (broadcastInDim S128x7 ![0, 1] bcast_S1x7_S128x7_0_1 (addi (broadcastInDim S1x7 ![1] bcast_S7_S1x7_1 (V17 m c (Proc.devRef .tc main_v20) : (⟨S7, .i32⟩ : BufTy).Contents (Elt F))) (broadcastInDim S1x7 ![] bcast_S_S1x7 (constantI S_ 32 1#32)))) (broadcastInDim S128x7 ![0, 1] bcast_S128x1_S128x7_0_1 (broadcastInDim S128x1 ![0] bcast_S128_S128x1_0 (V17 m c (Proc.devRef .tc main_v19) : (⟨S128, .i32⟩ : BufTy).Contents (Elt F))))) (broadcastInDim S128x7 ![] bcast_S_S128x7 (constantI S_ 32 6#32))) (broadcastInDim S128x7 ![] bcast_S_S128x7 (id (constantI S_ 32 7#32)))))) := by
  rw [cut m c]
  simp (disch := decide) only [kP1_keep, kP2_keep, kP3_keep, kP4_keep, kP5_keep, kP6_keep, kP7_keep, kP8_keep, kTail_keep]
  rw [read_main_v64]
  try simp (disch := decide) only [kP1_keep, kP2_keep, kP3_keep, kP4_keep, kP5_keep, kP6_keep, kP7_keep, kP8_keep, kTail_keep]

theorem val_main_v83 (m : (ℓ : Loc nD τ sig) → Buf (Elt F) ℓ) (c : Dev nD) :
    V17 m c (Proc.devRef .tc main_v83)
      = (select (broadcastInDim S512x128x7x5x32 ![0, 1, 2, 3, 4] bcast_S1x128x7x5x1_S512x128x7x5x32_0_1_2_3_4 (broadcastInDim S1x128x7x5x1 ![1, 2, 3] bcast_S128x7x5_S1x128x7x5x1_1_2_3 (cmpi .slt (addi (broadcastInDim S128x7x5 ![0, 1, 2] bcast_S128x7x1_S128x7x5_0_1_2 (broadcastInDim S128x7x1 ![0, 1] bcast_S128x7_S128x7x1_0_1 (V17 m c (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (V17 m c (Proc.devRef .tc main_v42) : (⟨S128x7, .i32⟩ : BufTy).Contents (Elt F))))))) (Host.gather gather_S512x32x32_S128x7x5x1_S512x128x7x5x32_04_1_n_n_1_3_512132 (V17 m c (Proc.devRef .tc main_v0) : (⟨S512x32x32, .f32⟩ : BufTy).Contents (Elt F)) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v29) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) (broadcastInDim S512x128x7x5x32 ![] bcast_S_S512x128x7x5x32 (constant S_ .f32 0xFF800000#32))) := by
  rw [cut m c]
  simp (disch := decide) only [kP1_keep, kP2_keep, kP3_keep, kP4_keep, kP5_keep, kP6_keep, kP7_keep, kP8_keep, kTail_keep]
  rw [read_main_v83]
  try simp (disch := decide) only [kP1_keep, kP2_keep, kP3_keep, kP4_keep, kP5_keep, kP6_keep, kP7_keep, kP8_keep, kTail_keep]

theorem val_main_v94 (m : (ℓ : Loc nD τ sig) → Buf (Elt F) ℓ) (c : Dev nD) :
    V17 m c (Proc.devRef .tc main_v94)
      = (cmpi .slt (addi (broadcastInDim S128x7x5 ![0, 1, 2] bcast_S128x7x1_S128x7x5_0_1_2 (broadcastInDim S128x7x1 ![0, 1] bcast_S128x7_S128x7x1_0_1 (V17 m c (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))) (broadcastInDim S128x7x5 ![0, 1, 2] bcast_S128x7x1_S128x7x5_0_1_2 (broadcastInDim S128x7x1 ![0, 1] bcast_S128x7_S128x7x1_0_1 (V17 m c (Proc.devRef .tc main_v64) : (⟨S128x7, .i32⟩ : BufTy).Contents (Elt F))))) := by
  rw [cut m c]
  simp (disch := decide) only [kP1_keep, kP2_keep, kP3_keep, kP4_keep, kP5_keep, kP6_keep, kP7_keep, kP8_keep, kTail_keep]
  rw [read_main_v94]
  try simp (disch := decide) only [kP1_keep, kP2_keep, kP3_keep, kP4_keep, kP5_keep, kP6_keep, kP7_keep, kP8_keep, kTail_keep]

theorem val_main_v102 (m : (ℓ : Loc nD τ sig) → Buf (Elt F) ℓ) (c : Dev nD) :
    V17 m c (Proc.devRef .tc main_v102)
      = (Host.gather gather_S128x512x7x32_S128x7x5x1_S128x512x7x7x5_12_3_0_0_3_3_151271 (transpose S128x512x7x32 [1, 0, 2, 3] (Host.reduce FloatOps.maximumf (V17 m c (Proc.devRef .tc main_v83) : (⟨S512x128x7x5x32, .f32⟩ : BufTy).Contents (Elt F)) (constant S_ .f32 0xFF800000#32) reducesTo_S512x128x7x5x32_S512x128x7x32_d3 h_S_) transposes_S512x128x7x32_S128x512x7x32_1_0_2_3) (broadcastInDim S128x7x5x1 ![0, 1, 2] bcast_S128x7x5_S128x7x5x1_0_1_2 (select (cmpi .slt (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 0#32))) (addi (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0)))))) (broadcastInDim S128x7x5 ![] bcast_S_S128x7x5 (constantI S_ 32 32#32))) (minsi (broadcastInDim S128x7x5 ![] bcast_S_S128x7x5 (id (constantI S_ 32 31#32))) (maxsi (broadcastInDim S128x7x5 ![] bcast_S_S128x7x5 (id (constantI S_ 32 0#32))) (addi (broadcastInDim S128x7x5 ![0, 1, 2] bcast_S128x7x1_S128x7x5_0_1_2 (broadcastInDim S128x7x1 ![0, 1] bcast_S128x7_S128x7x1_0_1 (V17 m c (Proc.devRef .tc main_v51) : (⟨S128x7, .i32⟩ : BufTy).Contents (Elt F)))) (broadcastInDim S128x7x5 ![0, 1, 2] bcast_S1x1x5_S128x7x5_0_1_2 (broadcastInDim S1x1x5 ![2] bcast_S5_S1x1x5_2 (iotaInDim S5 32 0))))))))) := by
  rw [cut m c]
  simp (disch := decide) only [kP1_keep, kP2_keep, kP3_keep, kP4_keep, kP5_keep, kP6_keep, kP7_keep, kP8_keep, kTail_keep]
  rw [read_main_v102]
  try simp (disch := decide) only [kP1_keep, kP2_keep, kP3_keep, kP4_keep, kP5_keep, kP6_keep, kP7_keep, kP8_keep, kTail_keep]

theorem val_main_v106 (m : (ℓ : Loc nD τ sig) → Buf (Elt F) ℓ) (c : Dev nD) :
    V17 m c (Proc.devRef .tc main_v106)
      = (shapeCast S128x25088 (Host.reduce FloatOps.maximumf (select (broadcastInDim S128x512x7x7x5 ![0, 1, 2, 3, 4] bcast_S128x1x1x7x5_S128x512x7x7x5_0_1_2_3_4 (broadcastInDim S128x1x1x7x5 ![0, 3, 4] bcast_S128x7x5_S128x1x1x7x5_0_3_4 (V17 m c (Proc.devRef .tc main_v94) : (⟨S128x7x5, .i1⟩ : BufTy).Contents (Elt F)))) (V17 m c (Proc.devRef .tc main_v102) : (⟨S128x512x7x7x5, .f32⟩ : BufTy).Contents (Elt F)) (broadcastInDim S128x512x7x7x5 ![] bcast_S_S128x512x7x7x5 (constant S_ .f32 0xFF800000#32))) (constant S_ .f32 0xFF800000#32) reducesTo_S128x512x7x7x5_S128x512x7x7_d4 h_S_) shapeCasts_S128x512x7x7_S128x25088) := by
  rw [cut m c]
  simp (disch := decide) only [kP1_keep, kP2_keep, kP3_keep, kP4_keep, kP5_keep, kP6_keep, kP7_keep, kP8_keep, kTail_keep]
  rw [read_main_v106]
  try simp (disch := decide) only [kP1_keep, kP2_keep, kP3_keep, kP4_keep, kP5_keep, kP6_keep, kP7_keep, kP8_keep, kTail_keep]

/-! ## The two arguments the pooling reads are as launched -/

theorem kept_main_arg0 (m : (ℓ : Loc nD τ sig) → Buf (Elt F) ℓ) (c : Dev nD) :
    V17 m c (Proc.devRef .tc main_arg0) = m ((c.tc : Thread nD τ).loc main_arg0) := by
  rw [cut m c]
  simp (disch := decide) only [kP1_keep, kP2_keep, kP3_keep, kP4_keep, kP5_keep, kP6_keep, kP7_keep, kP8_keep, kTail_keep]

theorem kept_main_arg1 (m : (ℓ : Loc nD τ sig) → Buf (Elt F) ℓ) (c : Dev nD) :
    V17 m c (Proc.devRef .tc main_arg1) = m ((c.tc : Thread nD τ).loc main_arg1) := by
  rw [cut m c]
  simp (disch := decide) only [kP1_keep, kP2_keep, kP3_keep, kP4_keep, kP5_keep, kP6_keep, kP7_keep, kP8_keep, kTail_keep]

end Cert.Bridge.Ker

end
-- ==== Proof.Bridge.Pooled.lean ====
/- The two programs compute the same pooled features. The kernel program's host operations before its first
   kernel region are the reference's pooling operations, in the same order; cut at the same narrow places of the
   dataflow, each named buffer is on either side the same pure term of earlier named buffers (Bridge/RefCut.lean,
   Bridge/KerCut.lean), so from memories that agree on the two arguments the pooling reads the two folds agree at
   every named buffer in turn, and at the pooled features `main_v106` last. -/
import proofs.«110125_j48919677501805_2_alg».proof.Proof.Bridge.RefCut
import proofs.«110125_j48919677501805_2_alg».proof.Proof.Bridge.KerCut
import proofs.«110125_j48919677501805_2_alg».proof.Proof.Ref.Stages

noncomputable section

namespace Cert.Bridge

open Idealize.ShloMosaic Idealize.ShloMosaic.TcCoe Idealize.SL.Sem Idealize.ShloMosaic.StableHlo

variable {F : FTy → Type} [FloatOps F]

-- each step compares two terms of at most eighty operations, the two programs' shape names and dimension records unfolded
set_option maxRecDepth 8192 in
set_option maxHeartbeats 2000000 in
/-- The two programs compute the same pooled features: from memories that agree on the feature map and on the
    boxes, the reference's fold and the kernel program's host stretches hold the same value at `main_v106`. Buffer by
    buffer along the dataflow: each named buffer is, on either side, the same term of earlier named buffers, which
    agree already. -/
theorem pooled_agree
    (m : (ℓ : Loc Cert.KernelIdeal.nD Cert.KernelIdeal.τ Cert.KernelIdeal.sig) → Buf (Elt F) ℓ)
    (m' : (ℓ : Loc Cert.ReferenceIdeal.nD Cert.ReferenceIdeal.τ Cert.ReferenceIdeal.sig) → Buf (Elt F) ℓ) (c : Dev Cert.KernelIdeal.nD)
    (h0 : (m' ((c.tc : Thread Cert.ReferenceIdeal.nD Cert.ReferenceIdeal.τ).loc Cert.ReferenceIdeal.main_arg0) : (⟨Cert.ReferenceIdeal.S1x512x32x32, .f32⟩ : BufTy).Contents (Elt F))
        = m ((c.tc : Thread Cert.KernelIdeal.nD Cert.KernelIdeal.τ).loc Cert.KernelIdeal.main_arg0))
    (h1 : (m' ((c.tc : Thread Cert.ReferenceIdeal.nD Cert.ReferenceIdeal.τ).loc Cert.ReferenceIdeal.main_arg1) : (⟨Cert.ReferenceIdeal.S128x5, .f32⟩ : BufTy).Contents (Elt F))
        = m ((c.tc : Thread Cert.KernelIdeal.nD Cert.KernelIdeal.τ).loc Cert.KernelIdeal.main_arg1)) :
    (after Cert.ReferenceIdeal.RefRun.ops (launchContents m' c) (Proc.devRef .tc Cert.ReferenceIdeal.main_v106) : (⟨Cert.ReferenceIdeal.S128x25088, .f32⟩ : BufTy).Contents (Elt F))
      = Cert.KernelIdeal.Gen.V17 m c (Proc.devRef .tc Cert.KernelIdeal.main_v106) := by
  have e_arg0 : (after Cert.ReferenceIdeal.RefRun.ops (launchContents m' c) (Proc.devRef .tc Cert.ReferenceIdeal.main_arg0) : (⟨Cert.ReferenceIdeal.S1x512x32x32, .f32⟩ : BufTy).Contents (Elt F)) = Cert.KernelIdeal.Gen.V17 m c (Proc.devRef .tc Cert.KernelIdeal.main_arg0) := by
    rw [Cert.ReferenceIdeal.RefRun.kept_main_arg0 m' c, Cert.Bridge.Ker.kept_main_arg0 m c]; exact h0
  have e_arg1 : (after Cert.ReferenceIdeal.RefRun.ops (launchContents m' c) (Proc.devRef .tc Cert.ReferenceIdeal.main_arg1) : (⟨Cert.ReferenceIdeal.S128x5, .f32⟩ : BufTy).Contents (Elt F)) = Cert.KernelIdeal.Gen.V17 m c (Proc.devRef .tc Cert.KernelIdeal.main_arg1) := by
    rw [Cert.ReferenceIdeal.RefRun.kept_main_arg1 m' c, Cert.Bridge.Ker.kept_main_arg1 m c]; exact h1
  have e_v0 : (after Cert.ReferenceIdeal.RefRun.ops (launchContents m' c) (Proc.devRef .tc Cert.ReferenceIdeal.main_v0) : (⟨Cert.ReferenceIdeal.S512x32x32, .f32⟩ : BufTy).Contents (Elt F)) = Cert.KernelIdeal.Gen.V17 m c (Proc.devRef .tc Cert.KernelIdeal.main_v0) := by
    rw [Cert.Bridge.Ref.val_main_v0, Cert.Bridge.Ker.val_main_v0 m c, e_arg0] <;> rfl
  have e_v7 : (after Cert.ReferenceIdeal.RefRun.ops (launchContents m' c) (Proc.devRef .tc Cert.ReferenceIdeal.main_v7) : (⟨Cert.ReferenceIdeal.S128, .i32⟩ : BufTy).Contents (Elt F)) = Cert.KernelIdeal.Gen.V17 m c (Proc.devRef .tc Cert.KernelIdeal.main_v7) := by
    rw [Cert.Bridge.Ref.val_main_v7, Cert.Bridge.Ker.val_main_v7 m c, e_arg1] <;> rfl
  have e_v9 : (after Cert.ReferenceIdeal.RefRun.ops (launchContents m' c) (Proc.devRef .tc Cert.ReferenceIdeal.main_v9) : (⟨Cert.ReferenceIdeal.S128, .i32⟩ : BufTy).Contents (Elt F)) = Cert.KernelIdeal.Gen.V17 m c (Proc.devRef .tc Cert.KernelIdeal.main_v9) := by
    rw [Cert.Bridge.Ref.val_main_v9, Cert.Bridge.Ker.val_main_v9 m c, e_arg1] <;> rfl
  have e_v16 : (after Cert.ReferenceIdeal.RefRun.ops (launchContents m' c) (Proc.devRef .tc Cert.ReferenceIdeal.main_v16) : (⟨Cert.ReferenceIdeal.S128, .i32⟩ : BufTy).Contents (Elt F)) = Cert.KernelIdeal.Gen.V17 m c (Proc.devRef .tc Cert.KernelIdeal.main_v16) := by
    rw [Cert.Bridge.Ref.val_main_v16, Cert.Bridge.Ker.val_main_v16 m c, e_arg1] <;> rfl
  have e_v19 : (after Cert.ReferenceIdeal.RefRun.ops (launchContents m' c) (Proc.devRef .tc Cert.ReferenceIdeal.main_v19) : (⟨Cert.ReferenceIdeal.S128, .i32⟩ : BufTy).Contents (Elt F)) = Cert.KernelIdeal.Gen.V17 m c (Proc.devRef .tc Cert.KernelIdeal.main_v19) := by
    rw [Cert.Bridge.Ref.val_main_v19, Cert.Bridge.Ker.val_main_v19 m c, e_arg1] <;> rfl
  have e_v20 : (after Cert.ReferenceIdeal.RefRun.ops (launchContents m' c) (Proc.devRef .tc Cert.ReferenceIdeal.main_v20) : (⟨Cert.ReferenceIdeal.S7, .i32⟩ : BufTy).Contents (Elt F)) = Cert.KernelIdeal.Gen.V17 m c (Proc.devRef .tc Cert.KernelIdeal.main_v20) := by
    rw [Cert.Bridge.Ref.val_main_v20, Cert.Bridge.Ker.val_main_v20 m c] <;> rfl
  have e_v29 : (after Cert.ReferenceIdeal.RefRun.ops (launchContents m' c) (Proc.devRef .tc Cert.ReferenceIdeal.main_v29) : (⟨Cert.ReferenceIdeal.S128x7, .i32⟩ : BufTy).Contents (Elt F)) = Cert.KernelIdeal.Gen.V17 m c (Proc.devRef .tc Cert.KernelIdeal.main_v29) := by
    rw [Cert.Bridge.Ref.val_main_v29, Cert.Bridge.Ker.val_main_v29 m c, e_v9, e_v16] <;> rfl
  have e_v42 : (after Cert.ReferenceIdeal.RefRun.ops (launchContents m' c) (Proc.devRef .tc Cert.ReferenceIdeal.main_v42) : (⟨Cert.ReferenceIdeal.S128x7, .i32⟩ : BufTy).Contents (Elt F)) = Cert.KernelIdeal.Gen.V17 m c (Proc.devRef .tc Cert.KernelIdeal.main_v42) := by
    rw [Cert.Bridge.Ref.val_main_v42, Cert.Bridge.Ker.val_main_v42 m c, e_v9, e_v20, e_v16] <;> rfl
  have e_v51 : (after Cert.ReferenceIdeal.RefRun.ops (launchContents m' c) (Proc.devRef .tc Cert.ReferenceIdeal.main_v51) : (⟨Cert.ReferenceIdeal.S128x7, .i32⟩ : BufTy).Contents (Elt F)) = Cert.KernelIdeal.Gen.V17 m c (Proc.devRef .tc Cert.KernelIdeal.main_v51) := by
    rw [Cert.Bridge.Ref.val_main_v51, Cert.Bridge.Ker.val_main_v51 m c, e_v7, e_v20, e_v19] <;> rfl
  have e_v64 : (after Cert.ReferenceIdeal.RefRun.ops (launchContents m' c) (Proc.devRef .tc Cert.ReferenceIdeal.main_v64) : (⟨Cert.ReferenceIdeal.S128x7, .i32⟩ : BufTy).Contents (Elt F)) = Cert.KernelIdeal.Gen.V17 m c (Proc.devRef .tc Cert.KernelIdeal.main_v64) := by
    rw [Cert.Bridge.Ref.val_main_v64, Cert.Bridge.Ker.val_main_v64 m c, e_v7, e_v20, e_v19] <;> rfl
  have e_v83 : (after Cert.ReferenceIdeal.RefRun.ops (launchContents m' c) (Proc.devRef .tc Cert.ReferenceIdeal.main_v83) : (⟨Cert.ReferenceIdeal.S512x128x7x5x32, .f32⟩ : BufTy).Contents (Elt F)) = Cert.KernelIdeal.Gen.V17 m c (Proc.devRef .tc Cert.KernelIdeal.main_v83) := by
    rw [Cert.Bridge.Ref.val_main_v83, Cert.Bridge.Ker.val_main_v83 m c, e_v29, e_v42, e_v0] <;> rfl
  have e_v94 : (after Cert.ReferenceIdeal.RefRun.ops (launchContents m' c) (Proc.devRef .tc Cert.ReferenceIdeal.main_v94) : (⟨Cert.ReferenceIdeal.S128x7x5, .i1⟩ : BufTy).Contents (Elt F)) = Cert.KernelIdeal.Gen.V17 m c (Proc.devRef .tc Cert.KernelIdeal.main_v94) := by
    rw [Cert.Bridge.Ref.val_main_v94, Cert.Bridge.Ker.val_main_v94 m c, e_v51, e_v64] <;> rfl
  have e_v102 : (after Cert.ReferenceIdeal.RefRun.ops (launchContents m' c) (Proc.devRef .tc Cert.ReferenceIdeal.main_v102) : (⟨Cert.ReferenceIdeal.S128x512x7x7x5, .f32⟩ : BufTy).Contents (Elt F)) = Cert.KernelIdeal.Gen.V17 m c (Proc.devRef .tc Cert.KernelIdeal.main_v102) := by
    rw [Cert.Bridge.Ref.val_main_v102, Cert.Bridge.Ker.val_main_v102 m c, e_v83, e_v51] <;> rfl
  have e_v106 : (after Cert.ReferenceIdeal.RefRun.ops (launchContents m' c) (Proc.devRef .tc Cert.ReferenceIdeal.main_v106) : (⟨Cert.ReferenceIdeal.S128x25088, .f32⟩ : BufTy).Contents (Elt F)) = Cert.KernelIdeal.Gen.V17 m c (Proc.devRef .tc Cert.KernelIdeal.main_v106) := by
    rw [Cert.Bridge.Ref.val_main_v106, Cert.Bridge.Ker.val_main_v106 m c, e_v94, e_v102] <;> rfl
  exact e_v106

end Cert.Bridge

end
-- ==== Proof.lean ====
/-
  The certificate's five claims.

  The three programs run to the end, fault nowhere and leave their arguments as launched: the kernel
  program (at the word level and at the ideal values alike) as the chain of its host stretches and its three
  tiled matrix products, each product a pipeline whose accumulator is carried from grid point to grid point;
  the reference as a straight line of host operations. The idealization rewrote nothing. And at the ideal
  values the two programs return the same array: the products accumulated tile by tile are the whole
  products, the casts are identities, the fused and padded heads are the two heads side by side, and the
  pooling prefix and the softmax tail are the same operations in both programs.
-/
import proofs.«110125_j48919677501805_2_alg».proof.Defs
import proofs.«110125_j48919677501805_2_alg».proof.Proof.Gen.Pre_finite_inputs
import proofs.«110125_j48919677501805_2_alg».proof.Proof.Kernel.Frame
import proofs.«110125_j48919677501805_2_alg».proof.Proof.KernelIdeal.Frame
import proofs.«110125_j48919677501805_2_alg».proof.Proof.Ref.Run
import proofs.«110125_j48919677501805_2_alg».proof.Proof.Bridge.Final
import proofs.«110125_j48919677501805_2_alg».proof.Proof.Bridge.Pooled

set_option maxRecDepth 16384

noncomputable section

namespace Cert.Proof

open Idealize.ShloMosaic Idealize.ShloMosaic.TcCoe Idealize.ShloMosaic.ValueIdx Idealize.SL.Sem

/-- At the ideal values, from memories that agree on the arguments, both programs end with the same result. -/
theorem algebraic [hPre : Cert.Pre_finite_inputs.Facts] :
    Cert.algebraic_KernelIdeal_ReferenceIdeal (hKernelIdeal := Cert.KernelIdeal.Gen.facts) (hReferenceIdeal := Cert.ReferenceIdeal.Gen.facts) (hPre_finite_inputs := hPre) := by
  intro m ρ m' ρ' _ hagree
  refine ⟨fun c => Cert.KernelIdeal.Gen.V27 m (Cert.KernelIdeal.Run.outs m) c Cert.KernelIdeal.main_v134, ?_, ?_⟩
  · exact (θ_run Cert.KernelIdeal.defs _ _).mono (fun r h c =>
      ⟨h c (Proc.devRef .tc Cert.KernelIdeal.main_v134) (Finset.mem_filter.mpr ⟨StableHlo.devRef_mem_tcRefs Cert.KernelIdeal.main_v134, by decide⟩),
        (h c (Proc.devRef .tc Cert.KernelIdeal.main_arg0) (Finset.mem_filter.mpr ⟨StableHlo.devRef_mem_tcRefs Cert.KernelIdeal.main_arg0, by decide⟩)).trans (Cert.KernelIdeal.Gen.V27_main_arg0 m (Cert.KernelIdeal.Run.outs m) c),
        (h c (Proc.devRef .tc Cert.KernelIdeal.main_arg1) (Finset.mem_filter.mpr ⟨StableHlo.devRef_mem_tcRefs Cert.KernelIdeal.main_arg1, by decide⟩)).trans (Cert.KernelIdeal.Gen.V27_main_arg1 m (Cert.KernelIdeal.Run.outs m) c),
        (h c (Proc.devRef .tc Cert.KernelIdeal.main_arg2) (Finset.mem_filter.mpr ⟨StableHlo.devRef_mem_tcRefs Cert.KernelIdeal.main_arg2, by decide⟩)).trans (Cert.KernelIdeal.Gen.V27_main_arg2 m (Cert.KernelIdeal.Run.outs m) c),
        (h c (Proc.devRef .tc Cert.KernelIdeal.main_arg3) (Finset.mem_filter.mpr ⟨StableHlo.devRef_mem_tcRefs Cert.KernelIdeal.main_arg3, by decide⟩)).trans (Cert.KernelIdeal.Gen.V27_main_arg3 m (Cert.KernelIdeal.Run.outs m) c),
        (h c (Proc.devRef .tc Cert.KernelIdeal.main_arg4) (Finset.mem_filter.mpr ⟨StableHlo.devRef_mem_tcRefs Cert.KernelIdeal.main_arg4, by decide⟩)).trans (Cert.KernelIdeal.Gen.V27_main_arg4 m (Cert.KernelIdeal.Run.outs m) c),
        (h c (Proc.devRef .tc Cert.KernelIdeal.main_arg5) (Finset.mem_filter.mpr ⟨StableHlo.devRef_mem_tcRefs Cert.KernelIdeal.main_arg5, by decide⟩)).trans (Cert.KernelIdeal.Gen.V27_main_arg5 m (Cert.KernelIdeal.Run.outs m) c),
        (h c (Proc.devRef .tc Cert.KernelIdeal.main_arg6) (Finset.mem_filter.mpr ⟨StableHlo.devRef_mem_tcRefs Cert.KernelIdeal.main_arg6, by decide⟩)).trans (Cert.KernelIdeal.Gen.V27_main_arg6 m (Cert.KernelIdeal.Run.outs m) c),
        (h c (Proc.devRef .tc Cert.KernelIdeal.main_arg7) (Finset.mem_filter.mpr ⟨StableHlo.devRef_mem_tcRefs Cert.KernelIdeal.main_arg7, by decide⟩)).trans (Cert.KernelIdeal.Gen.V27_main_arg7 m (Cert.KernelIdeal.Run.outs m) c),
        (h c (Proc.devRef .tc Cert.KernelIdeal.main_arg8) (Finset.mem_filter.mpr ⟨StableHlo.devRef_mem_tcRefs Cert.KernelIdeal.main_arg8, by decide⟩)).trans (Cert.KernelIdeal.Gen.V27_main_arg8 m (Cert.KernelIdeal.Run.outs m) c),
        (h c (Proc.devRef .tc Cert.KernelIdeal.main_arg9) (Finset.mem_filter.mpr ⟨StableHlo.devRef_mem_tcRefs Cert.KernelIdeal.main_arg9, by decide⟩)).trans (Cert.KernelIdeal.Gen.V27_main_arg9 m (Cert.KernelIdeal.Run.outs m) c)⟩) (Cert.KernelIdeal.Run.run (F := Ideal) m ρ)
  · refine (θ_run Cert.ReferenceIdeal.defs _ _).mono (fun r h c => ?_) (Cert.ReferenceIdeal.RefRun.run_raw (F := Ideal) m' ρ')
    obtain ⟨a0, a1, a2, a3, a4, a5, a6, a7, a8, a9⟩ := hagree c
    have hpool := Cert.Bridge.pooled_agree (F := Ideal) m m' c a0 a1
    exact ⟨(h c Cert.ReferenceIdeal.main_v136).trans (Cert.Bridge.result_eq (m := m) (c := c)
          (e1 := Cert.ReferenceIdeal.RefRun.stage_fc6R m' c) (e2 := Cert.ReferenceIdeal.RefRun.stage_fc7R m' c) (e3 := Cert.ReferenceIdeal.RefRun.stage_logitsR m' c) (e4 := Cert.ReferenceIdeal.RefRun.stage_bboxR m' c)
          (eo := Cert.ReferenceIdeal.RefRun.stage_out m' c) (hpool := fun p κ => congrFun hpool (ix2 p κ))
          (a2 := a2) (a3 := a3) (a4 := a4) (a5 := a5) (a6 := a6) (a7 := a7) (a8 := a8) (a9 := a9)),
        (h c Cert.ReferenceIdeal.main_arg0).trans (Cert.ReferenceIdeal.RefRun.kept_main_arg0 m' c),
        (h c Cert.ReferenceIdeal.main_arg1).trans (Cert.ReferenceIdeal.RefRun.kept_main_arg1 m' c),
        (h c Cert.ReferenceIdeal.main_arg2).trans (Cert.ReferenceIdeal.RefRun.kept_main_arg2 m' c),
        (h c Cert.ReferenceIdeal.main_arg3).trans (Cert.ReferenceIdeal.RefRun.kept_main_arg3 m' c),
        (h c Cert.ReferenceIdeal.main_arg4).trans (Cert.ReferenceIdeal.RefRun.kept_main_arg4 m' c),
        (h c Cert.ReferenceIdeal.main_arg5).trans (Cert.ReferenceIdeal.RefRun.kept_main_arg5 m' c),
        (h c Cert.ReferenceIdeal.main_arg6).trans (Cert.ReferenceIdeal.RefRun.kept_main_arg6 m' c),
        (h c Cert.ReferenceIdeal.main_arg7).trans (Cert.ReferenceIdeal.RefRun.kept_main_arg7 m' c),
        (h c Cert.ReferenceIdeal.main_arg8).trans (Cert.ReferenceIdeal.RefRun.kept_main_arg8 m' c),
        (h c Cert.ReferenceIdeal.main_arg9).trans (Cert.ReferenceIdeal.RefRun.kept_main_arg9 m' c)⟩

theorem claim : Cert.Claim := ⟨Cert.Kernel.Gen.facts, Cert.KernelIdeal.Gen.facts, Cert.ReferenceIdeal.Gen.facts, Cert.Pre_finite_inputs.Gen.facts,
  fun m ρ _ => Cert.Kernel.Run.frame (F := Bits) m ρ,
  fun m ρ _ => Cert.KernelIdeal.Run.frame (F := Ideal) m ρ,
  fun m ρ _ => Cert.ReferenceIdeal.RefRun.frame (F := Ideal) m ρ,
  trivial,
  algebraic⟩

end Cert.Proof

end
